-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048x2048 : Shape := ⟨2, ![2048, 2048]⟩
abbrev S2048x32 : Shape := ⟨2, ![2048, 32]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048x32 32) (main_v13 : IVec S_ 1) (main_v15 : IVec S2048x32 1) (main_c_5 : IVec S_ 32) : IVec S_ 1 :=
  let main_v16 : IVec S2048x32 32 := broadcastInDim S2048x32 ![] bcast_S_S2048x32 main_c_5
  let main_v17 : IVec S2048x32 1 := cmpi .sle main_arg1 main_v16
  let main_v18 : IVec S2048x32 1 := andi main_v15 main_v17
  let main_c_6 : IVec S_ 1 := constantI S_ 1 1#1
  let main_v19 : IVec S_ 1 := (fun x v => Host.reduce IntOp.andi x v reducesTo_S2048x32_S_d0_1 h_S_) main_v18 main_c_6
  let main_v20 : IVec S_ 1 := andi main_v13 main_v19
  main_v20

def fn {F : FTy → Type} [FloatOps F] (main_arg0 : FVec F S2048x2048 .f32) (main_arg1 : IVec S2048x32 32) (main_arg2 : FVec F S2048x32 .f32) (main_arg3 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x32 .f32 := Host.absf main_arg2
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S2048x32 32 := broadcastInDim S2048x32 ![] bcast_S_S2048x32 main_c_4
  let main_v15 : IVec S2048x32 1 := cmpi .sge main_arg1 main_v14
  let main_c_5 : IVec S_ 32 := constantI S_ 32 2047#32
  fn_part1 (F := F) main_arg1 main_v13 main_v15 main_c_5
-- ==== Kernel.lean ====
abbrev S2048x2048 : Shape := ⟨2, ![2048, 2048]⟩
abbrev S2048x32 : Shape := ⟨2, ![2048, 32]⟩
abbrev S2048 : Shape := ⟨1, ![2048]⟩
abbrev S1024x2048 : Shape := ⟨2, ![1024, 2048]⟩
abbrev S16x2048 : Shape := ⟨2, ![16, 2048]⟩
abbrev S32x32 : Shape := ⟨2, ![32, 32]⟩
abbrev S_ : Shape := ⟨0, ![]⟩
abbrev S16 : Shape := ⟨1, ![16]⟩
abbrev S1x16 : Shape := ⟨2, ![1, 16]⟩
abbrev S1x2048 : Shape := ⟨2, ![1, 2048]⟩
abbrev S1x1024 : Shape := ⟨2, ![1, 1024]⟩
abbrev S256x2048 : Shape := ⟨2, ![256, 2048]⟩
abbrev S256x1024 : Shape := ⟨2, ![256, 1024]⟩

abbrev nBuf : Table → Nat
  | .hbm => 11
  | .local .tc .vmem => 12
  | .local .scVector .vmem => 8
  | _ => 0

abbrev bufTy : (tb : Table) → Fin (nBuf tb) → BufTy
  | .hbm, ⟨0, _⟩ => ⟨S2048x2048, .f32⟩
  | .hbm, ⟨1, _⟩ => ⟨S2048x32, .i32⟩
  | .hbm, ⟨2, _⟩ => ⟨S2048x32, .f32⟩
  | .hbm, ⟨3, _⟩ => ⟨S2048, .f32⟩
  | .hbm, ⟨4, _⟩ => ⟨S1024x2048, .f32⟩
  | .hbm, ⟨5, _⟩ => ⟨S1024x2048, .f32⟩
  | .hbm, ⟨6, _⟩ => ⟨S1x2048, .f32⟩
  | .hbm, ⟨7, _⟩ => ⟨S1x1024, .f32⟩
  | .hbm, ⟨8, _⟩ => ⟨S2048x2048, .f32⟩
  | .hbm, ⟨9, _⟩ => ⟨S1x1024, .f32⟩
  | .hbm, ⟨10, _⟩ => ⟨S2048x2048, .f32⟩
  | .local .tc .vmem, ⟨0, _⟩ => ⟨S256x2048, .f32⟩
  | .local .tc .vmem, ⟨1, _⟩ => ⟨S256x2048, .f32⟩
  | .local .tc .vmem, ⟨2, _⟩ => ⟨S1024x2048, .f32⟩
  | .local .tc .vmem, ⟨3, _⟩ => ⟨S1x1024, .f32⟩
  | .local .tc .vmem, ⟨4, _⟩ => ⟨S256x1024, .f32⟩
  | .local .tc .vmem, ⟨5, _⟩ => ⟨S256x1024, .f32⟩
  | .local .tc .vmem, ⟨6, _⟩ => ⟨S256x2048, .f32⟩
  | .local .tc .vmem, ⟨7, _⟩ => ⟨S256x2048, .f32⟩
  | .local .tc .vmem, ⟨8, _⟩ => ⟨S1024x2048, .f32⟩
  | .local .tc .vmem, ⟨9, _⟩ => ⟨S1x1024, .f32⟩
  | .local .tc .vmem, ⟨10, _⟩ => ⟨S256x1024, .f32⟩
  | .local .tc .vmem, ⟨11, _⟩ => ⟨S256x1024, .f32⟩
  | .local .scVector .vmem, ⟨0, _⟩ => ⟨S16x2048, .f32⟩
  | .local .scVector .vmem, ⟨1, _⟩ => ⟨S16x2048, .f32⟩
  | .local .scVector .vmem, ⟨2, _⟩ => ⟨S32x32, .i32⟩
  | .local .scVector .vmem, ⟨3, _⟩ => ⟨S32x32, .f32⟩
  | .local .scVector .vmem, ⟨4, _⟩ => ⟨S16x2048, .f32⟩
  | .local .scVector .vmem, ⟨5, _⟩ => ⟨S16x2048, .f32⟩
  | .local .scVector .vmem, ⟨6, _⟩ => ⟨S32x32, .i32⟩
  | .local .scVector .vmem, ⟨7, _⟩ => ⟨S32x32, .f32⟩
  | _, _ => ⟨S2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev main_v1_scv : Ref sig .scVector := ⟨.hbm, 5, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg3_1 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg2_0 : Ref sig .tc := ⟨.vmem, 9, rfl⟩
abbrev cc3_stg3_0 : Ref sig .tc := ⟨.vmem, 10, rfl⟩
abbrev cc3_stg3_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let v4 : BitVec 32 := Scalar.addi c0_i32 v3
  let c0_i32_427_r0 : BitVec 32 := 0#32
  ![v4.toNat, 0]
@[reducible] def k0_t1_loop : Scf.Loop 32 :=
  let c0_i32_2 : BitVec 32 := 0#32
  let c16_i32 : BitVec 32 := 16#32
  let v6 : BitVec 32 := Scalar.addi c0_i32_2 c16_i32
  let c1_i32 : BitVec 32 := 1#32
  ⟨c0_i32_2, v6, c1_i32⟩
def k0_off2 (k0_t1 : Fin k0_t1_loop.trips) (c0_i32_429 : BitVec 32) : Fin 2 → Nat :=
  let c0_i32_430 : BitVec 32 := 0#32
  let v339 : Index := Scalar.indexCast c0_i32_430
  let c0_i32_2 : BitVec 32 := 0#32
  let c1_i32 : BitVec 32 := 1#32
  let arg11 : BitVec 32 := Scf.iv c0_i32_2 c1_i32 k0_t1
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![0, v340.toNat]
@[reducible] def k0_t2_loop : Scf.Loop 32 :=
  let c0_i32_5 : BitVec 32 := 0#32
  let c16_i32_6 : BitVec 32 := 16#32
  let v7 : BitVec 32 := Scalar.addi c0_i32_5 c16_i32_6
  let c1_i32_7 : BitVec 32 := 1#32
  ⟨c0_i32_5, v7, c1_i32_7⟩
def k0_off3 (k0_t2 : Fin k0_t2_loop.trips) (c0_i32_429 : BitVec 32) : Fin 2 → Nat :=
  let c1_i32_430 : BitVec 32 := 1#32
  let v339 : Index := Scalar.indexCast c1_i32_430
  let c0_i32_5 : BitVec 32 := 0#32
  let c1_i32_7 : BitVec 32 := 1#32
  let arg11 : BitVec 32 := Scf.iv c0_i32_5 c1_i32_7 k0_t2
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![1, v340.toNat]
@[reducible] def k0_t3_loop : Scf.Loop 32 :=
  let c0_i32_10 : BitVec 32 := 0#32
  let c16_i32_11 : BitVec 32 := 16#32
  let v8 : BitVec 32 := Scalar.addi c0_i32_10 c16_i32_11
  let c1_i32_12 : BitVec 32 := 1#32
  ⟨c0_i32_10, v8, c1_i32_12⟩
def k0_off4 (k0_t3 : Fin k0_t3_loop.trips) (c0_i32_429 : BitVec 32) : Fin 2 → Nat :=
  let c2_i32_430 : BitVec 32 := 2#32
  let v339 : Index := Scalar.indexCast c2_i32_430
  let c0_i32_10 : BitVec 32 := 0#32
  let c1_i32_12 : BitVec 32 := 1#32
  let arg11 : BitVec 32 := Scf.iv c0_i32_10 c1_i32_12 k0_t3
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![2, v340.toNat]
@[reducible] def k0_t4_loop : Scf.Loop 32 :=
  let c0_i32_15 : BitVec 32 := 0#32
  let c16_i32_16 : BitVec 32 := 16#32
  let v9 : BitVec 32 := Scalar.addi c0_i32_15 c16_i32_16
  let c1_i32_17 : BitVec 32 := 1#32
  ⟨c0_i32_15, v9, c1_i32_17⟩
def k0_off5 (k0_t4 : Fin k0_t4_loop.trips) (c0_i32_429 : BitVec 32) : Fin 2 → Nat :=
  let c3_i32_430 : BitVec 32 := 3#32
  let v339 : Index := Scalar.indexCast c3_i32_430
  let c0_i32_15 : BitVec 32 := 0#32
  let c1_i32_17 : BitVec 32 := 1#32
  let arg11 : BitVec 32 := Scf.iv c0_i32_15 c1_i32_17 k0_t4
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![3, v340.toNat]
@[reducible] def k0_t5_loop : Scf.Loop 32 :=
  let c0_i32_20 : BitVec 32 := 0#32
  let c16_i32_21 : BitVec 32 := 16#32
  let v10 : BitVec 32 := Scalar.addi c0_i32_20 c16_i32_21
  let c1_i32_22 : BitVec 32 := 1#32
  ⟨c0_i32_20, v10, c1_i32_22⟩
def k0_off6 (k0_t5 : Fin k0_t5_loop.trips) (c0_i32_429 : BitVec 32) : Fin 2 → Nat :=
  let c4_i32_430 : BitVec 32 := 4#32
  let v339 : Index := Scalar.indexCast c4_i32_430
  let c0_i32_20 : BitVec 32 := 0#32
  let c1_i32_22 : BitVec 32 := 1#32
  let arg11 : BitVec 32 := Scf.iv c0_i32_20 c1_i32_22 k0_t5
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![4, v340.toNat]
@[reducible] def k0_t6_loop : Scf.Loop 32 :=
  let c0_i32_25 : BitVec 32 := 0#32
  let c16_i32_26 : BitVec 32 := 16#32
  let v11 : BitVec 32 := Scalar.addi c0_i32_25 c16_i32_26
  let c1_i32_27 : BitVec 32 := 1#32
  ⟨c0_i32_25, v11, c1_i32_27⟩
def k0_off7 (k0_t6 : Fin k0_t6_loop.trips) (c0_i32_429 : BitVec 32) : Fin 2 → Nat :=
  let c5_i32_430 : BitVec 32 := 5#32
  let v339 : Index := Scalar.indexCast c5_i32_430
  let c0_i32_25 : BitVec 32 := 0#32
  let c1_i32_27 : BitVec 32 := 1#32
  let arg11 : BitVec 32 := Scf.iv c0_i32_25 c1_i32_27 k0_t6
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![5, v340.toNat]
@[reducible] def k0_t7_loop : Scf.Loop 32 :=
  let c0_i32_30 : BitVec 32 := 0#32
  let c16_i32_31 : BitVec 32 := 16#32
  let v12 : BitVec 32 := Scalar.addi c0_i32_30 c16_i32_31
  let c1_i32_32 : BitVec 32 := 1#32
  ⟨c0_i32_30, v12, c1_i32_32⟩
def k0_off8 (k0_t7 : Fin k0_t7_loop.trips) (c0_i32_429 : BitVec 32) : Fin 2 → Nat :=
  let c6_i32_430 : BitVec 32 := 6#32
  let v339 : Index := Scalar.indexCast c6_i32_430
  let c0_i32_30 : BitVec 32 := 0#32
  let c1_i32_32 : BitVec 32 := 1#32
  let arg11 : BitVec 32 := Scf.iv c0_i32_30 c1_i32_32 k0_t7
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![6, v340.toNat]
@[reducible] def k0_t8_loop : Scf.Loop 32 :=
  let c0_i32_35 : BitVec 32 := 0#32
  let c16_i32_36 : BitVec 32 := 16#32
  let v13 : BitVec 32 := Scalar.addi c0_i32_35 c16_i32_36
  let c1_i32_37 : BitVec 32 := 1#32
  ⟨c0_i32_35, v13, c1_i32_37⟩
def k0_off9 (k0_t8 : Fin k0_t8_loop.trips) (c0_i32_429 : BitVec 32) : Fin 2 → Nat :=
  let c7_i32_430 : BitVec 32 := 7#32
  let v339 : Index := Scalar.indexCast c7_i32_430
  let c0_i32_35 : BitVec 32 := 0#32
  let c1_i32_37 : BitVec 32 := 1#32
  let arg11 : BitVec 32 := Scf.iv c0_i32_35 c1_i32_37 k0_t8
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![7, v340.toNat]
@[reducible] def k0_t9_loop : Scf.Loop 32 :=
  let c0_i32_40 : BitVec 32 := 0#32
  let c16_i32_41 : BitVec 32 := 16#32
  let v14 : BitVec 32 := Scalar.addi c0_i32_40 c16_i32_41
  let c1_i32_42 : BitVec 32 := 1#32
  ⟨c0_i32_40, v14, c1_i32_42⟩
def k0_off10 (k0_t9 : Fin k0_t9_loop.trips) (c0_i32_429 : BitVec 32) : Fin 2 → Nat :=
  let c8_i32_430 : BitVec 32 := 8#32
  let v339 : Index := Scalar.indexCast c8_i32_430
  let c0_i32_40 : BitVec 32 := 0#32
  let c1_i32_42 : BitVec 32 := 1#32
  let arg11 : BitVec 32 := Scf.iv c0_i32_40 c1_i32_42 k0_t9
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![8, v340.toNat]
@[reducible] def k0_t10_loop : Scf.Loop 32 :=
  let c0_i32_45 : BitVec 32 := 0#32
  let c16_i32_46 : BitVec 32 := 16#32
  let v15 : BitVec 32 := Scalar.addi c0_i32_45 c16_i32_46
  let c1_i32_47 : BitVec 32 := 1#32
  ⟨c0_i32_45, v15, c1_i32_47⟩
def k0_off11 (k0_t10 : Fin k0_t10_loop.trips) (c0_i32_429 : BitVec 32) : Fin 2 → Nat :=
  let c9_i32_430 : BitVec 32 := 9#32
  let v339 : Index := Scalar.indexCast c9_i32_430
  let c0_i32_45 : BitVec 32 := 0#32
  let c1_i32_47 : BitVec 32 := 1#32
  let arg11 : BitVec 32 := Scf.iv c0_i32_45 c1_i32_47 k0_t10
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![9, v340.toNat]
@[reducible] def k0_t11_loop : Scf.Loop 32 :=
  let c0_i32_50 : BitVec 32 := 0#32
  let c16_i32_51 : BitVec 32 := 16#32
  let v16 : BitVec 32 := Scalar.addi c0_i32_50 c16_i32_51
  let c1_i32_52 : BitVec 32 := 1#32
  ⟨c0_i32_50, v16, c1_i32_52⟩
def k0_off12 (k0_t11 : Fin k0_t11_loop.trips) (c0_i32_429 : BitVec 32) : Fin 2 → Nat :=
  let c10_i32_430 : BitVec 32 := 10#32
  let v339 : Index := Scalar.indexCast c10_i32_430
  let c0_i32_50 : BitVec 32 := 0#32
  let c1_i32_52 : BitVec 32 := 1#32
  let arg11 : BitVec 32 := Scf.iv c0_i32_50 c1_i32_52 k0_t11
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![10, v340.toNat]
@[reducible] def k0_t12_loop : Scf.Loop 32 :=
  let c0_i32_55 : BitVec 32 := 0#32
  let c16_i32_56 : BitVec 32 := 16#32
  let v17 : BitVec 32 := Scalar.addi c0_i32_55 c16_i32_56
  let c1_i32_57 : BitVec 32 := 1#32
  ⟨c0_i32_55, v17, c1_i32_57⟩
def k0_off13 (k0_t12 : Fin k0_t12_loop.trips) (c0_i32_429 : BitVec 32) : Fin 2 → Nat :=
  let c11_i32_430 : BitVec 32 := 11#32
  let v339 : Index := Scalar.indexCast c11_i32_430
  let c0_i32_55 : BitVec 32 := 0#32
  let c1_i32_57 : BitVec 32 := 1#32
  let arg11 : BitVec 32 := Scf.iv c0_i32_55 c1_i32_57 k0_t12
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![11, v340.toNat]
@[reducible] def k0_t13_loop : Scf.Loop 32 :=
  let c0_i32_60 : BitVec 32 := 0#32
  let c16_i32_61 : BitVec 32 := 16#32
  let v18 : BitVec 32 := Scalar.addi c0_i32_60 c16_i32_61
  let c1_i32_62 : BitVec 32 := 1#32
  ⟨c0_i32_60, v18, c1_i32_62⟩
def k0_off14 (k0_t13 : Fin k0_t13_loop.trips) (c0_i32_429 : BitVec 32) : Fin 2 → Nat :=
  let c12_i32_430 : BitVec 32 := 12#32
  let v339 : Index := Scalar.indexCast c12_i32_430
  let c0_i32_60 : BitVec 32 := 0#32
  let c1_i32_62 : BitVec 32 := 1#32
  let arg11 : BitVec 32 := Scf.iv c0_i32_60 c1_i32_62 k0_t13
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![12, v340.toNat]
@[reducible] def k0_t14_loop : Scf.Loop 32 :=
  let c0_i32_65 : BitVec 32 := 0#32
  let c16_i32_66 : BitVec 32 := 16#32
  let v19 : BitVec 32 := Scalar.addi c0_i32_65 c16_i32_66
  let c1_i32_67 : BitVec 32 := 1#32
  ⟨c0_i32_65, v19, c1_i32_67⟩
def k0_off15 (k0_t14 : Fin k0_t14_loop.trips) (c0_i32_429 : BitVec 32) : Fin 2 → Nat :=
  let c13_i32_430 : BitVec 32 := 13#32
  let v339 : Index := Scalar.indexCast c13_i32_430
  let c0_i32_65 : BitVec 32 := 0#32
  let c1_i32_67 : BitVec 32 := 1#32
  let arg11 : BitVec 32 := Scf.iv c0_i32_65 c1_i32_67 k0_t14
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![13, v340.toNat]
@[reducible] def k0_t15_loop : Scf.Loop 32 :=
  let c0_i32_70 : BitVec 32 := 0#32
  let c16_i32_71 : BitVec 32 := 16#32
  let v20 : BitVec 32 := Scalar.addi c0_i32_70 c16_i32_71
  let c1_i32_72 : BitVec 32 := 1#32
  ⟨c0_i32_70, v20, c1_i32_72⟩
def k0_off16 (k0_t15 : Fin k0_t15_loop.trips) (c0_i32_429 : BitVec 32) : Fin 2 → Nat :=
  let c14_i32_430 : BitVec 32 := 14#32
  let v339 : Index := Scalar.indexCast c14_i32_430
  let c0_i32_70 : BitVec 32 := 0#32
  let c1_i32_72 : BitVec 32 := 1#32
  let arg11 : BitVec 32 := Scf.iv c0_i32_70 c1_i32_72 k0_t15
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![14, v340.toNat]
@[reducible] def k0_t16_loop : Scf.Loop 32 :=
  let c0_i32_75 : BitVec 32 := 0#32
  let c16_i32_76 : BitVec 32 := 16#32
  let v21 : BitVec 32 := Scalar.addi c0_i32_75 c16_i32_76
  let c1_i32_77 : BitVec 32 := 1#32
  ⟨c0_i32_75, v21, c1_i32_77⟩
def k0_off17 (k0_t16 : Fin k0_t16_loop.trips) (c0_i32_429 : BitVec 32) : Fin 2 → Nat :=
  let c15_i32_430 : BitVec 32 := 15#32
  let v339 : Index := Scalar.indexCast c15_i32_430
  let c0_i32_75 : BitVec 32 := 0#32
  let c1_i32_77 : BitVec 32 := 1#32
  let arg11 : BitVec 32 := Scf.iv c0_i32_75 c1_i32_77 k0_t16
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![15, v340.toNat]
@[reducible] def k0_t17_loop : Scf.Loop 32 :=
  let c0_i32_80 : BitVec 32 := 0#32
  let c16_i32_81 : BitVec 32 := 16#32
  let v22 : BitVec 32 := Scalar.addi c0_i32_80 c16_i32_81
  let c1_i32_82 : BitVec 32 := 1#32
  ⟨c0_i32_80, v22, c1_i32_82⟩
def k0_off18 (k0_t17 : Fin k0_t17_loop.trips) (c0_i32_429 : BitVec 32) : Fin 2 → Nat :=
  let c0_i32_430 : BitVec 32 := 0#32
  let v339 : Index := Scalar.indexCast c0_i32_430
  let c0_i32_80 : BitVec 32 := 0#32
  let c1_i32_82 : BitVec 32 := 1#32
  let arg11 : BitVec 32 := Scf.iv c0_i32_80 c1_i32_82 k0_t17
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![0, v340.toNat]
@[reducible] def k0_t18_loop : Scf.Loop 32 :=
  let c0_i32_85 : BitVec 32 := 0#32
  let c16_i32_86 : BitVec 32 := 16#32
  let v23 : BitVec 32 := Scalar.addi c0_i32_85 c16_i32_86
  let c1_i32_87 : BitVec 32 := 1#32
  ⟨c0_i32_85, v23, c1_i32_87⟩
def k0_off19 (k0_t18 : Fin k0_t18_loop.trips) (c0_i32_429 : BitVec 32) : Fin 2 → Nat :=
  let c1_i32_430 : BitVec 32 := 1#32
  let v339 : Index := Scalar.indexCast c1_i32_430
  let c0_i32_85 : BitVec 32 := 0#32
  let c1_i32_87 : BitVec 32 := 1#32
  let arg11 : BitVec 32 := Scf.iv c0_i32_85 c1_i32_87 k0_t18
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![1, v340.toNat]
@[reducible] def k0_t19_loop : Scf.Loop 32 :=
  let c0_i32_90 : BitVec 32 := 0#32
  let c16_i32_91 : BitVec 32 := 16#32
  let v24 : BitVec 32 := Scalar.addi c0_i32_90 c16_i32_91
  let c1_i32_92 : BitVec 32 := 1#32
  ⟨c0_i32_90, v24, c1_i32_92⟩
def k0_off20 (k0_t19 : Fin k0_t19_loop.trips) (c0_i32_429 : BitVec 32) : Fin 2 → Nat :=
  let c2_i32_430 : BitVec 32 := 2#32
  let v339 : Index := Scalar.indexCast c2_i32_430
  let c0_i32_90 : BitVec 32 := 0#32
  let c1_i32_92 : BitVec 32 := 1#32
  let arg11 : BitVec 32 := Scf.iv c0_i32_90 c1_i32_92 k0_t19
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![2, v340.toNat]
@[reducible] def k0_t20_loop : Scf.Loop 32 :=
  let c0_i32_95 : BitVec 32 := 0#32
  let c16_i32_96 : BitVec 32 := 16#32
  let v25 : BitVec 32 := Scalar.addi c0_i32_95 c16_i32_96
  let c1_i32_97 : BitVec 32 := 1#32
  ⟨c0_i32_95, v25, c1_i32_97⟩
def k0_off21 (k0_t20 : Fin k0_t20_loop.trips) (c0_i32_429 : BitVec 32) : Fin 2 → Nat :=
  let c3_i32_430 : BitVec 32 := 3#32
  let v339 : Index := Scalar.indexCast c3_i32_430
  let c0_i32_95 : BitVec 32 := 0#32
  let c1_i32_97 : BitVec 32 := 1#32
  let arg11 : BitVec 32 := Scf.iv c0_i32_95 c1_i32_97 k0_t20
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![3, v340.toNat]
@[reducible] def k0_t21_loop : Scf.Loop 32 :=
  let c0_i32_100 : BitVec 32 := 0#32
  let c16_i32_101 : BitVec 32 := 16#32
  let v26 : BitVec 32 := Scalar.addi c0_i32_100 c16_i32_101
  let c1_i32_102 : BitVec 32 := 1#32
  ⟨c0_i32_100, v26, c1_i32_102⟩
def k0_off22 (k0_t21 : Fin k0_t21_loop.trips) (c0_i32_429 : BitVec 32) : Fin 2 → Nat :=
  let c4_i32_430 : BitVec 32 := 4#32
  let v339 : Index := Scalar.indexCast c4_i32_430
  let c0_i32_100 : BitVec 32 := 0#32
  let c1_i32_102 : BitVec 32 := 1#32
  let arg11 : BitVec 32 := Scf.iv c0_i32_100 c1_i32_102 k0_t21
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![4, v340.toNat]
@[reducible] def k0_t22_loop : Scf.Loop 32 :=
  let c0_i32_105 : BitVec 32 := 0#32
  let c16_i32_106 : BitVec 32 := 16#32
  let v27 : BitVec 32 := Scalar.addi c0_i32_105 c16_i32_106
  let c1_i32_107 : BitVec 32 := 1#32
  ⟨c0_i32_105, v27, c1_i32_107⟩
def k0_off23 (k0_t22 : Fin k0_t22_loop.trips) (c0_i32_429 : BitVec 32) : Fin 2 → Nat :=
  let c5_i32_430 : BitVec 32 := 5#32
  let v339 : Index := Scalar.indexCast c5_i32_430
  let c0_i32_105 : BitVec 32 := 0#32
  let c1_i32_107 : BitVec 32 := 1#32
  let arg11 : BitVec 32 := Scf.iv c0_i32_105 c1_i32_107 k0_t22
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![5, v340.toNat]
@[reducible] def k0_t23_loop : Scf.Loop 32 :=
  let c0_i32_110 : BitVec 32 := 0#32
  let c16_i32_111 : BitVec 32 := 16#32
  let v28 : BitVec 32 := Scalar.addi c0_i32_110 c16_i32_111
  let c1_i32_112 : BitVec 32 := 1#32
  ⟨c0_i32_110, v28, c1_i32_112⟩
def k0_off24 (k0_t23 : Fin k0_t23_loop.trips) (c0_i32_429 : BitVec 32) : Fin 2 → Nat :=
  let c6_i32_430 : BitVec 32 := 6#32
  let v339 : Index := Scalar.indexCast c6_i32_430
  let c0_i32_110 : BitVec 32 := 0#32
  let c1_i32_112 : BitVec 32 := 1#32
  let arg11 : BitVec 32 := Scf.iv c0_i32_110 c1_i32_112 k0_t23
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![6, v340.toNat]
@[reducible] def k0_t24_loop : Scf.Loop 32 :=
  let c0_i32_115 : BitVec 32 := 0#32
  let c16_i32_116 : BitVec 32 := 16#32
  let v29 : BitVec 32 := Scalar.addi c0_i32_115 c16_i32_116
  let c1_i32_117 : BitVec 32 := 1#32
  ⟨c0_i32_115, v29, c1_i32_117⟩
def k0_off25 (k0_t24 : Fin k0_t24_loop.trips) (c0_i32_429 : BitVec 32) : Fin 2 → Nat :=
  let c7_i32_430 : BitVec 32 := 7#32
  let v339 : Index := Scalar.indexCast c7_i32_430
  let c0_i32_115 : BitVec 32 := 0#32
  let c1_i32_117 : BitVec 32 := 1#32
  let arg11 : BitVec 32 := Scf.iv c0_i32_115 c1_i32_117 k0_t24
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![7, v340.toNat]
@[reducible] def k0_t25_loop : Scf.Loop 32 :=
  let c0_i32_120 : BitVec 32 := 0#32
  let c16_i32_121 : BitVec 32 := 16#32
  let v30 : BitVec 32 := Scalar.addi c0_i32_120 c16_i32_121
  let c1_i32_122 : BitVec 32 := 1#32
  ⟨c0_i32_120, v30, c1_i32_122⟩
def k0_off26 (k0_t25 : Fin k0_t25_loop.trips) (c0_i32_429 : BitVec 32) : Fin 2 → Nat :=
  let c8_i32_430 : BitVec 32 := 8#32
  let v339 : Index := Scalar.indexCast c8_i32_430
  let c0_i32_120 : BitVec 32 := 0#32
  let c1_i32_122 : BitVec 32 := 1#32
  let arg11 : BitVec 32 := Scf.iv c0_i32_120 c1_i32_122 k0_t25
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![8, v340.toNat]
@[reducible] def k0_t26_loop : Scf.Loop 32 :=
  let c0_i32_125 : BitVec 32 := 0#32
  let c16_i32_126 : BitVec 32 := 16#32
  let v31 : BitVec 32 := Scalar.addi c0_i32_125 c16_i32_126
  let c1_i32_127 : BitVec 32 := 1#32
  ⟨c0_i32_125, v31, c1_i32_127⟩
def k0_off27 (k0_t26 : Fin k0_t26_loop.trips) (c0_i32_429 : BitVec 32) : Fin 2 → Nat :=
  let c9_i32_430 : BitVec 32 := 9#32
  let v339 : Index := Scalar.indexCast c9_i32_430
  let c0_i32_125 : BitVec 32 := 0#32
  let c1_i32_127 : BitVec 32 := 1#32
  let arg11 : BitVec 32 := Scf.iv c0_i32_125 c1_i32_127 k0_t26
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![9, v340.toNat]
@[reducible] def k0_t27_loop : Scf.Loop 32 :=
  let c0_i32_130 : BitVec 32 := 0#32
  let c16_i32_131 : BitVec 32 := 16#32
  let v32 : BitVec 32 := Scalar.addi c0_i32_130 c16_i32_131
  let c1_i32_132 : BitVec 32 := 1#32
  ⟨c0_i32_130, v32, c1_i32_132⟩
def k0_off28 (k0_t27 : Fin k0_t27_loop.trips) (c0_i32_429 : BitVec 32) : Fin 2 → Nat :=
  let c10_i32_430 : BitVec 32 := 10#32
  let v339 : Index := Scalar.indexCast c10_i32_430
  let c0_i32_130 : BitVec 32 := 0#32
  let c1_i32_132 : BitVec 32 := 1#32
  let arg11 : BitVec 32 := Scf.iv c0_i32_130 c1_i32_132 k0_t27
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![10, v340.toNat]
@[reducible] def k0_t28_loop : Scf.Loop 32 :=
  let c0_i32_135 : BitVec 32 := 0#32
  let c16_i32_136 : BitVec 32 := 16#32
  let v33 : BitVec 32 := Scalar.addi c0_i32_135 c16_i32_136
  let c1_i32_137 : BitVec 32 := 1#32
  ⟨c0_i32_135, v33, c1_i32_137⟩
def k0_off29 (k0_t28 : Fin k0_t28_loop.trips) (c0_i32_429 : BitVec 32) : Fin 2 → Nat :=
  let c11_i32_430 : BitVec 32 := 11#32
  let v339 : Index := Scalar.indexCast c11_i32_430
  let c0_i32_135 : BitVec 32 := 0#32
  let c1_i32_137 : BitVec 32 := 1#32
  let arg11 : BitVec 32 := Scf.iv c0_i32_135 c1_i32_137 k0_t28
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![11, v340.toNat]
@[reducible] def k0_t29_loop : Scf.Loop 32 :=
  let c0_i32_140 : BitVec 32 := 0#32
  let c16_i32_141 : BitVec 32 := 16#32
  let v34 : BitVec 32 := Scalar.addi c0_i32_140 c16_i32_141
  let c1_i32_142 : BitVec 32 := 1#32
  ⟨c0_i32_140, v34, c1_i32_142⟩
def k0_off30 (k0_t29 : Fin k0_t29_loop.trips) (c0_i32_429 : BitVec 32) : Fin 2 → Nat :=
  let c12_i32_430 : BitVec 32 := 12#32
  let v339 : Index := Scalar.indexCast c12_i32_430
  let c0_i32_140 : BitVec 32 := 0#32
  let c1_i32_142 : BitVec 32 := 1#32
  let arg11 : BitVec 32 := Scf.iv c0_i32_140 c1_i32_142 k0_t29
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![12, v340.toNat]
@[reducible] def k0_t30_loop : Scf.Loop 32 :=
  let c0_i32_145 : BitVec 32 := 0#32
  let c16_i32_146 : BitVec 32 := 16#32
  let v35 : BitVec 32 := Scalar.addi c0_i32_145 c16_i32_146
  let c1_i32_147 : BitVec 32 := 1#32
  ⟨c0_i32_145, v35, c1_i32_147⟩
def k0_off31 (k0_t30 : Fin k0_t30_loop.trips) (c0_i32_429 : BitVec 32) : Fin 2 → Nat :=
  let c13_i32_430 : BitVec 32 := 13#32
  let v339 : Index := Scalar.indexCast c13_i32_430
  let c0_i32_145 : BitVec 32 := 0#32
  let c1_i32_147 : BitVec 32 := 1#32
  let arg11 : BitVec 32 := Scf.iv c0_i32_145 c1_i32_147 k0_t30
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![13, v340.toNat]
@[reducible] def k0_t31_loop : Scf.Loop 32 :=
  let c0_i32_150 : BitVec 32 := 0#32
  let c16_i32_151 : BitVec 32 := 16#32
  let v36 : BitVec 32 := Scalar.addi c0_i32_150 c16_i32_151
  let c1_i32_152 : BitVec 32 := 1#32
  ⟨c0_i32_150, v36, c1_i32_152⟩
def k0_off32 (k0_t31 : Fin k0_t31_loop.trips) (c0_i32_429 : BitVec 32) : Fin 2 → Nat :=
  let c14_i32_430 : BitVec 32 := 14#32
  let v339 : Index := Scalar.indexCast c14_i32_430
  let c0_i32_150 : BitVec 32 := 0#32
  let c1_i32_152 : BitVec 32 := 1#32
  let arg11 : BitVec 32 := Scf.iv c0_i32_150 c1_i32_152 k0_t31
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![14, v340.toNat]
@[reducible] def k0_t32_loop : Scf.Loop 32 :=
  let c0_i32_155 : BitVec 32 := 0#32
  let c16_i32_156 : BitVec 32 := 16#32
  let v37 : BitVec 32 := Scalar.addi c0_i32_155 c16_i32_156
  let c1_i32_157 : BitVec 32 := 1#32
  ⟨c0_i32_155, v37, c1_i32_157⟩
def k0_off33 (k0_t32 : Fin k0_t32_loop.trips) (c0_i32_429 : BitVec 32) : Fin 2 → Nat :=
  let c15_i32_430 : BitVec 32 := 15#32
  let v339 : Index := Scalar.indexCast c15_i32_430
  let c0_i32_155 : BitVec 32 := 0#32
  let c1_i32_157 : BitVec 32 := 1#32
  let arg11 : BitVec 32 := Scf.iv c0_i32_155 c1_i32_157 k0_t32
  let c16_i32_427 : BitVec 32 := 16#32
  let v336 : BitVec 32 := Scalar.muli arg11 c16_i32_427
  let c8_i32_428 : BitVec 32 := 8#32
  let v337 : BitVec 32 := Scalar.muli v336 c8_i32_428
  let v338 : BitVec 32 := Scalar.addi v337 c0_i32_429
  let v340 : Index := Scalar.indexCast v338
  ![15, v340.toNat]

def k0_chk1 (v38 : IVec S16 32) (v40 : IVec S16 32) : Prop :=
  (∀ a x, ((![v38, v40] : Fin 2 → IVec S16 32) a x).toNat < S16x2048.size a)
instance k0_chk1.dec : ∀ (v38 : IVec S16 32) (v40 : IVec S16 32), Decidable (k0_chk1 v38 v40) := fun v38 v40 => decidable_of_iff' _ (Iff.of_eq (k0_chk1.eq_1 v38 v40))
theorem k0_idx1_inb : ∀ (v38 : IVec S16 32) (v40 : IVec S16 32) (k0_hw1 : k0_chk1 v38 v40), ∀ a x, ((![v38, v40] : Fin 2 → IVec S16 32) a x).toNat < S16x2048.size a := fun v38 v40 k0_hw1 => k0_hw1

def k0_chk2 (v38 : IVec S16 32) (v44 : IVec S16 32) : Prop :=
  (∀ a x, ((![v38, v44] : Fin 2 → IVec S16 32) a x).toNat < S16x2048.size a)
instance k0_chk2.dec : ∀ (v38 : IVec S16 32) (v44 : IVec S16 32), Decidable (k0_chk2 v38 v44) := fun v38 v44 => decidable_of_iff' _ (Iff.of_eq (k0_chk2.eq_1 v38 v44))
theorem k0_idx2_inb : ∀ (v38 : IVec S16 32) (v44 : IVec S16 32) (k0_hw2 : k0_chk2 v38 v44), ∀ a x, ((![v38, v44] : Fin 2 → IVec S16 32) a x).toNat < S16x2048.size a := fun v38 v44 k0_hw2 => k0_hw2

def k0_chk3 (v47 : IVec S16 32) (v49 : IVec S16 32) : Prop :=
  (∀ a x, ((![v47, v49] : Fin 2 → IVec S16 32) a x).toNat < S16x2048.size a)
instance k0_chk3.dec : ∀ (v47 : IVec S16 32) (v49 : IVec S16 32), Decidable (k0_chk3 v47 v49) := fun v47 v49 => decidable_of_iff' _ (Iff.of_eq (k0_chk3.eq_1 v47 v49))
theorem k0_idx3_inb : ∀ (v47 : IVec S16 32) (v49 : IVec S16 32) (k0_hw3 : k0_chk3 v47 v49), ∀ a x, ((![v47, v49] : Fin 2 → IVec S16 32) a x).toNat < S16x2048.size a := fun v47 v49 k0_hw3 => k0_hw3

def k0_chk4 (v47 : IVec S16 32) (v53 : IVec S16 32) : Prop :=
  (∀ a x, ((![v47, v53] : Fin 2 → IVec S16 32) a x).toNat < S16x2048.size a)
instance k0_chk4.dec : ∀ (v47 : IVec S16 32) (v53 : IVec S16 32), Decidable (k0_chk4 v47 v53) := fun v47 v53 => decidable_of_iff' _ (Iff.of_eq (k0_chk4.eq_1 v47 v53))
theorem k0_idx4_inb : ∀ (v47 : IVec S16 32) (v53 : IVec S16 32) (k0_hw4 : k0_chk4 v47 v53), ∀ a x, ((![v47, v53] : Fin 2 → IVec S16 32) a x).toNat < S16x2048.size a := fun v47 v53 k0_hw4 => k0_hw4

def k0_chk5 (v56 : IVec S16 32) (v58 : IVec S16 32) : Prop :=
  (∀ a x, ((![v56, v58] : Fin 2 → IVec S16 32) a x).toNat < S16x2048.size a)
instance k0_chk5.dec : ∀ (v56 : IVec S16 32) (v58 : IVec S16 32), Decidable (k0_chk5 v56 v58) := fun v56 v58 => decidable_of_iff' _ (Iff.of_eq (k0_chk5.eq_1 v56 v58))
theorem k0_idx5_inb : ∀ (v56 : IVec S16 32) (v58 : IVec S16 32) (k0_hw5 : k0_chk5 v56 v58), ∀ a x, ((![v56, v58] : Fin 2 → IVec S16 32) a x).toNat < S16x2048.size a := fun v56 v58 k0_hw5 => k0_hw5

def k0_chk6 (v56 : IVec S16 32) (v62 : IVec S16 32) : Prop :=
  (∀ a x, ((![v56, v62] : Fin 2 → IVec S16 32) a x).toNat < S16x2048.size a)
instance k0_chk6.dec : ∀ (v56 : IVec S16 32) (v62 : IVec S16 32), Decidable (k0_chk6 v56 v62) := fun v56 v62 => decidable_of_iff' _ (Iff.of_eq (k0_chk6.eq_1 v56 v62))
theorem k0_idx6_inb : ∀ (v56 : IVec S16 32) (v62 : IVec S16 32) (k0_hw6 : k0_chk6 v56 v62), ∀ a x, ((![v56, v62] : Fin 2 → IVec S16 32) a x).toNat < S16x2048.size a := fun v56 v62 k0_hw6 => k0_hw6

def k0_chk7 (v65 : IVec S16 32) (v67 : IVec S16 32) : Prop :=
  (∀ a x, ((![v65, v67] : Fin 2 → IVec S16 32) a x).toNat < S16x2048.size a)
instance k0_chk7.dec : ∀ (v65 : IVec S16 32) (v67 : IVec S16 32), Decidable (k0_chk7 v65 v67) := fun v65 v67 => decidable_of_iff' _ (Iff.of_eq (k0_chk7.eq_1 v65 v67))
theorem k0_idx7_inb : ∀ (v65 : IVec S16 32) (v67 : IVec S16 32) (k0_hw7 : k0_chk7 v65 v67), ∀ a x, ((![v65, v67] : Fin 2 → IVec S16 32) a x).toNat < S16x2048.size a := fun v65 v67 k0_hw7 => k0_hw7

def k0_chk8 (v65 : IVec S16 32) (v71 : IVec S16 32) : Prop :=
  (∀ a x, ((![v65, v71] : Fin 2 → IVec S16 32) a x).toNat < S16x2048.size a)
instance k0_chk8.dec : ∀ (v65 : IVec S16 32) (v71 : IVec S16 32), Decidable (k0_chk8 v65 v71) := fun v65 v71 => decidable_of_iff' _ (Iff.of_eq (k0_chk8.eq_1 v65 v71))
theorem k0_idx8_inb : ∀ (v65 : IVec S16 32) (v71 : IVec S16 32) (k0_hw8 : k0_chk8 v65 v71), ∀ a x, ((![v65, v71] : Fin 2 → IVec S16 32) a x).toNat < S16x2048.size a := fun v65 v71 k0_hw8 => k0_hw8

def k0_chk9 (v74 : IVec S16 32) (v76 : IVec S16 32) : Prop :=
  (∀ a x, ((![v74, v76] : Fin 2 → IVec S16 32) a x).toNat < S16x2048.size a)
instance k0_chk9.dec : ∀ (v74 : IVec S16 32) (v76 : IVec S16 32), Decidable (k0_chk9 v74 v76) := fun v74 v76 => decidable_of_iff' _ (Iff.of_eq (k0_chk9.eq_1 v74 v76))
theorem k0_idx9_inb : ∀ (v74 : IVec S16 32) (v76 : IVec S16 32) (k0_hw9 : k0_chk9 v74 v76), ∀ a x, ((![v74, v76] : Fin 2 → IVec S16 32) a x).toNat < S16x2048.size a := fun v74 v76 k0_hw9 => k0_hw9

def k0_chk10 (v74 : IVec S16 32) (v80 : IVec S16 32) : Prop :=
  (∀ a x, ((![v74, v80] : Fin 2 → IVec S16 32) a x).toNat < S16x2048.size a)
instance k0_chk10.dec : ∀ (v74 : IVec S16 32) (v80 : IVec S16 32), Decidable (k0_chk10 v74 v80) := fun v74 v80 => decidable_of_iff' _ (Iff.of_eq (k0_chk10.eq_1 v74 v80))
theorem k0_idx10_inb : ∀ (v74 : IVec S16 32) (v80 : IVec S16 32) (k0_hw10 : k0_chk10 v74 v80), ∀ a x, ((![v74, v80] : Fin 2 → IVec S16 32) a x).toNat < S16x2048.size a := fun v74 v80 k0_hw10 => k0_hw10

def k0_chk11 (v83 : IVec S16 32) (v85 : IVec S16 32) : Prop :=
  (∀ a x, ((![v83, v85] : Fin 2 → IVec S16 32) a x).toNat < S16x2048.size a)
instance k0_chk11.dec : ∀ (v83 : IVec S16 32) (v85 : IVec S16 32), Decidable (k0_chk11 v83 v85) := fun v83 v85 => decidable_of_iff' _ (Iff.of_eq (k0_chk11.eq_1 v83 v85))
theorem k0_idx11_inb : ∀ (v83 : IVec S16 32) (v85 : IVec S16 32) (k0_hw11 : k0_chk11 v83 v85), ∀ a x, ((![v83, v85] : Fin 2 → IVec S16 32) a x).toNat < S16x2048.size a := fun v83 v85 k0_hw11 => k0_hw11

def k0_chk12 (v83 : IVec S16 32) (v89 : IVec S16 32) : Prop :=
  (∀ a x, ((![v83, v89] : Fin 2 → IVec S16 32) a x).toNat < S16x2048.size a)
instance k0_chk12.dec : ∀ (v83 : IVec S16 32) (v89 : IVec S16 32), Decidable (k0_chk12 v83 v89) := fun v83 v89 => decidable_of_iff' _ (Iff.of_eq (k0_chk12.eq_1 v83 v89))
theorem k0_idx12_inb : ∀ (v83 : IVec S16 32) (v89 : IVec S16 32) (k0_hw12 : k0_chk12 v83 v89), ∀ a x, ((![v83, v89] : Fin 2 → IVec S16 32) a x).toNat < S16x2048.size a := fun v83 v89 k0_hw12 => k0_hw12

def k0_chk13 (v92 : IVec S16 32) (v94 : IVec S16 32) : Prop :=
  (∀ a x, ((![v92, v94] : Fin 2 → IVec S16 32) a x).toNat < S16x2048.size a)
instance k0_chk13.dec : ∀ (v92 : IVec S16 32) (v94 : IVec S16 32), Decidable (k0_chk13 v92 v94) := fun v92 v94 => decidable_of_iff' _ (Iff.of_eq (k0_chk13.eq_1 v92 v94))
theorem k0_idx13_inb : ∀ (v92 : IVec S16 32) (v94 : IVec S16 32) (k0_hw13 : k0_chk13 v92 v94), ∀ a x, ((![v92, v94] : Fin 2 → IVec S16 32) a x).toNat < S16x2048.size a := fun v92 v94 k0_hw13 => k0_hw13

def k0_chk14 (v92 : IVec S16 32) (v98 : IVec S16 32) : Prop :=
  (∀ a x, ((![v92, v98] : Fin 2 → IVec S16 32) a x).toNat < S16x2048.size a)
instance k0_chk14.dec : ∀ (v92 : IVec S16 32) (v98 : IVec S16 32), Decidable (k0_chk14 v92 v98) := fun v92 v98 => decidable_of_iff' _ (Iff.of_eq (k0_chk14.eq_1 v92 v98))
theorem k0_idx14_inb : ∀ (v92 : IVec S16 32) (v98 : IVec S16 32) (k0_hw14 : k0_chk14 v92 v98), ∀ a x, ((![v92, v98] : Fin 2 → IVec S16 32) a x).toNat < S16x2048.size a := fun v92 v98 k0_hw14 => k0_hw14

def k0_chk15 (v101 : IVec S16 32) (v103 : IVec S16 32) : Prop :=
  (∀ a x, ((![v101, v103] : Fin 2 → IVec S16 32) a x).toNat < S16x2048.size a)
instance k0_chk15.dec : ∀ (v101 : IVec S16 32) (v103 : IVec S16 32), Decidable (k0_chk15 v101 v103) := fun v101 v103 => decidable_of_iff' _ (Iff.of_eq (k0_chk15.eq_1 v101 v103))
theorem k0_idx15_inb : ∀ (v101 : IVec S16 32) (v103 : IVec S16 32) (k0_hw15 : k0_chk15 v101 v103), ∀ a x, ((![v101, v103] : Fin 2 → IVec S16 32) a x).toNat < S16x2048.size a := fun v101 v103 k0_hw15 => k0_hw15

def k0_chk16 (v101 : IVec S16 32) (v107 : IVec S16 32) : Prop :=
  (∀ a x, ((![v101, v107] : Fin 2 → IVec S16 32) a x).toNat < S16x2048.size a)
instance k0_chk16.dec : ∀ (v101 : IVec S16 32) (v107 : IVec S16 32), Decidable (k0_chk16 v101 v107) := fun v101 v107 => decidable_of_iff' _ (Iff.of_eq (k0_chk16.eq_1 v101 v107))
theorem k0_idx16_inb : ∀ (v101 : IVec S16 32) (v107 : IVec S16 32) (k0_hw16 : k0_chk16 v101 v107), ∀ a x, ((![v101, v107] : Fin 2 → IVec S16 32) a x).toNat < S16x2048.size a := fun v101 v107 k0_hw16 => k0_hw16

def k0_chk17 (v110 : IVec S16 32) (v112 : IVec S16 32) : Prop :=
  (∀ a x, ((![v110, v112] : Fin 2 → IVec S16 32) a x).toNat < S16x2048.size a)
instance k0_chk17.dec : ∀ (v110 : IVec S16 32) (v112 : IVec S16 32), Decidable (k0_chk17 v110 v112) := fun v110 v112 => decidable_of_iff' _ (Iff.of_eq (k0_chk17.eq_1 v110 v112))
theorem k0_idx17_inb : ∀ (v110 : IVec S16 32) (v112 : IVec S16 32) (k0_hw17 : k0_chk17 v110 v112), ∀ a x, ((![v110, v112] : Fin 2 → IVec S16 32) a x).toNat < S16x2048.size a := fun v110 v112 k0_hw17 => k0_hw17

def k0_chk18 (v110 : IVec S16 32) (v116 : IVec S16 32) : Prop :=
  (∀ a x, ((![v110, v116] : Fin 2 → IVec S16 32) a x).toNat < S16x2048.size a)
instance k0_chk18.dec : ∀ (v110 : IVec S16 32) (v116 : IVec S16 32), Decidable (k0_chk18 v110 v116) := fun v110 v116 => decidable_of_iff' _ (Iff.of_eq (k0_chk18.eq_1 v110 v116))
theorem k0_idx18_inb : ∀ (v110 : IVec S16 32) (v116 : IVec S16 32) (k0_hw18 : k0_chk18 v110 v116), ∀ a x, ((![v110, v116] : Fin 2 → IVec S16 32) a x).toNat < S16x2048.size a := fun v110 v116 k0_hw18 => k0_hw18

def k0_chk19 (v119 : IVec S16 32) (v121 : IVec S16 32) : Prop :=
  (∀ a x, ((![v119, v121] : Fin 2 → IVec S16 32) a x).toNat < S16x2048.size a)
instance k0_chk19.dec : ∀ (v119 : IVec S16 32) (v121 : IVec S16 32), Decidable (k0_chk19 v119 v121) := fun v119 v121 => decidable_of_iff' _ (Iff.of_eq (k0_chk19.eq_1 v119 v121))
theorem k0_idx19_inb : ∀ (v119 : IVec S16 32) (v121 : IVec S16 32) (k0_hw19 : k0_chk19 v119 v121), ∀ a x, ((![v119, v121] : Fin 2 → IVec S16 32) a x).toNat < S16x2048.size a := fun v119 v121 k0_hw19 => k0_hw19

def k0_chk20 (v119 : IVec S16 32) (v125 : IVec S16 32) : Prop :=
  (∀ a x, ((![v119, v125] : Fin 2 → IVec S16 32) a x).toNat < S16x2048.size a)
instance k0_chk20.dec : ∀ (v119 : IVec S16 32) (v125 : IVec S16 32), Decidable (k0_chk20 v119 v125) := fun v119 v125 => decidable_of_iff' _ (Iff.of_eq (k0_chk20.eq_1 v119 v125))
theorem k0_idx20_inb : ∀ (v119 : IVec S16 32) (v125 : IVec S16 32) (k0_hw20 : k0_chk20 v119 v125), ∀ a x, ((![v119, v125] : Fin 2 → IVec S16 32) a x).toNat < S16x2048.size a := fun v119 v125 k0_hw20 => k0_hw20

def k0_chk21 (v128 : IVec S16 32) (v130 : IVec S16 32) : Prop :=
  (∀ a x, ((![v128, v130] : Fin 2 → IVec S16 32) a x).toNat < S16x2048.size a)
instance k0_chk21.dec : ∀ (v128 : IVec S16 32) (v130 : IVec S16 32), Decidable (k0_chk21 v128 v130) := fun v128 v130 => decidable_of_iff' _ (Iff.of_eq (k0_chk21.eq_1 v128 v130))
theorem k0_idx21_inb : ∀ (v128 : IVec S16 32) (v130 : IVec S16 32) (k0_hw21 : k0_chk21 v128 v130), ∀ a x, ((![v128, v130] : Fin 2 → IVec S16 32) a x).toNat < S16x2048.size a := fun v128 v130 k0_hw21 => k0_hw21

def k0_chk22 (v128 : IVec S16 32) (v134 : IVec S16 32) : Prop :=
  (∀ a x, ((![v128, v134] : Fin 2 → IVec S16 32) a x).toNat < S16x2048.size a)
instance k0_chk22.dec : ∀ (v128 : IVec S16 32) (v134 : IVec S16 32), Decidable (k0_chk22 v128 v134) := fun v128 v134 => decidable_of_iff' _ (Iff.of_eq (k0_chk22.eq_1 v128 v134))
theorem k0_idx22_inb : ∀ (v128 : IVec S16 32) (v134 : IVec S16 32) (k0_hw22 : k0_chk22 v128 v134), ∀ a x, ((![v128, v134] : Fin 2 → IVec S16 32) a x).toNat < S16x2048.size a := fun v128 v134 k0_hw22 => k0_hw22

def k0_chk23 (v137 : IVec S16 32) (v139 : IVec S16 32) : Prop :=
  (∀ a x, ((![v137, v139] : Fin 2 → IVec S16 32) a x).toNat < S16x2048.size a)
instance k0_chk23.dec : ∀ (v137 : IVec S16 32) (v139 : IVec S16 32), Decidable (k0_chk23 v137 v139) := fun v137 v139 => decidable_of_iff' _ (Iff.of_eq (k0_chk23.eq_1 v137 v139))
theorem k0_idx23_inb : ∀ (v137 : IVec S16 32) (v139 : IVec S16 32) (k0_hw23 : k0_chk23 v137 v139), ∀ a x, ((![v137, v139] : Fin 2 → IVec S16 32) a x).toNat < S16x2048.size a := fun v137 v139 k0_hw23 => k0_hw23

def k0_chk24 (v137 : IVec S16 32) (v143 : IVec S16 32) : Prop :=
  (∀ a x, ((![v137, v143] : Fin 2 → IVec S16 32) a x).toNat < S16x2048.size a)
instance k0_chk24.dec : ∀ (v137 : IVec S16 32) (v143 : IVec S16 32), Decidable (k0_chk24 v137 v143) := fun v137 v143 => decidable_of_iff' _ (Iff.of_eq (k0_chk24.eq_1 v137 v143))
theorem k0_idx24_inb : ∀ (v137 : IVec S16 32) (v143 : IVec S16 32) (k0_hw24 : k0_chk24 v137 v143), ∀ a x, ((![v137, v143] : Fin 2 → IVec S16 32) a x).toNat < S16x2048.size a := fun v137 v143 k0_hw24 => k0_hw24

def k0_chk25 (v146 : IVec S16 32) (v148 : IVec S16 32) : Prop :=
  (∀ a x, ((![v146, v148] : Fin 2 → IVec S16 32) a x).toNat < S16x2048.size a)
instance k0_chk25.dec : ∀ (v146 : IVec S16 32) (v148 : IVec S16 32), Decidable (k0_chk25 v146 v148) := fun v146 v148 => decidable_of_iff' _ (Iff.of_eq (k0_chk25.eq_1 v146 v148))
theorem k0_idx25_inb : ∀ (v146 : IVec S16 32) (v148 : IVec S16 32) (k0_hw25 : k0_chk25 v146 v148), ∀ a x, ((![v146, v148] : Fin 2 → IVec S16 32) a x).toNat < S16x2048.size a := fun v146 v148 k0_hw25 => k0_hw25

def k0_chk26 (v146 : IVec S16 32) (v152 : IVec S16 32) : Prop :=
  (∀ a x, ((![v146, v152] : Fin 2 → IVec S16 32) a x).toNat < S16x2048.size a)
instance k0_chk26.dec : ∀ (v146 : IVec S16 32) (v152 : IVec S16 32), Decidable (k0_chk26 v146 v152) := fun v146 v152 => decidable_of_iff' _ (Iff.of_eq (k0_chk26.eq_1 v146 v152))
theorem k0_idx26_inb : ∀ (v146 : IVec S16 32) (v152 : IVec S16 32) (k0_hw26 : k0_chk26 v146 v152), ∀ a x, ((![v146, v152] : Fin 2 → IVec S16 32) a x).toNat < S16x2048.size a := fun v146 v152 k0_hw26 => k0_hw26

def k0_chk27 (v155 : IVec S16 32) (v157 : IVec S16 32) : Prop :=
  (∀ a x, ((![v155, v157] : Fin 2 → IVec S16 32) a x).toNat < S16x2048.size a)
instance k0_chk27.dec : ∀ (v155 : IVec S16 32) (v157 : IVec S16 32), Decidable (k0_chk27 v155 v157) := fun v155 v157 => decidable_of_iff' _ (Iff.of_eq (k0_chk27.eq_1 v155 v157))
theorem k0_idx27_inb : ∀ (v155 : IVec S16 32) (v157 : IVec S16 32) (k0_hw27 : k0_chk27 v155 v157), ∀ a x, ((![v155, v157] : Fin 2 → IVec S16 32) a x).toNat < S16x2048.size a := fun v155 v157 k0_hw27 => k0_hw27

def k0_chk28 (v155 : IVec S16 32) (v161 : IVec S16 32) : Prop :=
  (∀ a x, ((![v155, v161] : Fin 2 → IVec S16 32) a x).toNat < S16x2048.size a)
instance k0_chk28.dec : ∀ (v155 : IVec S16 32) (v161 : IVec S16 32), Decidable (k0_chk28 v155 v161) := fun v155 v161 => decidable_of_iff' _ (Iff.of_eq (k0_chk28.eq_1 v155 v161))
theorem k0_idx28_inb : ∀ (v155 : IVec S16 32) (v161 : IVec S16 32) (k0_hw28 : k0_chk28 v155 v161), ∀ a x, ((![v155, v161] : Fin 2 → IVec S16 32) a x).toNat < S16x2048.size a := fun v155 v161 k0_hw28 => k0_hw28

def k0_chk29 (v164 : IVec S16 32) (v166 : IVec S16 32) : Prop :=
  (∀ a x, ((![v164, v166] : Fin 2 → IVec S16 32) a x).toNat < S16x2048.size a)
instance k0_chk29.dec : ∀ (v164 : IVec S16 32) (v166 : IVec S16 32), Decidable (k0_chk29 v164 v166) := fun v164 v166 => decidable_of_iff' _ (Iff.of_eq (k0_chk29.eq_1 v164 v166))
theorem k0_idx29_inb : ∀ (v164 : IVec S16 32) (v166 : IVec S16 32) (k0_hw29 : k0_chk29 v164 v166), ∀ a x, ((![v164, v166] : Fin 2 → IVec S16 32) a x).toNat < S16x2048.size a := fun v164 v166 k0_hw29 => k0_hw29

def k0_chk30 (v164 : IVec S16 32) (v170 : IVec S16 32) : Prop :=
  (∀ a x, ((![v164, v170] : Fin 2 → IVec S16 32) a x).toNat < S16x2048.size a)
instance k0_chk30.dec : ∀ (v164 : IVec S16 32) (v170 : IVec S16 32), Decidable (k0_chk30 v164 v170) := fun v164 v170 => decidable_of_iff' _ (Iff.of_eq (k0_chk30.eq_1 v164 v170))
theorem k0_idx30_inb : ∀ (v164 : IVec S16 32) (v170 : IVec S16 32) (k0_hw30 : k0_chk30 v164 v170), ∀ a x, ((![v164, v170] : Fin 2 → IVec S16 32) a x).toNat < S16x2048.size a := fun v164 v170 k0_hw30 => k0_hw30

def k0_chk31 (v173 : IVec S16 32) (v175 : IVec S16 32) : Prop :=
  (∀ a x, ((![v173, v175] : Fin 2 → IVec S16 32) a x).toNat < S16x2048.size a)
instance k0_chk31.dec : ∀ (v173 : IVec S16 32) (v175 : IVec S16 32), Decidable (k0_chk31 v173 v175) := fun v173 v175 => decidable_of_iff' _ (Iff.of_eq (k0_chk31.eq_1 v173 v175))
theorem k0_idx31_inb : ∀ (v173 : IVec S16 32) (v175 : IVec S16 32) (k0_hw31 : k0_chk31 v173 v175), ∀ a x, ((![v173, v175] : Fin 2 → IVec S16 32) a x).toNat < S16x2048.size a := fun v173 v175 k0_hw31 => k0_hw31

def k0_chk32 (v173 : IVec S16 32) (v179 : IVec S16 32) : Prop :=
  (∀ a x, ((![v173, v179] : Fin 2 → IVec S16 32) a x).toNat < S16x2048.size a)
instance k0_chk32.dec : ∀ (v173 : IVec S16 32) (v179 : IVec S16 32), Decidable (k0_chk32 v173 v179) := fun v173 v179 => decidable_of_iff' _ (Iff.of_eq (k0_chk32.eq_1 v173 v179))
theorem k0_idx32_inb : ∀ (v173 : IVec S16 32) (v179 : IVec S16 32) (k0_hw32 : k0_chk32 v173 v179), ∀ a x, ((![v173, v179] : Fin 2 → IVec S16 32) a x).toNat < S16x2048.size a := fun v173 v179 k0_hw32 => k0_hw32
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_288 : BitVec 32 := 0#32
  let v182 : BitVec 32 := Scalar.addi v3 c0_i32_288
  let c0_i32_289 : BitVec 32 := 0#32
  ![v182.toNat, 0]

def k0_chk33 (v185 : IVec S16 32) (v187 : IVec S16 32) : Prop :=
  (∀ a x, ((![v185, v187] : Fin 2 → IVec S16 32) a x).toNat < S16x2048.size a)
instance k0_chk33.dec : ∀ (v185 : IVec S16 32) (v187 : IVec S16 32), Decidable (k0_chk33 v185 v187) := fun v185 v187 => decidable_of_iff' _ (Iff.of_eq (k0_chk33.eq_1 v185 v187))
theorem k0_idx33_inb : ∀ (v185 : IVec S16 32) (v187 : IVec S16 32) (k0_hw33 : k0_chk33 v185 v187), ∀ a x, ((![v185, v187] : Fin 2 → IVec S16 32) a x).toNat < S16x2048.size a := fun v185 v187 k0_hw33 => k0_hw33

def k0_chk34 (v185 : IVec S16 32) (v191 : IVec S16 32) : Prop :=
  (∀ a x, ((![v185, v191] : Fin 2 → IVec S16 32) a x).toNat < S16x2048.size a)
instance k0_chk34.dec : ∀ (v185 : IVec S16 32) (v191 : IVec S16 32), Decidable (k0_chk34 v185 v191) := fun v185 v191 => decidable_of_iff' _ (Iff.of_eq (k0_chk34.eq_1 v185 v191))
theorem k0_idx34_inb : ∀ (v185 : IVec S16 32) (v191 : IVec S16 32) (k0_hw34 : k0_chk34 v185 v191), ∀ a x, ((![v185, v191] : Fin 2 → IVec S16 32) a x).toNat < S16x2048.size a := fun v185 v191 k0_hw34 => k0_hw34

def k0_chk35 (v194 : IVec S16 32) (v196 : IVec S16 32) : Prop :=
  (∀ a x, ((![v194, v196] : Fin 2 → IVec S16 32) a x).toNat < S16x2048.size a)
instance k0_chk35.dec : ∀ (v194 : IVec S16 32) (v196 : IVec S16 32), Decidable (k0_chk35 v194 v196) := fun v194 v196 => decidable_of_iff' _ (Iff.of_eq (k0_chk35.eq_1 v194 v196))
theorem k0_idx35_inb : ∀ (v194 : IVec S16 32) (v196 : IVec S16 32) (k0_hw35 : k0_chk35 v194 v196), ∀ a x, ((![v194, v196] : Fin 2 → IVec S16 32) a x).toNat < S16x2048.size a := fun v194 v196 k0_hw35 => k0_hw35

def k0_chk36 (v194 : IVec S16 32) (v200 : IVec S16 32) : Prop :=
  (∀ a x, ((![v194, v200] : Fin 2 → IVec S16 32) a x).toNat < S16x2048.size a)
instance k0_chk36.dec : ∀ (v194 : IVec S16 32) (v200 : IVec S16 32), Decidable (k0_chk36 v194 v200) := fun v194 v200 => decidable_of_iff' _ (Iff.of_eq (k0_chk36.eq_1 v194 v200))
theorem k0_idx36_inb : ∀ (v194 : IVec S16 32) (v200 : IVec S16 32) (k0_hw36 : k0_chk36 v194 v200), ∀ a x, ((![v194, v200] : Fin 2 → IVec S16 32) a x).toNat < S16x2048.size a := fun v194 v200 k0_hw36 => k0_hw36

def k0_chk37 (v203 : IVec S16 32) (v205 : IVec S16 32) : Prop :=
  (∀ a x, ((![v203, v205] : Fin 2 → IVec S16 32) a x).toNat < S16x2048.size a)
instance k0_chk37.dec : ∀ (v203 : IVec S16 32) (v205 : IVec S16 32), Decidable (k0_chk37 v203 v205) := fun v203 v205 => decidable_of_iff' _ (Iff.of_eq (k0_chk37.eq_1 v203 v205))
theorem k0_idx37_inb : ∀ (v203 : IVec S16 32) (v205 : IVec S16 32) (k0_hw37 : k0_chk37 v203 v205), ∀ a x, ((![v203, v205] : Fin 2 → IVec S16 32) a x).toNat < S16x2048.size a := fun v203 v205 k0_hw37 => k0_hw37

def k0_chk38 (v203 : IVec S16 32) (v209 : IVec S16 32) : Prop :=
  (∀ a x, ((![v203, v209] : Fin 2 → IVec S16 32) a x).toNat < S16x2048.size a)
instance k0_chk38.dec : ∀ (v203 : IVec S16 32) (v209 : IVec S16 32), Decidable (k0_chk38 v203 v209) := fun v203 v209 => decidable_of_iff' _ (Iff.of_eq (k0_chk38.eq_1 v203 v209))
theorem k0_idx38_inb : ∀ (v203 : IVec S16 32) (v209 : IVec S16 32) (k0_hw38 : k0_chk38 v203 v209), ∀ a x, ((![v203, v209] : Fin 2 → IVec S16 32) a x).toNat < S16x2048.size a := fun v203 v209 k0_hw38 => k0_hw38

def k0_chk39 (v212 : IVec S16 32) (v214 : IVec S16 32) : Prop :=
  (∀ a x, ((![v212, v214] : Fin 2 → IVec S16 32) a x).toNat < S16x2048.size a)
instance k0_chk39.dec : ∀ (v212 : IVec S16 32) (v214 : IVec S16 32), Decidable (k0_chk39 v212 v214) := fun v212 v214 => decidable_of_iff' _ (Iff.of_eq (k0_chk39.eq_1 v212 v214))
theorem k0_idx39_inb : ∀ (v212 : IVec S16 32) (v214 : IVec S16 32) (k0_hw39 : k0_chk39 v212 v214), ∀ a x, ((![v212, v214] : Fin 2 → IVec S16 32) a x).toNat < S16x2048.size a := fun v212 v214 k0_hw39 => k0_hw39

def k0_chk40 (v212 : IVec S16 32) (v218 : IVec S16 32) : Prop :=
  (∀ a x, ((![v212, v218] : Fin 2 → IVec S16 32) a x).toNat < S16x2048.size a)
instance k0_chk40.dec : ∀ (v212 : IVec S16 32) (v218 : IVec S16 32), Decidable (k0_chk40 v212 v218) := fun v212 v218 => decidable_of_iff' _ (Iff.of_eq (k0_chk40.eq_1 v212 v218))
theorem k0_idx40_inb : ∀ (v212 : IVec S16 32) (v218 : IVec S16 32) (k0_hw40 : k0_chk40 v212 v218), ∀ a x, ((![v212, v218] : Fin 2 → IVec S16 32) a x).toNat < S16x2048.size a := fun v212 v218 k0_hw40 => k0_hw40

def k0_chk41 (v221 : IVec S16 32) (v223 : IVec S16 32) : Prop :=
  (∀ a x, ((![v221, v223] : Fin 2 → IVec S16 32) a x).toNat < S16x2048.size a)
instance k0_chk41.dec : ∀ (v221 : IVec S16 32) (v223 : IVec S16 32), Decidable (k0_chk41 v221 v223) := fun v221 v223 => decidable_of_iff' _ (Iff.of_eq (k0_chk41.eq_1 v221 v223))
theorem k0_idx41_inb : ∀ (v221 : IVec S16 32) (v223 : IVec S16 32) (k0_hw41 : k0_chk41 v221 v223), ∀ a x, ((![v221, v223] : Fin 2 → IVec S16 32) a x).toNat < S16x2048.size a := fun v221 v223 k0_hw41 => k0_hw41

def k0_chk42 (v221 : IVec S16 32) (v227 : IVec S16 32) : Prop :=
  (∀ a x, ((![v221, v227] : Fin 2 → IVec S16 32) a x).toNat < S16x2048.size a)
instance k0_chk42.dec : ∀ (v221 : IVec S16 32) (v227 : IVec S16 32), Decidable (k0_chk42 v221 v227) := fun v221 v227 => decidable_of_iff' _ (Iff.of_eq (k0_chk42.eq_1 v221 v227))
theorem k0_idx42_inb : ∀ (v221 : IVec S16 32) (v227 : IVec S16 32) (k0_hw42 : k0_chk42 v221 v227), ∀ a x, ((![v221, v227] : Fin 2 → IVec S16 32) a x).toNat < S16x2048.size a := fun v221 v227 k0_hw42 => k0_hw42

def k0_chk43 (v230 : IVec S16 32) (v232 : IVec S16 32) : Prop :=
  (∀ a x, ((![v230, v232] : Fin 2 → IVec S16 32) a x).toNat < S16x2048.size a)
instance k0_chk43.dec : ∀ (v230 : IVec S16 32) (v232 : IVec S16 32), Decidable (k0_chk43 v230 v232) := fun v230 v232 => decidable_of_iff' _ (Iff.of_eq (k0_chk43.eq_1 v230 v232))
theorem k0_idx43_inb : ∀ (v230 : IVec S16 32) (v232 : IVec S16 32) (k0_hw43 : k0_chk43 v230 v232), ∀ a x, ((![v230, v232] : Fin 2 → IVec S16 32) a x).toNat < S16x2048.size a := fun v230 v232 k0_hw43 => k0_hw43

def k0_chk44 (v230 : IVec S16 32) (v236 : IVec S16 32) : Prop :=
  (∀ a x, ((![v230, v236] : Fin 2 → IVec S16 32) a x).toNat < S16x2048.size a)
instance k0_chk44.dec : ∀ (v230 : IVec S16 32) (v236 : IVec S16 32), Decidable (k0_chk44 v230 v236) := fun v230 v236 => decidable_of_iff' _ (Iff.of_eq (k0_chk44.eq_1 v230 v236))
theorem k0_idx44_inb : ∀ (v230 : IVec S16 32) (v236 : IVec S16 32) (k0_hw44 : k0_chk44 v230 v236), ∀ a x, ((![v230, v236] : Fin 2 → IVec S16 32) a x).toNat < S16x2048.size a := fun v230 v236 k0_hw44 => k0_hw44

def k0_chk45 (v239 : IVec S16 32) (v241 : IVec S16 32) : Prop :=
  (∀ a x, ((![v239, v241] : Fin 2 → IVec S16 32) a x).toNat < S16x2048.size a)
instance k0_chk45.dec : ∀ (v239 : IVec S16 32) (v241 : IVec S16 32), Decidable (k0_chk45 v239 v241) := fun v239 v241 => decidable_of_iff' _ (Iff.of_eq (k0_chk45.eq_1 v239 v241))
theorem k0_idx45_inb : ∀ (v239 : IVec S16 32) (v241 : IVec S16 32) (k0_hw45 : k0_chk45 v239 v241), ∀ a x, ((![v239, v241] : Fin 2 → IVec S16 32) a x).toNat < S16x2048.size a := fun v239 v241 k0_hw45 => k0_hw45

def k0_chk46 (v239 : IVec S16 32) (v245 : IVec S16 32) : Prop :=
  (∀ a x, ((![v239, v245] : Fin 2 → IVec S16 32) a x).toNat < S16x2048.size a)
instance k0_chk46.dec : ∀ (v239 : IVec S16 32) (v245 : IVec S16 32), Decidable (k0_chk46 v239 v245) := fun v239 v245 => decidable_of_iff' _ (Iff.of_eq (k0_chk46.eq_1 v239 v245))
theorem k0_idx46_inb : ∀ (v239 : IVec S16 32) (v245 : IVec S16 32) (k0_hw46 : k0_chk46 v239 v245), ∀ a x, ((![v239, v245] : Fin 2 → IVec S16 32) a x).toNat < S16x2048.size a := fun v239 v245 k0_hw46 => k0_hw46

def k0_chk47 (v248 : IVec S16 32) (v250 : IVec S16 32) : Prop :=
  (∀ a x, ((![v248, v250] : Fin 2 → IVec S16 32) a x).toNat < S16x2048.size a)
instance k0_chk47.dec : ∀ (v248 : IVec S16 32) (v250 : IVec S16 32), Decidable (k0_chk47 v248 v250) := fun v248 v250 => decidable_of_iff' _ (Iff.of_eq (k0_chk47.eq_1 v248 v250))
theorem k0_idx47_inb : ∀ (v248 : IVec S16 32) (v250 : IVec S16 32) (k0_hw47 : k0_chk47 v248 v250), ∀ a x, ((![v248, v250] : Fin 2 → IVec S16 32) a x).toNat < S16x2048.size a := fun v248 v250 k0_hw47 => k0_hw47

def k0_chk48 (v248 : IVec S16 32) (v254 : IVec S16 32) : Prop :=
  (∀ a x, ((![v248, v254] : Fin 2 → IVec S16 32) a x).toNat < S16x2048.size a)
instance k0_chk48.dec : ∀ (v248 : IVec S16 32) (v254 : IVec S16 32), Decidable (k0_chk48 v248 v254) := fun v248 v254 => decidable_of_iff' _ (Iff.of_eq (k0_chk48.eq_1 v248 v254))
theorem k0_idx48_inb : ∀ (v248 : IVec S16 32) (v254 : IVec S16 32) (k0_hw48 : k0_chk48 v248 v254), ∀ a x, ((![v248, v254] : Fin 2 → IVec S16 32) a x).toNat < S16x2048.size a := fun v248 v254 k0_hw48 => k0_hw48

def k0_chk49 (v257 : IVec S16 32) (v259 : IVec S16 32) : Prop :=
  (∀ a x, ((![v257, v259] : Fin 2 → IVec S16 32) a x).toNat < S16x2048.size a)
instance k0_chk49.dec : ∀ (v257 : IVec S16 32) (v259 : IVec S16 32), Decidable (k0_chk49 v257 v259) := fun v257 v259 => decidable_of_iff' _ (Iff.of_eq (k0_chk49.eq_1 v257 v259))
theorem k0_idx49_inb : ∀ (v257 : IVec S16 32) (v259 : IVec S16 32) (k0_hw49 : k0_chk49 v257 v259), ∀ a x, ((![v257, v259] : Fin 2 → IVec S16 32) a x).toNat < S16x2048.size a := fun v257 v259 k0_hw49 => k0_hw49

def k0_chk50 (v257 : IVec S16 32) (v263 : IVec S16 32) : Prop :=
  (∀ a x, ((![v257, v263] : Fin 2 → IVec S16 32) a x).toNat < S16x2048.size a)
instance k0_chk50.dec : ∀ (v257 : IVec S16 32) (v263 : IVec S16 32), Decidable (k0_chk50 v257 v263) := fun v257 v263 => decidable_of_iff' _ (Iff.of_eq (k0_chk50.eq_1 v257 v263))
theorem k0_idx50_inb : ∀ (v257 : IVec S16 32) (v263 : IVec S16 32) (k0_hw50 : k0_chk50 v257 v263), ∀ a x, ((![v257, v263] : Fin 2 → IVec S16 32) a x).toNat < S16x2048.size a := fun v257 v263 k0_hw50 => k0_hw50

def k0_chk51 (v266 : IVec S16 32) (v268 : IVec S16 32) : Prop :=
  (∀ a x, ((![v266, v268] : Fin 2 → IVec S16 32) a x).toNat < S16x2048.size a)
instance k0_chk51.dec : ∀ (v266 : IVec S16 32) (v268 : IVec S16 32), Decidable (k0_chk51 v266 v268) := fun v266 v268 => decidable_of_iff' _ (Iff.of_eq (k0_chk51.eq_1 v266 v268))
theorem k0_idx51_inb : ∀ (v266 : IVec S16 32) (v268 : IVec S16 32) (k0_hw51 : k0_chk51 v266 v268), ∀ a x, ((![v266, v268] : Fin 2 → IVec S16 32) a x).toNat < S16x2048.size a := fun v266 v268 k0_hw51 => k0_hw51

def k0_chk52 (v266 : IVec S16 32) (v272 : IVec S16 32) : Prop :=
  (∀ a x, ((![v266, v272] : Fin 2 → IVec S16 32) a x).toNat < S16x2048.size a)
instance k0_chk52.dec : ∀ (v266 : IVec S16 32) (v272 : IVec S16 32), Decidable (k0_chk52 v266 v272) := fun v266 v272 => decidable_of_iff' _ (Iff.of_eq (k0_chk52.eq_1 v266 v272))
theorem k0_idx52_inb : ∀ (v266 : IVec S16 32) (v272 : IVec S16 32) (k0_hw52 : k0_chk52 v266 v272), ∀ a x, ((![v266, v272] : Fin 2 → IVec S16 32) a x).toNat < S16x2048.size a := fun v266 v272 k0_hw52 => k0_hw52

def k0_chk53 (v275 : IVec S16 32) (v277 : IVec S16 32) : Prop :=
  (∀ a x, ((![v275, v277] : Fin 2 → IVec S16 32) a x).toNat < S16x2048.size a)
instance k0_chk53.dec : ∀ (v275 : IVec S16 32) (v277 : IVec S16 32), Decidable (k0_chk53 v275 v277) := fun v275 v277 => decidable_of_iff' _ (Iff.of_eq (k0_chk53.eq_1 v275 v277))
theorem k0_idx53_inb : ∀ (v275 : IVec S16 32) (v277 : IVec S16 32) (k0_hw53 : k0_chk53 v275 v277), ∀ a x, ((![v275, v277] : Fin 2 → IVec S16 32) a x).toNat < S16x2048.size a := fun v275 v277 k0_hw53 => k0_hw53

def k0_chk54 (v275 : IVec S16 32) (v281 : IVec S16 32) : Prop :=
  (∀ a x, ((![v275, v281] : Fin 2 → IVec S16 32) a x).toNat < S16x2048.size a)
instance k0_chk54.dec : ∀ (v275 : IVec S16 32) (v281 : IVec S16 32), Decidable (k0_chk54 v275 v281) := fun v275 v281 => decidable_of_iff' _ (Iff.of_eq (k0_chk54.eq_1 v275 v281))
theorem k0_idx54_inb : ∀ (v275 : IVec S16 32) (v281 : IVec S16 32) (k0_hw54 : k0_chk54 v275 v281), ∀ a x, ((![v275, v281] : Fin 2 → IVec S16 32) a x).toNat < S16x2048.size a := fun v275 v281 k0_hw54 => k0_hw54

def k0_chk55 (v284 : IVec S16 32) (v286 : IVec S16 32) : Prop :=
  (∀ a x, ((![v284, v286] : Fin 2 → IVec S16 32) a x).toNat < S16x2048.size a)
instance k0_chk55.dec : ∀ (v284 : IVec S16 32) (v286 : IVec S16 32), Decidable (k0_chk55 v284 v286) := fun v284 v286 => decidable_of_iff' _ (Iff.of_eq (k0_chk55.eq_1 v284 v286))
theorem k0_idx55_inb : ∀ (v284 : IVec S16 32) (v286 : IVec S16 32) (k0_hw55 : k0_chk55 v284 v286), ∀ a x, ((![v284, v286] : Fin 2 → IVec S16 32) a x).toNat < S16x2048.size a := fun v284 v286 k0_hw55 => k0_hw55

def k0_chk56 (v284 : IVec S16 32) (v290 : IVec S16 32) : Prop :=
  (∀ a x, ((![v284, v290] : Fin 2 → IVec S16 32) a x).toNat < S16x2048.size a)
instance k0_chk56.dec : ∀ (v284 : IVec S16 32) (v290 : IVec S16 32), Decidable (k0_chk56 v284 v290) := fun v284 v290 => decidable_of_iff' _ (Iff.of_eq (k0_chk56.eq_1 v284 v290))
theorem k0_idx56_inb : ∀ (v284 : IVec S16 32) (v290 : IVec S16 32) (k0_hw56 : k0_chk56 v284 v290), ∀ a x, ((![v284, v290] : Fin 2 → IVec S16 32) a x).toNat < S16x2048.size a := fun v284 v290 k0_hw56 => k0_hw56

def k0_chk57 (v293 : IVec S16 32) (v295 : IVec S16 32) : Prop :=
  (∀ a x, ((![v293, v295] : Fin 2 → IVec S16 32) a x).toNat < S16x2048.size a)
instance k0_chk57.dec : ∀ (v293 : IVec S16 32) (v295 : IVec S16 32), Decidable (k0_chk57 v293 v295) := fun v293 v295 => decidable_of_iff' _ (Iff.of_eq (k0_chk57.eq_1 v293 v295))
theorem k0_idx57_inb : ∀ (v293 : IVec S16 32) (v295 : IVec S16 32) (k0_hw57 : k0_chk57 v293 v295), ∀ a x, ((![v293, v295] : Fin 2 → IVec S16 32) a x).toNat < S16x2048.size a := fun v293 v295 k0_hw57 => k0_hw57

def k0_chk58 (v293 : IVec S16 32) (v299 : IVec S16 32) : Prop :=
  (∀ a x, ((![v293, v299] : Fin 2 → IVec S16 32) a x).toNat < S16x2048.size a)
instance k0_chk58.dec : ∀ (v293 : IVec S16 32) (v299 : IVec S16 32), Decidable (k0_chk58 v293 v299) := fun v293 v299 => decidable_of_iff' _ (Iff.of_eq (k0_chk58.eq_1 v293 v299))
theorem k0_idx58_inb : ∀ (v293 : IVec S16 32) (v299 : IVec S16 32) (k0_hw58 : k0_chk58 v293 v299), ∀ a x, ((![v293, v299] : Fin 2 → IVec S16 32) a x).toNat < S16x2048.size a := fun v293 v299 k0_hw58 => k0_hw58

def k0_chk59 (v302 : IVec S16 32) (v304 : IVec S16 32) : Prop :=
  (∀ a x, ((![v302, v304] : Fin 2 → IVec S16 32) a x).toNat < S16x2048.size a)
instance k0_chk59.dec : ∀ (v302 : IVec S16 32) (v304 : IVec S16 32), Decidable (k0_chk59 v302 v304) := fun v302 v304 => decidable_of_iff' _ (Iff.of_eq (k0_chk59.eq_1 v302 v304))
theorem k0_idx59_inb : ∀ (v302 : IVec S16 32) (v304 : IVec S16 32) (k0_hw59 : k0_chk59 v302 v304), ∀ a x, ((![v302, v304] : Fin 2 → IVec S16 32) a x).toNat < S16x2048.size a := fun v302 v304 k0_hw59 => k0_hw59

def k0_chk60 (v302 : IVec S16 32) (v308 : IVec S16 32) : Prop :=
  (∀ a x, ((![v302, v308] : Fin 2 → IVec S16 32) a x).toNat < S16x2048.size a)
instance k0_chk60.dec : ∀ (v302 : IVec S16 32) (v308 : IVec S16 32), Decidable (k0_chk60 v302 v308) := fun v302 v308 => decidable_of_iff' _ (Iff.of_eq (k0_chk60.eq_1 v302 v308))
theorem k0_idx60_inb : ∀ (v302 : IVec S16 32) (v308 : IVec S16 32) (k0_hw60 : k0_chk60 v302 v308), ∀ a x, ((![v302, v308] : Fin 2 → IVec S16 32) a x).toNat < S16x2048.size a := fun v302 v308 k0_hw60 => k0_hw60

def k0_chk61 (v311 : IVec S16 32) (v313 : IVec S16 32) : Prop :=
  (∀ a x, ((![v311, v313] : Fin 2 → IVec S16 32) a x).toNat < S16x2048.size a)
instance k0_chk61.dec : ∀ (v311 : IVec S16 32) (v313 : IVec S16 32), Decidable (k0_chk61 v311 v313) := fun v311 v313 => decidable_of_iff' _ (Iff.of_eq (k0_chk61.eq_1 v311 v313))
theorem k0_idx61_inb : ∀ (v311 : IVec S16 32) (v313 : IVec S16 32) (k0_hw61 : k0_chk61 v311 v313), ∀ a x, ((![v311, v313] : Fin 2 → IVec S16 32) a x).toNat < S16x2048.size a := fun v311 v313 k0_hw61 => k0_hw61

def k0_chk62 (v311 : IVec S16 32) (v317 : IVec S16 32) : Prop :=
  (∀ a x, ((![v311, v317] : Fin 2 → IVec S16 32) a x).toNat < S16x2048.size a)
instance k0_chk62.dec : ∀ (v311 : IVec S16 32) (v317 : IVec S16 32), Decidable (k0_chk62 v311 v317) := fun v311 v317 => decidable_of_iff' _ (Iff.of_eq (k0_chk62.eq_1 v311 v317))
theorem k0_idx62_inb : ∀ (v311 : IVec S16 32) (v317 : IVec S16 32) (k0_hw62 : k0_chk62 v311 v317), ∀ a x, ((![v311, v317] : Fin 2 → IVec S16 32) a x).toNat < S16x2048.size a := fun v311 v317 k0_hw62 => k0_hw62

def k0_chk63 (v320 : IVec S16 32) (v322 : IVec S16 32) : Prop :=
  (∀ a x, ((![v320, v322] : Fin 2 → IVec S16 32) a x).toNat < S16x2048.size a)
instance k0_chk63.dec : ∀ (v320 : IVec S16 32) (v322 : IVec S16 32), Decidable (k0_chk63 v320 v322) := fun v320 v322 => decidable_of_iff' _ (Iff.of_eq (k0_chk63.eq_1 v320 v322))
theorem k0_idx63_inb : ∀ (v320 : IVec S16 32) (v322 : IVec S16 32) (k0_hw63 : k0_chk63 v320 v322), ∀ a x, ((![v320, v322] : Fin 2 → IVec S16 32) a x).toNat < S16x2048.size a := fun v320 v322 k0_hw63 => k0_hw63

def k0_chk64 (v320 : IVec S16 32) (v326 : IVec S16 32) : Prop :=
  (∀ a x, ((![v320, v326] : Fin 2 → IVec S16 32) a x).toNat < S16x2048.size a)
instance k0_chk64.dec : ∀ (v320 : IVec S16 32) (v326 : IVec S16 32), Decidable (k0_chk64 v320 v326) := fun v320 v326 => decidable_of_iff' _ (Iff.of_eq (k0_chk64.eq_1 v320 v326))
theorem k0_idx64_inb : ∀ (v320 : IVec S16 32) (v326 : IVec S16 32) (k0_hw64 : k0_chk64 v320 v326), ∀ a x, ((![v320, v326] : Fin 2 → IVec S16 32) a x).toNat < S16x2048.size a := fun v320 v326 k0_hw64 => k0_hw64
def k0_off35 (i : grid0.Coords) (c16_i32_420 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let v329 : BitVec 32 := Scalar.addi v3 c16_i32_420
  let c0_i32_421 : BitVec 32 := 0#32
  ![v329.toNat, 0]
abbrev grid1 : Pipeline.Grid := ⟨2, ![2, 16], ![false, false]⟩

def k1_off1 (i : grid1.Coords) : Fin 2 → Nat :=
  let c1024_i32 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let v4 : BitVec 32 := Scalar.addi c1024_i32 v3
  let c0_i32_426_r0 : BitVec 32 := 0#32
  ![v4.toNat, 0]
@[reducible] def k1_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩
def k1_off2 (k1_t1 : Fin k1_t1_loop.trips) (c0_i32_428 : BitVec 32) : Fin 2 → Nat :=
  let c0_i32_429 : BitVec 32 := 0#32
  let v339 : Index := Scalar.indexCast c0_i32_429
  let c0_i32_1 : BitVec 32 := 0#32
  let c1_i32 : BitVec 32 := 1#32
  let arg11 : BitVec 32 := Scf.iv c0_i32_1 c1_i32 k1_t1
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![0, v340.toNat]
@[reducible] def k1_t2_loop : Scf.Loop 32 :=
  let c0_i32_4 : BitVec 32 := 0#32
  let c16_i32_5 : BitVec 32 := 16#32
  let v7 : BitVec 32 := Scalar.addi c0_i32_4 c16_i32_5
  let c1_i32_6 : BitVec 32 := 1#32
  ⟨c0_i32_4, v7, c1_i32_6⟩
def k1_off3 (k1_t2 : Fin k1_t2_loop.trips) (c0_i32_428 : BitVec 32) : Fin 2 → Nat :=
  let c1_i32_429 : BitVec 32 := 1#32
  let v339 : Index := Scalar.indexCast c1_i32_429
  let c0_i32_4 : BitVec 32 := 0#32
  let c1_i32_6 : BitVec 32 := 1#32
  let arg11 : BitVec 32 := Scf.iv c0_i32_4 c1_i32_6 k1_t2
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![1, v340.toNat]
@[reducible] def k1_t3_loop : Scf.Loop 32 :=
  let c0_i32_9 : BitVec 32 := 0#32
  let c16_i32_10 : BitVec 32 := 16#32
  let v8 : BitVec 32 := Scalar.addi c0_i32_9 c16_i32_10
  let c1_i32_11 : BitVec 32 := 1#32
  ⟨c0_i32_9, v8, c1_i32_11⟩
def k1_off4 (k1_t3 : Fin k1_t3_loop.trips) (c0_i32_428 : BitVec 32) : Fin 2 → Nat :=
  let c2_i32_429 : BitVec 32 := 2#32
  let v339 : Index := Scalar.indexCast c2_i32_429
  let c0_i32_9 : BitVec 32 := 0#32
  let c1_i32_11 : BitVec 32 := 1#32
  let arg11 : BitVec 32 := Scf.iv c0_i32_9 c1_i32_11 k1_t3
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![2, v340.toNat]
@[reducible] def k1_t4_loop : Scf.Loop 32 :=
  let c0_i32_14 : BitVec 32 := 0#32
  let c16_i32_15 : BitVec 32 := 16#32
  let v9 : BitVec 32 := Scalar.addi c0_i32_14 c16_i32_15
  let c1_i32_16 : BitVec 32 := 1#32
  ⟨c0_i32_14, v9, c1_i32_16⟩
def k1_off5 (k1_t4 : Fin k1_t4_loop.trips) (c0_i32_428 : BitVec 32) : Fin 2 → Nat :=
  let c3_i32_429 : BitVec 32 := 3#32
  let v339 : Index := Scalar.indexCast c3_i32_429
  let c0_i32_14 : BitVec 32 := 0#32
  let c1_i32_16 : BitVec 32 := 1#32
  let arg11 : BitVec 32 := Scf.iv c0_i32_14 c1_i32_16 k1_t4
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![3, v340.toNat]
@[reducible] def k1_t5_loop : Scf.Loop 32 :=
  let c0_i32_19 : BitVec 32 := 0#32
  let c16_i32_20 : BitVec 32 := 16#32
  let v10 : BitVec 32 := Scalar.addi c0_i32_19 c16_i32_20
  let c1_i32_21 : BitVec 32 := 1#32
  ⟨c0_i32_19, v10, c1_i32_21⟩
def k1_off6 (k1_t5 : Fin k1_t5_loop.trips) (c0_i32_428 : BitVec 32) : Fin 2 → Nat :=
  let c4_i32_429 : BitVec 32 := 4#32
  let v339 : Index := Scalar.indexCast c4_i32_429
  let c0_i32_19 : BitVec 32 := 0#32
  let c1_i32_21 : BitVec 32 := 1#32
  let arg11 : BitVec 32 := Scf.iv c0_i32_19 c1_i32_21 k1_t5
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![4, v340.toNat]
@[reducible] def k1_t6_loop : Scf.Loop 32 :=
  let c0_i32_24 : BitVec 32 := 0#32
  let c16_i32_25 : BitVec 32 := 16#32
  let v11 : BitVec 32 := Scalar.addi c0_i32_24 c16_i32_25
  let c1_i32_26 : BitVec 32 := 1#32
  ⟨c0_i32_24, v11, c1_i32_26⟩
def k1_off7 (k1_t6 : Fin k1_t6_loop.trips) (c0_i32_428 : BitVec 32) : Fin 2 → Nat :=
  let c5_i32_429 : BitVec 32 := 5#32
  let v339 : Index := Scalar.indexCast c5_i32_429
  let c0_i32_24 : BitVec 32 := 0#32
  let c1_i32_26 : BitVec 32 := 1#32
  let arg11 : BitVec 32 := Scf.iv c0_i32_24 c1_i32_26 k1_t6
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![5, v340.toNat]
@[reducible] def k1_t7_loop : Scf.Loop 32 :=
  let c0_i32_29 : BitVec 32 := 0#32
  let c16_i32_30 : BitVec 32 := 16#32
  let v12 : BitVec 32 := Scalar.addi c0_i32_29 c16_i32_30
  let c1_i32_31 : BitVec 32 := 1#32
  ⟨c0_i32_29, v12, c1_i32_31⟩
def k1_off8 (k1_t7 : Fin k1_t7_loop.trips) (c0_i32_428 : BitVec 32) : Fin 2 → Nat :=
  let c6_i32_429 : BitVec 32 := 6#32
  let v339 : Index := Scalar.indexCast c6_i32_429
  let c0_i32_29 : BitVec 32 := 0#32
  let c1_i32_31 : BitVec 32 := 1#32
  let arg11 : BitVec 32 := Scf.iv c0_i32_29 c1_i32_31 k1_t7
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![6, v340.toNat]
@[reducible] def k1_t8_loop : Scf.Loop 32 :=
  let c0_i32_34 : BitVec 32 := 0#32
  let c16_i32_35 : BitVec 32 := 16#32
  let v13 : BitVec 32 := Scalar.addi c0_i32_34 c16_i32_35
  let c1_i32_36 : BitVec 32 := 1#32
  ⟨c0_i32_34, v13, c1_i32_36⟩
def k1_off9 (k1_t8 : Fin k1_t8_loop.trips) (c0_i32_428 : BitVec 32) : Fin 2 → Nat :=
  let c7_i32_429 : BitVec 32 := 7#32
  let v339 : Index := Scalar.indexCast c7_i32_429
  let c0_i32_34 : BitVec 32 := 0#32
  let c1_i32_36 : BitVec 32 := 1#32
  let arg11 : BitVec 32 := Scf.iv c0_i32_34 c1_i32_36 k1_t8
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![7, v340.toNat]
@[reducible] def k1_t9_loop : Scf.Loop 32 :=
  let c0_i32_39 : BitVec 32 := 0#32
  let c16_i32_40 : BitVec 32 := 16#32
  let v14 : BitVec 32 := Scalar.addi c0_i32_39 c16_i32_40
  let c1_i32_41 : BitVec 32 := 1#32
  ⟨c0_i32_39, v14, c1_i32_41⟩
def k1_off10 (k1_t9 : Fin k1_t9_loop.trips) (c0_i32_428 : BitVec 32) : Fin 2 → Nat :=
  let c8_i32_429 : BitVec 32 := 8#32
  let v339 : Index := Scalar.indexCast c8_i32_429
  let c0_i32_39 : BitVec 32 := 0#32
  let c1_i32_41 : BitVec 32 := 1#32
  let arg11 : BitVec 32 := Scf.iv c0_i32_39 c1_i32_41 k1_t9
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![8, v340.toNat]
@[reducible] def k1_t10_loop : Scf.Loop 32 :=
  let c0_i32_44 : BitVec 32 := 0#32
  let c16_i32_45 : BitVec 32 := 16#32
  let v15 : BitVec 32 := Scalar.addi c0_i32_44 c16_i32_45
  let c1_i32_46 : BitVec 32 := 1#32
  ⟨c0_i32_44, v15, c1_i32_46⟩
def k1_off11 (k1_t10 : Fin k1_t10_loop.trips) (c0_i32_428 : BitVec 32) : Fin 2 → Nat :=
  let c9_i32_429 : BitVec 32 := 9#32
  let v339 : Index := Scalar.indexCast c9_i32_429
  let c0_i32_44 : BitVec 32 := 0#32
  let c1_i32_46 : BitVec 32 := 1#32
  let arg11 : BitVec 32 := Scf.iv c0_i32_44 c1_i32_46 k1_t10
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![9, v340.toNat]
@[reducible] def k1_t11_loop : Scf.Loop 32 :=
  let c0_i32_49 : BitVec 32 := 0#32
  let c16_i32_50 : BitVec 32 := 16#32
  let v16 : BitVec 32 := Scalar.addi c0_i32_49 c16_i32_50
  let c1_i32_51 : BitVec 32 := 1#32
  ⟨c0_i32_49, v16, c1_i32_51⟩
def k1_off12 (k1_t11 : Fin k1_t11_loop.trips) (c0_i32_428 : BitVec 32) : Fin 2 → Nat :=
  let c10_i32_429 : BitVec 32 := 10#32
  let v339 : Index := Scalar.indexCast c10_i32_429
  let c0_i32_49 : BitVec 32 := 0#32
  let c1_i32_51 : BitVec 32 := 1#32
  let arg11 : BitVec 32 := Scf.iv c0_i32_49 c1_i32_51 k1_t11
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![10, v340.toNat]
@[reducible] def k1_t12_loop : Scf.Loop 32 :=
  let c0_i32_54 : BitVec 32 := 0#32
  let c16_i32_55 : BitVec 32 := 16#32
  let v17 : BitVec 32 := Scalar.addi c0_i32_54 c16_i32_55
  let c1_i32_56 : BitVec 32 := 1#32
  ⟨c0_i32_54, v17, c1_i32_56⟩
def k1_off13 (k1_t12 : Fin k1_t12_loop.trips) (c0_i32_428 : BitVec 32) : Fin 2 → Nat :=
  let c11_i32_429 : BitVec 32 := 11#32
  let v339 : Index := Scalar.indexCast c11_i32_429
  let c0_i32_54 : BitVec 32 := 0#32
  let c1_i32_56 : BitVec 32 := 1#32
  let arg11 : BitVec 32 := Scf.iv c0_i32_54 c1_i32_56 k1_t12
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![11, v340.toNat]
@[reducible] def k1_t13_loop : Scf.Loop 32 :=
  let c0_i32_59 : BitVec 32 := 0#32
  let c16_i32_60 : BitVec 32 := 16#32
  let v18 : BitVec 32 := Scalar.addi c0_i32_59 c16_i32_60
  let c1_i32_61 : BitVec 32 := 1#32
  ⟨c0_i32_59, v18, c1_i32_61⟩
def k1_off14 (k1_t13 : Fin k1_t13_loop.trips) (c0_i32_428 : BitVec 32) : Fin 2 → Nat :=
  let c12_i32_429 : BitVec 32 := 12#32
  let v339 : Index := Scalar.indexCast c12_i32_429
  let c0_i32_59 : BitVec 32 := 0#32
  let c1_i32_61 : BitVec 32 := 1#32
  let arg11 : BitVec 32 := Scf.iv c0_i32_59 c1_i32_61 k1_t13
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![12, v340.toNat]
@[reducible] def k1_t14_loop : Scf.Loop 32 :=
  let c0_i32_64 : BitVec 32 := 0#32
  let c16_i32_65 : BitVec 32 := 16#32
  let v19 : BitVec 32 := Scalar.addi c0_i32_64 c16_i32_65
  let c1_i32_66 : BitVec 32 := 1#32
  ⟨c0_i32_64, v19, c1_i32_66⟩
def k1_off15 (k1_t14 : Fin k1_t14_loop.trips) (c0_i32_428 : BitVec 32) : Fin 2 → Nat :=
  let c13_i32_429 : BitVec 32 := 13#32
  let v339 : Index := Scalar.indexCast c13_i32_429
  let c0_i32_64 : BitVec 32 := 0#32
  let c1_i32_66 : BitVec 32 := 1#32
  let arg11 : BitVec 32 := Scf.iv c0_i32_64 c1_i32_66 k1_t14
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![13, v340.toNat]
@[reducible] def k1_t15_loop : Scf.Loop 32 :=
  let c0_i32_69 : BitVec 32 := 0#32
  let c16_i32_70 : BitVec 32 := 16#32
  let v20 : BitVec 32 := Scalar.addi c0_i32_69 c16_i32_70
  let c1_i32_71 : BitVec 32 := 1#32
  ⟨c0_i32_69, v20, c1_i32_71⟩
def k1_off16 (k1_t15 : Fin k1_t15_loop.trips) (c0_i32_428 : BitVec 32) : Fin 2 → Nat :=
  let c14_i32_429 : BitVec 32 := 14#32
  let v339 : Index := Scalar.indexCast c14_i32_429
  let c0_i32_69 : BitVec 32 := 0#32
  let c1_i32_71 : BitVec 32 := 1#32
  let arg11 : BitVec 32 := Scf.iv c0_i32_69 c1_i32_71 k1_t15
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![14, v340.toNat]
@[reducible] def k1_t16_loop : Scf.Loop 32 :=
  let c0_i32_74 : BitVec 32 := 0#32
  let c16_i32_75 : BitVec 32 := 16#32
  let v21 : BitVec 32 := Scalar.addi c0_i32_74 c16_i32_75
  let c1_i32_76 : BitVec 32 := 1#32
  ⟨c0_i32_74, v21, c1_i32_76⟩
def k1_off17 (k1_t16 : Fin k1_t16_loop.trips) (c0_i32_428 : BitVec 32) : Fin 2 → Nat :=
  let c15_i32_429 : BitVec 32 := 15#32
  let v339 : Index := Scalar.indexCast c15_i32_429
  let c0_i32_74 : BitVec 32 := 0#32
  let c1_i32_76 : BitVec 32 := 1#32
  let arg11 : BitVec 32 := Scf.iv c0_i32_74 c1_i32_76 k1_t16
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![15, v340.toNat]
@[reducible] def k1_t17_loop : Scf.Loop 32 :=
  let c0_i32_79 : BitVec 32 := 0#32
  let c16_i32_80 : BitVec 32 := 16#32
  let v22 : BitVec 32 := Scalar.addi c0_i32_79 c16_i32_80
  let c1_i32_81 : BitVec 32 := 1#32
  ⟨c0_i32_79, v22, c1_i32_81⟩
def k1_off18 (k1_t17 : Fin k1_t17_loop.trips) (c0_i32_428 : BitVec 32) : Fin 2 → Nat :=
  let c0_i32_429 : BitVec 32 := 0#32
  let v339 : Index := Scalar.indexCast c0_i32_429
  let c0_i32_79 : BitVec 32 := 0#32
  let c1_i32_81 : BitVec 32 := 1#32
  let arg11 : BitVec 32 := Scf.iv c0_i32_79 c1_i32_81 k1_t17
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![0, v340.toNat]
@[reducible] def k1_t18_loop : Scf.Loop 32 :=
  let c0_i32_84 : BitVec 32 := 0#32
  let c16_i32_85 : BitVec 32 := 16#32
  let v23 : BitVec 32 := Scalar.addi c0_i32_84 c16_i32_85
  let c1_i32_86 : BitVec 32 := 1#32
  ⟨c0_i32_84, v23, c1_i32_86⟩
def k1_off19 (k1_t18 : Fin k1_t18_loop.trips) (c0_i32_428 : BitVec 32) : Fin 2 → Nat :=
  let c1_i32_429 : BitVec 32 := 1#32
  let v339 : Index := Scalar.indexCast c1_i32_429
  let c0_i32_84 : BitVec 32 := 0#32
  let c1_i32_86 : BitVec 32 := 1#32
  let arg11 : BitVec 32 := Scf.iv c0_i32_84 c1_i32_86 k1_t18
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![1, v340.toNat]
@[reducible] def k1_t19_loop : Scf.Loop 32 :=
  let c0_i32_89 : BitVec 32 := 0#32
  let c16_i32_90 : BitVec 32 := 16#32
  let v24 : BitVec 32 := Scalar.addi c0_i32_89 c16_i32_90
  let c1_i32_91 : BitVec 32 := 1#32
  ⟨c0_i32_89, v24, c1_i32_91⟩
def k1_off20 (k1_t19 : Fin k1_t19_loop.trips) (c0_i32_428 : BitVec 32) : Fin 2 → Nat :=
  let c2_i32_429 : BitVec 32 := 2#32
  let v339 : Index := Scalar.indexCast c2_i32_429
  let c0_i32_89 : BitVec 32 := 0#32
  let c1_i32_91 : BitVec 32 := 1#32
  let arg11 : BitVec 32 := Scf.iv c0_i32_89 c1_i32_91 k1_t19
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![2, v340.toNat]
@[reducible] def k1_t20_loop : Scf.Loop 32 :=
  let c0_i32_94 : BitVec 32 := 0#32
  let c16_i32_95 : BitVec 32 := 16#32
  let v25 : BitVec 32 := Scalar.addi c0_i32_94 c16_i32_95
  let c1_i32_96 : BitVec 32 := 1#32
  ⟨c0_i32_94, v25, c1_i32_96⟩
def k1_off21 (k1_t20 : Fin k1_t20_loop.trips) (c0_i32_428 : BitVec 32) : Fin 2 → Nat :=
  let c3_i32_429 : BitVec 32 := 3#32
  let v339 : Index := Scalar.indexCast c3_i32_429
  let c0_i32_94 : BitVec 32 := 0#32
  let c1_i32_96 : BitVec 32 := 1#32
  let arg11 : BitVec 32 := Scf.iv c0_i32_94 c1_i32_96 k1_t20
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![3, v340.toNat]
@[reducible] def k1_t21_loop : Scf.Loop 32 :=
  let c0_i32_99 : BitVec 32 := 0#32
  let c16_i32_100 : BitVec 32 := 16#32
  let v26 : BitVec 32 := Scalar.addi c0_i32_99 c16_i32_100
  let c1_i32_101 : BitVec 32 := 1#32
  ⟨c0_i32_99, v26, c1_i32_101⟩
def k1_off22 (k1_t21 : Fin k1_t21_loop.trips) (c0_i32_428 : BitVec 32) : Fin 2 → Nat :=
  let c4_i32_429 : BitVec 32 := 4#32
  let v339 : Index := Scalar.indexCast c4_i32_429
  let c0_i32_99 : BitVec 32 := 0#32
  let c1_i32_101 : BitVec 32 := 1#32
  let arg11 : BitVec 32 := Scf.iv c0_i32_99 c1_i32_101 k1_t21
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![4, v340.toNat]
@[reducible] def k1_t22_loop : Scf.Loop 32 :=
  let c0_i32_104 : BitVec 32 := 0#32
  let c16_i32_105 : BitVec 32 := 16#32
  let v27 : BitVec 32 := Scalar.addi c0_i32_104 c16_i32_105
  let c1_i32_106 : BitVec 32 := 1#32
  ⟨c0_i32_104, v27, c1_i32_106⟩
def k1_off23 (k1_t22 : Fin k1_t22_loop.trips) (c0_i32_428 : BitVec 32) : Fin 2 → Nat :=
  let c5_i32_429 : BitVec 32 := 5#32
  let v339 : Index := Scalar.indexCast c5_i32_429
  let c0_i32_104 : BitVec 32 := 0#32
  let c1_i32_106 : BitVec 32 := 1#32
  let arg11 : BitVec 32 := Scf.iv c0_i32_104 c1_i32_106 k1_t22
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![5, v340.toNat]
@[reducible] def k1_t23_loop : Scf.Loop 32 :=
  let c0_i32_109 : BitVec 32 := 0#32
  let c16_i32_110 : BitVec 32 := 16#32
  let v28 : BitVec 32 := Scalar.addi c0_i32_109 c16_i32_110
  let c1_i32_111 : BitVec 32 := 1#32
  ⟨c0_i32_109, v28, c1_i32_111⟩
def k1_off24 (k1_t23 : Fin k1_t23_loop.trips) (c0_i32_428 : BitVec 32) : Fin 2 → Nat :=
  let c6_i32_429 : BitVec 32 := 6#32
  let v339 : Index := Scalar.indexCast c6_i32_429
  let c0_i32_109 : BitVec 32 := 0#32
  let c1_i32_111 : BitVec 32 := 1#32
  let arg11 : BitVec 32 := Scf.iv c0_i32_109 c1_i32_111 k1_t23
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![6, v340.toNat]
@[reducible] def k1_t24_loop : Scf.Loop 32 :=
  let c0_i32_114 : BitVec 32 := 0#32
  let c16_i32_115 : BitVec 32 := 16#32
  let v29 : BitVec 32 := Scalar.addi c0_i32_114 c16_i32_115
  let c1_i32_116 : BitVec 32 := 1#32
  ⟨c0_i32_114, v29, c1_i32_116⟩
def k1_off25 (k1_t24 : Fin k1_t24_loop.trips) (c0_i32_428 : BitVec 32) : Fin 2 → Nat :=
  let c7_i32_429 : BitVec 32 := 7#32
  let v339 : Index := Scalar.indexCast c7_i32_429
  let c0_i32_114 : BitVec 32 := 0#32
  let c1_i32_116 : BitVec 32 := 1#32
  let arg11 : BitVec 32 := Scf.iv c0_i32_114 c1_i32_116 k1_t24
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![7, v340.toNat]
@[reducible] def k1_t25_loop : Scf.Loop 32 :=
  let c0_i32_119 : BitVec 32 := 0#32
  let c16_i32_120 : BitVec 32 := 16#32
  let v30 : BitVec 32 := Scalar.addi c0_i32_119 c16_i32_120
  let c1_i32_121 : BitVec 32 := 1#32
  ⟨c0_i32_119, v30, c1_i32_121⟩
def k1_off26 (k1_t25 : Fin k1_t25_loop.trips) (c0_i32_428 : BitVec 32) : Fin 2 → Nat :=
  let c8_i32_429 : BitVec 32 := 8#32
  let v339 : Index := Scalar.indexCast c8_i32_429
  let c0_i32_119 : BitVec 32 := 0#32
  let c1_i32_121 : BitVec 32 := 1#32
  let arg11 : BitVec 32 := Scf.iv c0_i32_119 c1_i32_121 k1_t25
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![8, v340.toNat]
@[reducible] def k1_t26_loop : Scf.Loop 32 :=
  let c0_i32_124 : BitVec 32 := 0#32
  let c16_i32_125 : BitVec 32 := 16#32
  let v31 : BitVec 32 := Scalar.addi c0_i32_124 c16_i32_125
  let c1_i32_126 : BitVec 32 := 1#32
  ⟨c0_i32_124, v31, c1_i32_126⟩
def k1_off27 (k1_t26 : Fin k1_t26_loop.trips) (c0_i32_428 : BitVec 32) : Fin 2 → Nat :=
  let c9_i32_429 : BitVec 32 := 9#32
  let v339 : Index := Scalar.indexCast c9_i32_429
  let c0_i32_124 : BitVec 32 := 0#32
  let c1_i32_126 : BitVec 32 := 1#32
  let arg11 : BitVec 32 := Scf.iv c0_i32_124 c1_i32_126 k1_t26
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![9, v340.toNat]
@[reducible] def k1_t27_loop : Scf.Loop 32 :=
  let c0_i32_129 : BitVec 32 := 0#32
  let c16_i32_130 : BitVec 32 := 16#32
  let v32 : BitVec 32 := Scalar.addi c0_i32_129 c16_i32_130
  let c1_i32_131 : BitVec 32 := 1#32
  ⟨c0_i32_129, v32, c1_i32_131⟩
def k1_off28 (k1_t27 : Fin k1_t27_loop.trips) (c0_i32_428 : BitVec 32) : Fin 2 → Nat :=
  let c10_i32_429 : BitVec 32 := 10#32
  let v339 : Index := Scalar.indexCast c10_i32_429
  let c0_i32_129 : BitVec 32 := 0#32
  let c1_i32_131 : BitVec 32 := 1#32
  let arg11 : BitVec 32 := Scf.iv c0_i32_129 c1_i32_131 k1_t27
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![10, v340.toNat]
@[reducible] def k1_t28_loop : Scf.Loop 32 :=
  let c0_i32_134 : BitVec 32 := 0#32
  let c16_i32_135 : BitVec 32 := 16#32
  let v33 : BitVec 32 := Scalar.addi c0_i32_134 c16_i32_135
  let c1_i32_136 : BitVec 32 := 1#32
  ⟨c0_i32_134, v33, c1_i32_136⟩
def k1_off29 (k1_t28 : Fin k1_t28_loop.trips) (c0_i32_428 : BitVec 32) : Fin 2 → Nat :=
  let c11_i32_429 : BitVec 32 := 11#32
  let v339 : Index := Scalar.indexCast c11_i32_429
  let c0_i32_134 : BitVec 32 := 0#32
  let c1_i32_136 : BitVec 32 := 1#32
  let arg11 : BitVec 32 := Scf.iv c0_i32_134 c1_i32_136 k1_t28
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![11, v340.toNat]
@[reducible] def k1_t29_loop : Scf.Loop 32 :=
  let c0_i32_139 : BitVec 32 := 0#32
  let c16_i32_140 : BitVec 32 := 16#32
  let v34 : BitVec 32 := Scalar.addi c0_i32_139 c16_i32_140
  let c1_i32_141 : BitVec 32 := 1#32
  ⟨c0_i32_139, v34, c1_i32_141⟩
def k1_off30 (k1_t29 : Fin k1_t29_loop.trips) (c0_i32_428 : BitVec 32) : Fin 2 → Nat :=
  let c12_i32_429 : BitVec 32 := 12#32
  let v339 : Index := Scalar.indexCast c12_i32_429
  let c0_i32_139 : BitVec 32 := 0#32
  let c1_i32_141 : BitVec 32 := 1#32
  let arg11 : BitVec 32 := Scf.iv c0_i32_139 c1_i32_141 k1_t29
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![12, v340.toNat]
@[reducible] def k1_t30_loop : Scf.Loop 32 :=
  let c0_i32_144 : BitVec 32 := 0#32
  let c16_i32_145 : BitVec 32 := 16#32
  let v35 : BitVec 32 := Scalar.addi c0_i32_144 c16_i32_145
  let c1_i32_146 : BitVec 32 := 1#32
  ⟨c0_i32_144, v35, c1_i32_146⟩
def k1_off31 (k1_t30 : Fin k1_t30_loop.trips) (c0_i32_428 : BitVec 32) : Fin 2 → Nat :=
  let c13_i32_429 : BitVec 32 := 13#32
  let v339 : Index := Scalar.indexCast c13_i32_429
  let c0_i32_144 : BitVec 32 := 0#32
  let c1_i32_146 : BitVec 32 := 1#32
  let arg11 : BitVec 32 := Scf.iv c0_i32_144 c1_i32_146 k1_t30
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![13, v340.toNat]
@[reducible] def k1_t31_loop : Scf.Loop 32 :=
  let c0_i32_149 : BitVec 32 := 0#32
  let c16_i32_150 : BitVec 32 := 16#32
  let v36 : BitVec 32 := Scalar.addi c0_i32_149 c16_i32_150
  let c1_i32_151 : BitVec 32 := 1#32
  ⟨c0_i32_149, v36, c1_i32_151⟩
def k1_off32 (k1_t31 : Fin k1_t31_loop.trips) (c0_i32_428 : BitVec 32) : Fin 2 → Nat :=
  let c14_i32_429 : BitVec 32 := 14#32
  let v339 : Index := Scalar.indexCast c14_i32_429
  let c0_i32_149 : BitVec 32 := 0#32
  let c1_i32_151 : BitVec 32 := 1#32
  let arg11 : BitVec 32 := Scf.iv c0_i32_149 c1_i32_151 k1_t31
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![14, v340.toNat]
@[reducible] def k1_t32_loop : Scf.Loop 32 :=
  let c0_i32_154 : BitVec 32 := 0#32
  let c16_i32_155 : BitVec 32 := 16#32
  let v37 : BitVec 32 := Scalar.addi c0_i32_154 c16_i32_155
  let c1_i32_156 : BitVec 32 := 1#32
  ⟨c0_i32_154, v37, c1_i32_156⟩
def k1_off33 (k1_t32 : Fin k1_t32_loop.trips) (c0_i32_428 : BitVec 32) : Fin 2 → Nat :=
  let c15_i32_429 : BitVec 32 := 15#32
  let v339 : Index := Scalar.indexCast c15_i32_429
  let c0_i32_154 : BitVec 32 := 0#32
  let c1_i32_156 : BitVec 32 := 1#32
  let arg11 : BitVec 32 := Scf.iv c0_i32_154 c1_i32_156 k1_t32
  let c16_i32_426 : BitVec 32 := 16#32
  let v336 : BitVec 32 := Scalar.muli arg11 c16_i32_426
  let c8_i32_427 : BitVec 32 := 8#32
  let v337 : BitVec 32 := Scalar.muli v336 c8_i32_427
  let v338 : BitVec 32 := Scalar.addi v337 c0_i32_428
  let v340 : Index := Scalar.indexCast v338
  ![15, v340.toNat]

def k1_chk1 (v38 : IVec S16 32) (v40 : IVec S16 32) : Prop :=
  (∀ a x, ((![v38, v40] : Fin 2 → IVec S16 32) a x).toNat < S16x2048.size a)
instance k1_chk1.dec : ∀ (v38 : IVec S16 32) (v40 : IVec S16 32), Decidable (k1_chk1 v38 v40) := fun v38 v40 => decidable_of_iff' _ (Iff.of_eq (k1_chk1.eq_1 v38 v40))
theorem k1_idx1_inb : ∀ (v38 : IVec S16 32) (v40 : IVec S16 32) (k1_hw1 : k1_chk1 v38 v40), ∀ a x, ((![v38, v40] : Fin 2 → IVec S16 32) a x).toNat < S16x2048.size a := fun v38 v40 k1_hw1 => k1_hw1

def k1_chk2 (v38 : IVec S16 32) (v44 : IVec S16 32) : Prop :=
  (∀ a x, ((![v38, v44] : Fin 2 → IVec S16 32) a x).toNat < S16x2048.size a)
instance k1_chk2.dec : ∀ (v38 : IVec S16 32) (v44 : IVec S16 32), Decidable (k1_chk2 v38 v44) := fun v38 v44 => decidable_of_iff' _ (Iff.of_eq (k1_chk2.eq_1 v38 v44))
theorem k1_idx2_inb : ∀ (v38 : IVec S16 32) (v44 : IVec S16 32) (k1_hw2 : k1_chk2 v38 v44), ∀ a x, ((![v38, v44] : Fin 2 → IVec S16 32) a x).toNat < S16x2048.size a := fun v38 v44 k1_hw2 => k1_hw2

def k1_chk3 (v47 : IVec S16 32) (v49 : IVec S16 32) : Prop :=
  (∀ a x, ((![v47, v49] : Fin 2 → IVec S16 32) a x).toNat < S16x2048.size a)
instance k1_chk3.dec : ∀ (v47 : IVec S16 32) (v49 : IVec S16 32), Decidable (k1_chk3 v47 v49) := fun v47 v49 => decidable_of_iff' _ (Iff.of_eq (k1_chk3.eq_1 v47 v49))
theorem k1_idx3_inb : ∀ (v47 : IVec S16 32) (v49 : IVec S16 32) (k1_hw3 : k1_chk3 v47 v49), ∀ a x, ((![v47, v49] : Fin 2 → IVec S16 32) a x).toNat < S16x2048.size a := fun v47 v49 k1_hw3 => k1_hw3

def k1_chk4 (v47 : IVec S16 32) (v53 : IVec S16 32) : Prop :=
  (∀ a x, ((![v47, v53] : Fin 2 → IVec S16 32) a x).toNat < S16x2048.size a)
instance k1_chk4.dec : ∀ (v47 : IVec S16 32) (v53 : IVec S16 32), Decidable (k1_chk4 v47 v53) := fun v47 v53 => decidable_of_iff' _ (Iff.of_eq (k1_chk4.eq_1 v47 v53))
theorem k1_idx4_inb : ∀ (v47 : IVec S16 32) (v53 : IVec S16 32) (k1_hw4 : k1_chk4 v47 v53), ∀ a x, ((![v47, v53] : Fin 2 → IVec S16 32) a x).toNat < S16x2048.size a := fun v47 v53 k1_hw4 => k1_hw4

def k1_chk5 (v56 : IVec S16 32) (v58 : IVec S16 32) : Prop :=
  (∀ a x, ((![v56, v58] : Fin 2 → IVec S16 32) a x).toNat < S16x2048.size a)
instance k1_chk5.dec : ∀ (v56 : IVec S16 32) (v58 : IVec S16 32), Decidable (k1_chk5 v56 v58) := fun v56 v58 => decidable_of_iff' _ (Iff.of_eq (k1_chk5.eq_1 v56 v58))
theorem k1_idx5_inb : ∀ (v56 : IVec S16 32) (v58 : IVec S16 32) (k1_hw5 : k1_chk5 v56 v58), ∀ a x, ((![v56, v58] : Fin 2 → IVec S16 32) a x).toNat < S16x2048.size a := fun v56 v58 k1_hw5 => k1_hw5

def k1_chk6 (v56 : IVec S16 32) (v62 : IVec S16 32) : Prop :=
  (∀ a x, ((![v56, v62] : Fin 2 → IVec S16 32) a x).toNat < S16x2048.size a)
instance k1_chk6.dec : ∀ (v56 : IVec S16 32) (v62 : IVec S16 32), Decidable (k1_chk6 v56 v62) := fun v56 v62 => decidable_of_iff' _ (Iff.of_eq (k1_chk6.eq_1 v56 v62))
theorem k1_idx6_inb : ∀ (v56 : IVec S16 32) (v62 : IVec S16 32) (k1_hw6 : k1_chk6 v56 v62), ∀ a x, ((![v56, v62] : Fin 2 → IVec S16 32) a x).toNat < S16x2048.size a := fun v56 v62 k1_hw6 => k1_hw6

def k1_chk7 (v65 : IVec S16 32) (v67 : IVec S16 32) : Prop :=
  (∀ a x, ((![v65, v67] : Fin 2 → IVec S16 32) a x).toNat < S16x2048.size a)
instance k1_chk7.dec : ∀ (v65 : IVec S16 32) (v67 : IVec S16 32), Decidable (k1_chk7 v65 v67) := fun v65 v67 => decidable_of_iff' _ (Iff.of_eq (k1_chk7.eq_1 v65 v67))
theorem k1_idx7_inb : ∀ (v65 : IVec S16 32) (v67 : IVec S16 32) (k1_hw7 : k1_chk7 v65 v67), ∀ a x, ((![v65, v67] : Fin 2 → IVec S16 32) a x).toNat < S16x2048.size a := fun v65 v67 k1_hw7 => k1_hw7

def k1_chk8 (v65 : IVec S16 32) (v71 : IVec S16 32) : Prop :=
  (∀ a x, ((![v65, v71] : Fin 2 → IVec S16 32) a x).toNat < S16x2048.size a)
instance k1_chk8.dec : ∀ (v65 : IVec S16 32) (v71 : IVec S16 32), Decidable (k1_chk8 v65 v71) := fun v65 v71 => decidable_of_iff' _ (Iff.of_eq (k1_chk8.eq_1 v65 v71))
theorem k1_idx8_inb : ∀ (v65 : IVec S16 32) (v71 : IVec S16 32) (k1_hw8 : k1_chk8 v65 v71), ∀ a x, ((![v65, v71] : Fin 2 → IVec S16 32) a x).toNat < S16x2048.size a := fun v65 v71 k1_hw8 => k1_hw8

def k1_chk9 (v74 : IVec S16 32) (v76 : IVec S16 32) : Prop :=
  (∀ a x, ((![v74, v76] : Fin 2 → IVec S16 32) a x).toNat < S16x2048.size a)
instance k1_chk9.dec : ∀ (v74 : IVec S16 32) (v76 : IVec S16 32), Decidable (k1_chk9 v74 v76) := fun v74 v76 => decidable_of_iff' _ (Iff.of_eq (k1_chk9.eq_1 v74 v76))
theorem k1_idx9_inb : ∀ (v74 : IVec S16 32) (v76 : IVec S16 32) (k1_hw9 : k1_chk9 v74 v76), ∀ a x, ((![v74, v76] : Fin 2 → IVec S16 32) a x).toNat < S16x2048.size a := fun v74 v76 k1_hw9 => k1_hw9

def k1_chk10 (v74 : IVec S16 32) (v80 : IVec S16 32) : Prop :=
  (∀ a x, ((![v74, v80] : Fin 2 → IVec S16 32) a x).toNat < S16x2048.size a)
instance k1_chk10.dec : ∀ (v74 : IVec S16 32) (v80 : IVec S16 32), Decidable (k1_chk10 v74 v80) := fun v74 v80 => decidable_of_iff' _ (Iff.of_eq (k1_chk10.eq_1 v74 v80))
theorem k1_idx10_inb : ∀ (v74 : IVec S16 32) (v80 : IVec S16 32) (k1_hw10 : k1_chk10 v74 v80), ∀ a x, ((![v74, v80] : Fin 2 → IVec S16 32) a x).toNat < S16x2048.size a := fun v74 v80 k1_hw10 => k1_hw10

def k1_chk11 (v83 : IVec S16 32) (v85 : IVec S16 32) : Prop :=
  (∀ a x, ((![v83, v85] : Fin 2 → IVec S16 32) a x).toNat < S16x2048.size a)
instance k1_chk11.dec : ∀ (v83 : IVec S16 32) (v85 : IVec S16 32), Decidable (k1_chk11 v83 v85) := fun v83 v85 => decidable_of_iff' _ (Iff.of_eq (k1_chk11.eq_1 v83 v85))
theorem k1_idx11_inb : ∀ (v83 : IVec S16 32) (v85 : IVec S16 32) (k1_hw11 : k1_chk11 v83 v85), ∀ a x, ((![v83, v85] : Fin 2 → IVec S16 32) a x).toNat < S16x2048.size a := fun v83 v85 k1_hw11 => k1_hw11

def k1_chk12 (v83 : IVec S16 32) (v89 : IVec S16 32) : Prop :=
  (∀ a x, ((![v83, v89] : Fin 2 → IVec S16 32) a x).toNat < S16x2048.size a)
instance k1_chk12.dec : ∀ (v83 : IVec S16 32) (v89 : IVec S16 32), Decidable (k1_chk12 v83 v89) := fun v83 v89 => decidable_of_iff' _ (Iff.of_eq (k1_chk12.eq_1 v83 v89))
theorem k1_idx12_inb : ∀ (v83 : IVec S16 32) (v89 : IVec S16 32) (k1_hw12 : k1_chk12 v83 v89), ∀ a x, ((![v83, v89] : Fin 2 → IVec S16 32) a x).toNat < S16x2048.size a := fun v83 v89 k1_hw12 => k1_hw12

def k1_chk13 (v92 : IVec S16 32) (v94 : IVec S16 32) : Prop :=
  (∀ a x, ((![v92, v94] : Fin 2 → IVec S16 32) a x).toNat < S16x2048.size a)
instance k1_chk13.dec : ∀ (v92 : IVec S16 32) (v94 : IVec S16 32), Decidable (k1_chk13 v92 v94) := fun v92 v94 => decidable_of_iff' _ (Iff.of_eq (k1_chk13.eq_1 v92 v94))
theorem k1_idx13_inb : ∀ (v92 : IVec S16 32) (v94 : IVec S16 32) (k1_hw13 : k1_chk13 v92 v94), ∀ a x, ((![v92, v94] : Fin 2 → IVec S16 32) a x).toNat < S16x2048.size a := fun v92 v94 k1_hw13 => k1_hw13

def k1_chk14 (v92 : IVec S16 32) (v98 : IVec S16 32) : Prop :=
  (∀ a x, ((![v92, v98] : Fin 2 → IVec S16 32) a x).toNat < S16x2048.size a)
instance k1_chk14.dec : ∀ (v92 : IVec S16 32) (v98 : IVec S16 32), Decidable (k1_chk14 v92 v98) := fun v92 v98 => decidable_of_iff' _ (Iff.of_eq (k1_chk14.eq_1 v92 v98))
theorem k1_idx14_inb : ∀ (v92 : IVec S16 32) (v98 : IVec S16 32) (k1_hw14 : k1_chk14 v92 v98), ∀ a x, ((![v92, v98] : Fin 2 → IVec S16 32) a x).toNat < S16x2048.size a := fun v92 v98 k1_hw14 => k1_hw14

def k1_chk15 (v101 : IVec S16 32) (v103 : IVec S16 32) : Prop :=
  (∀ a x, ((![v101, v103] : Fin 2 → IVec S16 32) a x).toNat < S16x2048.size a)
instance k1_chk15.dec : ∀ (v101 : IVec S16 32) (v103 : IVec S16 32), Decidable (k1_chk15 v101 v103) := fun v101 v103 => decidable_of_iff' _ (Iff.of_eq (k1_chk15.eq_1 v101 v103))
theorem k1_idx15_inb : ∀ (v101 : IVec S16 32) (v103 : IVec S16 32) (k1_hw15 : k1_chk15 v101 v103), ∀ a x, ((![v101, v103] : Fin 2 → IVec S16 32) a x).toNat < S16x2048.size a := fun v101 v103 k1_hw15 => k1_hw15

def k1_chk16 (v101 : IVec S16 32) (v107 : IVec S16 32) : Prop :=
  (∀ a x, ((![v101, v107] : Fin 2 → IVec S16 32) a x).toNat < S16x2048.size a)
instance k1_chk16.dec : ∀ (v101 : IVec S16 32) (v107 : IVec S16 32), Decidable (k1_chk16 v101 v107) := fun v101 v107 => decidable_of_iff' _ (Iff.of_eq (k1_chk16.eq_1 v101 v107))
theorem k1_idx16_inb : ∀ (v101 : IVec S16 32) (v107 : IVec S16 32) (k1_hw16 : k1_chk16 v101 v107), ∀ a x, ((![v101, v107] : Fin 2 → IVec S16 32) a x).toNat < S16x2048.size a := fun v101 v107 k1_hw16 => k1_hw16

def k1_chk17 (v110 : IVec S16 32) (v112 : IVec S16 32) : Prop :=
  (∀ a x, ((![v110, v112] : Fin 2 → IVec S16 32) a x).toNat < S16x2048.size a)
instance k1_chk17.dec : ∀ (v110 : IVec S16 32) (v112 : IVec S16 32), Decidable (k1_chk17 v110 v112) := fun v110 v112 => decidable_of_iff' _ (Iff.of_eq (k1_chk17.eq_1 v110 v112))
theorem k1_idx17_inb : ∀ (v110 : IVec S16 32) (v112 : IVec S16 32) (k1_hw17 : k1_chk17 v110 v112), ∀ a x, ((![v110, v112] : Fin 2 → IVec S16 32) a x).toNat < S16x2048.size a := fun v110 v112 k1_hw17 => k1_hw17

def k1_chk18 (v110 : IVec S16 32) (v116 : IVec S16 32) : Prop :=
  (∀ a x, ((![v110, v116] : Fin 2 → IVec S16 32) a x).toNat < S16x2048.size a)
instance k1_chk18.dec : ∀ (v110 : IVec S16 32) (v116 : IVec S16 32), Decidable (k1_chk18 v110 v116) := fun v110 v116 => decidable_of_iff' _ (Iff.of_eq (k1_chk18.eq_1 v110 v116))
theorem k1_idx18_inb : ∀ (v110 : IVec S16 32) (v116 : IVec S16 32) (k1_hw18 : k1_chk18 v110 v116), ∀ a x, ((![v110, v116] : Fin 2 → IVec S16 32) a x).toNat < S16x2048.size a := fun v110 v116 k1_hw18 => k1_hw18

def k1_chk19 (v119 : IVec S16 32) (v121 : IVec S16 32) : Prop :=
  (∀ a x, ((![v119, v121] : Fin 2 → IVec S16 32) a x).toNat < S16x2048.size a)
instance k1_chk19.dec : ∀ (v119 : IVec S16 32) (v121 : IVec S16 32), Decidable (k1_chk19 v119 v121) := fun v119 v121 => decidable_of_iff' _ (Iff.of_eq (k1_chk19.eq_1 v119 v121))
theorem k1_idx19_inb : ∀ (v119 : IVec S16 32) (v121 : IVec S16 32) (k1_hw19 : k1_chk19 v119 v121), ∀ a x, ((![v119, v121] : Fin 2 → IVec S16 32) a x).toNat < S16x2048.size a := fun v119 v121 k1_hw19 => k1_hw19

def k1_chk20 (v119 : IVec S16 32) (v125 : IVec S16 32) : Prop :=
  (∀ a x, ((![v119, v125] : Fin 2 → IVec S16 32) a x).toNat < S16x2048.size a)
instance k1_chk20.dec : ∀ (v119 : IVec S16 32) (v125 : IVec S16 32), Decidable (k1_chk20 v119 v125) := fun v119 v125 => decidable_of_iff' _ (Iff.of_eq (k1_chk20.eq_1 v119 v125))
theorem k1_idx20_inb : ∀ (v119 : IVec S16 32) (v125 : IVec S16 32) (k1_hw20 : k1_chk20 v119 v125), ∀ a x, ((![v119, v125] : Fin 2 → IVec S16 32) a x).toNat < S16x2048.size a := fun v119 v125 k1_hw20 => k1_hw20

def k1_chk21 (v128 : IVec S16 32) (v130 : IVec S16 32) : Prop :=
  (∀ a x, ((![v128, v130] : Fin 2 → IVec S16 32) a x).toNat < S16x2048.size a)
instance k1_chk21.dec : ∀ (v128 : IVec S16 32) (v130 : IVec S16 32), Decidable (k1_chk21 v128 v130) := fun v128 v130 => decidable_of_iff' _ (Iff.of_eq (k1_chk21.eq_1 v128 v130))
theorem k1_idx21_inb : ∀ (v128 : IVec S16 32) (v130 : IVec S16 32) (k1_hw21 : k1_chk21 v128 v130), ∀ a x, ((![v128, v130] : Fin 2 → IVec S16 32) a x).toNat < S16x2048.size a := fun v128 v130 k1_hw21 => k1_hw21

def k1_chk22 (v128 : IVec S16 32) (v134 : IVec S16 32) : Prop :=
  (∀ a x, ((![v128, v134] : Fin 2 → IVec S16 32) a x).toNat < S16x2048.size a)
instance k1_chk22.dec : ∀ (v128 : IVec S16 32) (v134 : IVec S16 32), Decidable (k1_chk22 v128 v134) := fun v128 v134 => decidable_of_iff' _ (Iff.of_eq (k1_chk22.eq_1 v128 v134))
theorem k1_idx22_inb : ∀ (v128 : IVec S16 32) (v134 : IVec S16 32) (k1_hw22 : k1_chk22 v128 v134), ∀ a x, ((![v128, v134] : Fin 2 → IVec S16 32) a x).toNat < S16x2048.size a := fun v128 v134 k1_hw22 => k1_hw22

def k1_chk23 (v137 : IVec S16 32) (v139 : IVec S16 32) : Prop :=
  (∀ a x, ((![v137, v139] : Fin 2 → IVec S16 32) a x).toNat < S16x2048.size a)
instance k1_chk23.dec : ∀ (v137 : IVec S16 32) (v139 : IVec S16 32), Decidable (k1_chk23 v137 v139) := fun v137 v139 => decidable_of_iff' _ (Iff.of_eq (k1_chk23.eq_1 v137 v139))
theorem k1_idx23_inb : ∀ (v137 : IVec S16 32) (v139 : IVec S16 32) (k1_hw23 : k1_chk23 v137 v139), ∀ a x, ((![v137, v139] : Fin 2 → IVec S16 32) a x).toNat < S16x2048.size a := fun v137 v139 k1_hw23 => k1_hw23

def k1_chk24 (v137 : IVec S16 32) (v143 : IVec S16 32) : Prop :=
  (∀ a x, ((![v137, v143] : Fin 2 → IVec S16 32) a x).toNat < S16x2048.size a)
instance k1_chk24.dec : ∀ (v137 : IVec S16 32) (v143 : IVec S16 32), Decidable (k1_chk24 v137 v143) := fun v137 v143 => decidable_of_iff' _ (Iff.of_eq (k1_chk24.eq_1 v137 v143))
theorem k1_idx24_inb : ∀ (v137 : IVec S16 32) (v143 : IVec S16 32) (k1_hw24 : k1_chk24 v137 v143), ∀ a x, ((![v137, v143] : Fin 2 → IVec S16 32) a x).toNat < S16x2048.size a := fun v137 v143 k1_hw24 => k1_hw24

def k1_chk25 (v146 : IVec S16 32) (v148 : IVec S16 32) : Prop :=
  (∀ a x, ((![v146, v148] : Fin 2 → IVec S16 32) a x).toNat < S16x2048.size a)
instance k1_chk25.dec : ∀ (v146 : IVec S16 32) (v148 : IVec S16 32), Decidable (k1_chk25 v146 v148) := fun v146 v148 => decidable_of_iff' _ (Iff.of_eq (k1_chk25.eq_1 v146 v148))
theorem k1_idx25_inb : ∀ (v146 : IVec S16 32) (v148 : IVec S16 32) (k1_hw25 : k1_chk25 v146 v148), ∀ a x, ((![v146, v148] : Fin 2 → IVec S16 32) a x).toNat < S16x2048.size a := fun v146 v148 k1_hw25 => k1_hw25

def k1_chk26 (v146 : IVec S16 32) (v152 : IVec S16 32) : Prop :=
  (∀ a x, ((![v146, v152] : Fin 2 → IVec S16 32) a x).toNat < S16x2048.size a)
instance k1_chk26.dec : ∀ (v146 : IVec S16 32) (v152 : IVec S16 32), Decidable (k1_chk26 v146 v152) := fun v146 v152 => decidable_of_iff' _ (Iff.of_eq (k1_chk26.eq_1 v146 v152))
theorem k1_idx26_inb : ∀ (v146 : IVec S16 32) (v152 : IVec S16 32) (k1_hw26 : k1_chk26 v146 v152), ∀ a x, ((![v146, v152] : Fin 2 → IVec S16 32) a x).toNat < S16x2048.size a := fun v146 v152 k1_hw26 => k1_hw26

def k1_chk27 (v155 : IVec S16 32) (v157 : IVec S16 32) : Prop :=
  (∀ a x, ((![v155, v157] : Fin 2 → IVec S16 32) a x).toNat < S16x2048.size a)
instance k1_chk27.dec : ∀ (v155 : IVec S16 32) (v157 : IVec S16 32), Decidable (k1_chk27 v155 v157) := fun v155 v157 => decidable_of_iff' _ (Iff.of_eq (k1_chk27.eq_1 v155 v157))
theorem k1_idx27_inb : ∀ (v155 : IVec S16 32) (v157 : IVec S16 32) (k1_hw27 : k1_chk27 v155 v157), ∀ a x, ((![v155, v157] : Fin 2 → IVec S16 32) a x).toNat < S16x2048.size a := fun v155 v157 k1_hw27 => k1_hw27

def k1_chk28 (v155 : IVec S16 32) (v161 : IVec S16 32) : Prop :=
  (∀ a x, ((![v155, v161] : Fin 2 → IVec S16 32) a x).toNat < S16x2048.size a)
instance k1_chk28.dec : ∀ (v155 : IVec S16 32) (v161 : IVec S16 32), Decidable (k1_chk28 v155 v161) := fun v155 v161 => decidable_of_iff' _ (Iff.of_eq (k1_chk28.eq_1 v155 v161))
theorem k1_idx28_inb : ∀ (v155 : IVec S16 32) (v161 : IVec S16 32) (k1_hw28 : k1_chk28 v155 v161), ∀ a x, ((![v155, v161] : Fin 2 → IVec S16 32) a x).toNat < S16x2048.size a := fun v155 v161 k1_hw28 => k1_hw28

def k1_chk29 (v164 : IVec S16 32) (v166 : IVec S16 32) : Prop :=
  (∀ a x, ((![v164, v166] : Fin 2 → IVec S16 32) a x).toNat < S16x2048.size a)
instance k1_chk29.dec : ∀ (v164 : IVec S16 32) (v166 : IVec S16 32), Decidable (k1_chk29 v164 v166) := fun v164 v166 => decidable_of_iff' _ (Iff.of_eq (k1_chk29.eq_1 v164 v166))
theorem k1_idx29_inb : ∀ (v164 : IVec S16 32) (v166 : IVec S16 32) (k1_hw29 : k1_chk29 v164 v166), ∀ a x, ((![v164, v166] : Fin 2 → IVec S16 32) a x).toNat < S16x2048.size a := fun v164 v166 k1_hw29 => k1_hw29

def k1_chk30 (v164 : IVec S16 32) (v170 : IVec S16 32) : Prop :=
  (∀ a x, ((![v164, v170] : Fin 2 → IVec S16 32) a x).toNat < S16x2048.size a)
instance k1_chk30.dec : ∀ (v164 : IVec S16 32) (v170 : IVec S16 32), Decidable (k1_chk30 v164 v170) := fun v164 v170 => decidable_of_iff' _ (Iff.of_eq (k1_chk30.eq_1 v164 v170))
theorem k1_idx30_inb : ∀ (v164 : IVec S16 32) (v170 : IVec S16 32) (k1_hw30 : k1_chk30 v164 v170), ∀ a x, ((![v164, v170] : Fin 2 → IVec S16 32) a x).toNat < S16x2048.size a := fun v164 v170 k1_hw30 => k1_hw30

def k1_chk31 (v173 : IVec S16 32) (v175 : IVec S16 32) : Prop :=
  (∀ a x, ((![v173, v175] : Fin 2 → IVec S16 32) a x).toNat < S16x2048.size a)
instance k1_chk31.dec : ∀ (v173 : IVec S16 32) (v175 : IVec S16 32), Decidable (k1_chk31 v173 v175) := fun v173 v175 => decidable_of_iff' _ (Iff.of_eq (k1_chk31.eq_1 v173 v175))
theorem k1_idx31_inb : ∀ (v173 : IVec S16 32) (v175 : IVec S16 32) (k1_hw31 : k1_chk31 v173 v175), ∀ a x, ((![v173, v175] : Fin 2 → IVec S16 32) a x).toNat < S16x2048.size a := fun v173 v175 k1_hw31 => k1_hw31

def k1_chk32 (v173 : IVec S16 32) (v179 : IVec S16 32) : Prop :=
  (∀ a x, ((![v173, v179] : Fin 2 → IVec S16 32) a x).toNat < S16x2048.size a)
instance k1_chk32.dec : ∀ (v173 : IVec S16 32) (v179 : IVec S16 32), Decidable (k1_chk32 v173 v179) := fun v173 v179 => decidable_of_iff' _ (Iff.of_eq (k1_chk32.eq_1 v173 v179))
theorem k1_idx32_inb : ∀ (v173 : IVec S16 32) (v179 : IVec S16 32) (k1_hw32 : k1_chk32 v173 v179), ∀ a x, ((![v173, v179] : Fin 2 → IVec S16 32) a x).toNat < S16x2048.size a := fun v173 v179 k1_hw32 => k1_hw32
def k1_off34 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_287 : BitVec 32 := 0#32
  let v182 : BitVec 32 := Scalar.addi v3 c0_i32_287
  let c0_i32_288 : BitVec 32 := 0#32
  ![v182.toNat, 0]

def k1_chk33 (v185 : IVec S16 32) (v187 : IVec S16 32) : Prop :=
  (∀ a x, ((![v185, v187] : Fin 2 → IVec S16 32) a x).toNat < S16x2048.size a)
instance k1_chk33.dec : ∀ (v185 : IVec S16 32) (v187 : IVec S16 32), Decidable (k1_chk33 v185 v187) := fun v185 v187 => decidable_of_iff' _ (Iff.of_eq (k1_chk33.eq_1 v185 v187))
theorem k1_idx33_inb : ∀ (v185 : IVec S16 32) (v187 : IVec S16 32) (k1_hw33 : k1_chk33 v185 v187), ∀ a x, ((![v185, v187] : Fin 2 → IVec S16 32) a x).toNat < S16x2048.size a := fun v185 v187 k1_hw33 => k1_hw33

def k1_chk34 (v185 : IVec S16 32) (v191 : IVec S16 32) : Prop :=
  (∀ a x, ((![v185, v191] : Fin 2 → IVec S16 32) a x).toNat < S16x2048.size a)
instance k1_chk34.dec : ∀ (v185 : IVec S16 32) (v191 : IVec S16 32), Decidable (k1_chk34 v185 v191) := fun v185 v191 => decidable_of_iff' _ (Iff.of_eq (k1_chk34.eq_1 v185 v191))
theorem k1_idx34_inb : ∀ (v185 : IVec S16 32) (v191 : IVec S16 32) (k1_hw34 : k1_chk34 v185 v191), ∀ a x, ((![v185, v191] : Fin 2 → IVec S16 32) a x).toNat < S16x2048.size a := fun v185 v191 k1_hw34 => k1_hw34

def k1_chk35 (v194 : IVec S16 32) (v196 : IVec S16 32) : Prop :=
  (∀ a x, ((![v194, v196] : Fin 2 → IVec S16 32) a x).toNat < S16x2048.size a)
instance k1_chk35.dec : ∀ (v194 : IVec S16 32) (v196 : IVec S16 32), Decidable (k1_chk35 v194 v196) := fun v194 v196 => decidable_of_iff' _ (Iff.of_eq (k1_chk35.eq_1 v194 v196))
theorem k1_idx35_inb : ∀ (v194 : IVec S16 32) (v196 : IVec S16 32) (k1_hw35 : k1_chk35 v194 v196), ∀ a x, ((![v194, v196] : Fin 2 → IVec S16 32) a x).toNat < S16x2048.size a := fun v194 v196 k1_hw35 => k1_hw35

def k1_chk36 (v194 : IVec S16 32) (v200 : IVec S16 32) : Prop :=
  (∀ a x, ((![v194, v200] : Fin 2 → IVec S16 32) a x).toNat < S16x2048.size a)
instance k1_chk36.dec : ∀ (v194 : IVec S16 32) (v200 : IVec S16 32), Decidable (k1_chk36 v194 v200) := fun v194 v200 => decidable_of_iff' _ (Iff.of_eq (k1_chk36.eq_1 v194 v200))
theorem k1_idx36_inb : ∀ (v194 : IVec S16 32) (v200 : IVec S16 32) (k1_hw36 : k1_chk36 v194 v200), ∀ a x, ((![v194, v200] : Fin 2 → IVec S16 32) a x).toNat < S16x2048.size a := fun v194 v200 k1_hw36 => k1_hw36

def k1_chk37 (v203 : IVec S16 32) (v205 : IVec S16 32) : Prop :=
  (∀ a x, ((![v203, v205] : Fin 2 → IVec S16 32) a x).toNat < S16x2048.size a)
instance k1_chk37.dec : ∀ (v203 : IVec S16 32) (v205 : IVec S16 32), Decidable (k1_chk37 v203 v205) := fun v203 v205 => decidable_of_iff' _ (Iff.of_eq (k1_chk37.eq_1 v203 v205))
theorem k1_idx37_inb : ∀ (v203 : IVec S16 32) (v205 : IVec S16 32) (k1_hw37 : k1_chk37 v203 v205), ∀ a x, ((![v203, v205] : Fin 2 → IVec S16 32) a x).toNat < S16x2048.size a := fun v203 v205 k1_hw37 => k1_hw37

def k1_chk38 (v203 : IVec S16 32) (v209 : IVec S16 32) : Prop :=
  (∀ a x, ((![v203, v209] : Fin 2 → IVec S16 32) a x).toNat < S16x2048.size a)
instance k1_chk38.dec : ∀ (v203 : IVec S16 32) (v209 : IVec S16 32), Decidable (k1_chk38 v203 v209) := fun v203 v209 => decidable_of_iff' _ (Iff.of_eq (k1_chk38.eq_1 v203 v209))
theorem k1_idx38_inb : ∀ (v203 : IVec S16 32) (v209 : IVec S16 32) (k1_hw38 : k1_chk38 v203 v209), ∀ a x, ((![v203, v209] : Fin 2 → IVec S16 32) a x).toNat < S16x2048.size a := fun v203 v209 k1_hw38 => k1_hw38

def k1_chk39 (v212 : IVec S16 32) (v214 : IVec S16 32) : Prop :=
  (∀ a x, ((![v212, v214] : Fin 2 → IVec S16 32) a x).toNat < S16x2048.size a)
instance k1_chk39.dec : ∀ (v212 : IVec S16 32) (v214 : IVec S16 32), Decidable (k1_chk39 v212 v214) := fun v212 v214 => decidable_of_iff' _ (Iff.of_eq (k1_chk39.eq_1 v212 v214))
theorem k1_idx39_inb : ∀ (v212 : IVec S16 32) (v214 : IVec S16 32) (k1_hw39 : k1_chk39 v212 v214), ∀ a x, ((![v212, v214] : Fin 2 → IVec S16 32) a x).toNat < S16x2048.size a := fun v212 v214 k1_hw39 => k1_hw39

def k1_chk40 (v212 : IVec S16 32) (v218 : IVec S16 32) : Prop :=
  (∀ a x, ((![v212, v218] : Fin 2 → IVec S16 32) a x).toNat < S16x2048.size a)
instance k1_chk40.dec : ∀ (v212 : IVec S16 32) (v218 : IVec S16 32), Decidable (k1_chk40 v212 v218) := fun v212 v218 => decidable_of_iff' _ (Iff.of_eq (k1_chk40.eq_1 v212 v218))
theorem k1_idx40_inb : ∀ (v212 : IVec S16 32) (v218 : IVec S16 32) (k1_hw40 : k1_chk40 v212 v218), ∀ a x, ((![v212, v218] : Fin 2 → IVec S16 32) a x).toNat < S16x2048.size a := fun v212 v218 k1_hw40 => k1_hw40

def k1_chk41 (v221 : IVec S16 32) (v223 : IVec S16 32) : Prop :=
  (∀ a x, ((![v221, v223] : Fin 2 → IVec S16 32) a x).toNat < S16x2048.size a)
instance k1_chk41.dec : ∀ (v221 : IVec S16 32) (v223 : IVec S16 32), Decidable (k1_chk41 v221 v223) := fun v221 v223 => decidable_of_iff' _ (Iff.of_eq (k1_chk41.eq_1 v221 v223))
theorem k1_idx41_inb : ∀ (v221 : IVec S16 32) (v223 : IVec S16 32) (k1_hw41 : k1_chk41 v221 v223), ∀ a x, ((![v221, v223] : Fin 2 → IVec S16 32) a x).toNat < S16x2048.size a := fun v221 v223 k1_hw41 => k1_hw41

def k1_chk42 (v221 : IVec S16 32) (v227 : IVec S16 32) : Prop :=
  (∀ a x, ((![v221, v227] : Fin 2 → IVec S16 32) a x).toNat < S16x2048.size a)
instance k1_chk42.dec : ∀ (v221 : IVec S16 32) (v227 : IVec S16 32), Decidable (k1_chk42 v221 v227) := fun v221 v227 => decidable_of_iff' _ (Iff.of_eq (k1_chk42.eq_1 v221 v227))
theorem k1_idx42_inb : ∀ (v221 : IVec S16 32) (v227 : IVec S16 32) (k1_hw42 : k1_chk42 v221 v227), ∀ a x, ((![v221, v227] : Fin 2 → IVec S16 32) a x).toNat < S16x2048.size a := fun v221 v227 k1_hw42 => k1_hw42

def k1_chk43 (v230 : IVec S16 32) (v232 : IVec S16 32) : Prop :=
  (∀ a x, ((![v230, v232] : Fin 2 → IVec S16 32) a x).toNat < S16x2048.size a)
instance k1_chk43.dec : ∀ (v230 : IVec S16 32) (v232 : IVec S16 32), Decidable (k1_chk43 v230 v232) := fun v230 v232 => decidable_of_iff' _ (Iff.of_eq (k1_chk43.eq_1 v230 v232))
theorem k1_idx43_inb : ∀ (v230 : IVec S16 32) (v232 : IVec S16 32) (k1_hw43 : k1_chk43 v230 v232), ∀ a x, ((![v230, v232] : Fin 2 → IVec S16 32) a x).toNat < S16x2048.size a := fun v230 v232 k1_hw43 => k1_hw43

def k1_chk44 (v230 : IVec S16 32) (v236 : IVec S16 32) : Prop :=
  (∀ a x, ((![v230, v236] : Fin 2 → IVec S16 32) a x).toNat < S16x2048.size a)
instance k1_chk44.dec : ∀ (v230 : IVec S16 32) (v236 : IVec S16 32), Decidable (k1_chk44 v230 v236) := fun v230 v236 => decidable_of_iff' _ (Iff.of_eq (k1_chk44.eq_1 v230 v236))
theorem k1_idx44_inb : ∀ (v230 : IVec S16 32) (v236 : IVec S16 32) (k1_hw44 : k1_chk44 v230 v236), ∀ a x, ((![v230, v236] : Fin 2 → IVec S16 32) a x).toNat < S16x2048.size a := fun v230 v236 k1_hw44 => k1_hw44

def k1_chk45 (v239 : IVec S16 32) (v241 : IVec S16 32) : Prop :=
  (∀ a x, ((![v239, v241] : Fin 2 → IVec S16 32) a x).toNat < S16x2048.size a)
instance k1_chk45.dec : ∀ (v239 : IVec S16 32) (v241 : IVec S16 32), Decidable (k1_chk45 v239 v241) := fun v239 v241 => decidable_of_iff' _ (Iff.of_eq (k1_chk45.eq_1 v239 v241))
theorem k1_idx45_inb : ∀ (v239 : IVec S16 32) (v241 : IVec S16 32) (k1_hw45 : k1_chk45 v239 v241), ∀ a x, ((![v239, v241] : Fin 2 → IVec S16 32) a x).toNat < S16x2048.size a := fun v239 v241 k1_hw45 => k1_hw45

def k1_chk46 (v239 : IVec S16 32) (v245 : IVec S16 32) : Prop :=
  (∀ a x, ((![v239, v245] : Fin 2 → IVec S16 32) a x).toNat < S16x2048.size a)
instance k1_chk46.dec : ∀ (v239 : IVec S16 32) (v245 : IVec S16 32), Decidable (k1_chk46 v239 v245) := fun v239 v245 => decidable_of_iff' _ (Iff.of_eq (k1_chk46.eq_1 v239 v245))
theorem k1_idx46_inb : ∀ (v239 : IVec S16 32) (v245 : IVec S16 32) (k1_hw46 : k1_chk46 v239 v245), ∀ a x, ((![v239, v245] : Fin 2 → IVec S16 32) a x).toNat < S16x2048.size a := fun v239 v245 k1_hw46 => k1_hw46

def k1_chk47 (v248 : IVec S16 32) (v250 : IVec S16 32) : Prop :=
  (∀ a x, ((![v248, v250] : Fin 2 → IVec S16 32) a x).toNat < S16x2048.size a)
instance k1_chk47.dec : ∀ (v248 : IVec S16 32) (v250 : IVec S16 32), Decidable (k1_chk47 v248 v250) := fun v248 v250 => decidable_of_iff' _ (Iff.of_eq (k1_chk47.eq_1 v248 v250))
theorem k1_idx47_inb : ∀ (v248 : IVec S16 32) (v250 : IVec S16 32) (k1_hw47 : k1_chk47 v248 v250), ∀ a x, ((![v248, v250] : Fin 2 → IVec S16 32) a x).toNat < S16x2048.size a := fun v248 v250 k1_hw47 => k1_hw47

def k1_chk48 (v248 : IVec S16 32) (v254 : IVec S16 32) : Prop :=
  (∀ a x, ((![v248, v254] : Fin 2 → IVec S16 32) a x).toNat < S16x2048.size a)
instance k1_chk48.dec : ∀ (v248 : IVec S16 32) (v254 : IVec S16 32), Decidable (k1_chk48 v248 v254) := fun v248 v254 => decidable_of_iff' _ (Iff.of_eq (k1_chk48.eq_1 v248 v254))
theorem k1_idx48_inb : ∀ (v248 : IVec S16 32) (v254 : IVec S16 32) (k1_hw48 : k1_chk48 v248 v254), ∀ a x, ((![v248, v254] : Fin 2 → IVec S16 32) a x).toNat < S16x2048.size a := fun v248 v254 k1_hw48 => k1_hw48

def k1_chk49 (v257 : IVec S16 32) (v259 : IVec S16 32) : Prop :=
  (∀ a x, ((![v257, v259] : Fin 2 → IVec S16 32) a x).toNat < S16x2048.size a)
instance k1_chk49.dec : ∀ (v257 : IVec S16 32) (v259 : IVec S16 32), Decidable (k1_chk49 v257 v259) := fun v257 v259 => decidable_of_iff' _ (Iff.of_eq (k1_chk49.eq_1 v257 v259))
theorem k1_idx49_inb : ∀ (v257 : IVec S16 32) (v259 : IVec S16 32) (k1_hw49 : k1_chk49 v257 v259), ∀ a x, ((![v257, v259] : Fin 2 → IVec S16 32) a x).toNat < S16x2048.size a := fun v257 v259 k1_hw49 => k1_hw49

def k1_chk50 (v257 : IVec S16 32) (v263 : IVec S16 32) : Prop :=
  (∀ a x, ((![v257, v263] : Fin 2 → IVec S16 32) a x).toNat < S16x2048.size a)
instance k1_chk50.dec : ∀ (v257 : IVec S16 32) (v263 : IVec S16 32), Decidable (k1_chk50 v257 v263) := fun v257 v263 => decidable_of_iff' _ (Iff.of_eq (k1_chk50.eq_1 v257 v263))
theorem k1_idx50_inb : ∀ (v257 : IVec S16 32) (v263 : IVec S16 32) (k1_hw50 : k1_chk50 v257 v263), ∀ a x, ((![v257, v263] : Fin 2 → IVec S16 32) a x).toNat < S16x2048.size a := fun v257 v263 k1_hw50 => k1_hw50

def k1_chk51 (v266 : IVec S16 32) (v268 : IVec S16 32) : Prop :=
  (∀ a x, ((![v266, v268] : Fin 2 → IVec S16 32) a x).toNat < S16x2048.size a)
instance k1_chk51.dec : ∀ (v266 : IVec S16 32) (v268 : IVec S16 32), Decidable (k1_chk51 v266 v268) := fun v266 v268 => decidable_of_iff' _ (Iff.of_eq (k1_chk51.eq_1 v266 v268))
theorem k1_idx51_inb : ∀ (v266 : IVec S16 32) (v268 : IVec S16 32) (k1_hw51 : k1_chk51 v266 v268), ∀ a x, ((![v266, v268] : Fin 2 → IVec S16 32) a x).toNat < S16x2048.size a := fun v266 v268 k1_hw51 => k1_hw51

def k1_chk52 (v266 : IVec S16 32) (v272 : IVec S16 32) : Prop :=
  (∀ a x, ((![v266, v272] : Fin 2 → IVec S16 32) a x).toNat < S16x2048.size a)
instance k1_chk52.dec : ∀ (v266 : IVec S16 32) (v272 : IVec S16 32), Decidable (k1_chk52 v266 v272) := fun v266 v272 => decidable_of_iff' _ (Iff.of_eq (k1_chk52.eq_1 v266 v272))
theorem k1_idx52_inb : ∀ (v266 : IVec S16 32) (v272 : IVec S16 32) (k1_hw52 : k1_chk52 v266 v272), ∀ a x, ((![v266, v272] : Fin 2 → IVec S16 32) a x).toNat < S16x2048.size a := fun v266 v272 k1_hw52 => k1_hw52

def k1_chk53 (v275 : IVec S16 32) (v277 : IVec S16 32) : Prop :=
  (∀ a x, ((![v275, v277] : Fin 2 → IVec S16 32) a x).toNat < S16x2048.size a)
instance k1_chk53.dec : ∀ (v275 : IVec S16 32) (v277 : IVec S16 32), Decidable (k1_chk53 v275 v277) := fun v275 v277 => decidable_of_iff' _ (Iff.of_eq (k1_chk53.eq_1 v275 v277))
theorem k1_idx53_inb : ∀ (v275 : IVec S16 32) (v277 : IVec S16 32) (k1_hw53 : k1_chk53 v275 v277), ∀ a x, ((![v275, v277] : Fin 2 → IVec S16 32) a x).toNat < S16x2048.size a := fun v275 v277 k1_hw53 => k1_hw53

def k1_chk54 (v275 : IVec S16 32) (v281 : IVec S16 32) : Prop :=
  (∀ a x, ((![v275, v281] : Fin 2 → IVec S16 32) a x).toNat < S16x2048.size a)
instance k1_chk54.dec : ∀ (v275 : IVec S16 32) (v281 : IVec S16 32), Decidable (k1_chk54 v275 v281) := fun v275 v281 => decidable_of_iff' _ (Iff.of_eq (k1_chk54.eq_1 v275 v281))
theorem k1_idx54_inb : ∀ (v275 : IVec S16 32) (v281 : IVec S16 32) (k1_hw54 : k1_chk54 v275 v281), ∀ a x, ((![v275, v281] : Fin 2 → IVec S16 32) a x).toNat < S16x2048.size a := fun v275 v281 k1_hw54 => k1_hw54

def k1_chk55 (v284 : IVec S16 32) (v286 : IVec S16 32) : Prop :=
  (∀ a x, ((![v284, v286] : Fin 2 → IVec S16 32) a x).toNat < S16x2048.size a)
instance k1_chk55.dec : ∀ (v284 : IVec S16 32) (v286 : IVec S16 32), Decidable (k1_chk55 v284 v286) := fun v284 v286 => decidable_of_iff' _ (Iff.of_eq (k1_chk55.eq_1 v284 v286))
theorem k1_idx55_inb : ∀ (v284 : IVec S16 32) (v286 : IVec S16 32) (k1_hw55 : k1_chk55 v284 v286), ∀ a x, ((![v284, v286] : Fin 2 → IVec S16 32) a x).toNat < S16x2048.size a := fun v284 v286 k1_hw55 => k1_hw55

def k1_chk56 (v284 : IVec S16 32) (v290 : IVec S16 32) : Prop :=
  (∀ a x, ((![v284, v290] : Fin 2 → IVec S16 32) a x).toNat < S16x2048.size a)
instance k1_chk56.dec : ∀ (v284 : IVec S16 32) (v290 : IVec S16 32), Decidable (k1_chk56 v284 v290) := fun v284 v290 => decidable_of_iff' _ (Iff.of_eq (k1_chk56.eq_1 v284 v290))
theorem k1_idx56_inb : ∀ (v284 : IVec S16 32) (v290 : IVec S16 32) (k1_hw56 : k1_chk56 v284 v290), ∀ a x, ((![v284, v290] : Fin 2 → IVec S16 32) a x).toNat < S16x2048.size a := fun v284 v290 k1_hw56 => k1_hw56

def k1_chk57 (v293 : IVec S16 32) (v295 : IVec S16 32) : Prop :=
  (∀ a x, ((![v293, v295] : Fin 2 → IVec S16 32) a x).toNat < S16x2048.size a)
instance k1_chk57.dec : ∀ (v293 : IVec S16 32) (v295 : IVec S16 32), Decidable (k1_chk57 v293 v295) := fun v293 v295 => decidable_of_iff' _ (Iff.of_eq (k1_chk57.eq_1 v293 v295))
theorem k1_idx57_inb : ∀ (v293 : IVec S16 32) (v295 : IVec S16 32) (k1_hw57 : k1_chk57 v293 v295), ∀ a x, ((![v293, v295] : Fin 2 → IVec S16 32) a x).toNat < S16x2048.size a := fun v293 v295 k1_hw57 => k1_hw57

def k1_chk58 (v293 : IVec S16 32) (v299 : IVec S16 32) : Prop :=
  (∀ a x, ((![v293, v299] : Fin 2 → IVec S16 32) a x).toNat < S16x2048.size a)
instance k1_chk58.dec : ∀ (v293 : IVec S16 32) (v299 : IVec S16 32), Decidable (k1_chk58 v293 v299) := fun v293 v299 => decidable_of_iff' _ (Iff.of_eq (k1_chk58.eq_1 v293 v299))
theorem k1_idx58_inb : ∀ (v293 : IVec S16 32) (v299 : IVec S16 32) (k1_hw58 : k1_chk58 v293 v299), ∀ a x, ((![v293, v299] : Fin 2 → IVec S16 32) a x).toNat < S16x2048.size a := fun v293 v299 k1_hw58 => k1_hw58

def k1_chk59 (v302 : IVec S16 32) (v304 : IVec S16 32) : Prop :=
  (∀ a x, ((![v302, v304] : Fin 2 → IVec S16 32) a x).toNat < S16x2048.size a)
instance k1_chk59.dec : ∀ (v302 : IVec S16 32) (v304 : IVec S16 32), Decidable (k1_chk59 v302 v304) := fun v302 v304 => decidable_of_iff' _ (Iff.of_eq (k1_chk59.eq_1 v302 v304))
theorem k1_idx59_inb : ∀ (v302 : IVec S16 32) (v304 : IVec S16 32) (k1_hw59 : k1_chk59 v302 v304), ∀ a x, ((![v302, v304] : Fin 2 → IVec S16 32) a x).toNat < S16x2048.size a := fun v302 v304 k1_hw59 => k1_hw59

def k1_chk60 (v302 : IVec S16 32) (v308 : IVec S16 32) : Prop :=
  (∀ a x, ((![v302, v308] : Fin 2 → IVec S16 32) a x).toNat < S16x2048.size a)
instance k1_chk60.dec : ∀ (v302 : IVec S16 32) (v308 : IVec S16 32), Decidable (k1_chk60 v302 v308) := fun v302 v308 => decidable_of_iff' _ (Iff.of_eq (k1_chk60.eq_1 v302 v308))
theorem k1_idx60_inb : ∀ (v302 : IVec S16 32) (v308 : IVec S16 32) (k1_hw60 : k1_chk60 v302 v308), ∀ a x, ((![v302, v308] : Fin 2 → IVec S16 32) a x).toNat < S16x2048.size a := fun v302 v308 k1_hw60 => k1_hw60

def k1_chk61 (v311 : IVec S16 32) (v313 : IVec S16 32) : Prop :=
  (∀ a x, ((![v311, v313] : Fin 2 → IVec S16 32) a x).toNat < S16x2048.size a)
instance k1_chk61.dec : ∀ (v311 : IVec S16 32) (v313 : IVec S16 32), Decidable (k1_chk61 v311 v313) := fun v311 v313 => decidable_of_iff' _ (Iff.of_eq (k1_chk61.eq_1 v311 v313))
theorem k1_idx61_inb : ∀ (v311 : IVec S16 32) (v313 : IVec S16 32) (k1_hw61 : k1_chk61 v311 v313), ∀ a x, ((![v311, v313] : Fin 2 → IVec S16 32) a x).toNat < S16x2048.size a := fun v311 v313 k1_hw61 => k1_hw61

def k1_chk62 (v311 : IVec S16 32) (v317 : IVec S16 32) : Prop :=
  (∀ a x, ((![v311, v317] : Fin 2 → IVec S16 32) a x).toNat < S16x2048.size a)
instance k1_chk62.dec : ∀ (v311 : IVec S16 32) (v317 : IVec S16 32), Decidable (k1_chk62 v311 v317) := fun v311 v317 => decidable_of_iff' _ (Iff.of_eq (k1_chk62.eq_1 v311 v317))
theorem k1_idx62_inb : ∀ (v311 : IVec S16 32) (v317 : IVec S16 32) (k1_hw62 : k1_chk62 v311 v317), ∀ a x, ((![v311, v317] : Fin 2 → IVec S16 32) a x).toNat < S16x2048.size a := fun v311 v317 k1_hw62 => k1_hw62

def k1_chk63 (v320 : IVec S16 32) (v322 : IVec S16 32) : Prop :=
  (∀ a x, ((![v320, v322] : Fin 2 → IVec S16 32) a x).toNat < S16x2048.size a)
instance k1_chk63.dec : ∀ (v320 : IVec S16 32) (v322 : IVec S16 32), Decidable (k1_chk63 v320 v322) := fun v320 v322 => decidable_of_iff' _ (Iff.of_eq (k1_chk63.eq_1 v320 v322))
theorem k1_idx63_inb : ∀ (v320 : IVec S16 32) (v322 : IVec S16 32) (k1_hw63 : k1_chk63 v320 v322), ∀ a x, ((![v320, v322] : Fin 2 → IVec S16 32) a x).toNat < S16x2048.size a := fun v320 v322 k1_hw63 => k1_hw63

def k1_chk64 (v320 : IVec S16 32) (v326 : IVec S16 32) : Prop :=
  (∀ a x, ((![v320, v326] : Fin 2 → IVec S16 32) a x).toNat < S16x2048.size a)
instance k1_chk64.dec : ∀ (v320 : IVec S16 32) (v326 : IVec S16 32), Decidable (k1_chk64 v320 v326) := fun v320 v326 => decidable_of_iff' _ (Iff.of_eq (k1_chk64.eq_1 v320 v326))
theorem k1_idx64_inb : ∀ (v320 : IVec S16 32) (v326 : IVec S16 32) (k1_hw64 : k1_chk64 v320 v326), ∀ a x, ((![v320, v326] : Fin 2 → IVec S16 32) a x).toNat < S16x2048.size a := fun v320 v326 k1_hw64 => k1_hw64
def k1_off35 (i : grid1.Coords) (c16_i32_419 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let v329 : BitVec 32 := Scalar.addi v3 c16_i32_419
  let c0_i32_420 : BitVec 32 := 0#32
  ![v329.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  inb_S32x32_S1x16_0_0 : ∀ a, (![0, 0] : Fin 2 → Nat) a + S1x16.size a ≤ S32x32.size a
  h_S16x2048 : 0 < S16x2048.numel
  inb_S32x32_S1x16_0_16 : ∀ a, (![0, 16] : Fin 2 → Nat) a + S1x16.size a ≤ S32x32.size a
  inb_S32x32_S1x16_1_0 : ∀ a, (![1, 0] : Fin 2 → Nat) a + S1x16.size a ≤ S32x32.size a
  inb_S32x32_S1x16_1_16 : ∀ a, (![1, 16] : Fin 2 → Nat) a + S1x16.size a ≤ S32x32.size a
  inb_S32x32_S1x16_2_0 : ∀ a, (![2, 0] : Fin 2 → Nat) a + S1x16.size a ≤ S32x32.size a
  inb_S32x32_S1x16_2_16 : ∀ a, (![2, 16] : Fin 2 → Nat) a + S1x16.size a ≤ S32x32.size a
  inb_S32x32_S1x16_3_0 : ∀ a, (![3, 0] : Fin 2 → Nat) a + S1x16.size a ≤ S32x32.size a
  inb_S32x32_S1x16_3_16 : ∀ a, (![3, 16] : Fin 2 → Nat) a + S1x16.size a ≤ S32x32.size a
  inb_S32x32_S1x16_4_0 : ∀ a, (![4, 0] : Fin 2 → Nat) a + S1x16.size a ≤ S32x32.size a
  inb_S32x32_S1x16_4_16 : ∀ a, (![4, 16] : Fin 2 → Nat) a + S1x16.size a ≤ S32x32.size a
  inb_S32x32_S1x16_5_0 : ∀ a, (![5, 0] : Fin 2 → Nat) a + S1x16.size a ≤ S32x32.size a
  inb_S32x32_S1x16_5_16 : ∀ a, (![5, 16] : Fin 2 → Nat) a + S1x16.size a ≤ S32x32.size a
  inb_S32x32_S1x16_6_0 : ∀ a, (![6, 0] : Fin 2 → Nat) a + S1x16.size a ≤ S32x32.size a
  inb_S32x32_S1x16_6_16 : ∀ a, (![6, 16] : Fin 2 → Nat) a + S1x16.size a ≤ S32x32.size a
  inb_S32x32_S1x16_7_0 : ∀ a, (![7, 0] : Fin 2 → Nat) a + S1x16.size a ≤ S32x32.size a
  inb_S32x32_S1x16_7_16 : ∀ a, (![7, 16] : Fin 2 → Nat) a + S1x16.size a ≤ S32x32.size a
  inb_S32x32_S1x16_8_0 : ∀ a, (![8, 0] : Fin 2 → Nat) a + S1x16.size a ≤ S32x32.size a
  inb_S32x32_S1x16_8_16 : ∀ a, (![8, 16] : Fin 2 → Nat) a + S1x16.size a ≤ S32x32.size a
  inb_S32x32_S1x16_9_0 : ∀ a, (![9, 0] : Fin 2 → Nat) a + S1x16.size a ≤ S32x32.size a
  inb_S32x32_S1x16_9_16 : ∀ a, (![9, 16] : Fin 2 → Nat) a + S1x16.size a ≤ S32x32.size a
  inb_S32x32_S1x16_10_0 : ∀ a, (![10, 0] : Fin 2 → Nat) a + S1x16.size a ≤ S32x32.size a
  inb_S32x32_S1x16_10_16 : ∀ a, (![10, 16] : Fin 2 → Nat) a + S1x16.size a ≤ S32x32.size a
  inb_S32x32_S1x16_11_0 : ∀ a, (![11, 0] : Fin 2 → Nat) a + S1x16.size a ≤ S32x32.size a
  inb_S32x32_S1x16_11_16 : ∀ a, (![11, 16] : Fin 2 → Nat) a + S1x16.size a ≤ S32x32.size a
  inb_S32x32_S1x16_12_0 : ∀ a, (![12, 0] : Fin 2 → Nat) a + S1x16.size a ≤ S32x32.size a
  inb_S32x32_S1x16_12_16 : ∀ a, (![12, 16] : Fin 2 → Nat) a + S1x16.size a ≤ S32x32.size a
  inb_S32x32_S1x16_13_0 : ∀ a, (![13, 0] : Fin 2 → Nat) a + S1x16.size a ≤ S32x32.size a
  inb_S32x32_S1x16_13_16 : ∀ a, (![13, 16] : Fin 2 → Nat) a + S1x16.size a ≤ S32x32.size a
  inb_S32x32_S1x16_14_0 : ∀ a, (![14, 0] : Fin 2 → Nat) a + S1x16.size a ≤ S32x32.size a
  inb_S32x32_S1x16_14_16 : ∀ a, (![14, 16] : Fin 2 → Nat) a + S1x16.size a ≤ S32x32.size a
  inb_S32x32_S1x16_15_0 : ∀ a, (![15, 0] : Fin 2 → Nat) a + S1x16.size a ≤ S32x32.size a
  inb_S32x32_S1x16_15_16 : ∀ a, (![15, 16] : Fin 2 → Nat) a + S1x16.size a ≤ S32x32.size a
  inb_S32x32_S1x16_16_0 : ∀ a, (![16, 0] : Fin 2 → Nat) a + S1x16.size a ≤ S32x32.size a
  inb_S32x32_S1x16_16_16 : ∀ a, (![16, 16] : Fin 2 → Nat) a + S1x16.size a ≤ S32x32.size a
  inb_S32x32_S1x16_17_0 : ∀ a, (![17, 0] : Fin 2 → Nat) a + S1x16.size a ≤ S32x32.size a
  inb_S32x32_S1x16_17_16 : ∀ a, (![17, 16] : Fin 2 → Nat) a + S1x16.size a ≤ S32x32.size a
  inb_S32x32_S1x16_18_0 : ∀ a, (![18, 0] : Fin 2 → Nat) a + S1x16.size a ≤ S32x32.size a
  inb_S32x32_S1x16_18_16 : ∀ a, (![18, 16] : Fin 2 → Nat) a + S1x16.size a ≤ S32x32.size a
  inb_S32x32_S1x16_19_0 : ∀ a, (![19, 0] : Fin 2 → Nat) a + S1x16.size a ≤ S32x32.size a
  inb_S32x32_S1x16_19_16 : ∀ a, (![19, 16] : Fin 2 → Nat) a + S1x16.size a ≤ S32x32.size a
  inb_S32x32_S1x16_20_0 : ∀ a, (![20, 0] : Fin 2 → Nat) a + S1x16.size a ≤ S32x32.size a
  inb_S32x32_S1x16_20_16 : ∀ a, (![20, 16] : Fin 2 → Nat) a + S1x16.size a ≤ S32x32.size a
  inb_S32x32_S1x16_21_0 : ∀ a, (![21, 0] : Fin 2 → Nat) a + S1x16.size a ≤ S32x32.size a
  inb_S32x32_S1x16_21_16 : ∀ a, (![21, 16] : Fin 2 → Nat) a + S1x16.size a ≤ S32x32.size a
  inb_S32x32_S1x16_22_0 : ∀ a, (![22, 0] : Fin 2 → Nat) a + S1x16.size a ≤ S32x32.size a
  inb_S32x32_S1x16_22_16 : ∀ a, (![22, 16] : Fin 2 → Nat) a + S1x16.size a ≤ S32x32.size a
  inb_S32x32_S1x16_23_0 : ∀ a, (![23, 0] : Fin 2 → Nat) a + S1x16.size a ≤ S32x32.size a
  inb_S32x32_S1x16_23_16 : ∀ a, (![23, 16] : Fin 2 → Nat) a + S1x16.size a ≤ S32x32.size a
  inb_S32x32_S1x16_24_0 : ∀ a, (![24, 0] : Fin 2 → Nat) a + S1x16.size a ≤ S32x32.size a
  inb_S32x32_S1x16_24_16 : ∀ a, (![24, 16] : Fin 2 → Nat) a + S1x16.size a ≤ S32x32.size a
  inb_S32x32_S1x16_25_0 : ∀ a, (![25, 0] : Fin 2 → Nat) a + S1x16.size a ≤ S32x32.size a
  inb_S32x32_S1x16_25_16 : ∀ a, (![25, 16] : Fin 2 → Nat) a + S1x16.size a ≤ S32x32.size a
  inb_S32x32_S1x16_26_0 : ∀ a, (![26, 0] : Fin 2 → Nat) a + S1x16.size a ≤ S32x32.size a
  inb_S32x32_S1x16_26_16 : ∀ a, (![26, 16] : Fin 2 → Nat) a + S1x16.size a ≤ S32x32.size a
  inb_S32x32_S1x16_27_0 : ∀ a, (![27, 0] : Fin 2 → Nat) a + S1x16.size a ≤ S32x32.size a
  inb_S32x32_S1x16_27_16 : ∀ a, (![27, 16] : Fin 2 → Nat) a + S1x16.size a ≤ S32x32.size a
  inb_S32x32_S1x16_28_0 : ∀ a, (![28, 0] : Fin 2 → Nat) a + S1x16.size a ≤ S32x32.size a
  inb_S32x32_S1x16_28_16 : ∀ a, (![28, 16] : Fin 2 → Nat) a + S1x16.size a ≤ S32x32.size a
  inb_S32x32_S1x16_29_0 : ∀ a, (![29, 0] : Fin 2 → Nat) a + S1x16.size a ≤ S32x32.size a
  inb_S32x32_S1x16_29_16 : ∀ a, (![29, 16] : Fin 2 → Nat) a + S1x16.size a ≤ S32x32.size a
  inb_S32x32_S1x16_30_0 : ∀ a, (![30, 0] : Fin 2 → Nat) a + S1x16.size a ≤ S32x32.size a
  inb_S32x32_S1x16_30_16 : ∀ a, (![30, 16] : Fin 2 → Nat) a + S1x16.size a ≤ S32x32.size a
  inb_S32x32_S1x16_31_0 : ∀ a, (![31, 0] : Fin 2 → Nat) a + S1x16.size a ≤ S32x32.size a
  inb_S32x32_S1x16_31_16 : ∀ a, (![31, 16] : Fin 2 → Nat) a + S1x16.size a ≤ S32x32.size a
  shapeCasts_S2048_S1x2048 : S2048.ShapeCasts S1x2048
  slices_S1x2048_S1x1024_0_0 : S1x2048.Slices ![0, 0] S1x1024
  inb_S256x2048_S256x2048_0_0 : ∀ a, (![0, 0] : Fin 2 → Nat) a + S256x2048.size a ≤ S256x2048.size a
  h_S256x2048 : 0 < S256x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  slices_S1x2048_S1x1024_0_1024 : S1x2048.Slices ![0, 1024] S1x1024
  dot_S256x2048_S1024x2048_S256x1024_1_1_0_0_n_n_wf : DotDims.WF S256x2048 S1024x2048 S256x1024 [1] [1] [0] [0] [] []
  hcc0_scratch4 : 0 + S_.numel ≤ 20
  hcc0_scratch5 : 1 + S_.numel ≤ 20
  hcc0_scoped0 : 2 + S_.numel ≤ 20
  hcc0_scoped1 : 3 + S_.numel ≤ 20
  hcc1_scratch4 : 4 + S_.numel ≤ 20
  hcc1_scratch5 : 5 + S_.numel ≤ 20
  hcc1_scoped0 : 6 + S_.numel ≤ 20
  hcc1_scoped1 : 7 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x32.size a ≤ S2048x32.size a
  k0_t1_ok : k0_t1_loop.OK
  k0_off2_inb : ∀ k0_t1 : Fin k0_t1_loop.trips, ∀ (r : Fin 8), ∀ a, (k0_off2 k0_t1 (BitVec.ofNat 32 (16 * r.val))) a + S1x16.size a ≤ S16x2048.size a
  k0_t2_ok : k0_t2_loop.OK
  k0_off3_inb : ∀ k0_t2 : Fin k0_t2_loop.trips, ∀ (r : Fin 8), ∀ a, (k0_off3 k0_t2 (BitVec.ofNat 32 (16 * r.val))) a + S1x16.size a ≤ S16x2048.size a
  k0_t3_ok : k0_t3_loop.OK
  k0_off4_inb : ∀ k0_t3 : Fin k0_t3_loop.trips, ∀ (r : Fin 8), ∀ a, (k0_off4 k0_t3 (BitVec.ofNat 32 (16 * r.val))) a + S1x16.size a ≤ S16x2048.size a
  k0_t4_ok : k0_t4_loop.OK
  k0_off5_inb : ∀ k0_t4 : Fin k0_t4_loop.trips, ∀ (r : Fin 8), ∀ a, (k0_off5 k0_t4 (BitVec.ofNat 32 (16 * r.val))) a + S1x16.size a ≤ S16x2048.size a
  k0_t5_ok : k0_t5_loop.OK
  k0_off6_inb : ∀ k0_t5 : Fin k0_t5_loop.trips, ∀ (r : Fin 8), ∀ a, (k0_off6 k0_t5 (BitVec.ofNat 32 (16 * r.val))) a + S1x16.size a ≤ S16x2048.size a
  k0_t6_ok : k0_t6_loop.OK
  k0_off7_inb : ∀ k0_t6 : Fin k0_t6_loop.trips, ∀ (r : Fin 8), ∀ a, (k0_off7 k0_t6 (BitVec.ofNat 32 (16 * r.val))) a + S1x16.size a ≤ S16x2048.size a
  k0_t7_ok : k0_t7_loop.OK
  k0_off8_inb : ∀ k0_t7 : Fin k0_t7_loop.trips, ∀ (r : Fin 8), ∀ a, (k0_off8 k0_t7 (BitVec.ofNat 32 (16 * r.val))) a + S1x16.size a ≤ S16x2048.size a
  k0_t8_ok : k0_t8_loop.OK
  k0_off9_inb : ∀ k0_t8 : Fin k0_t8_loop.trips, ∀ (r : Fin 8), ∀ a, (k0_off9 k0_t8 (BitVec.ofNat 32 (16 * r.val))) a + S1x16.size a ≤ S16x2048.size a
  k0_t9_ok : k0_t9_loop.OK
  k0_off10_inb : ∀ k0_t9 : Fin k0_t9_loop.trips, ∀ (r : Fin 8), ∀ a, (k0_off10 k0_t9 (BitVec.ofNat 32 (16 * r.val))) a + S1x16.size a ≤ S16x2048.size a
  k0_t10_ok : k0_t10_loop.OK
  k0_off11_inb : ∀ k0_t10 : Fin k0_t10_loop.trips, ∀ (r : Fin 8), ∀ a, (k0_off11 k0_t10 (BitVec.ofNat 32 (16 * r.val))) a + S1x16.size a ≤ S16x2048.size a
  k0_t11_ok : k0_t11_loop.OK
  k0_off12_inb : ∀ k0_t11 : Fin k0_t11_loop.trips, ∀ (r : Fin 8), ∀ a, (k0_off12 k0_t11 (BitVec.ofNat 32 (16 * r.val))) a + S1x16.size a ≤ S16x2048.size a
  k0_t12_ok : k0_t12_loop.OK
  k0_off13_inb : ∀ k0_t12 : Fin k0_t12_loop.trips, ∀ (r : Fin 8), ∀ a, (k0_off13 k0_t12 (BitVec.ofNat 32 (16 * r.val))) a + S1x16.size a ≤ S16x2048.size a
  k0_t13_ok : k0_t13_loop.OK
  k0_off14_inb : ∀ k0_t13 : Fin k0_t13_loop.trips, ∀ (r : Fin 8), ∀ a, (k0_off14 k0_t13 (BitVec.ofNat 32 (16 * r.val))) a + S1x16.size a ≤ S16x2048.size a
  k0_t14_ok : k0_t14_loop.OK
  k0_off15_inb : ∀ k0_t14 : Fin k0_t14_loop.trips, ∀ (r : Fin 8), ∀ a, (k0_off15 k0_t14 (BitVec.ofNat 32 (16 * r.val))) a + S1x16.size a ≤ S16x2048.size a
  k0_t15_ok : k0_t15_loop.OK
  k0_off16_inb : ∀ k0_t15 : Fin k0_t15_loop.trips, ∀ (r : Fin 8), ∀ a, (k0_off16 k0_t15 (BitVec.ofNat 32 (16 * r.val))) a + S1x16.size a ≤ S16x2048.size a
  k0_t16_ok : k0_t16_loop.OK
  k0_off17_inb : ∀ k0_t16 : Fin k0_t16_loop.trips, ∀ (r : Fin 8), ∀ a, (k0_off17 k0_t16 (BitVec.ofNat 32 (16 * r.val))) a + S1x16.size a ≤ S16x2048.size a
  k0_t17_ok : k0_t17_loop.OK
  k0_off18_inb : ∀ k0_t17 : Fin k0_t17_loop.trips, ∀ (r : Fin 8), ∀ a, (k0_off18 k0_t17 (BitVec.ofNat 32 (16 * r.val))) a + S1x16.size a ≤ S16x2048.size a
  k0_t18_ok : k0_t18_loop.OK
  k0_off19_inb : ∀ k0_t18 : Fin k0_t18_loop.trips, ∀ (r : Fin 8), ∀ a, (k0_off19 k0_t18 (BitVec.ofNat 32 (16 * r.val))) a + S1x16.size a ≤ S16x2048.size a
  k0_t19_ok : k0_t19_loop.OK
  k0_off20_inb : ∀ k0_t19 : Fin k0_t19_loop.trips, ∀ (r : Fin 8), ∀ a, (k0_off20 k0_t19 (BitVec.ofNat 32 (16 * r.val))) a + S1x16.size a ≤ S16x2048.size a
  k0_t20_ok : k0_t20_loop.OK
  k0_off21_inb : ∀ k0_t20 : Fin k0_t20_loop.trips, ∀ (r : Fin 8), ∀ a, (k0_off21 k0_t20 (BitVec.ofNat 32 (16 * r.val))) a + S1x16.size a ≤ S16x2048.size a
  k0_t21_ok : k0_t21_loop.OK
  k0_off22_inb : ∀ k0_t21 : Fin k0_t21_loop.trips, ∀ (r : Fin 8), ∀ a, (k0_off22 k0_t21 (BitVec.ofNat 32 (16 * r.val))) a + S1x16.size a ≤ S16x2048.size a
  k0_t22_ok : k0_t22_loop.OK
  k0_off23_inb : ∀ k0_t22 : Fin k0_t22_loop.trips, ∀ (r : Fin 8), ∀ a, (k0_off23 k0_t22 (BitVec.ofNat 32 (16 * r.val))) a + S1x16.size a ≤ S16x2048.size a
  k0_t23_ok : k0_t23_loop.OK
  k0_off24_inb : ∀ k0_t23 : Fin k0_t23_loop.trips, ∀ (r : Fin 8), ∀ a, (k0_off24 k0_t23 (BitVec.ofNat 32 (16 * r.val))) a + S1x16.size a ≤ S16x2048.size a
  k0_t24_ok : k0_t24_loop.OK
  k0_off25_inb : ∀ k0_t24 : Fin k0_t24_loop.trips, ∀ (r : Fin 8), ∀ a, (k0_off25 k0_t24 (BitVec.ofNat 32 (16 * r.val))) a + S1x16.size a ≤ S16x2048.size a
  k0_t25_ok : k0_t25_loop.OK
  k0_off26_inb : ∀ k0_t25 : Fin k0_t25_loop.trips, ∀ (r : Fin 8), ∀ a, (k0_off26 k0_t25 (BitVec.ofNat 32 (16 * r.val))) a + S1x16.size a ≤ S16x2048.size a
  k0_t26_ok : k0_t26_loop.OK
  k0_off27_inb : ∀ k0_t26 : Fin k0_t26_loop.trips, ∀ (r : Fin 8), ∀ a, (k0_off27 k0_t26 (BitVec.ofNat 32 (16 * r.val))) a + S1x16.size a ≤ S16x2048.size a
  k0_t27_ok : k0_t27_loop.OK
  k0_off28_inb : ∀ k0_t27 : Fin k0_t27_loop.trips, ∀ (r : Fin 8), ∀ a, (k0_off28 k0_t27 (BitVec.ofNat 32 (16 * r.val))) a + S1x16.size a ≤ S16x2048.size a
  k0_t28_ok : k0_t28_loop.OK
  k0_off29_inb : ∀ k0_t28 : Fin k0_t28_loop.trips, ∀ (r : Fin 8), ∀ a, (k0_off29 k0_t28 (BitVec.ofNat 32 (16 * r.val))) a + S1x16.size a ≤ S16x2048.size a
  k0_t29_ok : k0_t29_loop.OK
  k0_off30_inb : ∀ k0_t29 : Fin k0_t29_loop.trips, ∀ (r : Fin 8), ∀ a, (k0_off30 k0_t29 (BitVec.ofNat 32 (16 * r.val))) a + S1x16.size a ≤ S16x2048.size a
  k0_t30_ok : k0_t30_loop.OK
  k0_off31_inb : ∀ k0_t30 : Fin k0_t30_loop.trips, ∀ (r : Fin 8), ∀ a, (k0_off31 k0_t30 (BitVec.ofNat 32 (16 * r.val))) a + S1x16.size a ≤ S16x2048.size a
  k0_t31_ok : k0_t31_loop.OK
  k0_off32_inb : ∀ k0_t31 : Fin k0_t31_loop.trips, ∀ (r : Fin 8), ∀ a, (k0_off32 k0_t31 (BitVec.ofNat 32 (16 * r.val))) a + S1x16.size a ≤ S16x2048.size a
  k0_t32_ok : k0_t32_loop.OK
  k0_off33_inb : ∀ k0_t32 : Fin k0_t32_loop.trips, ∀ (r : Fin 8), ∀ a, (k0_off33 k0_t32 (BitVec.ofNat 32 (16 * r.val))) a + S1x16.size a ≤ S16x2048.size a
  k0_off34_inb : ∀ i : grid0.Coords, ∀ a, (k0_off34 i) a + S16x2048.size a ≤ S1024x2048.size a
  k0_off35_inb : ∀ i : grid0.Coords, ∀ (r : Fin 2), ∀ a, (k0_off35 i (BitVec.ofNat 32 (16 * r.val))) a + S16x2048.size a ≤ S1024x2048.size a
  hcore1 : grid1.bound 0 ≤ τ.nSC
  hsub1 : grid1.bound 1 ≤ τ.nSub
  k1_off1_inb : ∀ i : grid1.Coords, ∀ a, (k1_off1 i) a + S32x32.size a ≤ S2048x32.size a
  k1_t1_ok : k1_t1_loop.OK
  k1_off2_inb : ∀ k1_t1 : Fin k1_t1_loop.trips, ∀ (r : Fin 8), ∀ a, (k1_off2 k1_t1 (BitVec.ofNat 32 (16 * r.val))) a + S1x16.size a ≤ S16x2048.size a
  k1_t2_ok : k1_t2_loop.OK
  k1_off3_inb : ∀ k1_t2 : Fin k1_t2_loop.trips, ∀ (r : Fin 8), ∀ a, (k1_off3 k1_t2 (BitVec.ofNat 32 (16 * r.val))) a + S1x16.size a ≤ S16x2048.size a
  k1_t3_ok : k1_t3_loop.OK
  k1_off4_inb : ∀ k1_t3 : Fin k1_t3_loop.trips, ∀ (r : Fin 8), ∀ a, (k1_off4 k1_t3 (BitVec.ofNat 32 (16 * r.val))) a + S1x16.size a ≤ S16x2048.size a
  k1_t4_ok : k1_t4_loop.OK
  k1_off5_inb : ∀ k1_t4 : Fin k1_t4_loop.trips, ∀ (r : Fin 8), ∀ a, (k1_off5 k1_t4 (BitVec.ofNat 32 (16 * r.val))) a + S1x16.size a ≤ S16x2048.size a
  k1_t5_ok : k1_t5_loop.OK
  k1_off6_inb : ∀ k1_t5 : Fin k1_t5_loop.trips, ∀ (r : Fin 8), ∀ a, (k1_off6 k1_t5 (BitVec.ofNat 32 (16 * r.val))) a + S1x16.size a ≤ S16x2048.size a
  k1_t6_ok : k1_t6_loop.OK
  k1_off7_inb : ∀ k1_t6 : Fin k1_t6_loop.trips, ∀ (r : Fin 8), ∀ a, (k1_off7 k1_t6 (BitVec.ofNat 32 (16 * r.val))) a + S1x16.size a ≤ S16x2048.size a
  k1_t7_ok : k1_t7_loop.OK
  k1_off8_inb : ∀ k1_t7 : Fin k1_t7_loop.trips, ∀ (r : Fin 8), ∀ a, (k1_off8 k1_t7 (BitVec.ofNat 32 (16 * r.val))) a + S1x16.size a ≤ S16x2048.size a
  k1_t8_ok : k1_t8_loop.OK
  k1_off9_inb : ∀ k1_t8 : Fin k1_t8_loop.trips, ∀ (r : Fin 8), ∀ a, (k1_off9 k1_t8 (BitVec.ofNat 32 (16 * r.val))) a + S1x16.size a ≤ S16x2048.size a
  k1_t9_ok : k1_t9_loop.OK
  k1_off10_inb : ∀ k1_t9 : Fin k1_t9_loop.trips, ∀ (r : Fin 8), ∀ a, (k1_off10 k1_t9 (BitVec.ofNat 32 (16 * r.val))) a + S1x16.size a ≤ S16x2048.size a
  k1_t10_ok : k1_t10_loop.OK
  k1_off11_inb : ∀ k1_t10 : Fin k1_t10_loop.trips, ∀ (r : Fin 8), ∀ a, (k1_off11 k1_t10 (BitVec.ofNat 32 (16 * r.val))) a + S1x16.size a ≤ S16x2048.size a
  k1_t11_ok : k1_t11_loop.OK
  k1_off12_inb : ∀ k1_t11 : Fin k1_t11_loop.trips, ∀ (r : Fin 8), ∀ a, (k1_off12 k1_t11 (BitVec.ofNat 32 (16 * r.val))) a + S1x16.size a ≤ S16x2048.size a
  k1_t12_ok : k1_t12_loop.OK
  k1_off13_inb : ∀ k1_t12 : Fin k1_t12_loop.trips, ∀ (r : Fin 8), ∀ a, (k1_off13 k1_t12 (BitVec.ofNat 32 (16 * r.val))) a + S1x16.size a ≤ S16x2048.size a
  k1_t13_ok : k1_t13_loop.OK
  k1_off14_inb : ∀ k1_t13 : Fin k1_t13_loop.trips, ∀ (r : Fin 8), ∀ a, (k1_off14 k1_t13 (BitVec.ofNat 32 (16 * r.val))) a + S1x16.size a ≤ S16x2048.size a
  k1_t14_ok : k1_t14_loop.OK
  k1_off15_inb : ∀ k1_t14 : Fin k1_t14_loop.trips, ∀ (r : Fin 8), ∀ a, (k1_off15 k1_t14 (BitVec.ofNat 32 (16 * r.val))) a + S1x16.size a ≤ S16x2048.size a
  k1_t15_ok : k1_t15_loop.OK
  k1_off16_inb : ∀ k1_t15 : Fin k1_t15_loop.trips, ∀ (r : Fin 8), ∀ a, (k1_off16 k1_t15 (BitVec.ofNat 32 (16 * r.val))) a + S1x16.size a ≤ S16x2048.size a
  k1_t16_ok : k1_t16_loop.OK
  k1_off17_inb : ∀ k1_t16 : Fin k1_t16_loop.trips, ∀ (r : Fin 8), ∀ a, (k1_off17 k1_t16 (BitVec.ofNat 32 (16 * r.val))) a + S1x16.size a ≤ S16x2048.size a
  k1_t17_ok : k1_t17_loop.OK
  k1_off18_inb : ∀ k1_t17 : Fin k1_t17_loop.trips, ∀ (r : Fin 8), ∀ a, (k1_off18 k1_t17 (BitVec.ofNat 32 (16 * r.val))) a + S1x16.size a ≤ S16x2048.size a
  k1_t18_ok : k1_t18_loop.OK
  k1_off19_inb : ∀ k1_t18 : Fin k1_t18_loop.trips, ∀ (r : Fin 8), ∀ a, (k1_off19 k1_t18 (BitVec.ofNat 32 (16 * r.val))) a + S1x16.size a ≤ S16x2048.size a
  k1_t19_ok : k1_t19_loop.OK
  k1_off20_inb : ∀ k1_t19 : Fin k1_t19_loop.trips, ∀ (r : Fin 8), ∀ a, (k1_off20 k1_t19 (BitVec.ofNat 32 (16 * r.val))) a + S1x16.size a ≤ S16x2048.size a
  k1_t20_ok : k1_t20_loop.OK
  k1_off21_inb : ∀ k1_t20 : Fin k1_t20_loop.trips, ∀ (r : Fin 8), ∀ a, (k1_off21 k1_t20 (BitVec.ofNat 32 (16 * r.val))) a + S1x16.size a ≤ S16x2048.size a
  k1_t21_ok : k1_t21_loop.OK
  k1_off22_inb : ∀ k1_t21 : Fin k1_t21_loop.trips, ∀ (r : Fin 8), ∀ a, (k1_off22 k1_t21 (BitVec.ofNat 32 (16 * r.val))) a + S1x16.size a ≤ S16x2048.size a
  k1_t22_ok : k1_t22_loop.OK
  k1_off23_inb : ∀ k1_t22 : Fin k1_t22_loop.trips, ∀ (r : Fin 8), ∀ a, (k1_off23 k1_t22 (BitVec.ofNat 32 (16 * r.val))) a + S1x16.size a ≤ S16x2048.size a
  k1_t23_ok : k1_t23_loop.OK
  k1_off24_inb : ∀ k1_t23 : Fin k1_t23_loop.trips, ∀ (r : Fin 8), ∀ a, (k1_off24 k1_t23 (BitVec.ofNat 32 (16 * r.val))) a + S1x16.size a ≤ S16x2048.size a
  k1_t24_ok : k1_t24_loop.OK
  k1_off25_inb : ∀ k1_t24 : Fin k1_t24_loop.trips, ∀ (r : Fin 8), ∀ a, (k1_off25 k1_t24 (BitVec.ofNat 32 (16 * r.val))) a + S1x16.size a ≤ S16x2048.size a
  k1_t25_ok : k1_t25_loop.OK
  k1_off26_inb : ∀ k1_t25 : Fin k1_t25_loop.trips, ∀ (r : Fin 8), ∀ a, (k1_off26 k1_t25 (BitVec.ofNat 32 (16 * r.val))) a + S1x16.size a ≤ S16x2048.size a
  k1_t26_ok : k1_t26_loop.OK
  k1_off27_inb : ∀ k1_t26 : Fin k1_t26_loop.trips, ∀ (r : Fin 8), ∀ a, (k1_off27 k1_t26 (BitVec.ofNat 32 (16 * r.val))) a + S1x16.size a ≤ S16x2048.size a
  k1_t27_ok : k1_t27_loop.OK
  k1_off28_inb : ∀ k1_t27 : Fin k1_t27_loop.trips, ∀ (r : Fin 8), ∀ a, (k1_off28 k1_t27 (BitVec.ofNat 32 (16 * r.val))) a + S1x16.size a ≤ S16x2048.size a
  k1_t28_ok : k1_t28_loop.OK
  k1_off29_inb : ∀ k1_t28 : Fin k1_t28_loop.trips, ∀ (r : Fin 8), ∀ a, (k1_off29 k1_t28 (BitVec.ofNat 32 (16 * r.val))) a + S1x16.size a ≤ S16x2048.size a
  k1_t29_ok : k1_t29_loop.OK
  k1_off30_inb : ∀ k1_t29 : Fin k1_t29_loop.trips, ∀ (r : Fin 8), ∀ a, (k1_off30 k1_t29 (BitVec.ofNat 32 (16 * r.val))) a + S1x16.size a ≤ S16x2048.size a
  k1_t30_ok : k1_t30_loop.OK
  k1_off31_inb : ∀ k1_t30 : Fin k1_t30_loop.trips, ∀ (r : Fin 8), ∀ a, (k1_off31 k1_t30 (BitVec.ofNat 32 (16 * r.val))) a + S1x16.size a ≤ S16x2048.size a
  k1_t31_ok : k1_t31_loop.OK
  k1_off32_inb : ∀ k1_t31 : Fin k1_t31_loop.trips, ∀ (r : Fin 8), ∀ a, (k1_off32 k1_t31 (BitVec.ofNat 32 (16 * r.val))) a + S1x16.size a ≤ S16x2048.size a
  k1_t32_ok : k1_t32_loop.OK
  k1_off33_inb : ∀ k1_t32 : Fin k1_t32_loop.trips, ∀ (r : Fin 8), ∀ a, (k1_off33 k1_t32 (BitVec.ofNat 32 (16 * r.val))) a + S1x16.size a ≤ S16x2048.size a
  k1_off34_inb : ∀ i : grid1.Coords, ∀ a, (k1_off34 i) a + S16x2048.size a ≤ S1024x2048.size a
  k1_off35_inb : ∀ i : grid1.Coords, ∀ (r : Fin 2), ∀ a, (k1_off35 i (BitVec.ofNat 32 (16 * r.val))) a + S16x2048.size a ≤ S1024x2048.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .f32 = 32 ∨ (Rect.block (s := S1024x2048) S1024x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S2048x2048.size a
  hwx2_3 : ∀ i : grid2.Coords, EltTy.bits .f32 = 32 ∨ (Rect.block (s := S2048x2048) S256x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S2048x2048.size a
  hwx3_0 : ∀ i : grid3.Coords, EltTy.bits .f32 = 32 ∨ (Rect.block (s := S2048x2048) S256x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .f32 = 32 ∨ (Rect.block (s := S1024x2048) S1024x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S256x1024.size a ≤ S2048x2048.size a
  hwx3_3 : ∀ i : grid3.Coords, EltTy.bits .f32 = 32 ∨ (Rect.block (s := S2048x2048) S256x1024.size (cc3_transform_4 i) (hinb3_3 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc1_scratch4 : DmaSems sig S_ := SemArray.consecutive 4 S_ hcc1_scratch4
abbrev cc1_scratch5 : DmaSems sig S_ := SemArray.consecutive 5 S_ hcc1_scratch5
abbrev cc1_scoped0 : DmaSems sig S_ := SemArray.consecutive 6 S_ hcc1_scoped0
abbrev cc1_scoped1 : DmaSems sig S_ := SemArray.consecutive 7 S_ hcc1_scoped1
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S256x1024.size cc3_transform_4 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2048x2048 : Shape := ⟨2, ![2048, 2048]⟩
abbrev S2048x32 : Shape := ⟨2, ![2048, 32]⟩
abbrev S2048 : Shape := ⟨1, ![2048]⟩
abbrev S_ : Shape := ⟨0, ![]⟩
abbrev S2048x32x1 : Shape := ⟨3, ![2048, 32, 1]⟩
abbrev S1 : Shape := ⟨1, ![1]⟩
abbrev S1x1x1 : Shape := ⟨3, ![1, 1, 1]⟩
abbrev S2048x2048x32 : Shape := ⟨3, ![2048, 2048, 32]⟩
abbrev S1x2048x32 : Shape := ⟨3, ![1, 2048, 32]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x32, .i32⟩
  | .hbm, ⟨2, _⟩ => ⟨S2048x32, .f32⟩
  | .hbm, ⟨3, _⟩ => ⟨S2048, .f32⟩
  | .hbm, ⟨4, _⟩ => ⟨S_, .i32⟩
  | .hbm, ⟨5, _⟩ => ⟨S2048x32, .i32⟩
  | .hbm, ⟨6, _⟩ => ⟨S2048x32, .i1⟩
  | .hbm, ⟨7, _⟩ => ⟨S_, .i32⟩
  | .hbm, ⟨8, _⟩ => ⟨S2048x32, .i32⟩
  | .hbm, ⟨9, _⟩ => ⟨S2048x32, .i32⟩
  | .hbm, ⟨10, _⟩ => ⟨S2048x32, .i32⟩
  | .hbm, ⟨11, _⟩ => ⟨S2048x32x1, .i32⟩
  | .hbm, ⟨12, _⟩ => ⟨S1, .i32⟩
  | .hbm, ⟨13, _⟩ => ⟨S_, .i32⟩
  | .hbm, ⟨14, _⟩ => ⟨S2048x32x1, .i32⟩
  | .hbm, ⟨15, _⟩ => ⟨S2048x32x1, .i1⟩
  | .hbm, ⟨16, _⟩ => ⟨S1x1x1, .i32⟩
  | .hbm, ⟨17, _⟩ => ⟨S2048x32x1, .i32⟩
  | .hbm, ⟨18, _⟩ => ⟨S2048x32x1, .i1⟩
  | .hbm, ⟨19, _⟩ => ⟨S2048x32x1, .i1⟩
  | .hbm, ⟨20, _⟩ => ⟨S_, .i1⟩
  | .hbm, ⟨21, _⟩ => ⟨S2048x32, .i1⟩
  | .hbm, ⟨22, _⟩ => ⟨S2048x2048x32, .f32⟩
  | .hbm, ⟨23, _⟩ => ⟨S2048x2048x32, .i1⟩
  | .hbm, ⟨24, _⟩ => ⟨S_, .f32⟩
  | .hbm, ⟨25, _⟩ => ⟨S2048x2048x32, .f32⟩
  | .hbm, ⟨26, _⟩ => ⟨S2048x2048x32, .f32⟩
  | .hbm, ⟨27, _⟩ => ⟨S1x2048x32, .f32⟩
  | .hbm, ⟨28, _⟩ => ⟨S2048x2048x32, .f32⟩
  | .hbm, ⟨29, _⟩ => ⟨S2048x2048x32, .f32⟩
  | .hbm, ⟨30, _⟩ => ⟨S_, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S_S2048x32x1 : S_.BroadcastsInDim S2048x32x1 (![] : Fin 0 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  reducesTo_S2048x32x1_S2048x32_d2 : S2048x32x1.ReducesTo [2] S2048x32
  h_S_ : 0 < S_.numel
  bcast_S2048x32_S2048x2048x32_1_2 : S2048x32.BroadcastsInDim S2048x2048x32 (![1, 2] : Fin 2 → Fin S2048x2048x32.rank)
  bcast_S_S2048x2048x32 : S_.BroadcastsInDim S2048x2048x32 (![] : Fin 0 → Fin S2048x2048x32.rank)
  bcast_S2048x32_S1x2048x32_1_2 : S2048x32.BroadcastsInDim S1x2048x32 (![1, 2] : Fin 2 → Fin S1x2048x32.rank)
  bcast_S1x2048x32_S2048x2048x32_0_1_2 : S1x2048x32.BroadcastsInDim S2048x2048x32 (![0, 1, 2] : Fin 3 → Fin S2048x2048x32.rank)
  reducesTo_S2048x2048x32_S2048x2048_d2 : S2048x2048x32.ReducesTo [2] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  gather_S2048x2048_S2048x32x1_S2048x2048x32_0_1_n_n_1_2_20481_wf : GatherDims.WF S2048x2048 S2048x32x1 S2048x2048x32 [0] [1] [] [1] [] 2 ![2048, 1]

variable [Facts₀]

def gather_S2048x2048_S2048x32x1_S2048x2048x32_0_1_n_n_1_2_20481 : GatherDims S2048x2048 S2048x32x1 S2048x2048x32 where
  offsetDims := [0]
  collapsedSliceDims := [1]
  operandBatchingDims := []
  startIndicesBatchingDims := []
  startIndexMap := [1]
  indexVectorDim := 2
  sliceSizes := ![2048, 1]
  wf := gather_S2048x2048_S2048x32x1_S2048x2048x32_0_1_n_n_1_2_20481_wf

class Facts : Prop extends Facts₀ where

variable [Facts]
-- ==== Proof.Setup.lean ====
/-
  The program as the launch theorem for SparseCore programs sees it, for the idealized kernel: two
  vector-subcore calls (each on 2 SparseCores × 16 tiles) followed on the TensorCore by host operations
  and two pipelined matrix-product regions. Fixed here, once, generically in the float instance: the
  call configuration, the body table, the ghost algebra (the launch handshakes' rounds, the two
  pipelines' rounds, and the counters of the tiles' local transfers) and the arrays' locations.
-/
import proofs.«210207_g17016660427310_cont_sun_m_176_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210207_g17016660427310_cont_sun_m_176_22_alg».proof.Proof.Gen.KernelIdeal
import proofs.«210207_g17016660427310_cont_sun_m_176_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_eq (q : Fin 2) : (K (F := F)).nSub q = 16 := by fin_cases q <;> rfl
theorem nCore_eq (q : Fin 2) : (K (F := F)).nCore q = 2 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the local transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 2) (Elt F) ℕ UU ℕ) := embL

/-! ## The arrays, as the TensorCore names them -/

abbrev xLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev o0Loc (d : Dev nD) : Loc nD τ sig := (SparseCore.T d).loc main_v0
abbrev o1Loc (d : Dev nD) : Loc nD τ sig := (SparseCore.T d).loc main_v1

/-- A tile's place in a call's grid, as the two coordinates the body table passes the kernel. -/
abbrev cV (L : grid0.Coords) : Fin τ.nSC := (L 0).castLE hcore0
abbrev jV (L : grid0.Coords) : Fin τ.nSub := (L 1).castLE hsub0

/-! ## The arrays as a tile's kernel addresses them, and the pieces one tile touches

Tile (c, s) of a call works on 32 consecutive rows of the index and weight arrays (row offset
32·(2s + c), plus 1024 for the second call) and writes the matching 32 rows of that call's
1024 × 2048 result, as two blocks of 16 rows. The rectangles are spelt through the program's own
offset functions, so that they are literally the slices the body takes. -/

abbrev iV : Memref sig .scVector .hbm S2048x32 .i32 := Memref.whole main_arg1_scv
abbrev wV : Memref sig .scVector .hbm S2048x32 .f32 := Memref.whole main_arg2_scv
abbrev o0V : Memref sig .scVector .hbm S1024x2048 .f32 := Memref.whole main_v0_scv
abbrev o1V : Memref sig .scVector .hbm S1024x2048 .f32 := Memref.whole main_v1_scv

abbrev rI0 (L : grid0.Coords) : Rect S2048x32 := Rect.unit (s := S2048x32) (k0_off1 L) S32x32.size (k0_off1_inb L)
abbrev rOa0 (L : grid0.Coords) : Rect S1024x2048 := Rect.unit (s := S1024x2048) (k0_off34 L) S16x2048.size (k0_off34_inb L)
abbrev rOb0 (L : grid0.Coords) : Rect S1024x2048 := Rect.unit (s := S1024x2048) (k0_off35 L 16#32) S16x2048.size (k0_off35_inb L 1)
abbrev rI1 (L : grid1.Coords) : Rect S2048x32 := Rect.unit (s := S2048x32) (k1_off1 L) S32x32.size (k1_off1_inb L)
abbrev rOa1 (L : grid1.Coords) : Rect S1024x2048 := Rect.unit (s := S1024x2048) (k1_off34 L) S16x2048.size (k1_off34_inb L)
abbrev rOb1 (L : grid1.Coords) : Rect S1024x2048 := Rect.unit (s := S1024x2048) (k1_off35 L 16#32) S16x2048.size (k1_off35_inb L 1)

/-- The index sets of those pieces (the same set for the index array and the weight array). -/
abbrev rowsI0 (L : grid0.Coords) : Finset S2048x32.Idx := ((iV.slice (rI0 L) (fun _ => rfl)).view).set
abbrev rowsOa0 (L : grid0.Coords) : Finset S1024x2048.Idx := ((o0V.slice (rOa0 L) (fun _ => rfl)).view).set
abbrev rowsOb0 (L : grid0.Coords) : Finset S1024x2048.Idx := ((o0V.slice (rOb0 L) (fun _ => rfl)).view).set
abbrev rowsI1 (L : grid1.Coords) : Finset S2048x32.Idx := ((iV.slice (rI1 L) (fun _ => rfl)).view).set
abbrev rowsOa1 (L : grid1.Coords) : Finset S1024x2048.Idx := ((o1V.slice (rOa1 L) (fun _ => rfl)).view).set
abbrev rowsOb1 (L : grid1.Coords) : Finset S1024x2048.Idx := ((o1V.slice (rOb1 L) (fun _ => rfl)).view).set

end Cert.Proof.KI

end
-- ==== Proof.Tiles.lean ====
/-
  A tile's share of a SparseCore call: its 32 rows of the index and weight arrays and its two 16-row blocks of the call's result.
-/
import proofs.«210207_g17016660427310_cont_sun_m_176_22_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)
variable [FloatOps F]

/-! ## What a call hands a tile, and what the tile hands back -/

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

/-- A tile's share of the first call: its 32 rows of the index and weight arrays at their launch
    contents, and its two 16-row blocks of the first result at whatever they hold. -/
def tileRes0 (d : Dev nD) (L : grid0.Coords) : sProp 𝕄 :=
  iprop((iLoc d ↦[rowsI0 L]{fullShare} m (iLoc d)) ∗ (wLoc d ↦[rowsI0 L]{fullShare} m (wLoc d))
    ∗ (∃ fa, o0Loc d ↦[rowsOa0 L]{fullShare} fa) ∗ (∃ fb, o0Loc d ↦[rowsOb0 L]{fullShare} fb))
/-- The same for the second call, over the second result. -/
def tileRes1 (d : Dev nD) (L : grid1.Coords) : sProp 𝕄 :=
  iprop((iLoc d ↦[rowsI1 L]{fullShare} m (iLoc d)) ∗ (wLoc d ↦[rowsI1 L]{fullShare} m (wLoc d))
    ∗ (∃ fa, o1Loc d ↦[rowsOa1 L]{fullShare} fa) ∗ (∃ fb, o1Loc d ↦[rowsOb1 L]{fullShare} fb))

instance tileRes0_storable (d : Dev nD) (L : grid0.Coords) : BI.Storable (upEmb : UEmb _ 𝕄) (tileRes0 m d L) := by
  unfold tileRes0; infer_instance
instance tileRes1_storable (d : Dev nD) (L : grid1.Coords) : BI.Storable (upEmb : UEmb _ 𝕄) (tileRes1 m d L) := by
  unfold tileRes1; infer_instance

end Cert.Proof.KI

end
-- ==== Proof.TcBody.lean ====
/-
  The two TensorCore regions' bodies. Each of the program's two pipelined matrix-product calls runs, at every
  one of its 8 grid points, the same body: out := x · Wᵀ + b, where x is a block of 256 rows of the 2048 × 2048
  argument (all 2048 columns), W is one of the two dense 1024 × 2048 matrices the SparseCore calls left, b is a
  1 × 1024 slice of the bias broadcast down the 256 rows, and out is a 256 × 1024 block of the result, stored
  whole. Stated here, per region and at a PARAMETER V (what the TensorCore's buffers hold when the region is
  entered): each window's block at a point, what the body leaves in the output window's buffer, the body's
  triple, the pipeline's proof data and the body obligation. Generic in the float instance.
-/
import proofs.«210207_g17016660427310_cont_sun_m_176_22_alg».proof.Proof.Setup
import proofs.«210207_g17016660427310_cont_sun_m_176_22_alg».proof.Proof.Gen.KernelIdeal.Launch
import proofs.«210207_g17016660427310_cont_sun_m_176_22_alg».proof.Proof.Gen.KernelIdeal.Skeleton
import proofs.«210207_g17016660427310_cont_sun_m_176_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' long axis has 2048 coordinates
set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Regions
-- what the TensorCore's buffers hold when a region is entered: the parameter each region's half is stated at
variable (V : (c : Dev nD) → (b : Ref sig .tc) → Buf (Elt F) ((c : Thread nD τ).loc b))

/-! # The region of pipeline 0: `cc2__mm_body0`, at the entry contents `V` -/

/-! ## The windows' blocks -/

/-- Window `w`'s block at point `t`, read off its array as the region finds it: for window 0 rows
    256·t … 256·t + 255 of x, for windows 1 and 2 all of the first call's 1024 × 2048 matrix and of the first 1024 bias entries (the same block at every point),
    for window 3 the block of columns 0 … 1023 of the result the point writes. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of x is in its window's current buffer at every point (it is fetched at each), for any proof data
    whose array is `V`'s and whose body leaves the block in place. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The dense matrix is in its window's buffer at every point although fetched at the first only: its block index
    never moves, and the body leaves the buffer as it found it. -/
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- So is the bias slice. -/
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or stored whole -/

abbrev r2_0 : Rect S256x2048 := Rect.unit (s := S256x2048) ![0, 0] S256x2048.size inb_S256x2048_S256x2048_0_0
abbrev r2_1 : Rect S1024x2048 := Rect.unit (s := S1024x2048) ![0, 0] S1024x2048.size inb_S1024x2048_S1024x2048_0_0
abbrev r2_2 : Rect S1x1024 := Rect.unit (s := S1x1024) ![0, 0] S1x1024.size inb_S1x1024_S1x1024_0_0
abbrev r2_3 : Rect S256x1024 := Rect.unit (s := S256x1024) ![0, 0] S256x1024.size inb_S256x1024_S256x1024_0_0

/-! ## What the body leaves in the output window's buffer -/

/-- The output window's buffer after the body, from the three input blocks: its one store, of the 256 × 1024
    product of the row block with the transposed matrix (accumulated from zero) plus the bias slice broadcast
    down the rows, over the whole buffer. -/
def out2_3 (x0 : Vec F S256x2048 .f32) (x1 : Vec F S1024x2048 .f32) (x2 : Vec F S1x1024 .f32) : Vec F S256x1024 .f32 :=
  View.canon [⟨r2_3, k2_pay1 (View.ld x0 r2_0) (View.ld x1 r2_1) (View.ld x2 r2_2)⟩]

/-- The one store covers the buffer: its rectangle is all 256 × 1024 of it. -/
theorem cover2_3 (p0 : Vec F S256x1024 .f32) (y : S256x1024.Idx) :
    ∃ pc ∈ ([⟨r2_3, p0⟩] : List (View.Piece (Elt F) S256x1024 .f32)), y ∈ pc.1.set :=
  View.cover_of_tiled [⟨r2_3, p0⟩] S256x1024.size (by rfl) y

/-! ## The body's triple -/

set_option maxHeartbeats 1000000 in
/-- The body on whole staging memrefs — the three inputs' at read contents `x0`, `x1`, `x2`, the output's at
    anything — runs to the continuation holding the inputs' as they were and the output's at `out2_3` of them:
    three whole loads, a load of the output buffer whose value is not used, and the one store. -/
theorem sound_kernel2 (c : Dev nD) (E : Set ℕ) (i : grid2.Coords) (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S256x1024 .f32) (harg4 : arg4.IsWhole)
    (x0 : Vec F S256x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_body0 i arg1 harg1 arg2 harg2 arg3 harg3 arg4 harg4) K := by
  simp only [cc2__mm_body0_eq_skeleton]; unfold cc2__mm_body0_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- What a body of this kind may use and need not describe: the core's scoped buffers that are no staging buffer of
    this pipeline, at some contents each, and its generator register at some state. -/
abbrev ΦR2 (c : Dev nD) : sProp 𝕄 :=
  iprop(Pipeline.scopedRest (Ix := HIx 2) (Name := ℕ) (U := UU) (Lvl := ℕ) (Val := Elt F) spec2 c ∗ ∃ r, prngReg c r)

/-- The proof data of pipeline 0 on core `c`: the arrays as the region finds them (`V`); after the body at point
    `t` each input's buffer at its block and the output's at `out2_3` of the input blocks; the invariant `ΦR2`,
    untouched; nothing owed; full shares. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦR2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 2) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt (none : HIx 2) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt (none : HIx 2) t.succ = (dat2 V c).owesAt (none : HIx 2) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none (none : HIx 2) Set.univ := fun t => by
  rw [bigSep_W2, bigSep_W2]
  exact sound_body2 V c t

/-! # The region of pipeline 1: `cc3__mm_body1`, at the entry contents `V` -/

/-! ## The windows' blocks -/

/-- Window `w`'s block at point `t`, read off its array as the region finds it: for window 0 rows
    256·t … 256·t + 255 of x, for windows 1 and 2 all of the second call's 1024 × 2048 matrix and of the last 1024 bias entries (the same block at every point),
    for window 3 the block of columns 1024 … 2047 of the result the point writes. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of x is in its window's current buffer at every point (it is fetched at each), for any proof data
    whose array is `V`'s and whose body leaves the block in place. -/
theorem before3_0_of {c : Dev nD} (dat : Dat τ (Elt F) (HIx 2) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The dense matrix is in its window's buffer at every point although fetched at the first only: its block index
    never moves, and the body leaves the buffer as it found it. -/
theorem before3_1_of {c : Dev nD} (dat : Dat τ (Elt F) (HIx 2) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- So is the bias slice. -/
theorem before3_2_of {c : Dev nD} (dat : Dat τ (Elt F) (HIx 2) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or stored whole -/

abbrev r3_0 : Rect S256x2048 := Rect.unit (s := S256x2048) ![0, 0] S256x2048.size inb_S256x2048_S256x2048_0_0
abbrev r3_1 : Rect S1024x2048 := Rect.unit (s := S1024x2048) ![0, 0] S1024x2048.size inb_S1024x2048_S1024x2048_0_0
abbrev r3_2 : Rect S1x1024 := Rect.unit (s := S1x1024) ![0, 0] S1x1024.size inb_S1x1024_S1x1024_0_0
abbrev r3_3 : Rect S256x1024 := Rect.unit (s := S256x1024) ![0, 0] S256x1024.size inb_S256x1024_S256x1024_0_0

/-! ## What the body leaves in the output window's buffer -/

/-- The output window's buffer after the body, from the three input blocks: its one store, of the 256 × 1024
    product of the row block with the transposed matrix (accumulated from zero) plus the bias slice broadcast
    down the rows, over the whole buffer. -/
def out3_3 (x0 : Vec F S256x2048 .f32) (x1 : Vec F S1024x2048 .f32) (x2 : Vec F S1x1024 .f32) : Vec F S256x1024 .f32 :=
  View.canon [⟨r3_3, k3_pay1 (View.ld x0 r3_0) (View.ld x1 r3_1) (View.ld x2 r3_2)⟩]

/-- The one store covers the buffer: its rectangle is all 256 × 1024 of it. -/
theorem cover3_3 (p0 : Vec F S256x1024 .f32) (y : S256x1024.Idx) :
    ∃ pc ∈ ([⟨r3_3, p0⟩] : List (View.Piece (Elt F) S256x1024 .f32)), y ∈ pc.1.set :=
  View.cover_of_tiled [⟨r3_3, p0⟩] S256x1024.size (by rfl) y

/-! ## The body's triple -/

set_option maxHeartbeats 1000000 in
/-- The body on whole staging memrefs — the three inputs' at read contents `x0`, `x1`, `x2`, the output's at
    anything — runs to the continuation holding the inputs' as they were and the output's at `out3_3` of them:
    three whole loads, a load of the output buffer whose value is not used, and the one store. -/
theorem sound_kernel3 (c : Dev nD) (E : Set ℕ) (i : grid3.Coords) (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (argA : Memref sig .tc .hbm S2048x2048 .f32) (hargA : argA.IsWhole) (arg4 : Memref sig .tc .vmem S256x1024 .f32) (harg4 : arg4.IsWhole)
    (x0 : Vec F S256x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__mm_body1 i arg1 harg1 arg2 harg2 arg3 harg3 argA hargA arg4 harg4) K := by
  simp only [cc3__mm_body1_eq_skeleton]; unfold cc3__mm_body1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- What a body of this kind may use and need not describe: the core's scoped buffers that are no staging buffer of
    this pipeline, at some contents each, and its generator register at some state. -/
abbrev ΦR3 (c : Dev nD) : sProp 𝕄 :=
  iprop(Pipeline.scopedRest (Ix := HIx 2) (Name := ℕ) (U := UU) (Lvl := ℕ) (Val := Elt F) spec3 c ∗ ∃ r, prngReg c r)

/-- The proof data of pipeline 1 on core `c`: the arrays as the region finds them (`V`); after the body at point
    `t` each input's buffer at its block and the output's at `out3_3` of the input blocks; the invariant `ΦR3`,
    untouched; nothing owed; full shares. -/
def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := ΦR3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt (none : HIx 2) t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt (none : HIx 2) t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt (none : HIx 2) t.succ = (dat3 V c).owesAt (none : HIx 2) t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none (none : HIx 2) Set.univ := fun t => by
  rw [bigSep_W3, bigSep_W3]
  exact sound_body3 V c t

end Regions

end Cert.Proof.KI

end
-- ==== Proof.TcRegions.lean ====
/-
  The two TensorCore regions as segments of @main's tail. Region 0 (the first matrix-product call) is entered with
  the TensorCore's unscoped buffers at a valuation W1 and left with them at W2: W1 but for the region's four arrays,
  of which the three inputs (the argument x, the first dense matrix, the first half of the bias) are as entered and
  the result buffer holds what the eight write-backs leave — block t of its left 1024 columns at x's row block t
  times the transposed matrix plus the bias. Region 1 likewise from W3 to W4 over the second dense matrix, the
  second half of the bias and the right 1024 columns of the aliased result. Beside the buffers rides the core's
  generator register at some state and the core owing nothing. Generic in the float instance; W1 and W3 are
  parameters, instantiated in the last section from a valuation W0 at which the tail of @main is entered.
-/
import proofs.«210207_g17016660427310_cont_sun_m_176_22_alg».proof.Proof.TcBody

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The levels and the thread state beside the buffers -/

/-- The prefetched tables' admissible contents: neither pipeline has a table. -/
abbrev admTc : (p : Fin 2) → (pcfgs (F := F) p).Adm := fun p => (cfgs p).toPCfg_adm
/-- The levels are the launch's: every index levelled at every cell, `none` at 0. The bodies owe nothing, so no
    level fact is read. -/
abbrev Lv : GSem nD τ sig → Finset (HIx 2) := (K (F := F)).L
abbrev lv : GSem nD τ sig → HIx 2 → ℕ := (K (F := F)).lev
/-- What rides beside the buffers through every segment: the core's generator register at some state and its
    `owes`, at nothing. -/
abbrev R (c : Dev nD) : sProp 𝕄 := iprop((∃ r, prngReg c r) ∗ ∃ W, owes (c : Thread nD τ) (0 : CellTallies nD τ sig (HIx 2)) W)

section Regions
variable (W1 W3 : Dev nD → Valuation τ sig (Elt F))

/-! ## The buffer contents at the regions' boundaries -/

/-- Region 0's entry contents read at the TensorCore's references (what its proof data take). -/
abbrev V1 : (c : Dev nD) → (b : Ref sig .tc) → Buf (Elt F) ((c : Thread nD τ).loc b) := fun c b => W1 c b
/-- At region 0's exit: its arrays at what the pipeline leaves (the inputs as entered, the result's eight write-backs
    folded), every other buffer as entered. -/
def W2 (c : Dev nD) : Valuation τ sig (Elt F) :=
  Pipeline.withArrays spec2 c (W1 c) fun w => (dat2 (V1 W1) c).arrAt w cfg2.N
theorem W2_arr (c : Dev nD) (w : Fin cfg2.W) :
    W2 W1 c (Proc.devRef .tc (Pipeline.arrRef spec2 w)) = (dat2 (V1 W1) c).arrAt w cfg2.N := by
  unfold W2; exact Pipeline.withArrays_arr spec2 launch2.win.arr_inj c _ _ w
theorem W2_of_ne (c : Dev nD) (b : Ref sig .tc) (hb : ∀ w, Pipeline.arrRef spec2 w ≠ b) :
    W2 W1 c (Proc.devRef .tc b) = W1 c (Proc.devRef .tc b) := by
  unfold W2; exact Pipeline.withArrays_of_ne spec2 c _ _ b hb
abbrev V2 : (c : Dev nD) → (b : Ref sig .tc) → Buf (Elt F) ((c : Thread nD τ).loc b) := fun c b => W2 W1 c b
theorem hF2 (c : Dev nD) (w : Fin cfg2.W) : (dat2 (V1 W1) c).arrAt w cfg2.N = V2 W1 c (Pipeline.arrRef spec2 w) :=
  (W2_arr W1 c w).symm
theorem hrest2 (c : Dev nD) : ∀ b, b ∉ Finset.univ.image (Pipeline.arrRef spec2) → V2 W1 c b = V1 W1 c b :=
  fun b hb => W2_of_ne W1 c b fun w e => hb (Finset.mem_image.mpr ⟨w, Finset.mem_univ _, e⟩)

/-- Region 1's entry contents read at the TensorCore's references. -/
abbrev V3 : (c : Dev nD) → (b : Ref sig .tc) → Buf (Elt F) ((c : Thread nD τ).loc b) := fun c b => W3 c b
/-- At region 1's exit, likewise. -/
def W4 (c : Dev nD) : Valuation τ sig (Elt F) :=
  Pipeline.withArrays spec3 c (W3 c) fun w => (dat3 (V3 W3) c).arrAt w cfg3.N
theorem W4_arr (c : Dev nD) (w : Fin cfg3.W) :
    W4 W3 c (Proc.devRef .tc (Pipeline.arrRef spec3 w)) = (dat3 (V3 W3) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 W3 c (Proc.devRef .tc b) = W3 c (Proc.devRef .tc b) := by
  unfold W4; exact Pipeline.withArrays_of_ne spec3 c _ _ b hb
abbrev V4 : (c : Dev nD) → (b : Ref sig .tc) → Buf (Elt F) ((c : Thread nD τ).loc b) := fun c b => W4 W3 c b
theorem hF3 (c : Dev nD) (w : Fin cfg3.W) : (dat3 (V3 W3) c).arrAt w cfg3.N = V4 W3 c (Pipeline.arrRef spec3 w) :=
  (W4_arr W3 c w).symm
theorem hrest3 (c : Dev nD) : ∀ b, b ∉ Finset.univ.image (Pipeline.arrRef spec3) → V4 W3 c b = V3 W3 c b :=
  fun b hb => W4_of_ne W3 c b fun w e => hb (Finset.mem_image.mpr ⟨w, Finset.mem_univ _, e⟩)

/-! ## The proof data family -/

/-- Both pipelines' proof data, each at its region's entry contents. -/
def pdats : (p : Fin 2) → (c : Dev nD) → Dat τ (Elt F) (HIx 2) ℕ UU ℕ (Pipeline.pin (pcfgs (F := F)) admTc p) c
  | ⟨0, _⟩ => fun c => dat2 (V1 W1) c
  | ⟨1, _⟩ => fun c => dat3 (V3 W3) c

/-! ## The regions as segments -/

set_option backward.isDefEq.respectTransparency.types false in
/-- REGION 0 over the thread state: entered from every unscoped buffer at `W1`, left at `W2 W1`. Its four arrays
    are split out of the unscoped buffers and put back at the exit contents; the generator register goes into the
    invariant and comes out; nothing is owed; the body has no semaphore of its own. -/
def reg0 : Pipeline.RegionSeg (pcfgs (F := F)) admTc (pdats W1 W3) (none : HIx 2) defs₀ 𝒱₀ (Lv (F := F)) (lv (F := F)) 0 where
  win := launch2.win.to₀
  block_pos := launch2.block_pos
  stage_whole := launch2.stage_whole
  K := PEmpty
  osem k := k.elim
  ho := Pipeline.OwnSemFacts.none _
  hbody c := (body_obligation2 (V1 W1) c).loose
  hwaits := Pipeline.hwaits_of_owed_zero _ _ _ _ (Lv (F := F)) (lv (F := F)) 0 fun _ _ => rfl
  pre c := iprop(StableHlo.held (c : Thread nD τ) (Pipeline.ucRefs τ sig) (W1 c) ∗ R c)
  post c := iprop(StableHlo.held (c : Thread nD τ) (Pipeline.ucRefs τ sig) (W2 W1 c) ∗ R c)
  X c := iprop(∃ r, prngReg c r)
  Y c := iprop(∃ r, prngReg c r)
  Z c := Pipeline.unscopedRest (Ix := HIx 2) (Name := ℕ) (U := UU) (Lvl := ℕ) spec2 c (V1 W1 c)
  hentry c := by
    rw [Pipeline.ownSems0_none]
    have hsplit := Pipeline.arrays_of_unscopedBufs (p := 0) (pcfgs (F := F)) admTc (pdats W1 W3) launch2.win launch2.arr_whole c
      ((pdats W1 W3 0 c).share_full fun _ => rfl) (V1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 W3 0 c).Φ 0 = ΦR2 c from rfl]
    iintro ⟨Hp, -, Hr⟩
    isplitl [Hr]; · iexact Hr
    iexact Hp
  hout c := by
    rw [Pipeline.ownSems0_none, show (pdats W1 W3 0 c).Φ (Fin.last _) = ΦR2 c from rfl]
    iintro ⟨Hr, Hp⟩
    isplitl [Hp]; · iexact Hp
    isplitr; · iempintro
    iexact Hr
  hexit c := by
    have hjoin := Pipeline.unscopedBufs_of_arrays (p := 0) (pcfgs (F := F)) admTc (Ix := HIx 2) (Name := ℕ) (U := UU) (Lvl := ℕ)
      launch2.win launch2.arr_whole c (pdats W1 W3) ((pdats W1 W3 0 c).share_full fun _ => rfl)
      (V1 W1 c) (V2 W1 c) ((pdats W1 W3 0 c).arrAt · cfg2.N) (hF2 W1 c) (hrest2 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4 W3`. Its four arrays
    are split out of the unscoped buffers and put back at the exit contents; the generator register goes into the
    invariant and comes out; nothing is owed; the body has no semaphore of its own. -/
def reg1 : Pipeline.RegionSeg (pcfgs (F := F)) admTc (pdats W1 W3) (none : HIx 2) defs₀ 𝒱₀ (Lv (F := F)) (lv (F := F)) 1 where
  win := launch3.win.to₀
  block_pos := launch3.block_pos
  stage_whole := launch3.stage_whole
  K := PEmpty
  osem k := k.elim
  ho := Pipeline.OwnSemFacts.none _
  hbody c := (body_obligation3 (V3 W3) c).loose
  hwaits := Pipeline.hwaits_of_owed_zero _ _ _ _ (Lv (F := F)) (lv (F := F)) 1 fun _ _ => rfl
  pre c := iprop(StableHlo.held (c : Thread nD τ) (Pipeline.ucRefs τ sig) (W3 c) ∗ R c)
  post c := iprop(StableHlo.held (c : Thread nD τ) (Pipeline.ucRefs τ sig) (W4 W3 c) ∗ R c)
  X c := iprop(∃ r, prngReg c r)
  Y c := iprop(∃ r, prngReg c r)
  Z c := Pipeline.unscopedRest (Ix := HIx 2) (Name := ℕ) (U := UU) (Lvl := ℕ) spec3 c (V3 W3 c)
  hentry c := by
    rw [Pipeline.ownSems0_none]
    have hsplit := Pipeline.arrays_of_unscopedBufs (p := 1) (pcfgs (F := F)) admTc (pdats W1 W3) launch3.win launch3.arr_whole c
      ((pdats W1 W3 1 c).share_full fun _ => rfl) (V3 W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 W3 1 c).Φ 0 = ΦR3 c from rfl]
    iintro ⟨Hp, -, Hr⟩
    isplitl [Hr]; · iexact Hr
    iexact Hp
  hout c := by
    rw [Pipeline.ownSems0_none, show (pdats W1 W3 1 c).Φ (Fin.last _) = ΦR3 c from rfl]
    iintro ⟨Hr, Hp⟩
    isplitl [Hp]; · iexact Hp
    isplitr; · iempintro
    iexact Hr
  hexit c := by
    have hjoin := Pipeline.unscopedBufs_of_arrays (p := 1) (pcfgs (F := F)) admTc (Ix := HIx 2) (Name := ℕ) (U := UU) (Lvl := ℕ)
      launch3.win launch3.arr_whole c (pdats W1 W3) ((pdats W1 W3 1 c).share_full fun _ => rfl)
      (V3 W3 c) (V4 W3 c) ((pdats W1 W3 1 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

/-! # The tail of @main: the two host stretches and the two regions, in order

After the two SparseCore calls @main reshapes the 2048-entry bias to 1 × 2048 and slices its first 1024 entries
(stretch A), runs region 0, slices the last 1024 entries and copies the first region's result into the buffer the
second region's result aliases (stretch B), and runs region 1. From a valuation `W0` of the TensorCore's unscoped
buffers at which the tail is entered, the contents at each boundary are a fold: a stretch's `StableHlo.after`, a
region's arrays at what its write-backs leave. -/

section Run
variable (W0 : Dev nD → Valuation τ sig (Elt F))

/-- Stretch A: the bias as a row, and its first half. -/
abbrev hostOpsA : List (HloOp τ sig (Elt F)) :=
  [ StableHlo.reshape main_arg3 main_v2 rfl shapeCasts_S2048_S1x2048,
    StableHlo.unary main_v2 main_v3 ((extractStridedSlice S1x1024 ![0, 0] · slices_S1x2048_S1x1024_0_0) : (⟨S1x2048, .f32⟩ : BufTy).Contents (Elt F) → (⟨S1x1024, .f32⟩ : BufTy).Contents (Elt F)) ]
/-- Stretch B: the bias row's second half, and the first region's result copied into the second's buffer. -/
abbrev hostOpsB : List (HloOp τ sig (Elt F)) :=
  [ StableHlo.unary main_v2 main_v5 ((extractStridedSlice S1x1024 ![0, 1024] · slices_S1x2048_S1x1024_0_1024) : (⟨S1x2048, .f32⟩ : BufTy).Contents (Elt F) → (⟨S1x1024, .f32⟩ : BufTy).Contents (Elt F)),
    StableHlo.unary main_v4 main_v6 id ]

/-- Each operation touches TensorCore references only, -/
theorem hostOpsA_sub : (hostOpsA : List (HloOp τ sig (Elt F))).Forall fun op => op.bufs ⊆ StableHlo.tcRefs τ sig :=
  ⟨StableHlo.reshape_bufs_sub .., StableHlo.unary_bufs_sub ..⟩
theorem hostOpsB_sub : (hostOpsB : List (HloOp τ sig (Elt F))).Forall fun op => op.bufs ⊆ StableHlo.tcRefs τ sig :=
  ⟨StableHlo.unary_bufs_sub .., StableHlo.unary_bufs_sub ..⟩
/-- and none allocates a buffer. -/
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor

/-- A host stretch as a segment over the unscoped references from the contents `W`, `R` riding along: it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (Lv (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The contents at the boundaries: after stretch A (region 0's entry), at region 0's exit, after stretch B (region 1's
    entry), at region 1's exit. -/
abbrev WA : Dev nD → Valuation τ sig (Elt F) := fun c => StableHlo.after hostOpsA (W0 c)
abbrev WB : Dev nD → Valuation τ sig (Elt F) := W2 (WA W0)
abbrev WC : Dev nD → Valuation τ sig (Elt F) := fun c => StableHlo.after hostOpsB (WB W0 c)
abbrev WD : Dev nD → Valuation τ sig (Elt F) := W4 (WC W0)

/-- The tail's four segments in order. -/
abbrev segs : List (Pipeline.Seg (pcfgs (F := F)) admTc (pdats (WA W0) (WC W0)) (none : HIx 2) defs₀ 𝒱₀ (Lv (F := F)) (lv (F := F))) :=
  [ .host (hseg hostOpsA hostOpsA_sub hostOpsA_fresh W0),
    .region (reg0 (WA W0) (WC W0)),
    .host (hseg hostOpsB hostOpsB_sub hostOpsB_fresh (WB W0)),
    .region (reg1 (WA W0) (WC W0)) ]

/-- The segments enter two pipelines, each once. -/
theorem segs_pipes : Pipeline.Seg.pipes (segs W0) = [0, 1] := by
  simp only [segs, Pipeline.Seg.pipes_host, Pipeline.Seg.pipes_region, Pipeline.Seg.pipes_nil]

/-- Their thread states chain: each segment is entered from exactly what the one before it left, from every unscoped
    buffer at `W0` to every unscoped buffer at `WD`, `R` beside them throughout. -/
theorem segs_chains :
    Pipeline.Seg.Chains (fun c => iprop(StableHlo.held (c : Thread nD τ) (Pipeline.ucRefs τ sig) (W0 c) ∗ R c)) (segs W0)
      (fun c => iprop(StableHlo.held (c : Thread nD τ) (Pipeline.ucRefs τ sig) (WD W0 c) ∗ R c)) :=
  ⟨fun _ => .rfl, fun _ => .rfl, fun _ => .rfl, fun _ => .rfl, fun _ => .rfl⟩

/-- @main after the two SparseCore calls, in the pipelines' own signature. -/
def tailP : Prog (TpuEff nD τ sig (Elt F) (ΛP (F := F)) .tc) PUnit := do
  hlo rfl (StableHlo.reshape main_arg3 main_v2 rfl shapeCasts_S2048_S1x2048) (fun _ => .ret ⟨⟩)
  hlo rfl (StableHlo.unary main_v2 main_v3 ((extractStridedSlice S1x1024 ![0, 0] · slices_S1x2048_S1x1024_0_0) : (⟨S1x2048, .f32⟩ : BufTy).Contents (Elt F) → (⟨S1x1024, .f32⟩ : BufTy).Contents (Elt F))) (fun _ => .ret ⟨⟩)
  Prog.lift (.customCall (Pipeline.entry 0) ())
  hlo rfl (StableHlo.unary main_v2 main_v5 ((extractStridedSlice S1x1024 ![0, 1024] · slices_S1x2048_S1x1024_0_1024) : (⟨S1x2048, .f32⟩ : BufTy).Contents (Elt F) → (⟨S1x1024, .f32⟩ : BufTy).Contents (Elt F))) (fun _ => .ret ⟨⟩)
  hlo rfl (StableHlo.unary main_v4 main_v6 id) (fun _ => .ret ⟨⟩)
  Prog.lift (.customCall (Pipeline.entry 1) ())
  pure ⟨⟩

/-- @main is the two SparseCore calls and then that tail. -/
theorem main_eq_tail (d : Dev nD) : main (F := F) d = (do sc.run d 0; sc.run d 1; SparseCore.liftProg (tailP (F := F))) := rfl

/-- The tail IS the run of the segments: statement for statement, the stretches' operations and the regions' calls
    in @main's order. -/
theorem tail_run : tailP (F := F) = Pipeline.Seg.run (segs W0) := by chain_rfl

end Run

end Cert.Proof.KI

end
-- ==== Proof.LaunchKI.lean ====
/-
  The launch of the idealized kernel's program: what each SparseCore call hands its tiles and takes
  back, the tiles' obligations, @main on the TensorCore, and the run of the whole family of threads.
-/
import proofs.«210207_g17016660427310_cont_sun_m_176_22_alg».proof.Proof.Tiles
import proofs.«210207_g17016660427310_cont_sun_m_176_22_alg».proof.Proof.TcRegions
import proofs.«210207_g17016660427310_cont_sun_m_176_22_alg».proof.Proof.Gen.KernelIdeal.Launch
import proofs.«210207_g17016660427310_cont_sun_m_176_22_alg».proof.Proof.Gen.KernelIdeal.Points
import Idealize.ShloMosaic.Lib.Pipeline.Frame
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)
variable [FloatOps F]

/-- What a call hands tile (c, s): the tile's share. -/
def goF (q : Fin 2) (d : Dev nD) (c : Fin ((K (F := F)).nCore q)) (s : Fin ((K (F := F)).nSub q)) : sProp 𝕄 :=
  match q with
  | 0 => tileRes0 m d (coordsV0 c s)
  | 1 => tileRes1 m d (coordsV1 c s)

instance goF_storable (q : Fin 2) (d : Dev nD) (c : Fin ((K (F := F)).nCore q)) (s : Fin ((K (F := F)).nSub q)) :
    BI.Storable (upEmb : UEmb _ 𝕄) (goF m q d c s) :=
  match q with
  | 0 => tileRes0_storable m d _
  | 1 => tileRes1_storable m d _

/-- Each call hands a SparseCore the shares of its sixteen tiles and takes them back. -/
def P : (K (F := F)).Pay (nD := nD) (Val := Elt F) (Name := ℕ) (U := UU) where
  st := fun q d c => bigSep Finset.univ fun s => goF m q d c s
  dn := fun q d c => bigSep Finset.univ fun s => goF m q d c s
  go := goF m
  td := goF m
  x := fun _ _ => iprop(emp)

instance P_storable : (P (F := F) m).IsStorable where
  st q d c := (inferInstance : BI.Storable (upEmb : UEmb _ 𝕄) (bigSep Finset.univ fun s => goF m q d c s))
  dn q d c := (inferInstance : BI.Storable (upEmb : UEmb _ 𝕄) (bigSep Finset.univ fun s => goF m q d c s))
  go q d c s := goF_storable m q d c s
  td q d c s := goF_storable m q d c s

/-- A call's operands for one SparseCore ARE its tiles' shares: nothing to split. -/
theorem vecSplit (q : Fin 2) : (K (F := F)).VecSplit' (P m) q := by
  intro d c
  show (bigSep Finset.univ fun s => goF m q d c s) ⊢ |={Set.univ}=> iprop((bigSep Finset.univ fun s => goF m q d c s)
    ∗ ((bigSep Finset.univ fun s => goF m q d c s) -∗ bigSep Finset.univ fun s => goF m q d c s))
  iintro H; imodintro
  isplitl [H]; · iexact H
  iintro H; iexact H

/-! ## The tiles' obligations -/

/-- What the proof asks of the launch memory: every index word names a column. -/
def PreOK : Prop := ∀ (d : Dev nD) (j : S2048x32.Idx), (m (iLoc d) j).toNat < 2048

/-- One tile's task of the first call, at a symbolic place: from the tile's share (the index and weight rows at any
    contents whose index words name columns, the two result blocks at anything) and the tile's scoped storage, the body
    runs to its end, giving both back. -/
def TileBody0 : Prop :=
  ∀ (d : Dev nD) (L : grid0.Coords) (O : CellTallies nD τ sig (HIx 2)) (W : Waits sig (HIx 2)), (∀ g, O g none = 0) →
    ∀ (fi : Buf (Elt F) (iLoc d)) (fw : Buf (Elt F) (wLoc d)),
    (∀ x : S32x32.Idx, (fi (((iV.slice (rI0 L) (fun _ => rfl)).view).emb x)).toNat < 2048) →
    (iprop(levAts (K (F := F)).L (K (F := F)).lev ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, o0Loc d ↦[rowsOa0 L]{fullShare} fa) ∗ (∃ fb, o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

/-- The same for the second call. -/
def TileBody1 : Prop :=
  ∀ (d : Dev nD) (L : grid1.Coords) (O : CellTallies nD τ sig (HIx 2)) (W : Waits sig (HIx 2)), (∀ g, O g none = 0) →
    ∀ (fi : Buf (Elt F) (iLoc d)) (fw : Buf (Elt F) (wLoc d)),
    (∀ x : S32x32.Idx, (fi (((iV.slice (rI1 L) (fun _ => rfl)).view).emb x)).toNat < 2048) →
    (iprop(levAts (K (F := F)).L (K (F := F)).lev ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L iV (Memref.isWhole_whole _) wV (Memref.isWhole_whole _) o1V (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, o1Loc d ↦[rowsOa1 L]{fullShare} fa) ∗ (∃ fb, o1Loc d ↦[rowsOb1 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector0 (c : Fin τ.nSC) (s : Fin τ.nSub) :
    defs₀ (F := F) (.scVector c s) 0 ()
      = SparseCore.onTile hcore0 hsub0 (fun c s => cc0_body (coordsV0 c s) iV (Memref.isWhole_whole _) wV (Memref.isWhole_whole _) o0V (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scoped0 cc0_scoped1) ⟨⟩ c s := rfl
theorem defs₀_vector1 (c : Fin τ.nSC) (s : Fin τ.nSub) :
    defs₀ (F := F) (.scVector c s) 1 ()
      = SparseCore.onTile hcore1 hsub1 (fun c s => cc1_body (coordsV1 c s) iV (Memref.isWhole_whole _) wV (Memref.isWhole_whole _) o1V (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1) ⟨⟩ c s := rfl

omit [FloatOps F] in
/-- From the body's run to the obligation's wording: the share regrouped, the recorded waits widened. -/
theorem obl_post {thr : Thread nD τ} {A1 A2 A3 A4 B C : sProp 𝕄} {O : CellTallies nD τ sig (HIx 2)} {W : Waits sig (HIx 2)} {q : Fin 2} :
    iprop(A1 ∗ A2 ∗ A3 ∗ A4 ∗ B ∗ C ∗ ∃ W', ⌜∀ p ∈ W', p ∈ W ∨ p.2 = none⌝ ∗ owes thr O W')
      ⊢ iprop((A1 ∗ A2 ∗ A3 ∗ A4) ∗ B ∗ C ∗ ∃ W', ⌜∀ p ∈ W', p ∈ W ∨ p.2 = none ∨ p.2 = some q⌝ ∗ owes thr O W') := by
  iintro ⟨H1, H2, H3, H4, HB, HC, %W', %hW', HO⟩
  isplitl [H1 H2 H3 H4]
  · isplitl [H1]; · iexact H1
    isplitl [H2]; · iexact H2
    isplitl [H3]; · iexact H3
    iexact H4
  isplitl [HB]; · iexact HB
  isplitl [HC]; · iexact HC
  iexists W'; isplitr
  · ipureintro; exact fun p hp => (hW' p hp).imp_right Or.inl
  · iexact HO

theorem tileObl0 (hb : TileBody0 (F := F)) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  refine BI.Entails.trans ?_ ((hb d (coordsV0 ⟨_, hc.1⟩ ⟨_, hc.2⟩) O W hO (m (iLoc d)) (m (wLoc d)) (fun x => hpre d _)).trans
    (wp_mono frame _ _ fun _ => obl_post))
  show iprop(_ ∗ iprop(emp) ∗ tileRes0 m d _ ∗ _) ⊢ _
  unfold tileRes0
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

theorem tileObl1 (hb : TileBody1 (F := F)) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  refine BI.Entails.trans ?_ ((hb d (coordsV1 ⟨_, hc.1⟩ ⟨_, hc.2⟩) O W hO (m (iLoc d)) (m (wLoc d)) (fun x => hpre d _)).trans
    (wp_mono frame _ _ fun _ => obl_post))
  show iprop(_ ∗ iprop(emp) ∗ tileRes1 m d _ ∗ _) ⊢ _
  unfold tileRes1
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

/-! ## The launch element: the handshakes' rounds, the pipelines' rounds; the counters dropped -/

/-- The pipelines' rounds: the middle factor of the algebra. -/
abbrev EP : Emb UP (MT nD τ sig (HIx 2) (Elt F) ℕ UU ℕ) := (Emb.inl : Emb UP (UP × Counters)).trans embR

instance EP_landsIn : (EP : Emb UP 𝕄).LandsIn (upEmb : UEmb _ 𝕄) := by unfold EP embR; infer_instance

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside its arrays: both pipelines' staging cells' ghost state. -/
abbrev G (d : Dev nD) : sProp 𝕄 := Pipeline.ghostOn (pcfgs (F := F)) admTc EP Finset.univ d

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EP (F := F)) cellOf_inj) $$ HP with ⟨Hc, Ht⟩
  imodintro
  isplitl [HH]; · iexact HH
  isplitl [Hc Ht]
  · unfold G Pipeline.ghostOn Pipeline.PerCore.ghostOn
    simp only [bigSep_sep']
    isplitl [Hc]
    · iexact Hc
    · iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## @main on the TensorCore -/

abbrev i' : DevRef τ sig := Proc.devRef .tc (main_arg1 : Ref sig .tc)
abbrev w' : DevRef τ sig := Proc.devRef .tc (main_arg2 : Ref sig .tc)
abbrev o0' : DevRef τ sig := Proc.devRef .tc (main_v0 : Ref sig .tc)
abbrev o1' : DevRef τ sig := Proc.devRef .tc (main_v1 : Ref sig .tc)
/-- The arrays the SparseCore calls work on. -/
abbrev T4 : Finset (DevRef τ sig) := {i', w', o0', o1'}

/-- The launch valuation; after the two calls, the two dense matrices at what the tiles left. -/
abbrev V0 (d : Dev nD) : Valuation τ sig (Elt F) := fun b => m (d, b)
def Wc (d : Dev nD) (f0 : Buf (Elt F) (o0Loc d)) (f1 : Buf (Elt F) (o1Loc d)) : Valuation τ sig (Elt F) :=
  Function.update (Function.update (V0 m d) o0' f0) o1' f1

omit [FloatOps F] in
theorem held_T4 (d : Dev nD) (W : Valuation τ sig (Elt F)) :
    (held (SparseCore.T d) T4 W : sProp 𝕄) = iprop((iLoc d ↦{fullShare} W i') ∗ (wLoc d ↦{fullShare} W w') ∗ (o0Loc d ↦{fullShare} W o0') ∗ (o1Loc d ↦{fullShare} W o1')) := by
  unfold held T4
  rw [SparseCore.bigSep_insert' (by decide), SparseCore.bigSep_insert' (by decide), SparseCore.bigSep_insert' (by decide), bigSep_singleton]

theorem T4_sub : T4 ⊆ Pipeline.ucRefs τ sig := by decide

set_option backward.isDefEq.respectTransparency.types false in
/-- The launch's unscoped arrays are the unscoped references held at the launch valuation. -/
theorem unscoped_held (d : Dev nD) :
    (unscopedBufs (Ix := HIx 2) (Name := ℕ) (U := UU) (Lvl := ℕ) d (fun b => m ((SparseCore.T d).loc b)) : sProp 𝕄)
      = held (SparseCore.T d) (Pipeline.ucRefs τ sig) (V0 m d) :=
  Pipeline.unscopedBufs_held (Ix := HIx 2) (Name := ℕ) (U := UU) (Lvl := ℕ) d (V0 m d)

theorem Wc_i (d : Dev nD) (f0 f1) : Wc m d f0 f1 i' = m (iLoc d) :=
  (Function.update_of_ne (show i' ≠ o1' by decide) _ _).trans (Function.update_of_ne (show i' ≠ o0' by decide) _ _)
theorem Wc_w (d : Dev nD) (f0 f1) : Wc m d f0 f1 w' = m (wLoc d) :=
  (Function.update_of_ne (show w' ≠ o1' by decide) _ _).trans (Function.update_of_ne (show w' ≠ o0' by decide) _ _)
theorem Wc_o0 (d : Dev nD) (f0 f1) : Wc m d f0 f1 o0' = f0 :=
  (Function.update_of_ne (show o0' ≠ o1' by decide) _ _).trans (Function.update_self _ _ _)
theorem Wc_o1 (d : Dev nD) (f0 f1) : Wc m d f0 f1 o1' = f1 := Function.update_self _ _ _
theorem Wc_rest (d : Dev nD) (f0 f1) : ∀ b ∈ Pipeline.ucRefs τ sig \ T4, V0 m d b = Wc m d f0 f1 b := fun b hb => by
  have hb' := (Finset.mem_sdiff.mp hb).2
  have h0 : b ≠ o0' := fun e => hb' (e ▸ by decide)
  have h1 : b ≠ o1' := fun e => hb' (e ▸ by decide)
  exact ((Function.update_of_ne h1 _ _).trans (Function.update_of_ne h0 _ _)).symm

/-- With two calls every recorded pair sits at or below level 16. -/
theorem wbelow_any (thr : Thread nD τ) (W : Waits sig (HIx 2)) : (K (F := F)).WBelow thr W 16 := fun p _ => by
  rcases h : p.2 with _ | q
  · simp [h]
  · exact ((K (F := F)).lev_some_le _ q).trans (by have := q.isLt; omega)

/-- The split of the whole index, weight and result arrays into one call's tiles' shares, with the way back. -/
def CallSplit0 : Prop := ∀ d : Dev nD,
  iprop((iLoc d ↦{fullShare} m (iLoc d)) ∗ (wLoc d ↦{fullShare} m (wLoc d)) ∗ (∃ f, o0Loc d ↦{fullShare} f))
    ⊢ (iprop((bigSep Finset.univ fun c : Fin (grid0.bound 0) => bigSep Finset.univ fun s : Fin (grid0.bound 1) => tileRes0 m d (coordsV0 c s))
        ∗ ((bigSep Finset.univ fun c : Fin (grid0.bound 0) => bigSep Finset.univ fun s : Fin (grid0.bound 1) => tileRes0 m d (coordsV0 c s))
            -∗ iprop((iLoc d ↦{fullShare} m (iLoc d)) ∗ (wLoc d ↦{fullShare} m (wLoc d)) ∗ (∃ f, o0Loc d ↦{fullShare} f)))) : sProp 𝕄)
def CallSplit1 : Prop := ∀ d : Dev nD,
  iprop((iLoc d ↦{fullShare} m (iLoc d)) ∗ (wLoc d ↦{fullShare} m (wLoc d)) ∗ (∃ f, o1Loc d ↦{fullShare} f))
    ⊢ (iprop((bigSep Finset.univ fun c : Fin (grid1.bound 0) => bigSep Finset.univ fun s : Fin (grid1.bound 1) => tileRes1 m d (coordsV1 c s))
        ∗ ((bigSep Finset.univ fun c : Fin (grid1.bound 0) => bigSep Finset.univ fun s : Fin (grid1.bound 1) => tileRes1 m d (coordsV1 c s))
            -∗ iprop((iLoc d ↦{fullShare} m (iLoc d)) ∗ (wLoc d ↦{fullShare} m (wLoc d)) ∗ (∃ f, o1Loc d ↦{fullShare} f)))) : sProp 𝕄)

/-- The run of @main's tail on the TensorCore, from every unscoped array at the contents the two calls left: under
    any continuation it ends holding `FIN d` and owing nothing. -/
def TailRun (FIN : Dev nD → sProp 𝕄) : Prop :=
  ∀ (d : Dev nD) (g0 : (c : Dev nD) → Buf (Elt F) (o0Loc c)) (g1 : (c : Dev nD) → Buf (Elt F) (o1Loc c)) (Q : PUnit → sProp 𝕄),
    iprop((iprop(FIN d ∗ ∃ W, owes (SparseCore.T d) (0 : CellTallies nD τ sig (HIx 2)) W) -∗ Q ⟨⟩)
        ∗ levAts (K (F := F)).L (K (F := F)).lev ∗ boundary (SparseCore.T d) ∗ held (SparseCore.T d) (Pipeline.ucRefs τ sig) (Wc m d (g0 d) (g1 d))
        ∗ (∃ r, prngReg d r) ∗ (∃ W, owes (SparseCore.T d) (0 : CellTallies nD τ sig (HIx 2)) W) ∗ G (F := F) d)
      ⊢ wp frame (wpE (D (F := F)) 𝒱 (SparseCore.T d) none) Set.univ (tailP (F := F)) Q

/-- What a call hands back for its SparseCores, in the split lemmas' spelling. -/
theorem dn0_eq (d : Dev nD) : (bigSep Finset.univ fun c : Fin ((K (F := F)).nCore 0) => (P m).dn 0 d c)
    = (bigSep Finset.univ fun c : Fin (grid0.bound 0) => bigSep Finset.univ fun s : Fin (grid0.bound 1) => tileRes0 m d (coordsV0 c s) : sProp 𝕄) := rfl
theorem dn1_eq (d : Dev nD) : (bigSep Finset.univ fun c : Fin ((K (F := F)).nCore 1) => (P m).dn 1 d c)
    = (bigSep Finset.univ fun c : Fin (grid1.bound 0) => bigSep Finset.univ fun s : Fin (grid1.bound 1) => tileRes1 m d (coordsV1 c s) : sProp 𝕄) := rfl

theorem hmain (hs0 : CallSplit0 m) (hs1 : CallSplit1 m) (FIN : Dev nD → sProp 𝕄) (ht : TailRun m FIN) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN d) := by
  unfold SparseCore.Cfg.tcRes
  rw [unscoped_held,
    StableHlo.held_sub_split (SparseCore.T d) T4_sub, held_T4, main_eq_tail]
  simp only [wp_bind]
  iintro ⟨#Hctx, Hst, ⟨Hb, ⟨⟨Hi, Hw, Ho0, Ho1⟩, Hrest⟩, -, Hp⟩, HG⟩
  ihave Hlev := ((K (F := F)).ctx_levAts κ) $$ Hctx
  -- the first call: the index and weight rows and the first result's blocks to the tiles and back
  ihave Hsp := (hs0 d) $$ [Hi Hw Ho0]
  · isplitl [Hi]; · iexact Hi
    isplitl [Hw]; · iexact Hw
    iexists _; iexact Ho0
  icases Hsp with ⟨Hst0, Hback0⟩
  iapply ((K (F := F)).wp_run (D (F := F)) 𝒱 (EH := EH) (P := P m) κ d 0) $$ [Hst Hst0 Hback0 Ho1 Hrest Hb Hp HG Hlev]
  isplitr; · iexact Hctx
  isplitl [Hst]; · iexact Hst
  isplitl [Hst0]; · iexact Hst0
  iintro ⟨Hst, Hdn⟩
  ihave Hdn' := (Entails.of_eq (dn0_eq m d)) $$ Hdn
  ihave Hbk := Hback0 $$ Hdn'
  icases Hbk with ⟨Hi, Hw, %f0, Ho0⟩
  -- the second call
  ihave Hsp := (hs1 d) $$ [Hi Hw Ho1]
  · isplitl [Hi]; · iexact Hi
    isplitl [Hw]; · iexact Hw
    iexists _; iexact Ho1
  icases Hsp with ⟨Hst1, Hback1⟩
  iapply ((K (F := F)).wp_run (D (F := F)) 𝒱 (EH := EH) (P := P m) κ d 1) $$ [Hst Hst1 Hback1 Ho0 Hrest Hb Hp HG Hlev]
  isplitr; · iexact Hctx
  isplitl [Hst]; · iexact Hst
  isplitl [Hst1]; · iexact Hst1
  iintro ⟨Hst, Hdn⟩
  ihave Hdn' := (Entails.of_eq (dn1_eq m d)) $$ Hdn
  ihave Hbk := Hback1 $$ Hdn'
  icases Hbk with ⟨Hi, Hw, %f1, Ho1⟩
  -- the tail: every unscoped array held at the contents the calls left
  unfold SparseCore.Cfg.tcSt
  icases Hst with ⟨⟨%W, -, HO⟩, Hat, Hrd, Hrs, Htk⟩
  rw [(K (F := F)).Otc_end d (le_refl 2)]
  iapply ((K (F := F)).wp_liftProg (D (F := F)) 𝒱 (SparseCore.T d) Set.univ none (tailP (F := F)) _)
  iapply (ht d (Function.update (fun c => m (o0Loc c)) d f0) (Function.update (fun c => m (o1Loc c)) d f1) _) $$ [Hi Hw Ho0 Ho1 Hrest Hb Hp HG Hlev HO Hat Hrd Hrs Htk]
  rw [Function.update_self, Function.update_self]
  isplitl [Hat Hrd Hrs Htk]
  · iintro ⟨Hfin, %W', HO⟩
    isplitr [Hfin]
    · isplitl [HO]
      · iexists W'; isplitr
        · ipureintro; exact wbelow_any _ _
        · iexact HO
      isplitl [Hat]; · iexact Hat
      isplitl [Hrd]; · iexact Hrd
      isplitl [Hrs]; · iexact Hrs
      iexact Htk
    · iexact Hfin
  isplitl [Hlev]; · iexact Hlev
  isplitl [Hb]; · iexact Hb
  isplitl [Hi Hw Ho0 Ho1 Hrest]
  · rw [StableHlo.held_sub_split (SparseCore.T d) T4_sub (Wc m d f0 f1), held_T4, Wc_i, Wc_w, Wc_o0, Wc_o1, ← StableHlo.held_congr (SparseCore.T d) (Wc_rest m d f0 f1)]
    isplitl [Hi Hw Ho0 Ho1]
    · isplitl [Hi]; · iexact Hi
      isplitl [Hw]; · iexact Hw
      isplitl [Ho0]; · iexact Ho0
      iexact Ho1
    · iexact Hrest
  isplitl [Hp]; · iexists _; iexact Hp
  isplitl [HO]; · iexists W; iexact HO
  iexact HG

/-! ## The tail's run, from the regions' segments -/

/-- What @main leaves: every unscoped array held at a valuation the certificate's reading accepts. -/
def FINof (good : Dev nD → Valuation τ sig (Elt F) → Prop) (d : Dev nD) : sProp 𝕄 :=
  iprop(∃ Wf : Valuation τ sig (Elt F), ⌜good d Wf⌝ ∗ held (SparseCore.T d) (Pipeline.ucRefs τ sig) Wf)

/-- The contents the tail is entered from, on every core. -/
abbrev Wt (g0 : (c : Dev nD) → Buf (Elt F) (o0Loc c)) (g1 : (c : Dev nD) → Buf (Elt F) (o1Loc c)) : Dev nD → Valuation τ sig (Elt F) :=
  fun c => Wc m c (g0 c) (g1 c)

set_option backward.isDefEq.respectTransparency.types false in
/-- The tail is the run of its four segments (two host stretches, two regions), from the arrays as the calls left
    them to the arrays as the second region leaves them. -/
theorem tailRun [∀ e, Nonempty (Elt F e)] (good : Dev nD → Valuation τ sig (Elt F) → Prop)
    (hgood : ∀ d g0 g1, good d (WD (Wt m g0 g1) d)) : TailRun m (FINof good) := by
  intro d g0 g1 Q
  rw [tail_run (Wt m g0 g1)]
  refine BIBase.Entails.trans ?_ (Pipeline.wp_segs (pcfgs (F := F)) admTc (pdats (WA (Wt m g0 g1)) (WC (Wt m g0 g1))) (none : HIx 2) cellOf_inj (EP (F := F)) defs₀ 𝒱₀ Lv lv d
    (Q := Q) (segs (Wt m g0 g1)) Finset.univ _ _ (by rw [segs_pipes]; decide) (fun p _ => Finset.mem_univ p) (segs_chains (Wt m g0 g1)))
  iintro ⟨HQ, Hlev, Hb, Hh, Hp, HO, HG⟩
  isplitl [HQ]
  · iintro ⟨-, Hh, -, HO⟩
    iapply HQ
    isplitl [Hh]
    · unfold FINof
      iexists _; isplitr
      · ipureintro; exact hgood d g0 g1
      · iexact Hh
    · iexact HO
  isplitl [Hb]; · iexact Hb
  isplitl [Hh Hp HO]
  · isplitl [Hh]; · iexact Hh
    isplitl [Hp]; · iexact Hp
    iexact HO
  isplitl [Hlev]; · iexact Hlev
  iexact HG

/-! ## Reading the claim off the final memory -/

/-- The final memory holds, at every unscoped array, what some accepted valuation says. -/
def fq (good : Dev nD → Valuation τ sig (Elt F) → Prop) (d : Dev nD) (s' : Phys nD τ sig (Elt F)) : Prop :=
  ∃ Wf, good d Wf ∧ ∀ b ∈ Pipeline.ucRefs τ sig, s'.mem.mem ((d, b) : Loc nD τ sig) = Wf b

theorem hfin [∀ e, Nonempty (Elt F e)] (good : Dev nD → Valuation τ sig (Elt F) → Prop) (d : Dev nD) (s' : Phys nD τ sig (Elt F)) :
    iprop(FINof good d ∗ SI s') ⊢ (⌜fq good d s'⌝ : sProp 𝕄) := by
  unfold FINof
  iintro ⟨⟨%Wf, %hg, Hh⟩, HSI⟩
  unfold StableHlo.held
  ihave H := (pointsTo_read_all (Pipeline.ucRefs τ sig) (fun b => ((d, b) : Loc nD τ sig)) Wf s') $$ [Hh HSI]
  · isplitl [Hh] <;> iassumption
  icases H with ⟨%h, -⟩
  ipureintro; exact ⟨Wf, hg, h⟩

/-! ## The program's run -/

theorem run_main [∀ e, Nonempty (Elt F e)] (hb0 : TileBody0 (F := F)) (hb1 : TileBody1 (F := F)) (hpre : PreOK m)
    (hs0 : CallSplit0 m) (hs1 : CallSplit1 m)
    (good : Dev nD → Valuation τ sig (Elt F) → Prop) (hgood : ∀ d g0 g1, good d (WD (Wt m g0 g1) d))
    (Q' : PUnit × MemSt nD τ sig (Elt F) → Prop) (hQ : ∀ s' : Phys nD τ sig (Elt F), (∀ d, fq good d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hb0 hpre | 1 => tileObl1 m hb1 hpre)
    (fun q _ => SparseCore.Cfg.VecSplit.of_plain (vecSplit m q))
    m ρ main (G (F := F)) (FINof good) (u₀ (F := F)) (sep_elim_left.trans (hu₀ m)) (hmain m ρ hs0 hs1 (FINof good) (tailRun m good hgood))
    (fq good) (hfin good) Q' hQ

end Cert.Proof.KI

end
-- ==== Proof.Rows.lean ====
/-
  The whole index, weight and result arrays split into the 32 tiles' pieces of one SparseCore call, with the way back.

  Each tile's piece of an array is a block of consecutive rows; distinct tiles' blocks are disjoint. So an array held
  whole splits into the tiles' blocks and a remainder that is kept aside, and the blocks handed back — the result's at
  whatever contents the tiles left — rejoin with the remainder into the array held whole.
-/
import proofs.«210207_g17016660427310_cont_sun_m_176_22_alg».proof.Proof.Tiles

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) [FloatOps F]

/-! ## The tiles' pieces as rectangles, and their disjointness

Tile (c, s) of the first call holds rows [64 s + 32 c, 64 s + 32 c + 32) of the 2048-row arrays and the row blocks
[64 s + 32 c, + 16) and [64 s + 32 c + 16, + 16) of the 1024-row result; the second call's tiles the same rows plus 1024
of the 2048-row arrays, and the same blocks of the second result. With c below 2 and s below 16, the number 2 s + c
determines (c, s), so distinct tiles' rows are separated on axis 0. -/

section Sets

/-- A call's tiles: the SparseCore and the subcore. -/
abbrev Tile0 : Type := Fin (grid0.bound 0) × Fin (grid0.bound 1)
abbrev Tile1 : Type := Fin (grid1.bound 0) × Fin (grid1.bound 1)

theorem rowsI0_eq (L : grid0.Coords) : rowsI0 L = (rI0 L).set := by
  show ((View.whole (main_arg1_scv : Ref sig .scVector)).slice (rI0 L)).set = _
  exact View.set_slice_whole _ _
theorem rowsOa0_eq (L : grid0.Coords) : rowsOa0 L = (rOa0 L).set := by
  show ((View.whole (main_v0_scv : Ref sig .scVector)).slice (rOa0 L)).set = _
  exact View.set_slice_whole _ _
theorem rowsOb0_eq (L : grid0.Coords) : rowsOb0 L = (rOb0 L).set := by
  show ((View.whole (main_v0_scv : Ref sig .scVector)).slice (rOb0 L)).set = _
  exact View.set_slice_whole _ _
theorem rowsI1_eq (L : grid1.Coords) : rowsI1 L = (rI1 L).set := by
  show ((View.whole (main_arg1_scv : Ref sig .scVector)).slice (rI1 L)).set = _
  exact View.set_slice_whole _ _
theorem rowsOa1_eq (L : grid1.Coords) : rowsOa1 L = (rOa1 L).set := by
  show ((View.whole (main_v1_scv : Ref sig .scVector)).slice (rOa1 L)).set = _
  exact View.set_slice_whole _ _
theorem rowsOb1_eq (L : grid1.Coords) : rowsOb1 L = (rOb1 L).set := by
  show ((View.whole (main_v1_scv : Ref sig .scVector)).slice (rOb1 L)).set = _
  exact View.set_slice_whole _ _

/-- The arithmetic: with c, c' below 2, distinct (c, s) give row ranges [64 s + 32 c + z + k, + n) inside the tile's
    32 rows (k + n ≤ 32) that are separated, whatever the common shift z. -/
theorem rows_separated {c c' s s' : Nat} (z k k' n n' : Nat) (hc : c < 2) (hc' : c' < 2) (hne : c ≠ c' ∨ s ≠ s')
    (hk : k + n ≤ 32) (hk' : k' + n' ≤ 32) :
    64 * s + 32 * c + z + k + n ≤ 64 * s' + 32 * c' + z + k'
      ∨ 64 * s' + 32 * c' + z + k' + n' ≤ 64 * s + 32 * c + z + k := by
  omega

/-- Distinct tiles differ in the SparseCore or in the subcore. -/
theorem tile_ne {n0 n1 : Nat} {t t' : Fin n0 × Fin n1} (h : t ≠ t') : t.1.val ≠ t'.1.val ∨ t.2.val ≠ t'.2.val := by
  by_contra hn
  rw [not_or, not_not, not_not] at hn
  exact h (Prod.ext (Fin.ext hn.1) (Fin.ext hn.2))

/-! ### The first call -/

theorem disjI0 (t t' : Tile0) (h : t ≠ t') : Disjoint (rowsI0 (coordsV0 t.1 t.2)) (rowsI0 (coordsV0 t'.1 t'.2)) := by
  rw [rowsI0_eq, rowsI0_eq]
  refine Rect.unit_disjoint 0 ?_
  rw [k0_off1_eq, k0_off1_eq]
  exact rows_separated 0 0 0 32 32 t.1.isLt t'.1.isLt (tile_ne h) (by omega) (by omega)

/-- The second block's offset in closed form. -/
theorem off35_0 (L : grid0.Coords) :
    k0_off35 L 16#32 = ![64 * (L 1).val + 32 * (L 0).val + 16 * (1 : Fin 2).val, 0] := k0_off35_eq L 1

theorem disjAB0 (L : grid0.Coords) : Disjoint (rowsOa0 L) (rowsOb0 L) := by
  rw [rowsOa0_eq, rowsOb0_eq]
  refine Rect.unit_disjoint 0 (Or.inl ?_)
  rw [k0_off34_eq, off35_0]
  exact le_refl (64 * (L 1).val + 32 * (L 0).val + 16)

theorem disjO0 (t t' : Tile0) (h : t ≠ t') :
    Disjoint (rowsOa0 (coordsV0 t.1 t.2) ∪ rowsOb0 (coordsV0 t.1 t.2))
      (rowsOa0 (coordsV0 t'.1 t'.2) ∪ rowsOb0 (coordsV0 t'.1 t'.2)) := by
  have hne := tile_ne h
  rw [Finset.disjoint_union_left, Finset.disjoint_union_right, Finset.disjoint_union_right,
    rowsOa0_eq, rowsOa0_eq, rowsOb0_eq, rowsOb0_eq]
  refine ⟨⟨Rect.unit_disjoint 0 ?_, Rect.unit_disjoint 0 ?_⟩, ⟨Rect.unit_disjoint 0 ?_, Rect.unit_disjoint 0 ?_⟩⟩
  · rw [k0_off34_eq, k0_off34_eq]
    exact rows_separated 0 0 0 16 16 t.1.isLt t'.1.isLt hne (by omega) (by omega)
  · rw [k0_off34_eq, off35_0]
    exact rows_separated 0 0 16 16 16 t.1.isLt t'.1.isLt hne (by omega) (by omega)
  · rw [off35_0, k0_off34_eq]
    exact rows_separated 0 16 0 16 16 t.1.isLt t'.1.isLt hne (by omega) (by omega)
  · rw [off35_0, off35_0]
    exact rows_separated 0 16 16 16 16 t.1.isLt t'.1.isLt hne (by omega) (by omega)

/-! ### The second call -/

theorem disjI1 (t t' : Tile1) (h : t ≠ t') : Disjoint (rowsI1 (coordsV1 t.1 t.2)) (rowsI1 (coordsV1 t'.1 t'.2)) := by
  rw [rowsI1_eq, rowsI1_eq]
  refine Rect.unit_disjoint 0 ?_
  rw [k1_off1_eq, k1_off1_eq]
  exact rows_separated 1024 0 0 32 32 t.1.isLt t'.1.isLt (tile_ne h) (by omega) (by omega)

theorem off35_1 (L : grid1.Coords) :
    k1_off35 L 16#32 = ![64 * (L 1).val + 32 * (L 0).val + 16 * (1 : Fin 2).val, 0] := k1_off35_eq L 1

theorem disjAB1 (L : grid1.Coords) : Disjoint (rowsOa1 L) (rowsOb1 L) := by
  rw [rowsOa1_eq, rowsOb1_eq]
  refine Rect.unit_disjoint 0 (Or.inl ?_)
  rw [k1_off34_eq, off35_1]
  exact le_refl (64 * (L 1).val + 32 * (L 0).val + 16)

theorem disjO1 (t t' : Tile1) (h : t ≠ t') :
    Disjoint (rowsOa1 (coordsV1 t.1 t.2) ∪ rowsOb1 (coordsV1 t.1 t.2))
      (rowsOa1 (coordsV1 t'.1 t'.2) ∪ rowsOb1 (coordsV1 t'.1 t'.2)) := by
  have hne := tile_ne h
  rw [Finset.disjoint_union_left, Finset.disjoint_union_right, Finset.disjoint_union_right,
    rowsOa1_eq, rowsOa1_eq, rowsOb1_eq, rowsOb1_eq]
  refine ⟨⟨Rect.unit_disjoint 0 ?_, Rect.unit_disjoint 0 ?_⟩, ⟨Rect.unit_disjoint 0 ?_, Rect.unit_disjoint 0 ?_⟩⟩
  · rw [k1_off34_eq, k1_off34_eq]
    exact rows_separated 0 0 0 16 16 t.1.isLt t'.1.isLt hne (by omega) (by omega)
  · rw [k1_off34_eq, off35_1]
    exact rows_separated 0 0 16 16 16 t.1.isLt t'.1.isLt hne (by omega) (by omega)
  · rw [off35_1, k1_off34_eq]
    exact rows_separated 0 16 0 16 16 t.1.isLt t'.1.isLt hne (by omega) (by omega)
  · rw [off35_1, off35_1]
    exact rows_separated 0 16 16 16 16 t.1.isLt t'.1.isLt hne (by omega) (by omega)

end Sets

/-! ## Carving the tiles' pieces out of the whole arrays, and putting them back

Stated once for any finite family of tiles: two arrays held whole at given contents and a third held whole at some
contents split into the tiles' pieces — the first two at the same contents, the third's two pieces per tile at some
contents — and what the pieces do not cover stays aside; given the pieces back (the third's at any contents), the whole
arrays are back, the third at some contents. Nothing is assumed about the pieces covering an array. -/

section Generic
variable {T : Type} [Fintype T] [DecidableEq T]

omit [FloatOps F] in
/-- One tile's two pieces of the third array, held at any contents, are their union held at some contents. -/
theorem pieces_join (ℓo : Loc nD τ sig) (A B : Finset (Idx ℓo)) (hAB : Disjoint A B) :
    iprop((∃ fa, ℓo ↦[A]{fullShare} fa) ∗ (∃ fb, ℓo ↦[B]{fullShare} fb))
      ⊢ (iprop(∃ h, ℓo ↦[A ∪ B]{fullShare} h) : sProp 𝕄) := by
  iintro ⟨⟨%fa, Ha⟩, ⟨%fb, Hb⟩⟩
  iexists (B.piecewise fb fa)
  iapply (pointsTo_join hAB)
  isplitl [Ha]
  · iexact Ha
  · iexact Hb

omit [FloatOps F] in
/-- The union of all tiles' pieces of the third array, at contents f, as the tiles' pieces at some contents. -/
theorem third_split (ℓo : Loc nD τ sig) (f : Buf (Elt F) ℓo) (KA KB : T → Finset (Idx ℓo))
    (hO : ∀ t ∈ (Finset.univ : Finset T), ∀ t' ∈ (Finset.univ : Finset T), t ≠ t' → Disjoint (KA t ∪ KB t) (KA t' ∪ KB t'))
    (hAB : ∀ t, Disjoint (KA t) (KB t)) :
    (ℓo ↦[Finset.univ.biUnion fun t => KA t ∪ KB t]{fullShare} f : sProp 𝕄)
      ⊢ iprop((bigSep Finset.univ fun t : T => iprop(∃ fa, ℓo ↦[KA t]{fullShare} fa))
          ∗ (bigSep Finset.univ fun t : T => iprop(∃ fb, ℓo ↦[KB t]{fullShare} fb))) := by
  rw [pointsTo_biUnion Finset.univ (fun t => KA t ∪ KB t) hO, ← bigSep_sep']
  refine bigSep_mono fun t _ => ?_
  refine ((pointsTo_union (hAB t)).1).trans ?_
  iintro ⟨Ha, Hb⟩
  isplitl [Ha]
  · iexists f; iexact Ha
  · iexists f; iexact Hb

omit [FloatOps F] in
/-- The tiles' pieces of the third array, at any contents, are the union of them all at some contents. -/
theorem third_join (ℓo : Loc nD τ sig) (f₀ : Buf (Elt F) ℓo) (KA KB : T → Finset (Idx ℓo))
    (hO : ∀ t ∈ (Finset.univ : Finset T), ∀ t' ∈ (Finset.univ : Finset T), t ≠ t' → Disjoint (KA t ∪ KB t) (KA t' ∪ KB t'))
    (hAB : ∀ t, Disjoint (KA t) (KB t)) :
    iprop((bigSep Finset.univ fun t : T => iprop(∃ fa, ℓo ↦[KA t]{fullShare} fa))
        ∗ (bigSep Finset.univ fun t : T => iprop(∃ fb, ℓo ↦[KB t]{fullShare} fb)))
      ⊢ (iprop(∃ g, ℓo ↦[Finset.univ.biUnion fun t => KA t ∪ KB t]{fullShare} g) : sProp 𝕄) := by
  have : Nonempty (Buf (Elt F) ℓo) := ⟨f₀⟩
  rw [← bigSep_sep']
  refine (bigSep_mono fun t _ => pieces_join ℓo (KA t) (KB t) (hAB t)).trans ?_
  refine (bigSep_exists_pi Finset.univ (fun t (h : Buf (Elt F) ℓo) => (ℓo ↦[KA t ∪ KB t]{fullShare} h : sProp 𝕄))).trans ?_
  iintro ⟨%hs, H⟩
  ihave H' := (pointsTo_biUnion_join Finset.univ (fun t => KA t ∪ KB t) hs f₀ hO) $$ H
  icases H' with ⟨%g, -, Hg⟩
  iexists g; iexact Hg

omit [FloatOps F] in
/-- THE SPLIT, for any finite family of tiles. -/
theorem split_tiles (ℓi ℓw ℓo : Loc nD τ sig) (fi : Buf (Elt F) ℓi) (fw : Buf (Elt F) ℓw)
    (KI : T → Finset (Idx ℓi)) (KW : T → Finset (Idx ℓw)) (KA KB : T → Finset (Idx ℓo))
    (hI : ∀ t ∈ (Finset.univ : Finset T), ∀ t' ∈ (Finset.univ : Finset T), t ≠ t' → Disjoint (KI t) (KI t'))
    (hW : ∀ t ∈ (Finset.univ : Finset T), ∀ t' ∈ (Finset.univ : Finset T), t ≠ t' → Disjoint (KW t) (KW t'))
    (hO : ∀ t ∈ (Finset.univ : Finset T), ∀ t' ∈ (Finset.univ : Finset T), t ≠ t' → Disjoint (KA t ∪ KB t) (KA t' ∪ KB t'))
    (hAB : ∀ t, Disjoint (KA t) (KB t)) :
    iprop((ℓi ↦{fullShare} fi) ∗ (ℓw ↦{fullShare} fw) ∗ (∃ f, ℓo ↦{fullShare} f)) ⊢
      (iprop((bigSep Finset.univ fun t : T => iprop((ℓi ↦[KI t]{fullShare} fi) ∗ (ℓw ↦[KW t]{fullShare} fw)
              ∗ (∃ fa, ℓo ↦[KA t]{fullShare} fa) ∗ (∃ fb, ℓo ↦[KB t]{fullShare} fb)))
          ∗ ((bigSep Finset.univ fun t : T => iprop((ℓi ↦[KI t]{fullShare} fi) ∗ (ℓw ↦[KW t]{fullShare} fw)
              ∗ (∃ fa, ℓo ↦[KA t]{fullShare} fa) ∗ (∃ fb, ℓo ↦[KB t]{fullShare} fb)))
            -∗ iprop((ℓi ↦{fullShare} fi) ∗ (ℓw ↦{fullShare} fw) ∗ (∃ f, ℓo ↦{fullShare} f)))) : sProp 𝕄) := by
  rw [bigSep_sep', bigSep_sep', bigSep_sep', ← pointsTo_biUnion Finset.univ KI hI, ← pointsTo_biUnion Finset.univ KW hW]
  iintro ⟨Hi, Hw, ⟨%f, Ho⟩⟩
  ihave Hi2 := (pointsTo_split_subset (Finset.subset_univ (Finset.univ.biUnion KI))).1 $$ Hi
  icases Hi2 with ⟨HiU, HiR⟩
  ihave Hw2 := (pointsTo_split_subset (Finset.subset_univ (Finset.univ.biUnion KW))).1 $$ Hw
  icases Hw2 with ⟨HwU, HwR⟩
  ihave Ho2 := (pointsTo_split_subset (Finset.subset_univ (Finset.univ.biUnion fun t => KA t ∪ KB t))).1 $$ Ho
  icases Ho2 with ⟨HoU, HoR⟩
  ihave Ho3 := (third_split ℓo f KA KB hO hAB) $$ HoU
  icases Ho3 with ⟨HoA, HoB⟩
  isplitl [HiU HwU HoA HoB]
  · isplitl [HiU]
    · iexact HiU
    isplitl [HwU]
    · iexact HwU
    isplitl [HoA]
    · iexact HoA
    · iexact HoB
  iintro ⟨HiU, HwU, HoA, HoB⟩
  isplitl [HiU HiR]
  · iapply (pointsTo_split_subset (Finset.subset_univ (Finset.univ.biUnion KI))).2
    isplitl [HiU]
    · iexact HiU
    · iexact HiR
  isplitl [HwU HwR]
  · iapply (pointsTo_split_subset (Finset.subset_univ (Finset.univ.biUnion KW))).2
    isplitl [HwU]
    · iexact HwU
    · iexact HwR
  ihave HoU := (third_join ℓo f KA KB hO hAB) $$ [HoA HoB]
  · isplitl [HoA]
    · iexact HoA
    · iexact HoB
  icases HoU with ⟨%g, HoU⟩
  iexists ((Finset.univ.biUnion fun t => KA t ∪ KB t).piecewise g f)
  iapply (pointsTo_join_subset (Finset.subset_univ (Finset.univ.biUnion fun t => KA t ∪ KB t)))
  isplitl [HoU]
  · iexact HoU
  · iexact HoR

end Generic

/-! ## The two calls -/

/-- The first call: the index and weight arrays and the first result split into the 32 tiles' pieces, with the way
    back. -/
theorem call0_split (d : Dev nD) :
    iprop((iLoc d ↦{fullShare} m (iLoc d)) ∗ (wLoc d ↦{fullShare} m (wLoc d)) ∗ (∃ f, o0Loc d ↦{fullShare} f)) ⊢
      (iprop((bigSep Finset.univ fun c : Fin (grid0.bound 0) => bigSep Finset.univ fun s : Fin (grid0.bound 1) =>
            tileRes0 m d (coordsV0 c s))
          ∗ ((bigSep Finset.univ fun c : Fin (grid0.bound 0) => bigSep Finset.univ fun s : Fin (grid0.bound 1) =>
              tileRes0 m d (coordsV0 c s))
            -∗ iprop((iLoc d ↦{fullShare} m (iLoc d)) ∗ (wLoc d ↦{fullShare} m (wLoc d))
                ∗ (∃ f, o0Loc d ↦{fullShare} f)))) : sProp 𝕄) := by
  have e : (bigSep Finset.univ fun c : Fin (grid0.bound 0) => bigSep Finset.univ fun s : Fin (grid0.bound 1) =>
        tileRes0 m d (coordsV0 c s))
      = bigSep Finset.univ fun t : Tile0 => tileRes0 m d (coordsV0 t.1 t.2) :=
    (bigSep_univ_prod (fun t : Tile0 => tileRes0 m d (coordsV0 t.1 t.2))).symm
  rw [e]
  exact split_tiles (T := Tile0) (iLoc d) (wLoc d) (o0Loc d) (m (iLoc d)) (m (wLoc d))
    (fun t => rowsI0 (coordsV0 t.1 t.2)) (fun t => rowsI0 (coordsV0 t.1 t.2))
    (fun t => rowsOa0 (coordsV0 t.1 t.2)) (fun t => rowsOb0 (coordsV0 t.1 t.2))
    (fun t _ t' _ h => disjI0 t t' h) (fun t _ t' _ h => disjI0 t t' h) (fun t _ t' _ h => disjO0 t t' h)
    (fun t => disjAB0 (coordsV0 t.1 t.2))

/-- The second call: the same over the second result. -/
theorem call1_split (d : Dev nD) :
    iprop((iLoc d ↦{fullShare} m (iLoc d)) ∗ (wLoc d ↦{fullShare} m (wLoc d)) ∗ (∃ f, o1Loc d ↦{fullShare} f)) ⊢
      (iprop((bigSep Finset.univ fun c : Fin (grid1.bound 0) => bigSep Finset.univ fun s : Fin (grid1.bound 1) =>
            tileRes1 m d (coordsV1 c s))
          ∗ ((bigSep Finset.univ fun c : Fin (grid1.bound 0) => bigSep Finset.univ fun s : Fin (grid1.bound 1) =>
              tileRes1 m d (coordsV1 c s))
            -∗ iprop((iLoc d ↦{fullShare} m (iLoc d)) ∗ (wLoc d ↦{fullShare} m (wLoc d))
                ∗ (∃ f, o1Loc d ↦{fullShare} f)))) : sProp 𝕄) := by
  have e : (bigSep Finset.univ fun c : Fin (grid1.bound 0) => bigSep Finset.univ fun s : Fin (grid1.bound 1) =>
        tileRes1 m d (coordsV1 c s))
      = bigSep Finset.univ fun t : Tile1 => tileRes1 m d (coordsV1 t.1 t.2) :=
    (bigSep_univ_prod (fun t : Tile1 => tileRes1 m d (coordsV1 t.1 t.2))).symm
  rw [e]
  exact split_tiles (T := Tile1) (iLoc d) (wLoc d) (o1Loc d) (m (iLoc d)) (m (wLoc d))
    (fun t => rowsI1 (coordsV1 t.1 t.2)) (fun t => rowsI1 (coordsV1 t.1 t.2))
    (fun t => rowsOa1 (coordsV1 t.1 t.2)) (fun t => rowsOb1 (coordsV1 t.1 t.2))
    (fun t _ t' _ h => disjI1 t t' h) (fun t _ t' _ h => disjI1 t t' h) (fun t _ t' _ h => disjO1 t t' h)
    (fun t => disjAB1 (coordsV1 t.1 t.2))

end Cert.Proof.KI

end
-- ==== Proof.TileBody0.lean ====
/-
  One vector subcore's task of the first scatter kernel, run once at a symbolic place of the call's grid
  (SparseCore `L 0`, vector subcore `L 1`), in FRAME form: from its 32 rows of the index array and of the
  weight array (read only), its two 16-row blocks of the call's result, its four scratch buffers and its four
  DMA semaphores at zero, the task runs to its end without fault and hands every one of them back — the
  result's blocks and the scratches at some contents, the semaphores at zero again, the argument rows
  unchanged. The task copies its rows of indices and weights into two scratches (two copies, each awaited at
  once), fills the two 16 × 2048 accumulators with zeros (32 counted loops of 16 trips, each trip eight stores
  of a zero vector), adds into the accumulators at the positions the indices name (64 indexed stores with
  accumulation, each preceded by the range check of its index vectors), and copies each accumulator to its
  block of the result, the two copies on semaphores of their own and both awaited at the end; no accumulator
  is touched between the start of its copy and the wait. The one fact about data the task needs: every index
  word it copies in is below 2048 (the accumulators' width), which with the row vector a constant below 16
  makes each range check true.
-/
import proofs.«210207_g17016660427310_cont_sun_m_176_22_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile0

/-! ## The task's own semaphores and buffers, among the subcore's scoped ones -/

variable (d : Dev nD) (L : grid0.Coords)

/-- The tile's four scratch buffers, as the body table passes them. -/
abbrev sA0 : Memref sig .scVector .vmem S16x2048 .f32 := Memref.whole cc0_scratch0
abbrev sB0 : Memref sig .scVector .vmem S16x2048 .f32 := Memref.whole cc0_scratch1
abbrev sI0 : Memref sig .scVector .vmem S32x32 .i32 := Memref.whole cc0_scratch2
abbrev sW0 : Memref sig .scVector .vmem S32x32 .f32 := Memref.whole cc0_scratch3

/-- A DMA semaphore of the tile, as a cell. -/
abbrev cell0 (sm : DmaSem sig) : GSem nD τ sig := (V d (cV L) (jV L), SemLoc.dma sm)

theorem cell0_ne {a b : DmaSem sig} (h : a ≠ b) : cell0 d L a ≠ cell0 d L b :=
  fun e => h (SemLoc.dma.inj (Prod.mk.inj e).2)

theorem cell0_mem (a : DmaSem sig) (h : (SemLoc.dma a : SemLoc sig).isScoped .scVector = true) :
    cell0 d L a ∈ ownCells (V d (cV L) (jV L)) := (mem_ownCells (g := cell0 d L a)).mpr ⟨rfl, h⟩

theorem ownSems0_V0 :
    (ownSems0 (V d (cV L) (jV L)) : sProp 𝕄)
      = iprop(semVal (cell0 d L cc0_scratch4.sem) 0 ∗ semVal (cell0 d L cc0_scratch5.sem) 0
          ∗ semVal (cell0 d L cc0_scoped0.sem) 0 ∗ semVal (cell0 d L cc0_scoped1.sem) 0
          ∗ bigSep (((((ownCells (V d (cV L) (jV L))).erase (cell0 d L cc0_scratch4.sem)).erase (cell0 d L cc0_scratch5.sem)).erase
              (cell0 d L cc0_scoped0.sem)).erase (cell0 d L cc0_scoped1.sem)) fun g => semVal g 0) := by
  unfold SparseCore.Cfg.ownSems0
  rw [SparseCore.bigSep_erase' (cell0_mem d L cc0_scratch4.sem (by decide)),
    SparseCore.bigSep_erase' (Finset.mem_erase.mpr ⟨cell0_ne d L (by decide), cell0_mem d L cc0_scratch5.sem (by decide)⟩),
    SparseCore.bigSep_erase' (Finset.mem_erase.mpr ⟨cell0_ne d L (by decide), Finset.mem_erase.mpr ⟨cell0_ne d L (by decide),
      cell0_mem d L cc0_scoped0.sem (by decide)⟩⟩),
    SparseCore.bigSep_erase' (Finset.mem_erase.mpr ⟨cell0_ne d L (by decide), Finset.mem_erase.mpr ⟨cell0_ne d L (by decide),
      Finset.mem_erase.mpr ⟨cell0_ne d L (by decide), cell0_mem d L cc0_scoped1.sem (by decide)⟩⟩⟩)]

abbrev bref0 (b : Ref sig .scVector) : DevRef τ sig := (Proc.scVector (cV L) (jV L)).devRef b

theorem bref0_ne {a b : Ref sig .scVector} (h : a ≠ b) : bref0 L a ≠ bref0 L b :=
  fun e => h (Proc.devRef_injective _ e)

theorem bref0_mem (b : Ref sig .scVector) (h : (bref0 L b).owner = .proc (Proc.scVector (cV L) (jV L))) :
    bref0 L b ∈ ownRefs (τ := τ) (.scVector (cV L) (jV L)) := SparseCore.Cfg.mem_ownRefs_of_owner h

theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bref0 L cc0_scratch0)).erase (bref0 L cc0_scratch1)).erase
              (bref0 L cc0_scratch2)).erase (bref0 L cc0_scratch3))
              fun b => iprop(∃ f, ((d, b) : Loc nD τ sig) ↦{fullShare} f)) := by
  unfold SparseCore.Cfg.ownBufs
  refine (SparseCore.bigSep_erase' (bref0_mem L cc0_scratch0 rfl)).trans ?_
  rw [SparseCore.bigSep_erase' (Finset.mem_erase.mpr ⟨bref0_ne L (by decide), bref0_mem L cc0_scratch1 rfl⟩),
    SparseCore.bigSep_erase' (Finset.mem_erase.mpr ⟨bref0_ne L (by decide), Finset.mem_erase.mpr ⟨bref0_ne L (by decide),
      bref0_mem L cc0_scratch2 rfl⟩⟩),
    SparseCore.bigSep_erase' (Finset.mem_erase.mpr ⟨bref0_ne L (by decide), Finset.mem_erase.mpr ⟨bref0_ne L (by decide),
      Finset.mem_erase.mpr ⟨bref0_ne L (by decide), bref0_mem L cc0_scratch3 rfl⟩⟩⟩)]

/-! ## The arrays and scratches as the task's memrefs address them -/

variable [FloatOps F]

theorem pts_i0 (f : Buf (Elt F) (iLoc d)) :
    (((iV.slice (rI0 L) (fun _ => rfl)).view).loc (V d (cV L) (jV L)) ↦[((iV.slice (rI0 L) (fun _ => rfl)).view).set]{fullShare} f : sProp 𝕄)
      = iLoc d ↦[rowsI0 L]{fullShare} f := rfl
theorem pts_w0 (f : Buf (Elt F) (wLoc d)) :
    (((wV.slice (rI0 L) (fun _ => rfl)).view).loc (V d (cV L) (jV L)) ↦[((wV.slice (rI0 L) (fun _ => rfl)).view).set]{fullShare} f : sProp 𝕄)
      = wLoc d ↦[rowsI0 L]{fullShare} f := rfl
theorem pts_oa0 (f : Buf (Elt F) (o0Loc d)) :
    (((o0V.slice (rOa0 L) (fun _ => rfl)).view).loc (V d (cV L) (jV L)) ↦[((o0V.slice (rOa0 L) (fun _ => rfl)).view).set]{fullShare} f : sProp 𝕄)
      = o0Loc d ↦[rowsOa0 L]{fullShare} f := rfl
theorem pts_ob0 (f : Buf (Elt F) (o0Loc d)) :
    (((o0V.slice (rOb0 L) (fun _ => rfl)).view).loc (V d (cV L) (jV L)) ↦[((o0V.slice (rOb0 L) (fun _ => rfl)).view).set]{fullShare} f : sProp 𝕄)
      = o0Loc d ↦[rowsOb0 L]{fullShare} f := rfl
theorem pts_sA0 (f : Buf (Elt F) ((V d (cV L) (jV L)).loc cc0_scratch0)) :
    ((sA0).view.loc (V d (cV L) (jV L)) ↦{fullShare} f : sProp 𝕄) = (V d (cV L) (jV L)).loc cc0_scratch0 ↦{fullShare} f := rfl
theorem pts_sB0 (f : Buf (Elt F) ((V d (cV L) (jV L)).loc cc0_scratch1)) :
    ((sB0).view.loc (V d (cV L) (jV L)) ↦{fullShare} f : sProp 𝕄) = (V d (cV L) (jV L)).loc cc0_scratch1 ↦{fullShare} f := rfl
theorem pts_sI0 (f : Buf (Elt F) ((V d (cV L) (jV L)).loc cc0_scratch2)) :
    ((sI0).view.loc (V d (cV L) (jV L)) ↦{fullShare} f : sProp 𝕄) = (V d (cV L) (jV L)).loc cc0_scratch2 ↦{fullShare} f := rfl
theorem pts_sW0 (f : Buf (Elt F) ((V d (cV L) (jV L)).loc cc0_scratch3)) :
    ((sW0).view.loc (V d (cV L) (jV L)) ↦{fullShare} f : sProp 𝕄) = (V d (cV L) (jV L)).loc cc0_scratch3 ↦{fullShare} f := rfl

/-! ## The zero-filling loops -/

/-- A zero-filling loop's invariant: the scratch it fills, whole, at some contents. -/
def invZ (m : Memref sig .scVector .vmem S16x2048 .f32) (_ : Nat) (_ : PUnit) : sProp 𝕄 :=
  iprop(∃ f, m.view.loc (V d (cV L) (jV L)) ↦{fullShare} f)

set_option hygiene false in
macro "zero_loopA" : tactic => `(tactic| (
  sl_for (invZ (F := F) d L sA0) $$ [Hs0']
  case region =>
    intro k _
    unfold invZ
    iintro ⟨%f, H⟩
    sl_exec
    sl_step
    iexists _; iexact H
  · unfold invZ; iexists _; iexact Hs0'
  iintro %_ HI
  unfold invZ
  icases HI with ⟨%fz, Hs0'⟩))

set_option hygiene false in
macro "zero_loopB" : tactic => `(tactic| (
  sl_for (invZ (F := F) d L sB0) $$ [Hs1']
  case region =>
    intro k _
    unfold invZ
    iintro ⟨%f, H⟩
    sl_exec
    sl_step
    iexists _; iexact H
  · unfold invZ; iexists _; iexact Hs1'
  iintro %_ HI
  unfold invZ
  icases HI with ⟨%fz, Hs1'⟩))

/-! ## The indexed stores and their range checks -/

theorem pts_sA0_whole (f : Buf (Elt F) ((V d (cV L) (jV L)).loc cc0_scratch0)) :
    (((sA0).access (.whole S16x2048)).loc (V d (cV L) (jV L)) ↦[((sA0).access (.whole S16x2048)).set]{fullShare} f : sProp 𝕄)
      = ((sA0).view.loc (V d (cV L) (jV L)) ↦{fullShare} f) := by
  rw [show ((sA0 : Memref sig .scVector .vmem S16x2048 .f32).access (.whole S16x2048)).set = Finset.univ from Memref.set_access_whole (cc0_scratch0 : Ref sig .scVector)]
theorem pts_sB0_whole (f : Buf (Elt F) ((V d (cV L) (jV L)).loc cc0_scratch1)) :
    (((sB0).access (.whole S16x2048)).loc (V d (cV L) (jV L)) ↦[((sB0).access (.whole S16x2048)).set]{fullShare} f : sProp 𝕄)
      = ((sB0).view.loc (V d (cV L) (jV L)) ↦{fullShare} f) := by
  rw [show ((sB0 : Memref sig .scVector .vmem S16x2048 .f32).access (.whole S16x2048)).set = Finset.univ from Memref.set_access_whole (cc0_scratch1 : Ref sig .scVector)]

/-- A buffer held at known contents is held at some contents. -/
theorem forget_sA0 (f : Buf (Elt F) ((V d (cV L) (jV L)).loc cc0_scratch0)) :
    ((sA0).view.loc (V d (cV L) (jV L)) ↦{fullShare} f : sProp 𝕄) ⊢ ∃ g, (sA0).view.loc (V d (cV L) (jV L)) ↦{fullShare} g := by
  iintro H; iexists _; iexact H
theorem forget_sB0 (f : Buf (Elt F) ((V d (cV L) (jV L)).loc cc0_scratch1)) :
    ((sB0).view.loc (V d (cV L) (jV L)) ↦{fullShare} f : sProp 𝕄) ⊢ ∃ g, (sB0).view.loc (V d (cV L) (jV L)) ↦{fullShare} g := by
  iintro H; iexists _; iexact H

/-- An indexed store's range check: the row vector is a constant below 16 and every column word is below 2048. -/
theorem chk_ok (r : BitVec 32) (hr : r.toNat < 16) (v : IVec S16 32) (hv : ∀ x, (v x).toNat < 2048) :
    ∀ a x, ((![broadcast S16 r, v] : Fin 2 → IVec S16 32) a x).toNat < S16x2048.size a := by
  intro a x
  match a with
  | 0 => exact hr
  | 1 => exact hv x

/-- Every word the index scratch holds after the copy-in is below 2048, through whatever rectangle it is read. -/
theorem idx_lt (fi : Buf (Elt F) (iLoc d)) (hidx : ∀ x : S32x32.Idx, (fi (((iV.slice (rI0 L) (fun _ => rfl)).view).emb x)).toNat < 2048)
    (f2 : Buf (Elt F) ((V d (cV L) (jV L)).loc cc0_scratch2)) (R : LoadRect S32x32) (x : R.shape.Idx) :
    ((View.readAt (Elt F) sI0.view R (View.write (Elt F) sI0.view f2
      (ReadAs.same.apply (View.read (Elt F) (iV.slice (rI0 L) (fun _ => rfl)).view fi)) Finset.univ)) x).toNat < 2048 := by
  rw [View.readAt_apply, View.read_write_univ]
  exact hidx _

set_option hygiene false in
macro "store_idxA" : tactic => `(tactic| (
  ihave Hc := (Entails.of_eq (pts_sA0_whole (F := F) d L _).symm) $$ Hs0'
  iapply (SparseCore.wp_vectorStoreIdx 𝒱₀ (V d (cV L) (jV L)) none Set.univ (base := sA0)) $$ Hc
  iintro Hc
  ihave Hc2 := (Entails.of_eq (pts_sA0_whole (F := F) d L _)) $$ Hc
  ihave Hc3 := (forget_sA0 (F := F) d L _) $$ Hc2
  icases Hc3 with ⟨%fz, Hs0'⟩))

set_option hygiene false in
macro "store_idxB" : tactic => `(tactic| (
  ihave Hc := (Entails.of_eq (pts_sB0_whole (F := F) d L _).symm) $$ Hs1'
  iapply (SparseCore.wp_vectorStoreIdx 𝒱₀ (V d (cV L) (jV L)) none Set.univ (base := sB0)) $$ Hc
  iintro Hc
  ihave Hc2 := (Entails.of_eq (pts_sB0_whole (F := F) d L _)) $$ Hc
  ihave Hc3 := (forget_sB0 (F := F) d L _) $$ Hc2
  icases Hc3 with ⟨%fz, Hs1'⟩))

/-! ## The task -/

set_option maxHeartbeats 400000000 in
/-- The task's run, in frame form: every resource it is handed comes back, the argument rows unchanged, the waits
    it made recorded at the index of no call. -/
theorem tile_body0 (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI0 L) (fun _ => rfl)).view).emb x)).toNat < 2048) :
    (iprop(levAts (K (F := F)).L (K (F := F)).lev
        ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            sA0 (Memref.isWhole_whole _) sB0 (Memref.isWhole_whole _) sI0 (Memref.isWhole_whole _) sW0 (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, o0Loc d ↦[rowsOa0 L]{fullShare} fa) ∗ (∃ fb, o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_body_eq_skeleton]; unfold cc0_body_skel
  rw [(K (F := F)).scopedBufs_V hF d (cV L) (jV L), SparseCore.Cfg.scopedSems0_V (Val := Elt F) d (cV L) (jV L), ownSems0_V0, ownBufs_V0]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV L) (jV L)) hO) $$ Hlv
  ihave Hi' := (Entails.of_eq (pts_i0 (F := F) d L _).symm) $$ Hi
  ihave Hw' := (Entails.of_eq (pts_w0 (F := F) d L _).symm) $$ Hw
  ihave Hoa' := (Entails.of_eq (pts_oa0 (F := F) d L _).symm) $$ Hoa
  ihave Hob' := (Entails.of_eq (pts_ob0 (F := F) d L _).symm) $$ Hob
  ihave Hs0' := (Entails.of_eq (pts_sA0 (F := F) d L _).symm) $$ Hs0
  ihave Hs1' := (Entails.of_eq (pts_sB0 (F := F) d L _).symm) $$ Hs1
  ihave Hs2' := (Entails.of_eq (pts_sI0 (F := F) d L _).symm) $$ Hs2
  ihave Hs3' := (Entails.of_eq (pts_sW0 (F := F) d L _).symm) $$ Hs3
  sl_exec_parts
  have hgI : ∀ (R : LoadRect S32x32) (x : R.shape.Idx), ((View.readAt (Elt F) sI0.view R (View.write (Elt F) sI0.view f2
      (tile_body0.sl.dma0 d L fi) Finset.univ)) x).toNat < 2048 := fun R x => idx_lt (F := F) d L fi hidx f2 R x
  iterate 16 ((try sl_exec_parts); zero_loopA)
  iterate 16 ((try sl_exec_parts); zero_loopB)
  iterate 32 (sl_exec_parts (disch := exact chk_ok _ (by decide) _ (fun x => hgI _ _)); store_idxA)
  iterate 32 (sl_exec_parts (disch := exact chk_ok _ (by decide) _ (fun x => hgI _ _)); store_idxB)
  sl_exec_parts
  sl_step
  isplitl [Hi']; · iapply (Entails.of_eq (pts_i0 (F := F) d L _)); iexact Hi'
  isplitl [Hw']; · iapply (Entails.of_eq (pts_w0 (F := F) d L _)); iexact Hw'
  isplitl [Hoa']; · iexists _; iapply (Entails.of_eq (pts_oa0 (F := F) d L _)); iexact Hoa'
  isplitl [Hob']; · iexists _; iapply (Entails.of_eq (pts_ob0 (F := F) d L _)); iexact Hob'
  isplitl [Hs0' Hs1' Hs2' Hs3' Hbufs]
  · isplitl [Hs0']; · iexists _; iapply (Entails.of_eq (pts_sA0 (F := F) d L _)); iexact Hs0'
    isplitl [Hs1']; · iexists _; iapply (Entails.of_eq (pts_sB0 (F := F) d L _)); iexact Hs1'
    isplitl [Hs2']; · iexists _; iapply (Entails.of_eq (pts_sI0 (F := F) d L _)); iexact Hs2'
    isplitl [Hs3']; · iexists _; iapply (Entails.of_eq (pts_sW0 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile0
end Cert.Proof.KI
end
-- ==== Proof.TileBody1.lean ====
/-
  One vector subcore's task of the second scatter kernel (the rows of the index and weight arrays 1024 further down, the second call's result), run once at a symbolic place of the call's grid
  (SparseCore `L 0`, vector subcore `L 1`), in FRAME form: from its 32 rows of the index array and of the
  weight array (read only), its two 16-row blocks of the call's result, its four scratch buffers and its four
  DMA semaphores at zero, the task runs to its end without fault and hands every one of them back — the
  result's blocks and the scratches at some contents, the semaphores at zero again, the argument rows
  unchanged. The task copies its rows of indices and weights into two scratches (two copies, each awaited at
  once), fills the two 16 × 2048 accumulators with zeros (32 counted loops of 16 trips, each trip eight stores
  of a zero vector), adds into the accumulators at the positions the indices name (64 indexed stores with
  accumulation, each preceded by the range check of its index vectors), and copies each accumulator to its
  block of the result, the two copies on semaphores of their own and both awaited at the end; no accumulator
  is touched between the start of its copy and the wait. The one fact about data the task needs: every index
  word it copies in is below 2048 (the accumulators' width), which with the row vector a constant below 16
  makes each range check true.
-/
import proofs.«210207_g17016660427310_cont_sun_m_176_22_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile1

/-! ## The task's own semaphores and buffers, among the subcore's scoped ones -/

/-- The tile's place, as the two coordinates this call's body table passes the kernel. -/
abbrev cV1 (L : grid1.Coords) : Fin τ.nSC := (L 0).castLE hcore1
abbrev jV1 (L : grid1.Coords) : Fin τ.nSub := (L 1).castLE hsub1

variable (d : Dev nD) (L : grid1.Coords)

/-- The tile's four scratch buffers, as the body table passes them. -/
abbrev sA1 : Memref sig .scVector .vmem S16x2048 .f32 := Memref.whole cc1_scratch0
abbrev sB1 : Memref sig .scVector .vmem S16x2048 .f32 := Memref.whole cc1_scratch1
abbrev sI1 : Memref sig .scVector .vmem S32x32 .i32 := Memref.whole cc1_scratch2
abbrev sW1 : Memref sig .scVector .vmem S32x32 .f32 := Memref.whole cc1_scratch3

/-- A DMA semaphore of the tile, as a cell. -/
abbrev cell1 (sm : DmaSem sig) : GSem nD τ sig := (V d (cV1 L) (jV1 L), SemLoc.dma sm)

theorem cell1_ne {a b : DmaSem sig} (h : a ≠ b) : cell1 d L a ≠ cell1 d L b :=
  fun e => h (SemLoc.dma.inj (Prod.mk.inj e).2)

theorem cell1_mem (a : DmaSem sig) (h : (SemLoc.dma a : SemLoc sig).isScoped .scVector = true) :
    cell1 d L a ∈ ownCells (V d (cV1 L) (jV1 L)) := (mem_ownCells (g := cell1 d L a)).mpr ⟨rfl, h⟩

theorem ownSems0_V1 :
    (ownSems0 (V d (cV1 L) (jV1 L)) : sProp 𝕄)
      = iprop(semVal (cell1 d L cc1_scratch4.sem) 0 ∗ semVal (cell1 d L cc1_scratch5.sem) 0
          ∗ semVal (cell1 d L cc1_scoped0.sem) 0 ∗ semVal (cell1 d L cc1_scoped1.sem) 0
          ∗ bigSep (((((ownCells (V d (cV1 L) (jV1 L))).erase (cell1 d L cc1_scratch4.sem)).erase (cell1 d L cc1_scratch5.sem)).erase
              (cell1 d L cc1_scoped0.sem)).erase (cell1 d L cc1_scoped1.sem)) fun g => semVal g 0) := by
  unfold SparseCore.Cfg.ownSems0
  rw [SparseCore.bigSep_erase' (cell1_mem d L cc1_scratch4.sem (by decide)),
    SparseCore.bigSep_erase' (Finset.mem_erase.mpr ⟨cell1_ne d L (by decide), cell1_mem d L cc1_scratch5.sem (by decide)⟩),
    SparseCore.bigSep_erase' (Finset.mem_erase.mpr ⟨cell1_ne d L (by decide), Finset.mem_erase.mpr ⟨cell1_ne d L (by decide),
      cell1_mem d L cc1_scoped0.sem (by decide)⟩⟩),
    SparseCore.bigSep_erase' (Finset.mem_erase.mpr ⟨cell1_ne d L (by decide), Finset.mem_erase.mpr ⟨cell1_ne d L (by decide),
      Finset.mem_erase.mpr ⟨cell1_ne d L (by decide), cell1_mem d L cc1_scoped1.sem (by decide)⟩⟩⟩)]

abbrev bref1 (b : Ref sig .scVector) : DevRef τ sig := (Proc.scVector (cV1 L) (jV1 L)).devRef b

theorem bref1_ne {a b : Ref sig .scVector} (h : a ≠ b) : bref1 L a ≠ bref1 L b :=
  fun e => h (Proc.devRef_injective _ e)

theorem bref1_mem (b : Ref sig .scVector) (h : (bref1 L b).owner = .proc (Proc.scVector (cV1 L) (jV1 L))) :
    bref1 L b ∈ ownRefs (τ := τ) (.scVector (cV1 L) (jV1 L)) := SparseCore.Cfg.mem_ownRefs_of_owner h

theorem ownBufs_V1 :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f)
          ∗ (∃ f, (V d (cV1 L) (jV1 L)).loc cc1_scratch2 ↦{fullShare} f) ∗ (∃ f, (V d (cV1 L) (jV1 L)).loc cc1_scratch3 ↦{fullShare} f)
          ∗ bigSep (((((ownRefs (τ := τ) (.scVector (cV1 L) (jV1 L))).erase (bref1 L cc1_scratch0)).erase (bref1 L cc1_scratch1)).erase
              (bref1 L cc1_scratch2)).erase (bref1 L cc1_scratch3))
              fun b => iprop(∃ f, ((d, b) : Loc nD τ sig) ↦{fullShare} f)) := by
  unfold SparseCore.Cfg.ownBufs
  refine (SparseCore.bigSep_erase' (bref1_mem L cc1_scratch0 rfl)).trans ?_
  rw [SparseCore.bigSep_erase' (Finset.mem_erase.mpr ⟨bref1_ne L (by decide), bref1_mem L cc1_scratch1 rfl⟩),
    SparseCore.bigSep_erase' (Finset.mem_erase.mpr ⟨bref1_ne L (by decide), Finset.mem_erase.mpr ⟨bref1_ne L (by decide),
      bref1_mem L cc1_scratch2 rfl⟩⟩),
    SparseCore.bigSep_erase' (Finset.mem_erase.mpr ⟨bref1_ne L (by decide), Finset.mem_erase.mpr ⟨bref1_ne L (by decide),
      Finset.mem_erase.mpr ⟨bref1_ne L (by decide), bref1_mem L cc1_scratch3 rfl⟩⟩⟩)]

/-! ## The arrays and scratches as the task's memrefs address them -/

variable [FloatOps F]

theorem pts_i1 (f : Buf (Elt F) (iLoc d)) :
    (((iV.slice (rI1 L) (fun _ => rfl)).view).loc (V d (cV1 L) (jV1 L)) ↦[((iV.slice (rI1 L) (fun _ => rfl)).view).set]{fullShare} f : sProp 𝕄)
      = iLoc d ↦[rowsI1 L]{fullShare} f := rfl
theorem pts_w1 (f : Buf (Elt F) (wLoc d)) :
    (((wV.slice (rI1 L) (fun _ => rfl)).view).loc (V d (cV1 L) (jV1 L)) ↦[((wV.slice (rI1 L) (fun _ => rfl)).view).set]{fullShare} f : sProp 𝕄)
      = wLoc d ↦[rowsI1 L]{fullShare} f := rfl
theorem pts_oa1 (f : Buf (Elt F) (o1Loc d)) :
    (((o1V.slice (rOa1 L) (fun _ => rfl)).view).loc (V d (cV1 L) (jV1 L)) ↦[((o1V.slice (rOa1 L) (fun _ => rfl)).view).set]{fullShare} f : sProp 𝕄)
      = o1Loc d ↦[rowsOa1 L]{fullShare} f := rfl
theorem pts_ob1 (f : Buf (Elt F) (o1Loc d)) :
    (((o1V.slice (rOb1 L) (fun _ => rfl)).view).loc (V d (cV1 L) (jV1 L)) ↦[((o1V.slice (rOb1 L) (fun _ => rfl)).view).set]{fullShare} f : sProp 𝕄)
      = o1Loc d ↦[rowsOb1 L]{fullShare} f := rfl
theorem pts_sA1 (f : Buf (Elt F) ((V d (cV1 L) (jV1 L)).loc cc1_scratch0)) :
    ((sA1).view.loc (V d (cV1 L) (jV1 L)) ↦{fullShare} f : sProp 𝕄) = (V d (cV1 L) (jV1 L)).loc cc1_scratch0 ↦{fullShare} f := rfl
theorem pts_sB1 (f : Buf (Elt F) ((V d (cV1 L) (jV1 L)).loc cc1_scratch1)) :
    ((sB1).view.loc (V d (cV1 L) (jV1 L)) ↦{fullShare} f : sProp 𝕄) = (V d (cV1 L) (jV1 L)).loc cc1_scratch1 ↦{fullShare} f := rfl
theorem pts_sI1 (f : Buf (Elt F) ((V d (cV1 L) (jV1 L)).loc cc1_scratch2)) :
    ((sI1).view.loc (V d (cV1 L) (jV1 L)) ↦{fullShare} f : sProp 𝕄) = (V d (cV1 L) (jV1 L)).loc cc1_scratch2 ↦{fullShare} f := rfl
theorem pts_sW1 (f : Buf (Elt F) ((V d (cV1 L) (jV1 L)).loc cc1_scratch3)) :
    ((sW1).view.loc (V d (cV1 L) (jV1 L)) ↦{fullShare} f : sProp 𝕄) = (V d (cV1 L) (jV1 L)).loc cc1_scratch3 ↦{fullShare} f := rfl

/-! ## The zero-filling loops -/

/-- A zero-filling loop's invariant: the scratch it fills, whole, at some contents. -/
def invZ1 (m : Memref sig .scVector .vmem S16x2048 .f32) (_ : Nat) (_ : PUnit) : sProp 𝕄 :=
  iprop(∃ f, m.view.loc (V d (cV1 L) (jV1 L)) ↦{fullShare} f)

set_option hygiene false in
macro "zero_loopA1" : tactic => `(tactic| (
  sl_for (invZ1 (F := F) d L sA1) $$ [Hs0']
  case region =>
    intro k _
    unfold invZ1
    iintro ⟨%f, H⟩
    sl_exec
    sl_step
    iexists _; iexact H
  · unfold invZ1; iexists _; iexact Hs0'
  iintro %_ HI
  unfold invZ1
  icases HI with ⟨%fz, Hs0'⟩))

set_option hygiene false in
macro "zero_loopB1" : tactic => `(tactic| (
  sl_for (invZ1 (F := F) d L sB1) $$ [Hs1']
  case region =>
    intro k _
    unfold invZ1
    iintro ⟨%f, H⟩
    sl_exec
    sl_step
    iexists _; iexact H
  · unfold invZ1; iexists _; iexact Hs1'
  iintro %_ HI
  unfold invZ1
  icases HI with ⟨%fz, Hs1'⟩))

/-! ## The indexed stores and their range checks -/

theorem pts_sA1_whole (f : Buf (Elt F) ((V d (cV1 L) (jV1 L)).loc cc1_scratch0)) :
    (((sA1).access (.whole S16x2048)).loc (V d (cV1 L) (jV1 L)) ↦[((sA1).access (.whole S16x2048)).set]{fullShare} f : sProp 𝕄)
      = ((sA1).view.loc (V d (cV1 L) (jV1 L)) ↦{fullShare} f) := by
  rw [show ((sA1 : Memref sig .scVector .vmem S16x2048 .f32).access (.whole S16x2048)).set = Finset.univ from Memref.set_access_whole (cc1_scratch0 : Ref sig .scVector)]
theorem pts_sB1_whole (f : Buf (Elt F) ((V d (cV1 L) (jV1 L)).loc cc1_scratch1)) :
    (((sB1).access (.whole S16x2048)).loc (V d (cV1 L) (jV1 L)) ↦[((sB1).access (.whole S16x2048)).set]{fullShare} f : sProp 𝕄)
      = ((sB1).view.loc (V d (cV1 L) (jV1 L)) ↦{fullShare} f) := by
  rw [show ((sB1 : Memref sig .scVector .vmem S16x2048 .f32).access (.whole S16x2048)).set = Finset.univ from Memref.set_access_whole (cc1_scratch1 : Ref sig .scVector)]

/-- A buffer held at known contents is held at some contents. -/
theorem forget_sA1 (f : Buf (Elt F) ((V d (cV1 L) (jV1 L)).loc cc1_scratch0)) :
    ((sA1).view.loc (V d (cV1 L) (jV1 L)) ↦{fullShare} f : sProp 𝕄) ⊢ ∃ g, (sA1).view.loc (V d (cV1 L) (jV1 L)) ↦{fullShare} g := by
  iintro H; iexists _; iexact H
theorem forget_sB1 (f : Buf (Elt F) ((V d (cV1 L) (jV1 L)).loc cc1_scratch1)) :
    ((sB1).view.loc (V d (cV1 L) (jV1 L)) ↦{fullShare} f : sProp 𝕄) ⊢ ∃ g, (sB1).view.loc (V d (cV1 L) (jV1 L)) ↦{fullShare} g := by
  iintro H; iexists _; iexact H

/-- An indexed store's range check: the row vector is a constant below 16 and every column word is below 2048. -/
theorem chk_ok1 (r : BitVec 32) (hr : r.toNat < 16) (v : IVec S16 32) (hv : ∀ x, (v x).toNat < 2048) :
    ∀ a x, ((![broadcast S16 r, v] : Fin 2 → IVec S16 32) a x).toNat < S16x2048.size a := by
  intro a x
  match a with
  | 0 => exact hr
  | 1 => exact hv x

/-- Every word the index scratch holds after the copy-in is below 2048, through whatever rectangle it is read. -/
theorem idx_lt1 (fi : Buf (Elt F) (iLoc d)) (hidx : ∀ x : S32x32.Idx, (fi (((iV.slice (rI1 L) (fun _ => rfl)).view).emb x)).toNat < 2048)
    (f2 : Buf (Elt F) ((V d (cV1 L) (jV1 L)).loc cc1_scratch2)) (R : LoadRect S32x32) (x : R.shape.Idx) :
    ((View.readAt (Elt F) sI1.view R (View.write (Elt F) sI1.view f2
      (ReadAs.same.apply (View.read (Elt F) (iV.slice (rI1 L) (fun _ => rfl)).view fi)) Finset.univ)) x).toNat < 2048 := by
  rw [View.readAt_apply, View.read_write_univ]
  exact hidx _

set_option hygiene false in
macro "store_idxA1" : tactic => `(tactic| (
  ihave Hc := (Entails.of_eq (pts_sA1_whole (F := F) d L _).symm) $$ Hs0'
  iapply (SparseCore.wp_vectorStoreIdx 𝒱₀ (V d (cV1 L) (jV1 L)) none Set.univ (base := sA1)) $$ Hc
  iintro Hc
  ihave Hc2 := (Entails.of_eq (pts_sA1_whole (F := F) d L _)) $$ Hc
  ihave Hc3 := (forget_sA1 (F := F) d L _) $$ Hc2
  icases Hc3 with ⟨%fz, Hs0'⟩))

set_option hygiene false in
macro "store_idxB1" : tactic => `(tactic| (
  ihave Hc := (Entails.of_eq (pts_sB1_whole (F := F) d L _).symm) $$ Hs1'
  iapply (SparseCore.wp_vectorStoreIdx 𝒱₀ (V d (cV1 L) (jV1 L)) none Set.univ (base := sB1)) $$ Hc
  iintro Hc
  ihave Hc2 := (Entails.of_eq (pts_sB1_whole (F := F) d L _)) $$ Hc
  ihave Hc3 := (forget_sB1 (F := F) d L _) $$ Hc2
  icases Hc3 with ⟨%fz, Hs1'⟩))

/-! ## The task -/

set_option maxHeartbeats 400000000 in
/-- The task's run, in frame form: every resource it is handed comes back, the argument rows unchanged, the waits
    it made recorded at the index of no call. -/
theorem tile_body1 (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI1 L) (fun _ => rfl)).view).emb x)).toNat < 2048) :
    (iprop(levAts (K (F := F)).L (K (F := F)).lev
        ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc1_body L iV (Memref.isWhole_whole _) wV (Memref.isWhole_whole _) o1V (Memref.isWhole_whole _)
            sA1 (Memref.isWhole_whole _) sB1 (Memref.isWhole_whole _) sI1 (Memref.isWhole_whole _) sW1 (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, o1Loc d ↦[rowsOa1 L]{fullShare} fa) ∗ (∃ fb, o1Loc d ↦[rowsOb1 L]{fullShare} fb)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc1_body_eq_skeleton]; unfold cc1_body_skel
  rw [(K (F := F)).scopedBufs_V hF d (cV1 L) (jV1 L), SparseCore.Cfg.scopedSems0_V (Val := Elt F) d (cV1 L) (jV1 L), ownSems0_V1, ownBufs_V1]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV1 L) (jV1 L)) hO) $$ Hlv
  ihave Hi' := (Entails.of_eq (pts_i1 (F := F) d L _).symm) $$ Hi
  ihave Hw' := (Entails.of_eq (pts_w1 (F := F) d L _).symm) $$ Hw
  ihave Hoa' := (Entails.of_eq (pts_oa1 (F := F) d L _).symm) $$ Hoa
  ihave Hob' := (Entails.of_eq (pts_ob1 (F := F) d L _).symm) $$ Hob
  ihave Hs0' := (Entails.of_eq (pts_sA1 (F := F) d L _).symm) $$ Hs0
  ihave Hs1' := (Entails.of_eq (pts_sB1 (F := F) d L _).symm) $$ Hs1
  ihave Hs2' := (Entails.of_eq (pts_sI1 (F := F) d L _).symm) $$ Hs2
  ihave Hs3' := (Entails.of_eq (pts_sW1 (F := F) d L _).symm) $$ Hs3
  sl_exec_parts
  have hgI : ∀ (R : LoadRect S32x32) (x : R.shape.Idx), ((View.readAt (Elt F) sI1.view R (View.write (Elt F) sI1.view f2
      (tile_body1.sl.dma0 d L fi) Finset.univ)) x).toNat < 2048 := fun R x => idx_lt1 (F := F) d L fi hidx f2 R x
  iterate 16 ((try sl_exec_parts); zero_loopA1)
  iterate 16 ((try sl_exec_parts); zero_loopB1)
  iterate 32 (sl_exec_parts (disch := exact chk_ok1 _ (by decide) _ (fun x => hgI _ _)); store_idxA1)
  iterate 32 (sl_exec_parts (disch := exact chk_ok1 _ (by decide) _ (fun x => hgI _ _)); store_idxB1)
  sl_exec_parts
  sl_step
  isplitl [Hi']; · iapply (Entails.of_eq (pts_i1 (F := F) d L _)); iexact Hi'
  isplitl [Hw']; · iapply (Entails.of_eq (pts_w1 (F := F) d L _)); iexact Hw'
  isplitl [Hoa']; · iexists _; iapply (Entails.of_eq (pts_oa1 (F := F) d L _)); iexact Hoa'
  isplitl [Hob']; · iexists _; iapply (Entails.of_eq (pts_ob1 (F := F) d L _)); iexact Hob'
  isplitl [Hs0' Hs1' Hs2' Hs3' Hbufs]
  · isplitl [Hs0']; · iexists _; iapply (Entails.of_eq (pts_sA1 (F := F) d L _)); iexact Hs0'
    isplitl [Hs1']; · iexists _; iapply (Entails.of_eq (pts_sB1 (F := F) d L _)); iexact Hs1'
    isplitl [Hs2']; · iexists _; iapply (Entails.of_eq (pts_sI1 (F := F) d L _)); iexact Hs2'
    isplitl [Hs3']; · iexists _; iapply (Entails.of_eq (pts_sW1 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile1
end Cert.Proof.KI
end
-- ==== Proof.TcArgs.lean ====
/-
  The four argument arrays end the tail of @main as they entered it: x is read by both regions through an input
  window, which a pipeline leaves as it found it; the index and weight arrays are touched by nothing on the
  TensorCore; the bias is only read, by the reshape. Each buffer's contents are walked back through the fold of the
  boundary contents: a region's exit to its entry, a host stretch's end to its start. Generic in the float instance.
-/
import proofs.«210207_g17016660427310_cont_sun_m_176_22_alg».proof.Proof.TcRegions

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL.Sem
open Idealize.ShloMosaic.Pipeline (Dat)

variable {F : FTy → Type} [FloatOps F]
variable (W0 : Dev nD → Valuation τ sig (Elt F))

/-- x: window 0 of both regions, an input. -/
theorem WD_main_arg0 (c : Dev nD) : WD W0 c (Proc.devRef .tc main_arg0) = W0 c (Proc.devRef .tc main_arg0) :=
  calc WD W0 c (Proc.devRef .tc main_arg0)
    _ = WC W0 c (Proc.devRef .tc main_arg0) :=
        (W4_arr (WC W0) c 0).trans (((dat3 (V3 (WC W0)) c).arrAt_in 0 rfl _).trans (A_eq3 (V3 (WC W0)) c 0))
    _ = WB W0 c (Proc.devRef .tc main_arg0) := StableHlo.after_of_forall_not_mem (b := Proc.devRef .tc main_arg0) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg0) :=
        (W2_arr (WA W0) c 0).trans (((dat2 (V1 (WA W0)) c).arrAt_in 0 rfl _).trans (A_eq2 (V1 (WA W0)) c 0))
    _ = W0 c (Proc.devRef .tc main_arg0) := StableHlo.after_of_forall_not_mem (b := Proc.devRef .tc main_arg0) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The index array: no window's array, written by no host operation. -/
theorem WD_main_arg1 (c : Dev nD) : WD W0 c (Proc.devRef .tc main_arg1) = W0 c (Proc.devRef .tc main_arg1) :=
  calc WD W0 c (Proc.devRef .tc main_arg1)
    _ = WC W0 c (Proc.devRef .tc main_arg1) := W4_of_ne (WC W0) c main_arg1 (by decide)
    _ = WB W0 c (Proc.devRef .tc main_arg1) := StableHlo.after_of_forall_not_mem (b := Proc.devRef .tc main_arg1) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg1) := W2_of_ne (WA W0) c main_arg1 (by decide)
    _ = W0 c (Proc.devRef .tc main_arg1) := StableHlo.after_of_forall_not_mem (b := Proc.devRef .tc main_arg1) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The weight array: no window's array, written by no host operation. -/
theorem WD_main_arg2 (c : Dev nD) : WD W0 c (Proc.devRef .tc main_arg2) = W0 c (Proc.devRef .tc main_arg2) :=
  calc WD W0 c (Proc.devRef .tc main_arg2)
    _ = WC W0 c (Proc.devRef .tc main_arg2) := W4_of_ne (WC W0) c main_arg2 (by decide)
    _ = WB W0 c (Proc.devRef .tc main_arg2) := StableHlo.after_of_forall_not_mem (b := Proc.devRef .tc main_arg2) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg2) := W2_of_ne (WA W0) c main_arg2 (by decide)
    _ = W0 c (Proc.devRef .tc main_arg2) := StableHlo.after_of_forall_not_mem (b := Proc.devRef .tc main_arg2) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The bias: no window's array, written by no host operation. -/
theorem WD_main_arg3 (c : Dev nD) : WD W0 c (Proc.devRef .tc main_arg3) = W0 c (Proc.devRef .tc main_arg3) :=
  calc WD W0 c (Proc.devRef .tc main_arg3)
    _ = WC W0 c (Proc.devRef .tc main_arg3) := W4_of_ne (WC W0) c main_arg3 (by decide)
    _ = WB W0 c (Proc.devRef .tc main_arg3) := StableHlo.after_of_forall_not_mem (b := Proc.devRef .tc main_arg3) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg3) := W2_of_ne (WA W0) c main_arg3 (by decide)
    _ = W0 c (Proc.devRef .tc main_arg3) := StableHlo.after_of_forall_not_mem (b := Proc.devRef .tc main_arg3) _ _ (List.forall_iff_forall_mem.mp (by
          simp only [hostOpsA, List.Forall, StableHlo.unary_writes, StableHlo.reshape_writes, Finset.mem_singleton]
          repeat' apply And.intro
          all_goals exact StableHlo.devRef_ne_of_ne (by decide)))

end Cert.Proof.KI

end
-- ==== Proof.Spec.lean ====
/-
  The specification of the certificate's two sides, index by index, over literal shapes.

  Inputs: x : [2048, 2048] reals, idx : [2048, 32] 32-bit words, w : [2048, 32] reals, b : [2048] reals.
  The column an entry (o, f) of the index table names is `col idx o f`, the word read as a natural number.

  * `dense idx w o d` is the dense matrix the sparse rows (idx, w) stand for: the sum of the weights w[o, f]
    over the f whose column is d.
  * `Gk` is a dense product with that matrix plus the bias:   out[r, o] = (Σ_d x[r, d] · dense[o, d]) + b[o].
  * `Gr` is the gathered form plus the bias:                    out[r, o] = (Σ_f w[o, f] · x[r, col o f]) + b[o].

  The two agree (Algebra.lean) when every x and w entry is a real number and every column is below 2048: distribute
  the product over the inner sum, exchange the two finite sums, and collapse the sum over d onto the one d that is the
  column of f.
-/
import Idealize.ShloMosaic.PureOps.Ideal
import Idealize.ShloMosaic.Lib.ValueIdx

noncomputable section

open scoped BigOperators

namespace Cert.Proof.Spec

open Idealize.ShloMosaic

/-- The shape of x and of the result. -/
abbrev SX : Shape := ⟨2, ![2048, 2048]⟩
/-- The shape of the index table and of the weights. -/
abbrev SI : Shape := ⟨2, ![2048, 32]⟩
/-- The shape of the bias. -/
abbrev SB : Shape := ⟨1, ![2048]⟩

/-- The column entry (o, f) of the index table names: its word read as a natural number. -/
def col (idx : IVec SI 32) (o : Fin 2048) (f : Fin 32) : ℕ := (idx (ValueIdx.ix2 o f)).toNat

/-- The dense matrix of the sparse rows: entry (o, d) is the sum of w[o, f] over the f whose column is d. -/
def dense (idx : IVec SI 32) (w : Vec Ideal SI .f32) (o d : Fin 2048) : EReal :=
  ∑ f : Fin 32, if col idx o f = d.val then w (ValueIdx.ix2 o f) else 0

/-- The dense form: out[r, o] = (Σ_d x[r, d] · dense[o, d]) + b[o]. -/
def Gk (x : Vec Ideal SX .f32) (idx : IVec SI 32) (w : Vec Ideal SI .f32) (b : Vec Ideal SB .f32) :
    Vec Ideal SX .f32 :=
  fun i => (∑ d : Fin 2048, x (ValueIdx.ix2 ⟨(i 0).val, ValueIdx.idx2_lt0 i⟩ d)
      * dense idx w ⟨(i 1).val, ValueIdx.idx2_lt1 i⟩ d)
    + b (ValueIdx.ix1 ⟨(i 1).val, ValueIdx.idx2_lt1 i⟩)

/-- The gathered form: out[r, o] = (Σ_f w[o, f] · x[r, col o f]) + b[o]; the column is reduced modulo 2048 so that
    the term is defined for every index table (below 2048 the reduction changes nothing). -/
def Gr (x : Vec Ideal SX .f32) (idx : IVec SI 32) (w : Vec Ideal SI .f32) (b : Vec Ideal SB .f32) :
    Vec Ideal SX .f32 :=
  fun i => (∑ f : Fin 32, w (ValueIdx.ix2 ⟨(i 1).val, ValueIdx.idx2_lt1 i⟩ f)
      * x (ValueIdx.ix2 ⟨(i 0).val, ValueIdx.idx2_lt0 i⟩
          ⟨col idx ⟨(i 1).val, ValueIdx.idx2_lt1 i⟩ f % 2048, Nat.mod_lt _ (by norm_num)⟩))
    + b (ValueIdx.ix1 ⟨(i 1).val, ValueIdx.idx2_lt1 i⟩)

end Cert.Proof.Spec

end
-- ==== Proof.PreFacts.lean ====
/-
  What the input-domain precondition says of the four argument arrays, element by element.

  The printed predicate is a conjunction of four `all`s: |x| < +∞ over x, over w and over b, and 0 ≤ idx ≤ 2047
  (signed) over the index table. An extended real whose absolute value is below +∞ is a real number; a 32-bit word
  between 0 and 2047 read signed has its top bit clear, so read unsigned it is below 2048.
-/
import proofs.«210207_g17016660427310_cont_sun_m_176_22_alg».proof.Pre_input_domain
import proofs.«210207_g17016660427310_cont_sun_m_176_22_alg».proof.Proof.Gen.Pre_input_domain
import proofs.«210207_g17016660427310_cont_sun_m_176_22_alg».proof.Proof.Spec
import Idealize.ShloMosaic.Lib.ReduceAll
import Idealize.ShloMosaic.Lib.ValueIdx

noncomputable section

namespace Cert.Proof.PreFacts

open Idealize.ShloMosaic

/-- The scalar shape has one index. -/
instance : Subsingleton Cert.Pre_input_domain.S_.Idx := ⟨fun a b => funext fun d => d.elim0⟩

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value max a (-a) is below +∞ is a real number: at ⊥ and at ⊤ that maximum is ⊤. -/
theorem real_of_abs_lt_inf (a : EReal)
    (h : Ideal.cmp .olt (max a (-a)) (Ideal.ofBits .f32 0x7F800000#32) = 1#1) : ∃ r : ℝ, a = (r : EReal) := by
  rw [ofBits_inf] at h
  have h' : max a (-a) < ⊤ := by
    by_contra hn
    have h0 : Ideal.cmp .olt (max a (-a)) ⊤ = 0#1 := by
      show BitVec.ofBool (decide (max a (-a) < ⊤)) = 0#1
      rw [decide_eq_false hn]
      rfl
    rw [h0] at h
    exact absurd h (by decide)
  induction a using EReal.rec with
  | bot => simp at h'
  | coe r => exact ⟨r, rfl⟩
  | top => simp at h'

/-- A 32-bit word that is at least 0 and at most 2047 read signed is below 2048 read unsigned. -/
theorem lt_of_range (a : BitVec 32) (h0 : IntOp.cmpi .sge a 0#32 = 1#1) (h1 : IntOp.cmpi .sle a 2047#32 = 1#1) :
    a.toNat < 2048 := by
  rw [IntOp.cmpi_sge] at h0
  rw [IntOp.cmpi_sle] at h1
  have z : (0#32 : BitVec 32).toInt = 0 := by decide
  have t : (2047#32 : BitVec 32).toInt = 2047 := by decide
  rw [z] at h0
  rw [t] at h1
  have e := BitVec.toInt_eq_toNat_cond a
  have := a.isLt
  omega

/-- The index conjunct alone, at any float instance: only the conjunction and the integer comparisons are opened, never
    a float comparison. -/
theorem idx_of_pre {F : FTy → Type} [FloatOps F] [Cert.Pre_input_domain.Facts] (x : Vec F Spec.SX .f32)
    (idx : IVec Spec.SI 32) (w : Vec F Spec.SI .f32) (b : Vec F Spec.SB .f32)
    (h : Cert.Pre_input_domain.fn (F := F) x idx w b = fun _ => 1#1) : ∀ i, (idx i).toNat < 2048 := by
  have h0 := congrFun h ValueIdx.ix0
  dsimp only [Cert.Pre_input_domain.fn, Cert.Pre_input_domain.fn_part1] at h0
  obtain ⟨-, hI⟩ := IntOp.andi_eq_one.1 h0
  intro i
  obtain ⟨ha, hb⟩ := IntOp.andi_eq_one.1 (Host.reduce_andi_all _ _ _ _ _ hI i)
  exact lt_of_range _ ha hb

/-- The precondition, decoded: every entry of x, of w and of b is a real number, and every index is below 2048. -/
theorem of_pre [Cert.Pre_input_domain.Facts] (x : Vec Ideal Spec.SX .f32) (idx : IVec Spec.SI 32)
    (w : Vec Ideal Spec.SI .f32) (b : Vec Ideal Spec.SB .f32)
    (h : Cert.Pre_input_domain.fn (F := Ideal) x idx w b = fun _ => 1#1) :
    (∀ i, ∃ r : ℝ, x i = r) ∧ (∀ i, ∃ r : ℝ, w i = r) ∧ (∀ i, ∃ r : ℝ, b i = r) ∧ (∀ i, (idx i).toNat < 2048) := by
  have h0 := congrFun h ValueIdx.ix0
  dsimp only [Cert.Pre_input_domain.fn, Cert.Pre_input_domain.fn_part1] at h0
  -- the conjunction of the four `all`s, split
  obtain ⟨h123, hI⟩ := IntOp.andi_eq_one.1 h0
  obtain ⟨h12, hB⟩ := IntOp.andi_eq_one.1 h123
  obtain ⟨hX, hW⟩ := IntOp.andi_eq_one.1 h12
  refine ⟨fun i => ?_, fun i => ?_, fun i => ?_, fun i => ?_⟩
  · exact real_of_abs_lt_inf _ (Host.reduce_andi_all _ _ _ _ _ hX i)
  · exact real_of_abs_lt_inf _ (Host.reduce_andi_all _ _ _ _ _ hW i)
  · exact real_of_abs_lt_inf _ (Host.reduce_andi_all _ _ _ _ _ hB i)
  · obtain ⟨ha, hb⟩ := IntOp.andi_eq_one.1 (Host.reduce_andi_all _ _ _ _ _ hI i)
    exact lt_of_range _ ha hb

end Cert.Proof.PreFacts

end
-- ==== Proof.FrameKI.lean ====
/-
  The idealized kernel's program runs: every weakly fair execution of its 35 threads terminates,
  nothing faulting, and the four argument arrays end as they were launched. Assembled from the
  launch of the two SparseCore calls and of @main's tail, the tiles' bodies, the split of the arrays
  among the tiles, and the two matrix-product regions.
-/
import proofs.«210207_g17016660427310_cont_sun_m_176_22_alg».proof.Proof.LaunchKI
import proofs.«210207_g17016660427310_cont_sun_m_176_22_alg».proof.Proof.Rows
import proofs.«210207_g17016660427310_cont_sun_m_176_22_alg».proof.Proof.TileBody0
import proofs.«210207_g17016660427310_cont_sun_m_176_22_alg».proof.Proof.TileBody1
import proofs.«210207_g17016660427310_cont_sun_m_176_22_alg».proof.Proof.TcArgs
import proofs.«210207_g17016660427310_cont_sun_m_176_22_alg».proof.Proof.PreFacts
import proofs.«210207_g17016660427310_cont_sun_m_176_22_alg».proof.Proof.Gen.Pre_input_domain

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)
variable [FloatOps F]

abbrev x' : DevRef τ sig := Proc.devRef .tc (main_arg0 : Ref sig .tc)
abbrev b' : DevRef τ sig := Proc.devRef .tc (main_arg3 : Ref sig .tc)

theorem tb0 : TileBody0 (F := F) := fun d L O W hO fi fw hidx => tile_body0 d L facts O W hO fi fw hidx
theorem tb1 : TileBody1 (F := F) := fun d L O W hO fi fw hidx => tile_body1 d L facts O W hO fi fw hidx

theorem Wc_x (d : Dev nD) (f0 f1) : Wc m d f0 f1 x' = m (xLoc d) :=
  (Function.update_of_ne (show x' ≠ o1' by decide) _ _).trans (Function.update_of_ne (show x' ≠ o0' by decide) _ _)
theorem Wc_b (d : Dev nD) (f0 f1) : Wc m d f0 f1 b' = m (bLoc d) :=
  (Function.update_of_ne (show b' ≠ o1' by decide) _ _).trans (Function.update_of_ne (show b' ≠ o0' by decide) _ _)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The reading the frame needs of the last valuation: the four arguments as launched. -/
def goodArgs (d : Dev nD) (Wf : Valuation τ sig (Elt F)) : Prop :=
  Wf x' = m (xLoc d) ∧ Wf i' = m (iLoc d) ∧ Wf w' = m (wLoc d) ∧ Wf b' = m (bLoc d)

theorem goodArgs_WD (d : Dev nD) (g0 : (c : Dev nD) → Buf (Elt F) (o0Loc c)) (g1 : (c : Dev nD) → Buf (Elt F) (o1Loc c)) :
    goodArgs m d (WD (Wt m g0 g1) d) :=
  ⟨(WD_main_arg0 (Wt m g0 g1) d).trans (Wc_x m d _ _), (WD_main_arg1 (Wt m g0 g1) d).trans (Wc_i m d _ _),
    (WD_main_arg2 (Wt m g0 g1) d).trans (Wc_w m d _ _), (WD_main_arg3 (Wt m g0 g1) d).trans (Wc_b m d _ _)⟩

/-- The program's run with the arguments read back. -/
theorem run_frame [∀ e, Nonempty (Elt F e)] (hpre : PreOK m) :
    θ_run (Cert.KernelIdeal.defs (F := F)) (Cert.KernelIdeal.threads (F := F)) ⟨m, fun _ => 0, ρ⟩ (fun r => ∀ c : Dev nD,
      r.2.mem (xLoc c) = m (xLoc c) ∧ r.2.mem (iLoc c) = m (iLoc c) ∧ r.2.mem (wLoc c) = m (wLoc c) ∧ r.2.mem (bLoc c) = m (bLoc c)) :=
  run_main m ρ tb0 tb1 hpre (call0_split m) (call1_split m) (goodArgs m) (goodArgs_WD m) _ fun s' h c => by
    obtain ⟨Wf, hg, hrd⟩ := h c
    exact ⟨(hrd x' (mem_uc main_arg0 (by decide))).trans hg.1, (hrd i' (mem_uc main_arg1 (by decide))).trans hg.2.1,
      (hrd w' (mem_uc main_arg2 (by decide))).trans hg.2.2.1, (hrd b' (mem_uc main_arg3 (by decide))).trans hg.2.2.2⟩

/-- The precondition gives what the proof asks of the launch memory: every index word names a column. -/
theorem preOK_of_pre [Cert.Pre_input_domain.Facts]
    (h : ∀ c : Dev nD, Cert.Pre_input_domain.fn (F := F) (m (xLoc c)) (m (iLoc c)) (m (wLoc c)) (m (bLoc c)) = fun _ => 1#1) : PreOK m :=
  fun d j => Cert.Proof.PreFacts.idx_of_pre (F := F) (m (xLoc d)) (m (iLoc d)) (m (wLoc d)) (m (bLoc d)) (h d) j

end Cert.Proof.KI

end
-- ==== Proof.SetupKB.lean ====
/-
  The program as the launch theorem for SparseCore programs sees it, for the kernel as printed, at word level: two
  vector-subcore calls (each on 2 SparseCores × 16 tiles) followed on the TensorCore by host operations
  and two pipelined matrix-product regions. Fixed here, once, generically in the float instance: the
  call configuration, the body table, the ghost algebra (the launch handshakes' rounds, the two
  pipelines' rounds, and the counters of the tiles' local transfers) and the arrays' locations.
-/
import proofs.«210207_g17016660427310_cont_sun_m_176_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210207_g17016660427310_cont_sun_m_176_22_alg».proof.Proof.Gen.Kernel
import proofs.«210207_g17016660427310_cont_sun_m_176_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_eq (q : Fin 2) : (K (F := F)).nSub q = 16 := by fin_cases q <;> rfl
theorem nCore_eq (q : Fin 2) : (K (F := F)).nCore q = 2 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the local transfers' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 2) (Elt F) ℕ UU ℕ) := embL

/-! ## The arrays, as the TensorCore names them -/

abbrev xLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev o0Loc (d : Dev nD) : Loc nD τ sig := (SparseCore.T d).loc main_v0
abbrev o1Loc (d : Dev nD) : Loc nD τ sig := (SparseCore.T d).loc main_v1

/-- A tile's place in a call's grid, as the two coordinates the body table passes the kernel. -/
abbrev cV (L : grid0.Coords) : Fin τ.nSC := (L 0).castLE hcore0
abbrev jV (L : grid0.Coords) : Fin τ.nSub := (L 1).castLE hsub0

/-! ## The arrays as a tile's kernel addresses them, and the pieces one tile touches

Tile (c, s) of a call works on 32 consecutive rows of the index and weight arrays (row offset
32·(2s + c), plus 1024 for the second call) and writes the matching 32 rows of that call's
1024 × 2048 result, as two blocks of 16 rows. The rectangles are spelt through the program's own
offset functions, so that they are literally the slices the body takes. -/

abbrev iV : Memref sig .scVector .hbm S2048x32 .i32 := Memref.whole main_arg1_scv
abbrev wV : Memref sig .scVector .hbm S2048x32 .f32 := Memref.whole main_arg2_scv
abbrev o0V : Memref sig .scVector .hbm S1024x2048 .f32 := Memref.whole main_v0_scv
abbrev o1V : Memref sig .scVector .hbm S1024x2048 .f32 := Memref.whole main_v1_scv

abbrev rI0 (L : grid0.Coords) : Rect S2048x32 := Rect.unit (s := S2048x32) (k0_off1 L) S32x32.size (k0_off1_inb L)
abbrev rOa0 (L : grid0.Coords) : Rect S1024x2048 := Rect.unit (s := S1024x2048) (k0_off34 L) S16x2048.size (k0_off34_inb L)
abbrev rOb0 (L : grid0.Coords) : Rect S1024x2048 := Rect.unit (s := S1024x2048) (k0_off35 L 16#32) S16x2048.size (k0_off35_inb L 1)
abbrev rI1 (L : grid1.Coords) : Rect S2048x32 := Rect.unit (s := S2048x32) (k1_off1 L) S32x32.size (k1_off1_inb L)
abbrev rOa1 (L : grid1.Coords) : Rect S1024x2048 := Rect.unit (s := S1024x2048) (k1_off34 L) S16x2048.size (k1_off34_inb L)
abbrev rOb1 (L : grid1.Coords) : Rect S1024x2048 := Rect.unit (s := S1024x2048) (k1_off35 L 16#32) S16x2048.size (k1_off35_inb L 1)

/-- The index sets of those pieces (the same set for the index array and the weight array). -/
abbrev rowsI0 (L : grid0.Coords) : Finset S2048x32.Idx := ((iV.slice (rI0 L) (fun _ => rfl)).view).set
abbrev rowsOa0 (L : grid0.Coords) : Finset S1024x2048.Idx := ((o0V.slice (rOa0 L) (fun _ => rfl)).view).set
abbrev rowsOb0 (L : grid0.Coords) : Finset S1024x2048.Idx := ((o0V.slice (rOb0 L) (fun _ => rfl)).view).set
abbrev rowsI1 (L : grid1.Coords) : Finset S2048x32.Idx := ((iV.slice (rI1 L) (fun _ => rfl)).view).set
abbrev rowsOa1 (L : grid1.Coords) : Finset S1024x2048.Idx := ((o1V.slice (rOa1 L) (fun _ => rfl)).view).set
abbrev rowsOb1 (L : grid1.Coords) : Finset S1024x2048.Idx := ((o1V.slice (rOb1 L) (fun _ => rfl)).view).set

end Cert.Proof.KB

end
-- ==== Proof.TilesKB.lean ====
/-
  A tile's share of a SparseCore call: its 32 rows of the index and weight arrays and its two 16-row blocks of the call's result.
-/
import proofs.«210207_g17016660427310_cont_sun_m_176_22_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)
variable [FloatOps F]

/-! ## What a call hands a tile, and what the tile hands back -/

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

/-- A tile's share of the first call: its 32 rows of the index and weight arrays at their launch
    contents, and its two 16-row blocks of the first result at whatever they hold. -/
def tileRes0 (d : Dev nD) (L : grid0.Coords) : sProp 𝕄 :=
  iprop((iLoc d ↦[rowsI0 L]{fullShare} m (iLoc d)) ∗ (wLoc d ↦[rowsI0 L]{fullShare} m (wLoc d))
    ∗ (∃ fa, o0Loc d ↦[rowsOa0 L]{fullShare} fa) ∗ (∃ fb, o0Loc d ↦[rowsOb0 L]{fullShare} fb))
/-- The same for the second call, over the second result. -/
def tileRes1 (d : Dev nD) (L : grid1.Coords) : sProp 𝕄 :=
  iprop((iLoc d ↦[rowsI1 L]{fullShare} m (iLoc d)) ∗ (wLoc d ↦[rowsI1 L]{fullShare} m (wLoc d))
    ∗ (∃ fa, o1Loc d ↦[rowsOa1 L]{fullShare} fa) ∗ (∃ fb, o1Loc d ↦[rowsOb1 L]{fullShare} fb))

instance tileRes0_storable (d : Dev nD) (L : grid0.Coords) : BI.Storable (upEmb : UEmb _ 𝕄) (tileRes0 m d L) := by
  unfold tileRes0; infer_instance
instance tileRes1_storable (d : Dev nD) (L : grid1.Coords) : BI.Storable (upEmb : UEmb _ 𝕄) (tileRes1 m d L) := by
  unfold tileRes1; infer_instance

end Cert.Proof.KB

end
-- ==== Proof.TcBodyKB.lean ====
/-
  The two TensorCore regions' bodies. Each of the program's two pipelined matrix-product calls runs, at every
  one of its 8 grid points, the same body: out := x · Wᵀ + b, where x is a block of 256 rows of the 2048 × 2048
  argument (all 2048 columns), W is one of the two dense 1024 × 2048 matrices the SparseCore calls left, b is a
  1 × 1024 slice of the bias broadcast down the 256 rows, and out is a 256 × 1024 block of the result, stored
  whole. Stated here, per region and at a PARAMETER V (what the TensorCore's buffers hold when the region is
  entered): each window's block at a point, what the body leaves in the output window's buffer, the body's
  triple, the pipeline's proof data and the body obligation. Generic in the float instance.
-/
import proofs.«210207_g17016660427310_cont_sun_m_176_22_alg».proof.Proof.SetupKB
import proofs.«210207_g17016660427310_cont_sun_m_176_22_alg».proof.Proof.Gen.Kernel.Launch
import proofs.«210207_g17016660427310_cont_sun_m_176_22_alg».proof.Proof.Gen.Kernel.Skeleton
import proofs.«210207_g17016660427310_cont_sun_m_176_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' long axis has 2048 coordinates
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Regions
-- what the TensorCore's buffers hold when a region is entered: the parameter each region's half is stated at
variable (V : (c : Dev nD) → (b : Ref sig .tc) → Buf (Elt F) ((c : Thread nD τ).loc b))

/-! # The region of pipeline 0: `cc2__mm_body0`, at the entry contents `V` -/

/-! ## The windows' blocks -/

/-- Window `w`'s block at point `t`, read off its array as the region finds it: for window 0 rows
    256·t … 256·t + 255 of x, for windows 1 and 2 all of the first call's 1024 × 2048 matrix and of the first 1024 bias entries (the same block at every point),
    for window 3 the block of columns 0 … 1023 of the result the point writes. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of x is in its window's current buffer at every point (it is fetched at each), for any proof data
    whose array is `V`'s and whose body leaves the block in place. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The dense matrix is in its window's buffer at every point although fetched at the first only: its block index
    never moves, and the body leaves the buffer as it found it. -/
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- So is the bias slice. -/
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or stored whole -/

abbrev r2_0 : Rect S256x2048 := Rect.unit (s := S256x2048) ![0, 0] S256x2048.size inb_S256x2048_S256x2048_0_0
abbrev r2_1 : Rect S1024x2048 := Rect.unit (s := S1024x2048) ![0, 0] S1024x2048.size inb_S1024x2048_S1024x2048_0_0
abbrev r2_2 : Rect S1x1024 := Rect.unit (s := S1x1024) ![0, 0] S1x1024.size inb_S1x1024_S1x1024_0_0
abbrev r2_3 : Rect S256x1024 := Rect.unit (s := S256x1024) ![0, 0] S256x1024.size inb_S256x1024_S256x1024_0_0

/-! ## What the body leaves in the output window's buffer -/

/-- The output window's buffer after the body, from the three input blocks: its one store, of the 256 × 1024
    product of the row block with the transposed matrix (accumulated from zero) plus the bias slice broadcast
    down the rows, over the whole buffer. -/
def out2_3 (x0 : Vec F S256x2048 .f32) (x1 : Vec F S1024x2048 .f32) (x2 : Vec F S1x1024 .f32) : Vec F S256x1024 .f32 :=
  View.canon [⟨r2_3, k2_pay1 (View.ld x0 r2_0) (View.ld x1 r2_1) (View.ld x2 r2_2)⟩]

/-- The one store covers the buffer: its rectangle is all 256 × 1024 of it. -/
theorem cover2_3 (p0 : Vec F S256x1024 .f32) (y : S256x1024.Idx) :
    ∃ pc ∈ ([⟨r2_3, p0⟩] : List (View.Piece (Elt F) S256x1024 .f32)), y ∈ pc.1.set :=
  View.cover_of_tiled [⟨r2_3, p0⟩] S256x1024.size (by rfl) y

/-! ## The body's triple -/

set_option maxHeartbeats 1000000 in
/-- The body on whole staging memrefs — the three inputs' at read contents `x0`, `x1`, `x2`, the output's at
    anything — runs to the continuation holding the inputs' as they were and the output's at `out2_3` of them:
    three whole loads, a load of the output buffer whose value is not used, and the one store. -/
theorem sound_kernel2 (c : Dev nD) (E : Set ℕ) (i : grid2.Coords) (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (arg4 : Memref sig .tc .vmem S256x1024 .f32) (harg4 : arg4.IsWhole)
    (x0 : Vec F S256x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_body0 i arg1 harg1 arg2 harg2 arg3 harg3 arg4 harg4) K := by
  simp only [cc2__mm_body0_eq_skeleton]; unfold cc2__mm_body0_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- What a body of this kind may use and need not describe: the core's scoped buffers that are no staging buffer of
    this pipeline, at some contents each, and its generator register at some state. -/
abbrev ΦR2 (c : Dev nD) : sProp 𝕄 :=
  iprop(Pipeline.scopedRest (Ix := HIx 2) (Name := ℕ) (U := UU) (Lvl := ℕ) (Val := Elt F) spec2 c ∗ ∃ r, prngReg c r)

/-- The proof data of pipeline 0 on core `c`: the arrays as the region finds them (`V`); after the body at point
    `t` each input's buffer at its block and the output's at `out2_3` of the input blocks; the invariant `ΦR2`,
    untouched; nothing owed; full shares. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦR2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt (none : HIx 2) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt (none : HIx 2) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt (none : HIx 2) t.succ = (dat2 V c).owesAt (none : HIx 2) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none (none : HIx 2) Set.univ := fun t => by
  rw [bigSep_W2, bigSep_W2]
  exact sound_body2 V c t

/-! # The region of pipeline 1: `cc3__mm_body1`, at the entry contents `V` -/

/-! ## The windows' blocks -/

/-- Window `w`'s block at point `t`, read off its array as the region finds it: for window 0 rows
    256·t … 256·t + 255 of x, for windows 1 and 2 all of the second call's 1024 × 2048 matrix and of the last 1024 bias entries (the same block at every point),
    for window 3 the block of columns 1024 … 2047 of the result the point writes. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of x is in its window's current buffer at every point (it is fetched at each), for any proof data
    whose array is `V`'s and whose body leaves the block in place. -/
theorem before3_0_of {c : Dev nD} (dat : Dat τ (Elt F) (HIx 2) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The dense matrix is in its window's buffer at every point although fetched at the first only: its block index
    never moves, and the body leaves the buffer as it found it. -/
theorem before3_1_of {c : Dev nD} (dat : Dat τ (Elt F) (HIx 2) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- So is the bias slice. -/
theorem before3_2_of {c : Dev nD} (dat : Dat τ (Elt F) (HIx 2) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer read or stored whole -/

abbrev r3_0 : Rect S256x2048 := Rect.unit (s := S256x2048) ![0, 0] S256x2048.size inb_S256x2048_S256x2048_0_0
abbrev r3_1 : Rect S1024x2048 := Rect.unit (s := S1024x2048) ![0, 0] S1024x2048.size inb_S1024x2048_S1024x2048_0_0
abbrev r3_2 : Rect S1x1024 := Rect.unit (s := S1x1024) ![0, 0] S1x1024.size inb_S1x1024_S1x1024_0_0
abbrev r3_3 : Rect S256x1024 := Rect.unit (s := S256x1024) ![0, 0] S256x1024.size inb_S256x1024_S256x1024_0_0

/-! ## What the body leaves in the output window's buffer -/

/-- The output window's buffer after the body, from the three input blocks: its one store, of the 256 × 1024
    product of the row block with the transposed matrix (accumulated from zero) plus the bias slice broadcast
    down the rows, over the whole buffer. -/
def out3_3 (x0 : Vec F S256x2048 .f32) (x1 : Vec F S1024x2048 .f32) (x2 : Vec F S1x1024 .f32) : Vec F S256x1024 .f32 :=
  View.canon [⟨r3_3, k3_pay1 (View.ld x0 r3_0) (View.ld x1 r3_1) (View.ld x2 r3_2)⟩]

/-- The one store covers the buffer: its rectangle is all 256 × 1024 of it. -/
theorem cover3_3 (p0 : Vec F S256x1024 .f32) (y : S256x1024.Idx) :
    ∃ pc ∈ ([⟨r3_3, p0⟩] : List (View.Piece (Elt F) S256x1024 .f32)), y ∈ pc.1.set :=
  View.cover_of_tiled [⟨r3_3, p0⟩] S256x1024.size (by rfl) y

/-! ## The body's triple -/

set_option maxHeartbeats 1000000 in
/-- The body on whole staging memrefs — the three inputs' at read contents `x0`, `x1`, `x2`, the output's at
    anything — runs to the continuation holding the inputs' as they were and the output's at `out3_3` of them:
    three whole loads, a load of the output buffer whose value is not used, and the one store. -/
theorem sound_kernel3 (c : Dev nD) (E : Set ℕ) (i : grid3.Coords) (arg1 : Memref sig .tc .vmem S256x2048 .f32) (harg1 : arg1.IsWhole) (arg2 : Memref sig .tc .vmem S1024x2048 .f32) (harg2 : arg2.IsWhole) (arg3 : Memref sig .tc .vmem S1x1024 .f32) (harg3 : arg3.IsWhole) (argA : Memref sig .tc .hbm S2048x2048 .f32) (hargA : argA.IsWhole) (arg4 : Memref sig .tc .vmem S256x1024 .f32) (harg4 : arg4.IsWhole)
    (x0 : Vec F S256x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__mm_body1 i arg1 harg1 arg2 harg2 arg3 harg3 argA hargA arg4 harg4) K := by
  simp only [cc3__mm_body1_eq_skeleton]; unfold cc3__mm_body1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- What a body of this kind may use and need not describe: the core's scoped buffers that are no staging buffer of
    this pipeline, at some contents each, and its generator register at some state. -/
abbrev ΦR3 (c : Dev nD) : sProp 𝕄 :=
  iprop(Pipeline.scopedRest (Ix := HIx 2) (Name := ℕ) (U := UU) (Lvl := ℕ) (Val := Elt F) spec3 c ∗ ∃ r, prngReg c r)

/-- The proof data of pipeline 1 on core `c`: the arrays as the region finds them (`V`); after the body at point
    `t` each input's buffer at its block and the output's at `out3_3` of the input blocks; the invariant `ΦR3`,
    untouched; nothing owed; full shares. -/
def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := ΦR3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt (none : HIx 2) t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt (none : HIx 2) t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt (none : HIx 2) t.succ = (dat3 V c).owesAt (none : HIx 2) t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none (none : HIx 2) Set.univ := fun t => by
  rw [bigSep_W3, bigSep_W3]
  exact sound_body3 V c t

end Regions

end Cert.Proof.KB

end
-- ==== Proof.TcRegionsKB.lean ====
/-
  The two TensorCore regions as segments of @main's tail. Region 0 (the first matrix-product call) is entered with
  the TensorCore's unscoped buffers at a valuation W1 and left with them at W2: W1 but for the region's four arrays,
  of which the three inputs (the argument x, the first dense matrix, the first half of the bias) are as entered and
  the result buffer holds what the eight write-backs leave — block t of its left 1024 columns at x's row block t
  times the transposed matrix plus the bias. Region 1 likewise from W3 to W4 over the second dense matrix, the
  second half of the bias and the right 1024 columns of the aliased result. Beside the buffers rides the core's
  generator register at some state and the core owing nothing. Generic in the float instance; W1 and W3 are
  parameters, instantiated in the last section from a valuation W0 at which the tail of @main is entered.
-/
import proofs.«210207_g17016660427310_cont_sun_m_176_22_alg».proof.Proof.TcBodyKB
set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The levels and the thread state beside the buffers -/

/-- The prefetched tables' admissible contents: neither pipeline has a table. -/
abbrev admTc : (p : Fin 2) → (pcfgs (F := F) p).Adm := fun p => (cfgs p).toPCfg_adm
/-- The levels are the launch's: every index levelled at every cell, `none` at 0. The bodies owe nothing, so no
    level fact is read. -/
abbrev Lv : GSem nD τ sig → Finset (HIx 2) := (K (F := F)).L
abbrev lv : GSem nD τ sig → HIx 2 → ℕ := (K (F := F)).lev
/-- What rides beside the buffers through every segment: the core's generator register at some state and its
    `owes`, at nothing. -/
abbrev R (c : Dev nD) : sProp 𝕄 := iprop((∃ r, prngReg c r) ∗ ∃ W, owes (c : Thread nD τ) (0 : CellTallies nD τ sig (HIx 2)) W)

section Regions
variable (W1 W3 : Dev nD → Valuation τ sig (Elt F))

/-! ## The buffer contents at the regions' boundaries -/

/-- Region 0's entry contents read at the TensorCore's references (what its proof data take). -/
abbrev V1 : (c : Dev nD) → (b : Ref sig .tc) → Buf (Elt F) ((c : Thread nD τ).loc b) := fun c b => W1 c b
/-- At region 0's exit: its arrays at what the pipeline leaves (the inputs as entered, the result's eight write-backs
    folded), every other buffer as entered. -/
def W2 (c : Dev nD) : Valuation τ sig (Elt F) :=
  Pipeline.withArrays spec2 c (W1 c) fun w => (dat2 (V1 W1) c).arrAt w cfg2.N
theorem W2_arr (c : Dev nD) (w : Fin cfg2.W) :
    W2 W1 c (Proc.devRef .tc (Pipeline.arrRef spec2 w)) = (dat2 (V1 W1) c).arrAt w cfg2.N := by
  unfold W2; exact Pipeline.withArrays_arr spec2 launch2.win.arr_inj c _ _ w
theorem W2_of_ne (c : Dev nD) (b : Ref sig .tc) (hb : ∀ w, Pipeline.arrRef spec2 w ≠ b) :
    W2 W1 c (Proc.devRef .tc b) = W1 c (Proc.devRef .tc b) := by
  unfold W2; exact Pipeline.withArrays_of_ne spec2 c _ _ b hb
abbrev V2 : (c : Dev nD) → (b : Ref sig .tc) → Buf (Elt F) ((c : Thread nD τ).loc b) := fun c b => W2 W1 c b
theorem hF2 (c : Dev nD) (w : Fin cfg2.W) : (dat2 (V1 W1) c).arrAt w cfg2.N = V2 W1 c (Pipeline.arrRef spec2 w) :=
  (W2_arr W1 c w).symm
theorem hrest2 (c : Dev nD) : ∀ b, b ∉ Finset.univ.image (Pipeline.arrRef spec2) → V2 W1 c b = V1 W1 c b :=
  fun b hb => W2_of_ne W1 c b fun w e => hb (Finset.mem_image.mpr ⟨w, Finset.mem_univ _, e⟩)

/-- Region 1's entry contents read at the TensorCore's references. -/
abbrev V3 : (c : Dev nD) → (b : Ref sig .tc) → Buf (Elt F) ((c : Thread nD τ).loc b) := fun c b => W3 c b
/-- At region 1's exit, likewise. -/
def W4 (c : Dev nD) : Valuation τ sig (Elt F) :=
  Pipeline.withArrays spec3 c (W3 c) fun w => (dat3 (V3 W3) c).arrAt w cfg3.N
theorem W4_arr (c : Dev nD) (w : Fin cfg3.W) :
    W4 W3 c (Proc.devRef .tc (Pipeline.arrRef spec3 w)) = (dat3 (V3 W3) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 W3 c (Proc.devRef .tc b) = W3 c (Proc.devRef .tc b) := by
  unfold W4; exact Pipeline.withArrays_of_ne spec3 c _ _ b hb
abbrev V4 : (c : Dev nD) → (b : Ref sig .tc) → Buf (Elt F) ((c : Thread nD τ).loc b) := fun c b => W4 W3 c b
theorem hF3 (c : Dev nD) (w : Fin cfg3.W) : (dat3 (V3 W3) c).arrAt w cfg3.N = V4 W3 c (Pipeline.arrRef spec3 w) :=
  (W4_arr W3 c w).symm
theorem hrest3 (c : Dev nD) : ∀ b, b ∉ Finset.univ.image (Pipeline.arrRef spec3) → V4 W3 c b = V3 W3 c b :=
  fun b hb => W4_of_ne W3 c b fun w e => hb (Finset.mem_image.mpr ⟨w, Finset.mem_univ _, e⟩)

/-! ## The proof data family -/

/-- Both pipelines' proof data, each at its region's entry contents. -/
def pdats : (p : Fin 2) → (c : Dev nD) → Dat τ (Elt F) (HIx 2) ℕ UU ℕ (Pipeline.pin (pcfgs (F := F)) admTc p) c
  | ⟨0, _⟩ => fun c => dat2 (V1 W1) c
  | ⟨1, _⟩ => fun c => dat3 (V3 W3) c

/-! ## The regions as segments -/

set_option backward.isDefEq.respectTransparency.types false in
/-- REGION 0 over the thread state: entered from every unscoped buffer at `W1`, left at `W2 W1`. Its four arrays
    are split out of the unscoped buffers and put back at the exit contents; the generator register goes into the
    invariant and comes out; nothing is owed; the body has no semaphore of its own. -/
def reg0 : Pipeline.RegionSeg (pcfgs (F := F)) admTc (pdats W1 W3) (none : HIx 2) defs₀ 𝒱₀ (Lv (F := F)) (lv (F := F)) 0 where
  win := launch2.win.to₀
  block_pos := launch2.block_pos
  stage_whole := launch2.stage_whole
  K := PEmpty
  osem k := k.elim
  ho := Pipeline.OwnSemFacts.none _
  hbody c := (body_obligation2 (V1 W1) c).loose
  hwaits := Pipeline.hwaits_of_owed_zero _ _ _ _ (Lv (F := F)) (lv (F := F)) 0 fun _ _ => rfl
  pre c := iprop(StableHlo.held (c : Thread nD τ) (Pipeline.ucRefs τ sig) (W1 c) ∗ R c)
  post c := iprop(StableHlo.held (c : Thread nD τ) (Pipeline.ucRefs τ sig) (W2 W1 c) ∗ R c)
  X c := iprop(∃ r, prngReg c r)
  Y c := iprop(∃ r, prngReg c r)
  Z c := Pipeline.unscopedRest (Ix := HIx 2) (Name := ℕ) (U := UU) (Lvl := ℕ) spec2 c (V1 W1 c)
  hentry c := by
    rw [Pipeline.ownSems0_none]
    have hsplit := Pipeline.arrays_of_unscopedBufs (p := 0) (pcfgs (F := F)) admTc (pdats W1 W3) launch2.win launch2.arr_whole c
      ((pdats W1 W3 0 c).share_full fun _ => rfl) (V1 W1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 W3 0 c).Φ 0 = ΦR2 c from rfl]
    iintro ⟨Hp, -, Hr⟩
    isplitl [Hr]; · iexact Hr
    iexact Hp
  hout c := by
    rw [Pipeline.ownSems0_none, show (pdats W1 W3 0 c).Φ (Fin.last _) = ΦR2 c from rfl]
    iintro ⟨Hr, Hp⟩
    isplitl [Hp]; · iexact Hp
    isplitr; · iempintro
    iexact Hr
  hexit c := by
    have hjoin := Pipeline.unscopedBufs_of_arrays (p := 0) (pcfgs (F := F)) admTc (Ix := HIx 2) (Name := ℕ) (U := UU) (Lvl := ℕ)
      launch2.win launch2.arr_whole c (pdats W1 W3) ((pdats W1 W3 0 c).share_full fun _ => rfl)
      (V1 W1 c) (V2 W1 c) ((pdats W1 W3 0 c).arrAt · cfg2.N) (hF2 W1 c) (hrest2 W1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4 W3`. Its four arrays
    are split out of the unscoped buffers and put back at the exit contents; the generator register goes into the
    invariant and comes out; nothing is owed; the body has no semaphore of its own. -/
def reg1 : Pipeline.RegionSeg (pcfgs (F := F)) admTc (pdats W1 W3) (none : HIx 2) defs₀ 𝒱₀ (Lv (F := F)) (lv (F := F)) 1 where
  win := launch3.win.to₀
  block_pos := launch3.block_pos
  stage_whole := launch3.stage_whole
  K := PEmpty
  osem k := k.elim
  ho := Pipeline.OwnSemFacts.none _
  hbody c := (body_obligation3 (V3 W3) c).loose
  hwaits := Pipeline.hwaits_of_owed_zero _ _ _ _ (Lv (F := F)) (lv (F := F)) 1 fun _ _ => rfl
  pre c := iprop(StableHlo.held (c : Thread nD τ) (Pipeline.ucRefs τ sig) (W3 c) ∗ R c)
  post c := iprop(StableHlo.held (c : Thread nD τ) (Pipeline.ucRefs τ sig) (W4 W3 c) ∗ R c)
  X c := iprop(∃ r, prngReg c r)
  Y c := iprop(∃ r, prngReg c r)
  Z c := Pipeline.unscopedRest (Ix := HIx 2) (Name := ℕ) (U := UU) (Lvl := ℕ) spec3 c (V3 W3 c)
  hentry c := by
    rw [Pipeline.ownSems0_none]
    have hsplit := Pipeline.arrays_of_unscopedBufs (p := 1) (pcfgs (F := F)) admTc (pdats W1 W3) launch3.win launch3.arr_whole c
      ((pdats W1 W3 1 c).share_full fun _ => rfl) (V3 W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats W1 W3 1 c).Φ 0 = ΦR3 c from rfl]
    iintro ⟨Hp, -, Hr⟩
    isplitl [Hr]; · iexact Hr
    iexact Hp
  hout c := by
    rw [Pipeline.ownSems0_none, show (pdats W1 W3 1 c).Φ (Fin.last _) = ΦR3 c from rfl]
    iintro ⟨Hr, Hp⟩
    isplitl [Hp]; · iexact Hp
    isplitr; · iempintro
    iexact Hr
  hexit c := by
    have hjoin := Pipeline.unscopedBufs_of_arrays (p := 1) (pcfgs (F := F)) admTc (Ix := HIx 2) (Name := ℕ) (U := UU) (Lvl := ℕ)
      launch3.win launch3.arr_whole c (pdats W1 W3) ((pdats W1 W3 1 c).share_full fun _ => rfl)
      (V3 W3 c) (V4 W3 c) ((pdats W1 W3 1 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

/-! # The tail of @main: the two host stretches and the two regions, in order

After the two SparseCore calls @main reshapes the 2048-entry bias to 1 × 2048 and slices its first 1024 entries
(stretch A), runs region 0, slices the last 1024 entries and copies the first region's result into the buffer the
second region's result aliases (stretch B), and runs region 1. From a valuation `W0` of the TensorCore's unscoped
buffers at which the tail is entered, the contents at each boundary are a fold: a stretch's `StableHlo.after`, a
region's arrays at what its write-backs leave. -/

section Run
variable (W0 : Dev nD → Valuation τ sig (Elt F))

/-- Stretch A: the bias as a row, and its first half. -/
abbrev hostOpsA : List (HloOp τ sig (Elt F)) :=
  [ StableHlo.reshape main_arg3 main_v2 rfl shapeCasts_S2048_S1x2048,
    StableHlo.unary main_v2 main_v3 ((extractStridedSlice S1x1024 ![0, 0] · slices_S1x2048_S1x1024_0_0) : (⟨S1x2048, .f32⟩ : BufTy).Contents (Elt F) → (⟨S1x1024, .f32⟩ : BufTy).Contents (Elt F)) ]
/-- Stretch B: the bias row's second half, and the first region's result copied into the second's buffer. -/
abbrev hostOpsB : List (HloOp τ sig (Elt F)) :=
  [ StableHlo.unary main_v2 main_v5 ((extractStridedSlice S1x1024 ![0, 1024] · slices_S1x2048_S1x1024_0_1024) : (⟨S1x2048, .f32⟩ : BufTy).Contents (Elt F) → (⟨S1x1024, .f32⟩ : BufTy).Contents (Elt F)),
    StableHlo.unary main_v4 main_v6 id ]

/-- Each operation touches TensorCore references only, -/
theorem hostOpsA_sub : (hostOpsA : List (HloOp τ sig (Elt F))).Forall fun op => op.bufs ⊆ StableHlo.tcRefs τ sig :=
  ⟨StableHlo.reshape_bufs_sub .., StableHlo.unary_bufs_sub ..⟩
theorem hostOpsB_sub : (hostOpsB : List (HloOp τ sig (Elt F))).Forall fun op => op.bufs ⊆ StableHlo.tcRefs τ sig :=
  ⟨StableHlo.unary_bufs_sub .., StableHlo.unary_bufs_sub ..⟩
/-- and none allocates a buffer. -/
theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor

/-- A host stretch as a segment over the unscoped references from the contents `W`, `R` riding along: it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (Lv (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The contents at the boundaries: after stretch A (region 0's entry), at region 0's exit, after stretch B (region 1's
    entry), at region 1's exit. -/
abbrev WA : Dev nD → Valuation τ sig (Elt F) := fun c => StableHlo.after hostOpsA (W0 c)
abbrev WB : Dev nD → Valuation τ sig (Elt F) := W2 (WA W0)
abbrev WC : Dev nD → Valuation τ sig (Elt F) := fun c => StableHlo.after hostOpsB (WB W0 c)
abbrev WD : Dev nD → Valuation τ sig (Elt F) := W4 (WC W0)

/-- The tail's four segments in order. -/
abbrev segs : List (Pipeline.Seg (pcfgs (F := F)) admTc (pdats (WA W0) (WC W0)) (none : HIx 2) defs₀ 𝒱₀ (Lv (F := F)) (lv (F := F))) :=
  [ .host (hseg hostOpsA hostOpsA_sub hostOpsA_fresh W0),
    .region (reg0 (WA W0) (WC W0)),
    .host (hseg hostOpsB hostOpsB_sub hostOpsB_fresh (WB W0)),
    .region (reg1 (WA W0) (WC W0)) ]

/-- The segments enter two pipelines, each once. -/
theorem segs_pipes : Pipeline.Seg.pipes (segs W0) = [0, 1] := by
  simp only [segs, Pipeline.Seg.pipes_host, Pipeline.Seg.pipes_region, Pipeline.Seg.pipes_nil]

/-- Their thread states chain: each segment is entered from exactly what the one before it left, from every unscoped
    buffer at `W0` to every unscoped buffer at `WD`, `R` beside them throughout. -/
theorem segs_chains :
    Pipeline.Seg.Chains (fun c => iprop(StableHlo.held (c : Thread nD τ) (Pipeline.ucRefs τ sig) (W0 c) ∗ R c)) (segs W0)
      (fun c => iprop(StableHlo.held (c : Thread nD τ) (Pipeline.ucRefs τ sig) (WD W0 c) ∗ R c)) :=
  ⟨fun _ => .rfl, fun _ => .rfl, fun _ => .rfl, fun _ => .rfl, fun _ => .rfl⟩

/-- @main after the two SparseCore calls, in the pipelines' own signature. -/
def tailP : Prog (TpuEff nD τ sig (Elt F) (ΛP (F := F)) .tc) PUnit := do
  hlo rfl (StableHlo.reshape main_arg3 main_v2 rfl shapeCasts_S2048_S1x2048) (fun _ => .ret ⟨⟩)
  hlo rfl (StableHlo.unary main_v2 main_v3 ((extractStridedSlice S1x1024 ![0, 0] · slices_S1x2048_S1x1024_0_0) : (⟨S1x2048, .f32⟩ : BufTy).Contents (Elt F) → (⟨S1x1024, .f32⟩ : BufTy).Contents (Elt F))) (fun _ => .ret ⟨⟩)
  Prog.lift (.customCall (Pipeline.entry 0) ())
  hlo rfl (StableHlo.unary main_v2 main_v5 ((extractStridedSlice S1x1024 ![0, 1024] · slices_S1x2048_S1x1024_0_1024) : (⟨S1x2048, .f32⟩ : BufTy).Contents (Elt F) → (⟨S1x1024, .f32⟩ : BufTy).Contents (Elt F))) (fun _ => .ret ⟨⟩)
  hlo rfl (StableHlo.unary main_v4 main_v6 id) (fun _ => .ret ⟨⟩)
  Prog.lift (.customCall (Pipeline.entry 1) ())
  pure ⟨⟩

/-- @main is the two SparseCore calls and then that tail. -/
theorem main_eq_tail (d : Dev nD) : main (F := F) d = (do sc.run d 0; sc.run d 1; SparseCore.liftProg (tailP (F := F))) := rfl

/-- The tail IS the run of the segments: statement for statement, the stretches' operations and the regions' calls
    in @main's order. -/
theorem tail_run : tailP (F := F) = Pipeline.Seg.run (segs W0) := by chain_rfl

end Run

end Cert.Proof.KB

end
-- ==== Proof.LaunchKB.lean ====
/-
  The launch of the word-level kernel's program: what each SparseCore call hands its tiles and takes
  back, the tiles' obligations, @main on the TensorCore, and the run of the whole family of threads.
-/
import proofs.«210207_g17016660427310_cont_sun_m_176_22_alg».proof.Proof.TilesKB
import proofs.«210207_g17016660427310_cont_sun_m_176_22_alg».proof.Proof.TcRegionsKB
import proofs.«210207_g17016660427310_cont_sun_m_176_22_alg».proof.Proof.Gen.Kernel.Launch
import proofs.«210207_g17016660427310_cont_sun_m_176_22_alg».proof.Proof.Gen.Kernel.Points
import Idealize.ShloMosaic.Lib.Pipeline.Frame
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)
variable [FloatOps F]

/-- What a call hands tile (c, s): the tile's share. -/
def goF (q : Fin 2) (d : Dev nD) (c : Fin ((K (F := F)).nCore q)) (s : Fin ((K (F := F)).nSub q)) : sProp 𝕄 :=
  match q with
  | 0 => tileRes0 m d (coordsV0 c s)
  | 1 => tileRes1 m d (coordsV1 c s)

instance goF_storable (q : Fin 2) (d : Dev nD) (c : Fin ((K (F := F)).nCore q)) (s : Fin ((K (F := F)).nSub q)) :
    BI.Storable (upEmb : UEmb _ 𝕄) (goF m q d c s) :=
  match q with
  | 0 => tileRes0_storable m d _
  | 1 => tileRes1_storable m d _

/-- Each call hands a SparseCore the shares of its sixteen tiles and takes them back. -/
def P : (K (F := F)).Pay (nD := nD) (Val := Elt F) (Name := ℕ) (U := UU) where
  st := fun q d c => bigSep Finset.univ fun s => goF m q d c s
  dn := fun q d c => bigSep Finset.univ fun s => goF m q d c s
  go := goF m
  td := goF m
  x := fun _ _ => iprop(emp)

instance P_storable : (P (F := F) m).IsStorable where
  st q d c := (inferInstance : BI.Storable (upEmb : UEmb _ 𝕄) (bigSep Finset.univ fun s => goF m q d c s))
  dn q d c := (inferInstance : BI.Storable (upEmb : UEmb _ 𝕄) (bigSep Finset.univ fun s => goF m q d c s))
  go q d c s := goF_storable m q d c s
  td q d c s := goF_storable m q d c s

/-- A call's operands for one SparseCore ARE its tiles' shares: nothing to split. -/
theorem vecSplit (q : Fin 2) : (K (F := F)).VecSplit' (P m) q := by
  intro d c
  show (bigSep Finset.univ fun s => goF m q d c s) ⊢ |={Set.univ}=> iprop((bigSep Finset.univ fun s => goF m q d c s)
    ∗ ((bigSep Finset.univ fun s => goF m q d c s) -∗ bigSep Finset.univ fun s => goF m q d c s))
  iintro H; imodintro
  isplitl [H]; · iexact H
  iintro H; iexact H

/-! ## The tiles' obligations -/

/-- What the proof asks of the launch memory: every index word names a column. -/
def PreOK : Prop := ∀ (d : Dev nD) (j : S2048x32.Idx), (m (iLoc d) j).toNat < 2048

/-- One tile's task of the first call, at a symbolic place: from the tile's share (the index and weight rows at any
    contents whose index words name columns, the two result blocks at anything) and the tile's scoped storage, the body
    runs to its end, giving both back. -/
def TileBody0 : Prop :=
  ∀ (d : Dev nD) (L : grid0.Coords) (O : CellTallies nD τ sig (HIx 2)) (W : Waits sig (HIx 2)), (∀ g, O g none = 0) →
    ∀ (fi : Buf (Elt F) (iLoc d)) (fw : Buf (Elt F) (wLoc d)),
    (∀ x : S32x32.Idx, (fi (((iV.slice (rI0 L) (fun _ => rfl)).view).emb x)).toNat < 2048) →
    (iprop(levAts (K (F := F)).L (K (F := F)).lev ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, o0Loc d ↦[rowsOa0 L]{fullShare} fa) ∗ (∃ fb, o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

/-- The same for the second call. -/
def TileBody1 : Prop :=
  ∀ (d : Dev nD) (L : grid1.Coords) (O : CellTallies nD τ sig (HIx 2)) (W : Waits sig (HIx 2)), (∀ g, O g none = 0) →
    ∀ (fi : Buf (Elt F) (iLoc d)) (fw : Buf (Elt F) (wLoc d)),
    (∀ x : S32x32.Idx, (fi (((iV.slice (rI1 L) (fun _ => rfl)).view).emb x)).toNat < 2048) →
    (iprop(levAts (K (F := F)).L (K (F := F)).lev ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L iV (Memref.isWhole_whole _) wV (Memref.isWhole_whole _) o1V (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, o1Loc d ↦[rowsOa1 L]{fullShare} fa) ∗ (∃ fb, o1Loc d ↦[rowsOb1 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector0 (c : Fin τ.nSC) (s : Fin τ.nSub) :
    defs₀ (F := F) (.scVector c s) 0 ()
      = SparseCore.onTile hcore0 hsub0 (fun c s => cc0_body (coordsV0 c s) iV (Memref.isWhole_whole _) wV (Memref.isWhole_whole _) o0V (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scoped0 cc0_scoped1) ⟨⟩ c s := rfl
theorem defs₀_vector1 (c : Fin τ.nSC) (s : Fin τ.nSub) :
    defs₀ (F := F) (.scVector c s) 1 ()
      = SparseCore.onTile hcore1 hsub1 (fun c s => cc1_body (coordsV1 c s) iV (Memref.isWhole_whole _) wV (Memref.isWhole_whole _) o1V (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1) ⟨⟩ c s := rfl

omit [FloatOps F] in
/-- From the body's run to the obligation's wording: the share regrouped, the recorded waits widened. -/
theorem obl_post {thr : Thread nD τ} {A1 A2 A3 A4 B C : sProp 𝕄} {O : CellTallies nD τ sig (HIx 2)} {W : Waits sig (HIx 2)} {q : Fin 2} :
    iprop(A1 ∗ A2 ∗ A3 ∗ A4 ∗ B ∗ C ∗ ∃ W', ⌜∀ p ∈ W', p ∈ W ∨ p.2 = none⌝ ∗ owes thr O W')
      ⊢ iprop((A1 ∗ A2 ∗ A3 ∗ A4) ∗ B ∗ C ∗ ∃ W', ⌜∀ p ∈ W', p ∈ W ∨ p.2 = none ∨ p.2 = some q⌝ ∗ owes thr O W') := by
  iintro ⟨H1, H2, H3, H4, HB, HC, %W', %hW', HO⟩
  isplitl [H1 H2 H3 H4]
  · isplitl [H1]; · iexact H1
    isplitl [H2]; · iexact H2
    isplitl [H3]; · iexact H3
    iexact H4
  isplitl [HB]; · iexact HB
  isplitl [HC]; · iexact HC
  iexists W'; isplitr
  · ipureintro; exact fun p hp => (hW' p hp).imp_right Or.inl
  · iexact HO

theorem tileObl0 (hb : TileBody0 (F := F)) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  refine BI.Entails.trans ?_ ((hb d (coordsV0 ⟨_, hc.1⟩ ⟨_, hc.2⟩) O W hO (m (iLoc d)) (m (wLoc d)) (fun x => hpre d _)).trans
    (wp_mono frame _ _ fun _ => obl_post))
  show iprop(_ ∗ iprop(emp) ∗ tileRes0 m d _ ∗ _) ⊢ _
  unfold tileRes0
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

theorem tileObl1 (hb : TileBody1 (F := F)) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  refine BI.Entails.trans ?_ ((hb d (coordsV1 ⟨_, hc.1⟩ ⟨_, hc.2⟩) O W hO (m (iLoc d)) (m (wLoc d)) (fun x => hpre d _)).trans
    (wp_mono frame _ _ fun _ => obl_post))
  show iprop(_ ∗ iprop(emp) ∗ tileRes1 m d _ ∗ _) ⊢ _
  unfold tileRes1
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

/-! ## The launch element: the handshakes' rounds, the pipelines' rounds; the counters dropped -/

/-- The pipelines' rounds: the middle factor of the algebra. -/
abbrev EP : Emb UP (MT nD τ sig (HIx 2) (Elt F) ℕ UU ℕ) := (Emb.inl : Emb UP (UP × Counters)).trans embR

instance EP_landsIn : (EP : Emb UP 𝕄).LandsIn (upEmb : UEmb _ 𝕄) := by unfold EP embR; infer_instance

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside its arrays: both pipelines' staging cells' ghost state. -/
abbrev G (d : Dev nD) : sProp 𝕄 := Pipeline.ghostOn (pcfgs (F := F)) admTc EP Finset.univ d

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EP (F := F)) cellOf_inj) $$ HP with ⟨Hc, Ht⟩
  imodintro
  isplitl [HH]; · iexact HH
  isplitl [Hc Ht]
  · unfold G Pipeline.ghostOn Pipeline.PerCore.ghostOn
    simp only [bigSep_sep']
    isplitl [Hc]
    · iexact Hc
    · iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## @main on the TensorCore -/

abbrev i' : DevRef τ sig := Proc.devRef .tc (main_arg1 : Ref sig .tc)
abbrev w' : DevRef τ sig := Proc.devRef .tc (main_arg2 : Ref sig .tc)
abbrev o0' : DevRef τ sig := Proc.devRef .tc (main_v0 : Ref sig .tc)
abbrev o1' : DevRef τ sig := Proc.devRef .tc (main_v1 : Ref sig .tc)
/-- The arrays the SparseCore calls work on. -/
abbrev T4 : Finset (DevRef τ sig) := {i', w', o0', o1'}

/-- The launch valuation; after the two calls, the two dense matrices at what the tiles left. -/
abbrev V0 (d : Dev nD) : Valuation τ sig (Elt F) := fun b => m (d, b)
def Wc (d : Dev nD) (f0 : Buf (Elt F) (o0Loc d)) (f1 : Buf (Elt F) (o1Loc d)) : Valuation τ sig (Elt F) :=
  Function.update (Function.update (V0 m d) o0' f0) o1' f1

omit [FloatOps F] in
theorem held_T4 (d : Dev nD) (W : Valuation τ sig (Elt F)) :
    (held (SparseCore.T d) T4 W : sProp 𝕄) = iprop((iLoc d ↦{fullShare} W i') ∗ (wLoc d ↦{fullShare} W w') ∗ (o0Loc d ↦{fullShare} W o0') ∗ (o1Loc d ↦{fullShare} W o1')) := by
  unfold held T4
  rw [SparseCore.bigSep_insert' (by decide), SparseCore.bigSep_insert' (by decide), SparseCore.bigSep_insert' (by decide), bigSep_singleton]

theorem T4_sub : T4 ⊆ Pipeline.ucRefs τ sig := by decide

set_option backward.isDefEq.respectTransparency.types false in
/-- The launch's unscoped arrays are the unscoped references held at the launch valuation. -/
theorem unscoped_held (d : Dev nD) :
    (unscopedBufs (Ix := HIx 2) (Name := ℕ) (U := UU) (Lvl := ℕ) d (fun b => m ((SparseCore.T d).loc b)) : sProp 𝕄)
      = held (SparseCore.T d) (Pipeline.ucRefs τ sig) (V0 m d) :=
  Pipeline.unscopedBufs_held (Ix := HIx 2) (Name := ℕ) (U := UU) (Lvl := ℕ) d (V0 m d)

theorem Wc_i (d : Dev nD) (f0 f1) : Wc m d f0 f1 i' = m (iLoc d) :=
  (Function.update_of_ne (show i' ≠ o1' by decide) _ _).trans (Function.update_of_ne (show i' ≠ o0' by decide) _ _)
theorem Wc_w (d : Dev nD) (f0 f1) : Wc m d f0 f1 w' = m (wLoc d) :=
  (Function.update_of_ne (show w' ≠ o1' by decide) _ _).trans (Function.update_of_ne (show w' ≠ o0' by decide) _ _)
theorem Wc_o0 (d : Dev nD) (f0 f1) : Wc m d f0 f1 o0' = f0 :=
  (Function.update_of_ne (show o0' ≠ o1' by decide) _ _).trans (Function.update_self _ _ _)
theorem Wc_o1 (d : Dev nD) (f0 f1) : Wc m d f0 f1 o1' = f1 := Function.update_self _ _ _
theorem Wc_rest (d : Dev nD) (f0 f1) : ∀ b ∈ Pipeline.ucRefs τ sig \ T4, V0 m d b = Wc m d f0 f1 b := fun b hb => by
  have hb' := (Finset.mem_sdiff.mp hb).2
  have h0 : b ≠ o0' := fun e => hb' (e ▸ by decide)
  have h1 : b ≠ o1' := fun e => hb' (e ▸ by decide)
  exact ((Function.update_of_ne h1 _ _).trans (Function.update_of_ne h0 _ _)).symm

/-- With two calls every recorded pair sits at or below level 16. -/
theorem wbelow_any (thr : Thread nD τ) (W : Waits sig (HIx 2)) : (K (F := F)).WBelow thr W 16 := fun p _ => by
  rcases h : p.2 with _ | q
  · simp [h]
  · exact ((K (F := F)).lev_some_le _ q).trans (by have := q.isLt; omega)

/-- The split of the whole index, weight and result arrays into one call's tiles' shares, with the way back. -/
def CallSplit0 : Prop := ∀ d : Dev nD,
  iprop((iLoc d ↦{fullShare} m (iLoc d)) ∗ (wLoc d ↦{fullShare} m (wLoc d)) ∗ (∃ f, o0Loc d ↦{fullShare} f))
    ⊢ (iprop((bigSep Finset.univ fun c : Fin (grid0.bound 0) => bigSep Finset.univ fun s : Fin (grid0.bound 1) => tileRes0 m d (coordsV0 c s))
        ∗ ((bigSep Finset.univ fun c : Fin (grid0.bound 0) => bigSep Finset.univ fun s : Fin (grid0.bound 1) => tileRes0 m d (coordsV0 c s))
            -∗ iprop((iLoc d ↦{fullShare} m (iLoc d)) ∗ (wLoc d ↦{fullShare} m (wLoc d)) ∗ (∃ f, o0Loc d ↦{fullShare} f)))) : sProp 𝕄)
def CallSplit1 : Prop := ∀ d : Dev nD,
  iprop((iLoc d ↦{fullShare} m (iLoc d)) ∗ (wLoc d ↦{fullShare} m (wLoc d)) ∗ (∃ f, o1Loc d ↦{fullShare} f))
    ⊢ (iprop((bigSep Finset.univ fun c : Fin (grid1.bound 0) => bigSep Finset.univ fun s : Fin (grid1.bound 1) => tileRes1 m d (coordsV1 c s))
        ∗ ((bigSep Finset.univ fun c : Fin (grid1.bound 0) => bigSep Finset.univ fun s : Fin (grid1.bound 1) => tileRes1 m d (coordsV1 c s))
            -∗ iprop((iLoc d ↦{fullShare} m (iLoc d)) ∗ (wLoc d ↦{fullShare} m (wLoc d)) ∗ (∃ f, o1Loc d ↦{fullShare} f)))) : sProp 𝕄)

/-- The run of @main's tail on the TensorCore, from every unscoped array at the contents the two calls left: under
    any continuation it ends holding `FIN d` and owing nothing. -/
def TailRun (FIN : Dev nD → sProp 𝕄) : Prop :=
  ∀ (d : Dev nD) (g0 : (c : Dev nD) → Buf (Elt F) (o0Loc c)) (g1 : (c : Dev nD) → Buf (Elt F) (o1Loc c)) (Q : PUnit → sProp 𝕄),
    iprop((iprop(FIN d ∗ ∃ W, owes (SparseCore.T d) (0 : CellTallies nD τ sig (HIx 2)) W) -∗ Q ⟨⟩)
        ∗ levAts (K (F := F)).L (K (F := F)).lev ∗ boundary (SparseCore.T d) ∗ held (SparseCore.T d) (Pipeline.ucRefs τ sig) (Wc m d (g0 d) (g1 d))
        ∗ (∃ r, prngReg d r) ∗ (∃ W, owes (SparseCore.T d) (0 : CellTallies nD τ sig (HIx 2)) W) ∗ G (F := F) d)
      ⊢ wp frame (wpE (D (F := F)) 𝒱 (SparseCore.T d) none) Set.univ (tailP (F := F)) Q

/-- What a call hands back for its SparseCores, in the split lemmas' spelling. -/
theorem dn0_eq (d : Dev nD) : (bigSep Finset.univ fun c : Fin ((K (F := F)).nCore 0) => (P m).dn 0 d c)
    = (bigSep Finset.univ fun c : Fin (grid0.bound 0) => bigSep Finset.univ fun s : Fin (grid0.bound 1) => tileRes0 m d (coordsV0 c s) : sProp 𝕄) := rfl
theorem dn1_eq (d : Dev nD) : (bigSep Finset.univ fun c : Fin ((K (F := F)).nCore 1) => (P m).dn 1 d c)
    = (bigSep Finset.univ fun c : Fin (grid1.bound 0) => bigSep Finset.univ fun s : Fin (grid1.bound 1) => tileRes1 m d (coordsV1 c s) : sProp 𝕄) := rfl

theorem hmain (hs0 : CallSplit0 m) (hs1 : CallSplit1 m) (FIN : Dev nD → sProp 𝕄) (ht : TailRun m FIN) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN d) := by
  unfold SparseCore.Cfg.tcRes
  rw [unscoped_held,
    StableHlo.held_sub_split (SparseCore.T d) T4_sub, held_T4, main_eq_tail]
  simp only [wp_bind]
  iintro ⟨#Hctx, Hst, ⟨Hb, ⟨⟨Hi, Hw, Ho0, Ho1⟩, Hrest⟩, -, Hp⟩, HG⟩
  ihave Hlev := ((K (F := F)).ctx_levAts κ) $$ Hctx
  -- the first call: the index and weight rows and the first result's blocks to the tiles and back
  ihave Hsp := (hs0 d) $$ [Hi Hw Ho0]
  · isplitl [Hi]; · iexact Hi
    isplitl [Hw]; · iexact Hw
    iexists _; iexact Ho0
  icases Hsp with ⟨Hst0, Hback0⟩
  iapply ((K (F := F)).wp_run (D (F := F)) 𝒱 (EH := EH) (P := P m) κ d 0) $$ [Hst Hst0 Hback0 Ho1 Hrest Hb Hp HG Hlev]
  isplitr; · iexact Hctx
  isplitl [Hst]; · iexact Hst
  isplitl [Hst0]; · iexact Hst0
  iintro ⟨Hst, Hdn⟩
  ihave Hdn' := (Entails.of_eq (dn0_eq m d)) $$ Hdn
  ihave Hbk := Hback0 $$ Hdn'
  icases Hbk with ⟨Hi, Hw, %f0, Ho0⟩
  -- the second call
  ihave Hsp := (hs1 d) $$ [Hi Hw Ho1]
  · isplitl [Hi]; · iexact Hi
    isplitl [Hw]; · iexact Hw
    iexists _; iexact Ho1
  icases Hsp with ⟨Hst1, Hback1⟩
  iapply ((K (F := F)).wp_run (D (F := F)) 𝒱 (EH := EH) (P := P m) κ d 1) $$ [Hst Hst1 Hback1 Ho0 Hrest Hb Hp HG Hlev]
  isplitr; · iexact Hctx
  isplitl [Hst]; · iexact Hst
  isplitl [Hst1]; · iexact Hst1
  iintro ⟨Hst, Hdn⟩
  ihave Hdn' := (Entails.of_eq (dn1_eq m d)) $$ Hdn
  ihave Hbk := Hback1 $$ Hdn'
  icases Hbk with ⟨Hi, Hw, %f1, Ho1⟩
  -- the tail: every unscoped array held at the contents the calls left
  unfold SparseCore.Cfg.tcSt
  icases Hst with ⟨⟨%W, -, HO⟩, Hat, Hrd, Hrs, Htk⟩
  rw [(K (F := F)).Otc_end d (le_refl 2)]
  iapply ((K (F := F)).wp_liftProg (D (F := F)) 𝒱 (SparseCore.T d) Set.univ none (tailP (F := F)) _)
  iapply (ht d (Function.update (fun c => m (o0Loc c)) d f0) (Function.update (fun c => m (o1Loc c)) d f1) _) $$ [Hi Hw Ho0 Ho1 Hrest Hb Hp HG Hlev HO Hat Hrd Hrs Htk]
  rw [Function.update_self, Function.update_self]
  isplitl [Hat Hrd Hrs Htk]
  · iintro ⟨Hfin, %W', HO⟩
    isplitr [Hfin]
    · isplitl [HO]
      · iexists W'; isplitr
        · ipureintro; exact wbelow_any _ _
        · iexact HO
      isplitl [Hat]; · iexact Hat
      isplitl [Hrd]; · iexact Hrd
      isplitl [Hrs]; · iexact Hrs
      iexact Htk
    · iexact Hfin
  isplitl [Hlev]; · iexact Hlev
  isplitl [Hb]; · iexact Hb
  isplitl [Hi Hw Ho0 Ho1 Hrest]
  · rw [StableHlo.held_sub_split (SparseCore.T d) T4_sub (Wc m d f0 f1), held_T4, Wc_i, Wc_w, Wc_o0, Wc_o1, ← StableHlo.held_congr (SparseCore.T d) (Wc_rest m d f0 f1)]
    isplitl [Hi Hw Ho0 Ho1]
    · isplitl [Hi]; · iexact Hi
      isplitl [Hw]; · iexact Hw
      isplitl [Ho0]; · iexact Ho0
      iexact Ho1
    · iexact Hrest
  isplitl [Hp]; · iexists _; iexact Hp
  isplitl [HO]; · iexists W; iexact HO
  iexact HG

/-! ## The tail's run, from the regions' segments -/

/-- What @main leaves: every unscoped array held at a valuation the certificate's reading accepts. -/
def FINof (good : Dev nD → Valuation τ sig (Elt F) → Prop) (d : Dev nD) : sProp 𝕄 :=
  iprop(∃ Wf : Valuation τ sig (Elt F), ⌜good d Wf⌝ ∗ held (SparseCore.T d) (Pipeline.ucRefs τ sig) Wf)

/-- The contents the tail is entered from, on every core. -/
abbrev Wt (g0 : (c : Dev nD) → Buf (Elt F) (o0Loc c)) (g1 : (c : Dev nD) → Buf (Elt F) (o1Loc c)) : Dev nD → Valuation τ sig (Elt F) :=
  fun c => Wc m c (g0 c) (g1 c)

set_option backward.isDefEq.respectTransparency.types false in
/-- The tail is the run of its four segments (two host stretches, two regions), from the arrays as the calls left
    them to the arrays as the second region leaves them. -/
theorem tailRun [∀ e, Nonempty (Elt F e)] (good : Dev nD → Valuation τ sig (Elt F) → Prop)
    (hgood : ∀ d g0 g1, good d (WD (Wt m g0 g1) d)) : TailRun m (FINof good) := by
  intro d g0 g1 Q
  rw [tail_run (Wt m g0 g1)]
  refine BIBase.Entails.trans ?_ (Pipeline.wp_segs (pcfgs (F := F)) admTc (pdats (WA (Wt m g0 g1)) (WC (Wt m g0 g1))) (none : HIx 2) cellOf_inj (EP (F := F)) defs₀ 𝒱₀ Lv lv d
    (Q := Q) (segs (Wt m g0 g1)) Finset.univ _ _ (by rw [segs_pipes]; decide) (fun p _ => Finset.mem_univ p) (segs_chains (Wt m g0 g1)))
  iintro ⟨HQ, Hlev, Hb, Hh, Hp, HO, HG⟩
  isplitl [HQ]
  · iintro ⟨-, Hh, -, HO⟩
    iapply HQ
    isplitl [Hh]
    · unfold FINof
      iexists _; isplitr
      · ipureintro; exact hgood d g0 g1
      · iexact Hh
    · iexact HO
  isplitl [Hb]; · iexact Hb
  isplitl [Hh Hp HO]
  · isplitl [Hh]; · iexact Hh
    isplitl [Hp]; · iexact Hp
    iexact HO
  isplitl [Hlev]; · iexact Hlev
  iexact HG

/-! ## Reading the claim off the final memory -/

/-- The final memory holds, at every unscoped array, what some accepted valuation says. -/
def fq (good : Dev nD → Valuation τ sig (Elt F) → Prop) (d : Dev nD) (s' : Phys nD τ sig (Elt F)) : Prop :=
  ∃ Wf, good d Wf ∧ ∀ b ∈ Pipeline.ucRefs τ sig, s'.mem.mem ((d, b) : Loc nD τ sig) = Wf b

theorem hfin [∀ e, Nonempty (Elt F e)] (good : Dev nD → Valuation τ sig (Elt F) → Prop) (d : Dev nD) (s' : Phys nD τ sig (Elt F)) :
    iprop(FINof good d ∗ SI s') ⊢ (⌜fq good d s'⌝ : sProp 𝕄) := by
  unfold FINof
  iintro ⟨⟨%Wf, %hg, Hh⟩, HSI⟩
  unfold StableHlo.held
  ihave H := (pointsTo_read_all (Pipeline.ucRefs τ sig) (fun b => ((d, b) : Loc nD τ sig)) Wf s') $$ [Hh HSI]
  · isplitl [Hh] <;> iassumption
  icases H with ⟨%h, -⟩
  ipureintro; exact ⟨Wf, hg, h⟩

/-! ## The program's run -/

theorem run_main [∀ e, Nonempty (Elt F e)] (hb0 : TileBody0 (F := F)) (hb1 : TileBody1 (F := F)) (hpre : PreOK m)
    (hs0 : CallSplit0 m) (hs1 : CallSplit1 m)
    (good : Dev nD → Valuation τ sig (Elt F) → Prop) (hgood : ∀ d g0 g1, good d (WD (Wt m g0 g1) d))
    (Q' : PUnit × MemSt nD τ sig (Elt F) → Prop) (hQ : ∀ s' : Phys nD τ sig (Elt F), (∀ d, fq good d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hb0 hpre | 1 => tileObl1 m hb1 hpre)
    (fun q _ => SparseCore.Cfg.VecSplit.of_plain (vecSplit m q))
    m ρ main (G (F := F)) (FINof good) (u₀ (F := F)) (sep_elim_left.trans (hu₀ m)) (hmain m ρ hs0 hs1 (FINof good) (tailRun m good hgood))
    (fq good) (hfin good) Q' hQ

end Cert.Proof.KB

end
-- ==== Proof.RowsKB.lean ====
/-
  The whole index, weight and result arrays split into the 32 tiles' pieces of one SparseCore call, with the way back.

  Each tile's piece of an array is a block of consecutive rows; distinct tiles' blocks are disjoint. So an array held
  whole splits into the tiles' blocks and a remainder that is kept aside, and the blocks handed back — the result's at
  whatever contents the tiles left — rejoin with the remainder into the array held whole.
-/
import proofs.«210207_g17016660427310_cont_sun_m_176_22_alg».proof.Proof.TilesKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) [FloatOps F]

/-! ## The tiles' pieces as rectangles, and their disjointness

Tile (c, s) of the first call holds rows [64 s + 32 c, 64 s + 32 c + 32) of the 2048-row arrays and the row blocks
[64 s + 32 c, + 16) and [64 s + 32 c + 16, + 16) of the 1024-row result; the second call's tiles the same rows plus 1024
of the 2048-row arrays, and the same blocks of the second result. With c below 2 and s below 16, the number 2 s + c
determines (c, s), so distinct tiles' rows are separated on axis 0. -/

section Sets

/-- A call's tiles: the SparseCore and the subcore. -/
abbrev Tile0 : Type := Fin (grid0.bound 0) × Fin (grid0.bound 1)
abbrev Tile1 : Type := Fin (grid1.bound 0) × Fin (grid1.bound 1)

theorem rowsI0_eq (L : grid0.Coords) : rowsI0 L = (rI0 L).set := by
  show ((View.whole (main_arg1_scv : Ref sig .scVector)).slice (rI0 L)).set = _
  exact View.set_slice_whole _ _
theorem rowsOa0_eq (L : grid0.Coords) : rowsOa0 L = (rOa0 L).set := by
  show ((View.whole (main_v0_scv : Ref sig .scVector)).slice (rOa0 L)).set = _
  exact View.set_slice_whole _ _
theorem rowsOb0_eq (L : grid0.Coords) : rowsOb0 L = (rOb0 L).set := by
  show ((View.whole (main_v0_scv : Ref sig .scVector)).slice (rOb0 L)).set = _
  exact View.set_slice_whole _ _
theorem rowsI1_eq (L : grid1.Coords) : rowsI1 L = (rI1 L).set := by
  show ((View.whole (main_arg1_scv : Ref sig .scVector)).slice (rI1 L)).set = _
  exact View.set_slice_whole _ _
theorem rowsOa1_eq (L : grid1.Coords) : rowsOa1 L = (rOa1 L).set := by
  show ((View.whole (main_v1_scv : Ref sig .scVector)).slice (rOa1 L)).set = _
  exact View.set_slice_whole _ _
theorem rowsOb1_eq (L : grid1.Coords) : rowsOb1 L = (rOb1 L).set := by
  show ((View.whole (main_v1_scv : Ref sig .scVector)).slice (rOb1 L)).set = _
  exact View.set_slice_whole _ _

/-- The arithmetic: with c, c' below 2, distinct (c, s) give row ranges [64 s + 32 c + z + k, + n) inside the tile's
    32 rows (k + n ≤ 32) that are separated, whatever the common shift z. -/
theorem rows_separated {c c' s s' : Nat} (z k k' n n' : Nat) (hc : c < 2) (hc' : c' < 2) (hne : c ≠ c' ∨ s ≠ s')
    (hk : k + n ≤ 32) (hk' : k' + n' ≤ 32) :
    64 * s + 32 * c + z + k + n ≤ 64 * s' + 32 * c' + z + k'
      ∨ 64 * s' + 32 * c' + z + k' + n' ≤ 64 * s + 32 * c + z + k := by
  omega

/-- Distinct tiles differ in the SparseCore or in the subcore. -/
theorem tile_ne {n0 n1 : Nat} {t t' : Fin n0 × Fin n1} (h : t ≠ t') : t.1.val ≠ t'.1.val ∨ t.2.val ≠ t'.2.val := by
  by_contra hn
  rw [not_or, not_not, not_not] at hn
  exact h (Prod.ext (Fin.ext hn.1) (Fin.ext hn.2))

/-! ### The first call -/

theorem disjI0 (t t' : Tile0) (h : t ≠ t') : Disjoint (rowsI0 (coordsV0 t.1 t.2)) (rowsI0 (coordsV0 t'.1 t'.2)) := by
  rw [rowsI0_eq, rowsI0_eq]
  refine Rect.unit_disjoint 0 ?_
  rw [k0_off1_eq, k0_off1_eq]
  exact rows_separated 0 0 0 32 32 t.1.isLt t'.1.isLt (tile_ne h) (by omega) (by omega)

/-- The second block's offset in closed form. -/
theorem off35_0 (L : grid0.Coords) :
    k0_off35 L 16#32 = ![64 * (L 1).val + 32 * (L 0).val + 16 * (1 : Fin 2).val, 0] := k0_off35_eq L 1

theorem disjAB0 (L : grid0.Coords) : Disjoint (rowsOa0 L) (rowsOb0 L) := by
  rw [rowsOa0_eq, rowsOb0_eq]
  refine Rect.unit_disjoint 0 (Or.inl ?_)
  rw [k0_off34_eq, off35_0]
  exact le_refl (64 * (L 1).val + 32 * (L 0).val + 16)

theorem disjO0 (t t' : Tile0) (h : t ≠ t') :
    Disjoint (rowsOa0 (coordsV0 t.1 t.2) ∪ rowsOb0 (coordsV0 t.1 t.2))
      (rowsOa0 (coordsV0 t'.1 t'.2) ∪ rowsOb0 (coordsV0 t'.1 t'.2)) := by
  have hne := tile_ne h
  rw [Finset.disjoint_union_left, Finset.disjoint_union_right, Finset.disjoint_union_right,
    rowsOa0_eq, rowsOa0_eq, rowsOb0_eq, rowsOb0_eq]
  refine ⟨⟨Rect.unit_disjoint 0 ?_, Rect.unit_disjoint 0 ?_⟩, ⟨Rect.unit_disjoint 0 ?_, Rect.unit_disjoint 0 ?_⟩⟩
  · rw [k0_off34_eq, k0_off34_eq]
    exact rows_separated 0 0 0 16 16 t.1.isLt t'.1.isLt hne (by omega) (by omega)
  · rw [k0_off34_eq, off35_0]
    exact rows_separated 0 0 16 16 16 t.1.isLt t'.1.isLt hne (by omega) (by omega)
  · rw [off35_0, k0_off34_eq]
    exact rows_separated 0 16 0 16 16 t.1.isLt t'.1.isLt hne (by omega) (by omega)
  · rw [off35_0, off35_0]
    exact rows_separated 0 16 16 16 16 t.1.isLt t'.1.isLt hne (by omega) (by omega)

/-! ### The second call -/

theorem disjI1 (t t' : Tile1) (h : t ≠ t') : Disjoint (rowsI1 (coordsV1 t.1 t.2)) (rowsI1 (coordsV1 t'.1 t'.2)) := by
  rw [rowsI1_eq, rowsI1_eq]
  refine Rect.unit_disjoint 0 ?_
  rw [k1_off1_eq, k1_off1_eq]
  exact rows_separated 1024 0 0 32 32 t.1.isLt t'.1.isLt (tile_ne h) (by omega) (by omega)

theorem off35_1 (L : grid1.Coords) :
    k1_off35 L 16#32 = ![64 * (L 1).val + 32 * (L 0).val + 16 * (1 : Fin 2).val, 0] := k1_off35_eq L 1

theorem disjAB1 (L : grid1.Coords) : Disjoint (rowsOa1 L) (rowsOb1 L) := by
  rw [rowsOa1_eq, rowsOb1_eq]
  refine Rect.unit_disjoint 0 (Or.inl ?_)
  rw [k1_off34_eq, off35_1]
  exact le_refl (64 * (L 1).val + 32 * (L 0).val + 16)

theorem disjO1 (t t' : Tile1) (h : t ≠ t') :
    Disjoint (rowsOa1 (coordsV1 t.1 t.2) ∪ rowsOb1 (coordsV1 t.1 t.2))
      (rowsOa1 (coordsV1 t'.1 t'.2) ∪ rowsOb1 (coordsV1 t'.1 t'.2)) := by
  have hne := tile_ne h
  rw [Finset.disjoint_union_left, Finset.disjoint_union_right, Finset.disjoint_union_right,
    rowsOa1_eq, rowsOa1_eq, rowsOb1_eq, rowsOb1_eq]
  refine ⟨⟨Rect.unit_disjoint 0 ?_, Rect.unit_disjoint 0 ?_⟩, ⟨Rect.unit_disjoint 0 ?_, Rect.unit_disjoint 0 ?_⟩⟩
  · rw [k1_off34_eq, k1_off34_eq]
    exact rows_separated 0 0 0 16 16 t.1.isLt t'.1.isLt hne (by omega) (by omega)
  · rw [k1_off34_eq, off35_1]
    exact rows_separated 0 0 16 16 16 t.1.isLt t'.1.isLt hne (by omega) (by omega)
  · rw [off35_1, k1_off34_eq]
    exact rows_separated 0 16 0 16 16 t.1.isLt t'.1.isLt hne (by omega) (by omega)
  · rw [off35_1, off35_1]
    exact rows_separated 0 16 16 16 16 t.1.isLt t'.1.isLt hne (by omega) (by omega)

end Sets

/-! ## Carving the tiles' pieces out of the whole arrays, and putting them back

Stated once for any finite family of tiles: two arrays held whole at given contents and a third held whole at some
contents split into the tiles' pieces — the first two at the same contents, the third's two pieces per tile at some
contents — and what the pieces do not cover stays aside; given the pieces back (the third's at any contents), the whole
arrays are back, the third at some contents. Nothing is assumed about the pieces covering an array. -/

section Generic
variable {T : Type} [Fintype T] [DecidableEq T]

omit [FloatOps F] in
/-- One tile's two pieces of the third array, held at any contents, are their union held at some contents. -/
theorem pieces_join (ℓo : Loc nD τ sig) (A B : Finset (Idx ℓo)) (hAB : Disjoint A B) :
    iprop((∃ fa, ℓo ↦[A]{fullShare} fa) ∗ (∃ fb, ℓo ↦[B]{fullShare} fb))
      ⊢ (iprop(∃ h, ℓo ↦[A ∪ B]{fullShare} h) : sProp 𝕄) := by
  iintro ⟨⟨%fa, Ha⟩, ⟨%fb, Hb⟩⟩
  iexists (B.piecewise fb fa)
  iapply (pointsTo_join hAB)
  isplitl [Ha]
  · iexact Ha
  · iexact Hb

omit [FloatOps F] in
/-- The union of all tiles' pieces of the third array, at contents f, as the tiles' pieces at some contents. -/
theorem third_split (ℓo : Loc nD τ sig) (f : Buf (Elt F) ℓo) (KA KB : T → Finset (Idx ℓo))
    (hO : ∀ t ∈ (Finset.univ : Finset T), ∀ t' ∈ (Finset.univ : Finset T), t ≠ t' → Disjoint (KA t ∪ KB t) (KA t' ∪ KB t'))
    (hAB : ∀ t, Disjoint (KA t) (KB t)) :
    (ℓo ↦[Finset.univ.biUnion fun t => KA t ∪ KB t]{fullShare} f : sProp 𝕄)
      ⊢ iprop((bigSep Finset.univ fun t : T => iprop(∃ fa, ℓo ↦[KA t]{fullShare} fa))
          ∗ (bigSep Finset.univ fun t : T => iprop(∃ fb, ℓo ↦[KB t]{fullShare} fb))) := by
  rw [pointsTo_biUnion Finset.univ (fun t => KA t ∪ KB t) hO, ← bigSep_sep']
  refine bigSep_mono fun t _ => ?_
  refine ((pointsTo_union (hAB t)).1).trans ?_
  iintro ⟨Ha, Hb⟩
  isplitl [Ha]
  · iexists f; iexact Ha
  · iexists f; iexact Hb

omit [FloatOps F] in
/-- The tiles' pieces of the third array, at any contents, are the union of them all at some contents. -/
theorem third_join (ℓo : Loc nD τ sig) (f₀ : Buf (Elt F) ℓo) (KA KB : T → Finset (Idx ℓo))
    (hO : ∀ t ∈ (Finset.univ : Finset T), ∀ t' ∈ (Finset.univ : Finset T), t ≠ t' → Disjoint (KA t ∪ KB t) (KA t' ∪ KB t'))
    (hAB : ∀ t, Disjoint (KA t) (KB t)) :
    iprop((bigSep Finset.univ fun t : T => iprop(∃ fa, ℓo ↦[KA t]{fullShare} fa))
        ∗ (bigSep Finset.univ fun t : T => iprop(∃ fb, ℓo ↦[KB t]{fullShare} fb)))
      ⊢ (iprop(∃ g, ℓo ↦[Finset.univ.biUnion fun t => KA t ∪ KB t]{fullShare} g) : sProp 𝕄) := by
  have : Nonempty (Buf (Elt F) ℓo) := ⟨f₀⟩
  rw [← bigSep_sep']
  refine (bigSep_mono fun t _ => pieces_join ℓo (KA t) (KB t) (hAB t)).trans ?_
  refine (bigSep_exists_pi Finset.univ (fun t (h : Buf (Elt F) ℓo) => (ℓo ↦[KA t ∪ KB t]{fullShare} h : sProp 𝕄))).trans ?_
  iintro ⟨%hs, H⟩
  ihave H' := (pointsTo_biUnion_join Finset.univ (fun t => KA t ∪ KB t) hs f₀ hO) $$ H
  icases H' with ⟨%g, -, Hg⟩
  iexists g; iexact Hg

omit [FloatOps F] in
/-- THE SPLIT, for any finite family of tiles. -/
theorem split_tiles (ℓi ℓw ℓo : Loc nD τ sig) (fi : Buf (Elt F) ℓi) (fw : Buf (Elt F) ℓw)
    (KI : T → Finset (Idx ℓi)) (KW : T → Finset (Idx ℓw)) (KA KB : T → Finset (Idx ℓo))
    (hI : ∀ t ∈ (Finset.univ : Finset T), ∀ t' ∈ (Finset.univ : Finset T), t ≠ t' → Disjoint (KI t) (KI t'))
    (hW : ∀ t ∈ (Finset.univ : Finset T), ∀ t' ∈ (Finset.univ : Finset T), t ≠ t' → Disjoint (KW t) (KW t'))
    (hO : ∀ t ∈ (Finset.univ : Finset T), ∀ t' ∈ (Finset.univ : Finset T), t ≠ t' → Disjoint (KA t ∪ KB t) (KA t' ∪ KB t'))
    (hAB : ∀ t, Disjoint (KA t) (KB t)) :
    iprop((ℓi ↦{fullShare} fi) ∗ (ℓw ↦{fullShare} fw) ∗ (∃ f, ℓo ↦{fullShare} f)) ⊢
      (iprop((bigSep Finset.univ fun t : T => iprop((ℓi ↦[KI t]{fullShare} fi) ∗ (ℓw ↦[KW t]{fullShare} fw)
              ∗ (∃ fa, ℓo ↦[KA t]{fullShare} fa) ∗ (∃ fb, ℓo ↦[KB t]{fullShare} fb)))
          ∗ ((bigSep Finset.univ fun t : T => iprop((ℓi ↦[KI t]{fullShare} fi) ∗ (ℓw ↦[KW t]{fullShare} fw)
              ∗ (∃ fa, ℓo ↦[KA t]{fullShare} fa) ∗ (∃ fb, ℓo ↦[KB t]{fullShare} fb)))
            -∗ iprop((ℓi ↦{fullShare} fi) ∗ (ℓw ↦{fullShare} fw) ∗ (∃ f, ℓo ↦{fullShare} f)))) : sProp 𝕄) := by
  rw [bigSep_sep', bigSep_sep', bigSep_sep', ← pointsTo_biUnion Finset.univ KI hI, ← pointsTo_biUnion Finset.univ KW hW]
  iintro ⟨Hi, Hw, ⟨%f, Ho⟩⟩
  ihave Hi2 := (pointsTo_split_subset (Finset.subset_univ (Finset.univ.biUnion KI))).1 $$ Hi
  icases Hi2 with ⟨HiU, HiR⟩
  ihave Hw2 := (pointsTo_split_subset (Finset.subset_univ (Finset.univ.biUnion KW))).1 $$ Hw
  icases Hw2 with ⟨HwU, HwR⟩
  ihave Ho2 := (pointsTo_split_subset (Finset.subset_univ (Finset.univ.biUnion fun t => KA t ∪ KB t))).1 $$ Ho
  icases Ho2 with ⟨HoU, HoR⟩
  ihave Ho3 := (third_split ℓo f KA KB hO hAB) $$ HoU
  icases Ho3 with ⟨HoA, HoB⟩
  isplitl [HiU HwU HoA HoB]
  · isplitl [HiU]
    · iexact HiU
    isplitl [HwU]
    · iexact HwU
    isplitl [HoA]
    · iexact HoA
    · iexact HoB
  iintro ⟨HiU, HwU, HoA, HoB⟩
  isplitl [HiU HiR]
  · iapply (pointsTo_split_subset (Finset.subset_univ (Finset.univ.biUnion KI))).2
    isplitl [HiU]
    · iexact HiU
    · iexact HiR
  isplitl [HwU HwR]
  · iapply (pointsTo_split_subset (Finset.subset_univ (Finset.univ.biUnion KW))).2
    isplitl [HwU]
    · iexact HwU
    · iexact HwR
  ihave HoU := (third_join ℓo f KA KB hO hAB) $$ [HoA HoB]
  · isplitl [HoA]
    · iexact HoA
    · iexact HoB
  icases HoU with ⟨%g, HoU⟩
  iexists ((Finset.univ.biUnion fun t => KA t ∪ KB t).piecewise g f)
  iapply (pointsTo_join_subset (Finset.subset_univ (Finset.univ.biUnion fun t => KA t ∪ KB t)))
  isplitl [HoU]
  · iexact HoU
  · iexact HoR

end Generic

/-! ## The two calls -/

/-- The first call: the index and weight arrays and the first result split into the 32 tiles' pieces, with the way
    back. -/
theorem call0_split (d : Dev nD) :
    iprop((iLoc d ↦{fullShare} m (iLoc d)) ∗ (wLoc d ↦{fullShare} m (wLoc d)) ∗ (∃ f, o0Loc d ↦{fullShare} f)) ⊢
      (iprop((bigSep Finset.univ fun c : Fin (grid0.bound 0) => bigSep Finset.univ fun s : Fin (grid0.bound 1) =>
            tileRes0 m d (coordsV0 c s))
          ∗ ((bigSep Finset.univ fun c : Fin (grid0.bound 0) => bigSep Finset.univ fun s : Fin (grid0.bound 1) =>
              tileRes0 m d (coordsV0 c s))
            -∗ iprop((iLoc d ↦{fullShare} m (iLoc d)) ∗ (wLoc d ↦{fullShare} m (wLoc d))
                ∗ (∃ f, o0Loc d ↦{fullShare} f)))) : sProp 𝕄) := by
  have e : (bigSep Finset.univ fun c : Fin (grid0.bound 0) => bigSep Finset.univ fun s : Fin (grid0.bound 1) =>
        tileRes0 m d (coordsV0 c s))
      = bigSep Finset.univ fun t : Tile0 => tileRes0 m d (coordsV0 t.1 t.2) :=
    (bigSep_univ_prod (fun t : Tile0 => tileRes0 m d (coordsV0 t.1 t.2))).symm
  rw [e]
  exact split_tiles (T := Tile0) (iLoc d) (wLoc d) (o0Loc d) (m (iLoc d)) (m (wLoc d))
    (fun t => rowsI0 (coordsV0 t.1 t.2)) (fun t => rowsI0 (coordsV0 t.1 t.2))
    (fun t => rowsOa0 (coordsV0 t.1 t.2)) (fun t => rowsOb0 (coordsV0 t.1 t.2))
    (fun t _ t' _ h => disjI0 t t' h) (fun t _ t' _ h => disjI0 t t' h) (fun t _ t' _ h => disjO0 t t' h)
    (fun t => disjAB0 (coordsV0 t.1 t.2))

/-- The second call: the same over the second result. -/
theorem call1_split (d : Dev nD) :
    iprop((iLoc d ↦{fullShare} m (iLoc d)) ∗ (wLoc d ↦{fullShare} m (wLoc d)) ∗ (∃ f, o1Loc d ↦{fullShare} f)) ⊢
      (iprop((bigSep Finset.univ fun c : Fin (grid1.bound 0) => bigSep Finset.univ fun s : Fin (grid1.bound 1) =>
            tileRes1 m d (coordsV1 c s))
          ∗ ((bigSep Finset.univ fun c : Fin (grid1.bound 0) => bigSep Finset.univ fun s : Fin (grid1.bound 1) =>
              tileRes1 m d (coordsV1 c s))
            -∗ iprop((iLoc d ↦{fullShare} m (iLoc d)) ∗ (wLoc d ↦{fullShare} m (wLoc d))
                ∗ (∃ f, o1Loc d ↦{fullShare} f)))) : sProp 𝕄) := by
  have e : (bigSep Finset.univ fun c : Fin (grid1.bound 0) => bigSep Finset.univ fun s : Fin (grid1.bound 1) =>
        tileRes1 m d (coordsV1 c s))
      = bigSep Finset.univ fun t : Tile1 => tileRes1 m d (coordsV1 t.1 t.2) :=
    (bigSep_univ_prod (fun t : Tile1 => tileRes1 m d (coordsV1 t.1 t.2))).symm
  rw [e]
  exact split_tiles (T := Tile1) (iLoc d) (wLoc d) (o1Loc d) (m (iLoc d)) (m (wLoc d))
    (fun t => rowsI1 (coordsV1 t.1 t.2)) (fun t => rowsI1 (coordsV1 t.1 t.2))
    (fun t => rowsOa1 (coordsV1 t.1 t.2)) (fun t => rowsOb1 (coordsV1 t.1 t.2))
    (fun t _ t' _ h => disjI1 t t' h) (fun t _ t' _ h => disjI1 t t' h) (fun t _ t' _ h => disjO1 t t' h)
    (fun t => disjAB1 (coordsV1 t.1 t.2))

end Cert.Proof.KB

end
-- ==== Proof.TileBody0KB.lean ====
/-
  One vector subcore's task of the first scatter kernel, run once at a symbolic place of the call's grid
  (SparseCore `L 0`, vector subcore `L 1`), in FRAME form: from its 32 rows of the index array and of the
  weight array (read only), its two 16-row blocks of the call's result, its four scratch buffers and its four
  DMA semaphores at zero, the task runs to its end without fault and hands every one of them back — the
  result's blocks and the scratches at some contents, the semaphores at zero again, the argument rows
  unchanged. The task copies its rows of indices and weights into two scratches (two copies, each awaited at
  once), fills the two 16 × 2048 accumulators with zeros (32 counted loops of 16 trips, each trip eight stores
  of a zero vector), adds into the accumulators at the positions the indices name (64 indexed stores with
  accumulation, each preceded by the range check of its index vectors), and copies each accumulator to its
  block of the result, the two copies on semaphores of their own and both awaited at the end; no accumulator
  is touched between the start of its copy and the wait. The one fact about data the task needs: every index
  word it copies in is below 2048 (the accumulators' width), which with the row vector a constant below 16
  makes each range check true.
-/
import proofs.«210207_g17016660427310_cont_sun_m_176_22_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile0

/-! ## The task's own semaphores and buffers, among the subcore's scoped ones -/

variable (d : Dev nD) (L : grid0.Coords)

/-- The tile's four scratch buffers, as the body table passes them. -/
abbrev sA0 : Memref sig .scVector .vmem S16x2048 .f32 := Memref.whole cc0_scratch0
abbrev sB0 : Memref sig .scVector .vmem S16x2048 .f32 := Memref.whole cc0_scratch1
abbrev sI0 : Memref sig .scVector .vmem S32x32 .i32 := Memref.whole cc0_scratch2
abbrev sW0 : Memref sig .scVector .vmem S32x32 .f32 := Memref.whole cc0_scratch3

/-- A DMA semaphore of the tile, as a cell. -/
abbrev cell0 (sm : DmaSem sig) : GSem nD τ sig := (V d (cV L) (jV L), SemLoc.dma sm)

theorem cell0_ne {a b : DmaSem sig} (h : a ≠ b) : cell0 d L a ≠ cell0 d L b :=
  fun e => h (SemLoc.dma.inj (Prod.mk.inj e).2)

theorem cell0_mem (a : DmaSem sig) (h : (SemLoc.dma a : SemLoc sig).isScoped .scVector = true) :
    cell0 d L a ∈ ownCells (V d (cV L) (jV L)) := (mem_ownCells (g := cell0 d L a)).mpr ⟨rfl, h⟩

theorem ownSems0_V0 :
    (ownSems0 (V d (cV L) (jV L)) : sProp 𝕄)
      = iprop(semVal (cell0 d L cc0_scratch4.sem) 0 ∗ semVal (cell0 d L cc0_scratch5.sem) 0
          ∗ semVal (cell0 d L cc0_scoped0.sem) 0 ∗ semVal (cell0 d L cc0_scoped1.sem) 0
          ∗ bigSep (((((ownCells (V d (cV L) (jV L))).erase (cell0 d L cc0_scratch4.sem)).erase (cell0 d L cc0_scratch5.sem)).erase
              (cell0 d L cc0_scoped0.sem)).erase (cell0 d L cc0_scoped1.sem)) fun g => semVal g 0) := by
  unfold SparseCore.Cfg.ownSems0
  rw [SparseCore.bigSep_erase' (cell0_mem d L cc0_scratch4.sem (by decide)),
    SparseCore.bigSep_erase' (Finset.mem_erase.mpr ⟨cell0_ne d L (by decide), cell0_mem d L cc0_scratch5.sem (by decide)⟩),
    SparseCore.bigSep_erase' (Finset.mem_erase.mpr ⟨cell0_ne d L (by decide), Finset.mem_erase.mpr ⟨cell0_ne d L (by decide),
      cell0_mem d L cc0_scoped0.sem (by decide)⟩⟩),
    SparseCore.bigSep_erase' (Finset.mem_erase.mpr ⟨cell0_ne d L (by decide), Finset.mem_erase.mpr ⟨cell0_ne d L (by decide),
      Finset.mem_erase.mpr ⟨cell0_ne d L (by decide), cell0_mem d L cc0_scoped1.sem (by decide)⟩⟩⟩)]

abbrev bref0 (b : Ref sig .scVector) : DevRef τ sig := (Proc.scVector (cV L) (jV L)).devRef b

theorem bref0_ne {a b : Ref sig .scVector} (h : a ≠ b) : bref0 L a ≠ bref0 L b :=
  fun e => h (Proc.devRef_injective _ e)

theorem bref0_mem (b : Ref sig .scVector) (h : (bref0 L b).owner = .proc (Proc.scVector (cV L) (jV L))) :
    bref0 L b ∈ ownRefs (τ := τ) (.scVector (cV L) (jV L)) := SparseCore.Cfg.mem_ownRefs_of_owner h

theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bref0 L cc0_scratch0)).erase (bref0 L cc0_scratch1)).erase
              (bref0 L cc0_scratch2)).erase (bref0 L cc0_scratch3))
              fun b => iprop(∃ f, ((d, b) : Loc nD τ sig) ↦{fullShare} f)) := by
  unfold SparseCore.Cfg.ownBufs
  refine (SparseCore.bigSep_erase' (bref0_mem L cc0_scratch0 rfl)).trans ?_
  rw [SparseCore.bigSep_erase' (Finset.mem_erase.mpr ⟨bref0_ne L (by decide), bref0_mem L cc0_scratch1 rfl⟩),
    SparseCore.bigSep_erase' (Finset.mem_erase.mpr ⟨bref0_ne L (by decide), Finset.mem_erase.mpr ⟨bref0_ne L (by decide),
      bref0_mem L cc0_scratch2 rfl⟩⟩),
    SparseCore.bigSep_erase' (Finset.mem_erase.mpr ⟨bref0_ne L (by decide), Finset.mem_erase.mpr ⟨bref0_ne L (by decide),
      Finset.mem_erase.mpr ⟨bref0_ne L (by decide), bref0_mem L cc0_scratch3 rfl⟩⟩⟩)]

/-! ## The arrays and scratches as the task's memrefs address them -/

variable [FloatOps F]

theorem pts_i0 (f : Buf (Elt F) (iLoc d)) :
    (((iV.slice (rI0 L) (fun _ => rfl)).view).loc (V d (cV L) (jV L)) ↦[((iV.slice (rI0 L) (fun _ => rfl)).view).set]{fullShare} f : sProp 𝕄)
      = iLoc d ↦[rowsI0 L]{fullShare} f := rfl
theorem pts_w0 (f : Buf (Elt F) (wLoc d)) :
    (((wV.slice (rI0 L) (fun _ => rfl)).view).loc (V d (cV L) (jV L)) ↦[((wV.slice (rI0 L) (fun _ => rfl)).view).set]{fullShare} f : sProp 𝕄)
      = wLoc d ↦[rowsI0 L]{fullShare} f := rfl
theorem pts_oa0 (f : Buf (Elt F) (o0Loc d)) :
    (((o0V.slice (rOa0 L) (fun _ => rfl)).view).loc (V d (cV L) (jV L)) ↦[((o0V.slice (rOa0 L) (fun _ => rfl)).view).set]{fullShare} f : sProp 𝕄)
      = o0Loc d ↦[rowsOa0 L]{fullShare} f := rfl
theorem pts_ob0 (f : Buf (Elt F) (o0Loc d)) :
    (((o0V.slice (rOb0 L) (fun _ => rfl)).view).loc (V d (cV L) (jV L)) ↦[((o0V.slice (rOb0 L) (fun _ => rfl)).view).set]{fullShare} f : sProp 𝕄)
      = o0Loc d ↦[rowsOb0 L]{fullShare} f := rfl
theorem pts_sA0 (f : Buf (Elt F) ((V d (cV L) (jV L)).loc cc0_scratch0)) :
    ((sA0).view.loc (V d (cV L) (jV L)) ↦{fullShare} f : sProp 𝕄) = (V d (cV L) (jV L)).loc cc0_scratch0 ↦{fullShare} f := rfl
theorem pts_sB0 (f : Buf (Elt F) ((V d (cV L) (jV L)).loc cc0_scratch1)) :
    ((sB0).view.loc (V d (cV L) (jV L)) ↦{fullShare} f : sProp 𝕄) = (V d (cV L) (jV L)).loc cc0_scratch1 ↦{fullShare} f := rfl
theorem pts_sI0 (f : Buf (Elt F) ((V d (cV L) (jV L)).loc cc0_scratch2)) :
    ((sI0).view.loc (V d (cV L) (jV L)) ↦{fullShare} f : sProp 𝕄) = (V d (cV L) (jV L)).loc cc0_scratch2 ↦{fullShare} f := rfl
theorem pts_sW0 (f : Buf (Elt F) ((V d (cV L) (jV L)).loc cc0_scratch3)) :
    ((sW0).view.loc (V d (cV L) (jV L)) ↦{fullShare} f : sProp 𝕄) = (V d (cV L) (jV L)).loc cc0_scratch3 ↦{fullShare} f := rfl

/-! ## The zero-filling loops -/

/-- A zero-filling loop's invariant: the scratch it fills, whole, at some contents. -/
def invZ (m : Memref sig .scVector .vmem S16x2048 .f32) (_ : Nat) (_ : PUnit) : sProp 𝕄 :=
  iprop(∃ f, m.view.loc (V d (cV L) (jV L)) ↦{fullShare} f)

set_option hygiene false in
macro "zero_loopA" : tactic => `(tactic| (
  sl_for (invZ (F := F) d L sA0) $$ [Hs0']
  case region =>
    intro k _
    unfold invZ
    iintro ⟨%f, H⟩
    sl_exec
    sl_step
    iexists _; iexact H
  · unfold invZ; iexists _; iexact Hs0'
  iintro %_ HI
  unfold invZ
  icases HI with ⟨%fz, Hs0'⟩))

set_option hygiene false in
macro "zero_loopB" : tactic => `(tactic| (
  sl_for (invZ (F := F) d L sB0) $$ [Hs1']
  case region =>
    intro k _
    unfold invZ
    iintro ⟨%f, H⟩
    sl_exec
    sl_step
    iexists _; iexact H
  · unfold invZ; iexists _; iexact Hs1'
  iintro %_ HI
  unfold invZ
  icases HI with ⟨%fz, Hs1'⟩))

/-! ## The indexed stores and their range checks -/

theorem pts_sA0_whole (f : Buf (Elt F) ((V d (cV L) (jV L)).loc cc0_scratch0)) :
    (((sA0).access (.whole S16x2048)).loc (V d (cV L) (jV L)) ↦[((sA0).access (.whole S16x2048)).set]{fullShare} f : sProp 𝕄)
      = ((sA0).view.loc (V d (cV L) (jV L)) ↦{fullShare} f) := by
  rw [show ((sA0 : Memref sig .scVector .vmem S16x2048 .f32).access (.whole S16x2048)).set = Finset.univ from Memref.set_access_whole (cc0_scratch0 : Ref sig .scVector)]
theorem pts_sB0_whole (f : Buf (Elt F) ((V d (cV L) (jV L)).loc cc0_scratch1)) :
    (((sB0).access (.whole S16x2048)).loc (V d (cV L) (jV L)) ↦[((sB0).access (.whole S16x2048)).set]{fullShare} f : sProp 𝕄)
      = ((sB0).view.loc (V d (cV L) (jV L)) ↦{fullShare} f) := by
  rw [show ((sB0 : Memref sig .scVector .vmem S16x2048 .f32).access (.whole S16x2048)).set = Finset.univ from Memref.set_access_whole (cc0_scratch1 : Ref sig .scVector)]

/-- A buffer held at known contents is held at some contents. -/
theorem forget_sA0 (f : Buf (Elt F) ((V d (cV L) (jV L)).loc cc0_scratch0)) :
    ((sA0).view.loc (V d (cV L) (jV L)) ↦{fullShare} f : sProp 𝕄) ⊢ ∃ g, (sA0).view.loc (V d (cV L) (jV L)) ↦{fullShare} g := by
  iintro H; iexists _; iexact H
theorem forget_sB0 (f : Buf (Elt F) ((V d (cV L) (jV L)).loc cc0_scratch1)) :
    ((sB0).view.loc (V d (cV L) (jV L)) ↦{fullShare} f : sProp 𝕄) ⊢ ∃ g, (sB0).view.loc (V d (cV L) (jV L)) ↦{fullShare} g := by
  iintro H; iexists _; iexact H

/-- An indexed store's range check: the row vector is a constant below 16 and every column word is below 2048. -/
theorem chk_ok (r : BitVec 32) (hr : r.toNat < 16) (v : IVec S16 32) (hv : ∀ x, (v x).toNat < 2048) :
    ∀ a x, ((![broadcast S16 r, v] : Fin 2 → IVec S16 32) a x).toNat < S16x2048.size a := by
  intro a x
  match a with
  | 0 => exact hr
  | 1 => exact hv x

/-- Every word the index scratch holds after the copy-in is below 2048, through whatever rectangle it is read. -/
theorem idx_lt (fi : Buf (Elt F) (iLoc d)) (hidx : ∀ x : S32x32.Idx, (fi (((iV.slice (rI0 L) (fun _ => rfl)).view).emb x)).toNat < 2048)
    (f2 : Buf (Elt F) ((V d (cV L) (jV L)).loc cc0_scratch2)) (R : LoadRect S32x32) (x : R.shape.Idx) :
    ((View.readAt (Elt F) sI0.view R (View.write (Elt F) sI0.view f2
      (ReadAs.same.apply (View.read (Elt F) (iV.slice (rI0 L) (fun _ => rfl)).view fi)) Finset.univ)) x).toNat < 2048 := by
  rw [View.readAt_apply, View.read_write_univ]
  exact hidx _

set_option hygiene false in
macro "store_idxA" : tactic => `(tactic| (
  ihave Hc := (Entails.of_eq (pts_sA0_whole (F := F) d L _).symm) $$ Hs0'
  iapply (SparseCore.wp_vectorStoreIdx 𝒱₀ (V d (cV L) (jV L)) none Set.univ (base := sA0)) $$ Hc
  iintro Hc
  ihave Hc2 := (Entails.of_eq (pts_sA0_whole (F := F) d L _)) $$ Hc
  ihave Hc3 := (forget_sA0 (F := F) d L _) $$ Hc2
  icases Hc3 with ⟨%fz, Hs0'⟩))

set_option hygiene false in
macro "store_idxB" : tactic => `(tactic| (
  ihave Hc := (Entails.of_eq (pts_sB0_whole (F := F) d L _).symm) $$ Hs1'
  iapply (SparseCore.wp_vectorStoreIdx 𝒱₀ (V d (cV L) (jV L)) none Set.univ (base := sB0)) $$ Hc
  iintro Hc
  ihave Hc2 := (Entails.of_eq (pts_sB0_whole (F := F) d L _)) $$ Hc
  ihave Hc3 := (forget_sB0 (F := F) d L _) $$ Hc2
  icases Hc3 with ⟨%fz, Hs1'⟩))

/-! ## The task -/

set_option maxHeartbeats 400000000 in
/-- The task's run, in frame form: every resource it is handed comes back, the argument rows unchanged, the waits
    it made recorded at the index of no call. -/
theorem tile_body0 (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI0 L) (fun _ => rfl)).view).emb x)).toNat < 2048) :
    (iprop(levAts (K (F := F)).L (K (F := F)).lev
        ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            sA0 (Memref.isWhole_whole _) sB0 (Memref.isWhole_whole _) sI0 (Memref.isWhole_whole _) sW0 (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, o0Loc d ↦[rowsOa0 L]{fullShare} fa) ∗ (∃ fb, o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_body_eq_skeleton]; unfold cc0_body_skel
  rw [(K (F := F)).scopedBufs_V hF d (cV L) (jV L), SparseCore.Cfg.scopedSems0_V (Val := Elt F) d (cV L) (jV L), ownSems0_V0, ownBufs_V0]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV L) (jV L)) hO) $$ Hlv
  ihave Hi' := (Entails.of_eq (pts_i0 (F := F) d L _).symm) $$ Hi
  ihave Hw' := (Entails.of_eq (pts_w0 (F := F) d L _).symm) $$ Hw
  ihave Hoa' := (Entails.of_eq (pts_oa0 (F := F) d L _).symm) $$ Hoa
  ihave Hob' := (Entails.of_eq (pts_ob0 (F := F) d L _).symm) $$ Hob
  ihave Hs0' := (Entails.of_eq (pts_sA0 (F := F) d L _).symm) $$ Hs0
  ihave Hs1' := (Entails.of_eq (pts_sB0 (F := F) d L _).symm) $$ Hs1
  ihave Hs2' := (Entails.of_eq (pts_sI0 (F := F) d L _).symm) $$ Hs2
  ihave Hs3' := (Entails.of_eq (pts_sW0 (F := F) d L _).symm) $$ Hs3
  sl_exec_parts
  have hgI : ∀ (R : LoadRect S32x32) (x : R.shape.Idx), ((View.readAt (Elt F) sI0.view R (View.write (Elt F) sI0.view f2
      (tile_body0.sl.dma0 d L fi) Finset.univ)) x).toNat < 2048 := fun R x => idx_lt (F := F) d L fi hidx f2 R x
  iterate 16 ((try sl_exec_parts); zero_loopA)
  iterate 16 ((try sl_exec_parts); zero_loopB)
  iterate 32 (sl_exec_parts (disch := exact chk_ok _ (by decide) _ (fun x => hgI _ _)); store_idxA)
  iterate 32 (sl_exec_parts (disch := exact chk_ok _ (by decide) _ (fun x => hgI _ _)); store_idxB)
  sl_exec_parts
  sl_step
  isplitl [Hi']; · iapply (Entails.of_eq (pts_i0 (F := F) d L _)); iexact Hi'
  isplitl [Hw']; · iapply (Entails.of_eq (pts_w0 (F := F) d L _)); iexact Hw'
  isplitl [Hoa']; · iexists _; iapply (Entails.of_eq (pts_oa0 (F := F) d L _)); iexact Hoa'
  isplitl [Hob']; · iexists _; iapply (Entails.of_eq (pts_ob0 (F := F) d L _)); iexact Hob'
  isplitl [Hs0' Hs1' Hs2' Hs3' Hbufs]
  · isplitl [Hs0']; · iexists _; iapply (Entails.of_eq (pts_sA0 (F := F) d L _)); iexact Hs0'
    isplitl [Hs1']; · iexists _; iapply (Entails.of_eq (pts_sB0 (F := F) d L _)); iexact Hs1'
    isplitl [Hs2']; · iexists _; iapply (Entails.of_eq (pts_sI0 (F := F) d L _)); iexact Hs2'
    isplitl [Hs3']; · iexists _; iapply (Entails.of_eq (pts_sW0 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile0
end Cert.Proof.KB
end
-- ==== Proof.TileBody1KB.lean ====
/-
  One vector subcore's task of the second scatter kernel (the rows of the index and weight arrays 1024 further down, the second call's result), run once at a symbolic place of the call's grid
  (SparseCore `L 0`, vector subcore `L 1`), in FRAME form: from its 32 rows of the index array and of the
  weight array (read only), its two 16-row blocks of the call's result, its four scratch buffers and its four
  DMA semaphores at zero, the task runs to its end without fault and hands every one of them back — the
  result's blocks and the scratches at some contents, the semaphores at zero again, the argument rows
  unchanged. The task copies its rows of indices and weights into two scratches (two copies, each awaited at
  once), fills the two 16 × 2048 accumulators with zeros (32 counted loops of 16 trips, each trip eight stores
  of a zero vector), adds into the accumulators at the positions the indices name (64 indexed stores with
  accumulation, each preceded by the range check of its index vectors), and copies each accumulator to its
  block of the result, the two copies on semaphores of their own and both awaited at the end; no accumulator
  is touched between the start of its copy and the wait. The one fact about data the task needs: every index
  word it copies in is below 2048 (the accumulators' width), which with the row vector a constant below 16
  makes each range check true.
-/
import proofs.«210207_g17016660427310_cont_sun_m_176_22_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile1

/-! ## The task's own semaphores and buffers, among the subcore's scoped ones -/

/-- The tile's place, as the two coordinates this call's body table passes the kernel. -/
abbrev cV1 (L : grid1.Coords) : Fin τ.nSC := (L 0).castLE hcore1
abbrev jV1 (L : grid1.Coords) : Fin τ.nSub := (L 1).castLE hsub1

variable (d : Dev nD) (L : grid1.Coords)

/-- The tile's four scratch buffers, as the body table passes them. -/
abbrev sA1 : Memref sig .scVector .vmem S16x2048 .f32 := Memref.whole cc1_scratch0
abbrev sB1 : Memref sig .scVector .vmem S16x2048 .f32 := Memref.whole cc1_scratch1
abbrev sI1 : Memref sig .scVector .vmem S32x32 .i32 := Memref.whole cc1_scratch2
abbrev sW1 : Memref sig .scVector .vmem S32x32 .f32 := Memref.whole cc1_scratch3

/-- A DMA semaphore of the tile, as a cell. -/
abbrev cell1 (sm : DmaSem sig) : GSem nD τ sig := (V d (cV1 L) (jV1 L), SemLoc.dma sm)

theorem cell1_ne {a b : DmaSem sig} (h : a ≠ b) : cell1 d L a ≠ cell1 d L b :=
  fun e => h (SemLoc.dma.inj (Prod.mk.inj e).2)

theorem cell1_mem (a : DmaSem sig) (h : (SemLoc.dma a : SemLoc sig).isScoped .scVector = true) :
    cell1 d L a ∈ ownCells (V d (cV1 L) (jV1 L)) := (mem_ownCells (g := cell1 d L a)).mpr ⟨rfl, h⟩

theorem ownSems0_V1 :
    (ownSems0 (V d (cV1 L) (jV1 L)) : sProp 𝕄)
      = iprop(semVal (cell1 d L cc1_scratch4.sem) 0 ∗ semVal (cell1 d L cc1_scratch5.sem) 0
          ∗ semVal (cell1 d L cc1_scoped0.sem) 0 ∗ semVal (cell1 d L cc1_scoped1.sem) 0
          ∗ bigSep (((((ownCells (V d (cV1 L) (jV1 L))).erase (cell1 d L cc1_scratch4.sem)).erase (cell1 d L cc1_scratch5.sem)).erase
              (cell1 d L cc1_scoped0.sem)).erase (cell1 d L cc1_scoped1.sem)) fun g => semVal g 0) := by
  unfold SparseCore.Cfg.ownSems0
  rw [SparseCore.bigSep_erase' (cell1_mem d L cc1_scratch4.sem (by decide)),
    SparseCore.bigSep_erase' (Finset.mem_erase.mpr ⟨cell1_ne d L (by decide), cell1_mem d L cc1_scratch5.sem (by decide)⟩),
    SparseCore.bigSep_erase' (Finset.mem_erase.mpr ⟨cell1_ne d L (by decide), Finset.mem_erase.mpr ⟨cell1_ne d L (by decide),
      cell1_mem d L cc1_scoped0.sem (by decide)⟩⟩),
    SparseCore.bigSep_erase' (Finset.mem_erase.mpr ⟨cell1_ne d L (by decide), Finset.mem_erase.mpr ⟨cell1_ne d L (by decide),
      Finset.mem_erase.mpr ⟨cell1_ne d L (by decide), cell1_mem d L cc1_scoped1.sem (by decide)⟩⟩⟩)]

abbrev bref1 (b : Ref sig .scVector) : DevRef τ sig := (Proc.scVector (cV1 L) (jV1 L)).devRef b

theorem bref1_ne {a b : Ref sig .scVector} (h : a ≠ b) : bref1 L a ≠ bref1 L b :=
  fun e => h (Proc.devRef_injective _ e)

theorem bref1_mem (b : Ref sig .scVector) (h : (bref1 L b).owner = .proc (Proc.scVector (cV1 L) (jV1 L))) :
    bref1 L b ∈ ownRefs (τ := τ) (.scVector (cV1 L) (jV1 L)) := SparseCore.Cfg.mem_ownRefs_of_owner h

theorem ownBufs_V1 :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f)
          ∗ (∃ f, (V d (cV1 L) (jV1 L)).loc cc1_scratch2 ↦{fullShare} f) ∗ (∃ f, (V d (cV1 L) (jV1 L)).loc cc1_scratch3 ↦{fullShare} f)
          ∗ bigSep (((((ownRefs (τ := τ) (.scVector (cV1 L) (jV1 L))).erase (bref1 L cc1_scratch0)).erase (bref1 L cc1_scratch1)).erase
              (bref1 L cc1_scratch2)).erase (bref1 L cc1_scratch3))
              fun b => iprop(∃ f, ((d, b) : Loc nD τ sig) ↦{fullShare} f)) := by
  unfold SparseCore.Cfg.ownBufs
  refine (SparseCore.bigSep_erase' (bref1_mem L cc1_scratch0 rfl)).trans ?_
  rw [SparseCore.bigSep_erase' (Finset.mem_erase.mpr ⟨bref1_ne L (by decide), bref1_mem L cc1_scratch1 rfl⟩),
    SparseCore.bigSep_erase' (Finset.mem_erase.mpr ⟨bref1_ne L (by decide), Finset.mem_erase.mpr ⟨bref1_ne L (by decide),
      bref1_mem L cc1_scratch2 rfl⟩⟩),
    SparseCore.bigSep_erase' (Finset.mem_erase.mpr ⟨bref1_ne L (by decide), Finset.mem_erase.mpr ⟨bref1_ne L (by decide),
      Finset.mem_erase.mpr ⟨bref1_ne L (by decide), bref1_mem L cc1_scratch3 rfl⟩⟩⟩)]

/-! ## The arrays and scratches as the task's memrefs address them -/

variable [FloatOps F]

theorem pts_i1 (f : Buf (Elt F) (iLoc d)) :
    (((iV.slice (rI1 L) (fun _ => rfl)).view).loc (V d (cV1 L) (jV1 L)) ↦[((iV.slice (rI1 L) (fun _ => rfl)).view).set]{fullShare} f : sProp 𝕄)
      = iLoc d ↦[rowsI1 L]{fullShare} f := rfl
theorem pts_w1 (f : Buf (Elt F) (wLoc d)) :
    (((wV.slice (rI1 L) (fun _ => rfl)).view).loc (V d (cV1 L) (jV1 L)) ↦[((wV.slice (rI1 L) (fun _ => rfl)).view).set]{fullShare} f : sProp 𝕄)
      = wLoc d ↦[rowsI1 L]{fullShare} f := rfl
theorem pts_oa1 (f : Buf (Elt F) (o1Loc d)) :
    (((o1V.slice (rOa1 L) (fun _ => rfl)).view).loc (V d (cV1 L) (jV1 L)) ↦[((o1V.slice (rOa1 L) (fun _ => rfl)).view).set]{fullShare} f : sProp 𝕄)
      = o1Loc d ↦[rowsOa1 L]{fullShare} f := rfl
theorem pts_ob1 (f : Buf (Elt F) (o1Loc d)) :
    (((o1V.slice (rOb1 L) (fun _ => rfl)).view).loc (V d (cV1 L) (jV1 L)) ↦[((o1V.slice (rOb1 L) (fun _ => rfl)).view).set]{fullShare} f : sProp 𝕄)
      = o1Loc d ↦[rowsOb1 L]{fullShare} f := rfl
theorem pts_sA1 (f : Buf (Elt F) ((V d (cV1 L) (jV1 L)).loc cc1_scratch0)) :
    ((sA1).view.loc (V d (cV1 L) (jV1 L)) ↦{fullShare} f : sProp 𝕄) = (V d (cV1 L) (jV1 L)).loc cc1_scratch0 ↦{fullShare} f := rfl
theorem pts_sB1 (f : Buf (Elt F) ((V d (cV1 L) (jV1 L)).loc cc1_scratch1)) :
    ((sB1).view.loc (V d (cV1 L) (jV1 L)) ↦{fullShare} f : sProp 𝕄) = (V d (cV1 L) (jV1 L)).loc cc1_scratch1 ↦{fullShare} f := rfl
theorem pts_sI1 (f : Buf (Elt F) ((V d (cV1 L) (jV1 L)).loc cc1_scratch2)) :
    ((sI1).view.loc (V d (cV1 L) (jV1 L)) ↦{fullShare} f : sProp 𝕄) = (V d (cV1 L) (jV1 L)).loc cc1_scratch2 ↦{fullShare} f := rfl
theorem pts_sW1 (f : Buf (Elt F) ((V d (cV1 L) (jV1 L)).loc cc1_scratch3)) :
    ((sW1).view.loc (V d (cV1 L) (jV1 L)) ↦{fullShare} f : sProp 𝕄) = (V d (cV1 L) (jV1 L)).loc cc1_scratch3 ↦{fullShare} f := rfl

/-! ## The zero-filling loops -/

/-- A zero-filling loop's invariant: the scratch it fills, whole, at some contents. -/
def invZ1 (m : Memref sig .scVector .vmem S16x2048 .f32) (_ : Nat) (_ : PUnit) : sProp 𝕄 :=
  iprop(∃ f, m.view.loc (V d (cV1 L) (jV1 L)) ↦{fullShare} f)

set_option hygiene false in
macro "zero_loopA1" : tactic => `(tactic| (
  sl_for (invZ1 (F := F) d L sA1) $$ [Hs0']
  case region =>
    intro k _
    unfold invZ1
    iintro ⟨%f, H⟩
    sl_exec
    sl_step
    iexists _; iexact H
  · unfold invZ1; iexists _; iexact Hs0'
  iintro %_ HI
  unfold invZ1
  icases HI with ⟨%fz, Hs0'⟩))

set_option hygiene false in
macro "zero_loopB1" : tactic => `(tactic| (
  sl_for (invZ1 (F := F) d L sB1) $$ [Hs1']
  case region =>
    intro k _
    unfold invZ1
    iintro ⟨%f, H⟩
    sl_exec
    sl_step
    iexists _; iexact H
  · unfold invZ1; iexists _; iexact Hs1'
  iintro %_ HI
  unfold invZ1
  icases HI with ⟨%fz, Hs1'⟩))

/-! ## The indexed stores and their range checks -/

theorem pts_sA1_whole (f : Buf (Elt F) ((V d (cV1 L) (jV1 L)).loc cc1_scratch0)) :
    (((sA1).access (.whole S16x2048)).loc (V d (cV1 L) (jV1 L)) ↦[((sA1).access (.whole S16x2048)).set]{fullShare} f : sProp 𝕄)
      = ((sA1).view.loc (V d (cV1 L) (jV1 L)) ↦{fullShare} f) := by
  rw [show ((sA1 : Memref sig .scVector .vmem S16x2048 .f32).access (.whole S16x2048)).set = Finset.univ from Memref.set_access_whole (cc1_scratch0 : Ref sig .scVector)]
theorem pts_sB1_whole (f : Buf (Elt F) ((V d (cV1 L) (jV1 L)).loc cc1_scratch1)) :
    (((sB1).access (.whole S16x2048)).loc (V d (cV1 L) (jV1 L)) ↦[((sB1).access (.whole S16x2048)).set]{fullShare} f : sProp 𝕄)
      = ((sB1).view.loc (V d (cV1 L) (jV1 L)) ↦{fullShare} f) := by
  rw [show ((sB1 : Memref sig .scVector .vmem S16x2048 .f32).access (.whole S16x2048)).set = Finset.univ from Memref.set_access_whole (cc1_scratch1 : Ref sig .scVector)]

/-- A buffer held at known contents is held at some contents. -/
theorem forget_sA1 (f : Buf (Elt F) ((V d (cV1 L) (jV1 L)).loc cc1_scratch0)) :
    ((sA1).view.loc (V d (cV1 L) (jV1 L)) ↦{fullShare} f : sProp 𝕄) ⊢ ∃ g, (sA1).view.loc (V d (cV1 L) (jV1 L)) ↦{fullShare} g := by
  iintro H; iexists _; iexact H
theorem forget_sB1 (f : Buf (Elt F) ((V d (cV1 L) (jV1 L)).loc cc1_scratch1)) :
    ((sB1).view.loc (V d (cV1 L) (jV1 L)) ↦{fullShare} f : sProp 𝕄) ⊢ ∃ g, (sB1).view.loc (V d (cV1 L) (jV1 L)) ↦{fullShare} g := by
  iintro H; iexists _; iexact H

/-- An indexed store's range check: the row vector is a constant below 16 and every column word is below 2048. -/
theorem chk_ok1 (r : BitVec 32) (hr : r.toNat < 16) (v : IVec S16 32) (hv : ∀ x, (v x).toNat < 2048) :
    ∀ a x, ((![broadcast S16 r, v] : Fin 2 → IVec S16 32) a x).toNat < S16x2048.size a := by
  intro a x
  match a with
  | 0 => exact hr
  | 1 => exact hv x

/-- Every word the index scratch holds after the copy-in is below 2048, through whatever rectangle it is read. -/
theorem idx_lt1 (fi : Buf (Elt F) (iLoc d)) (hidx : ∀ x : S32x32.Idx, (fi (((iV.slice (rI1 L) (fun _ => rfl)).view).emb x)).toNat < 2048)
    (f2 : Buf (Elt F) ((V d (cV1 L) (jV1 L)).loc cc1_scratch2)) (R : LoadRect S32x32) (x : R.shape.Idx) :
    ((View.readAt (Elt F) sI1.view R (View.write (Elt F) sI1.view f2
      (ReadAs.same.apply (View.read (Elt F) (iV.slice (rI1 L) (fun _ => rfl)).view fi)) Finset.univ)) x).toNat < 2048 := by
  rw [View.readAt_apply, View.read_write_univ]
  exact hidx _

set_option hygiene false in
macro "store_idxA1" : tactic => `(tactic| (
  ihave Hc := (Entails.of_eq (pts_sA1_whole (F := F) d L _).symm) $$ Hs0'
  iapply (SparseCore.wp_vectorStoreIdx 𝒱₀ (V d (cV1 L) (jV1 L)) none Set.univ (base := sA1)) $$ Hc
  iintro Hc
  ihave Hc2 := (Entails.of_eq (pts_sA1_whole (F := F) d L _)) $$ Hc
  ihave Hc3 := (forget_sA1 (F := F) d L _) $$ Hc2
  icases Hc3 with ⟨%fz, Hs0'⟩))

set_option hygiene false in
macro "store_idxB1" : tactic => `(tactic| (
  ihave Hc := (Entails.of_eq (pts_sB1_whole (F := F) d L _).symm) $$ Hs1'
  iapply (SparseCore.wp_vectorStoreIdx 𝒱₀ (V d (cV1 L) (jV1 L)) none Set.univ (base := sB1)) $$ Hc
  iintro Hc
  ihave Hc2 := (Entails.of_eq (pts_sB1_whole (F := F) d L _)) $$ Hc
  ihave Hc3 := (forget_sB1 (F := F) d L _) $$ Hc2
  icases Hc3 with ⟨%fz, Hs1'⟩))

/-! ## The task -/

set_option maxHeartbeats 400000000 in
/-- The task's run, in frame form: every resource it is handed comes back, the argument rows unchanged, the waits
    it made recorded at the index of no call. -/
theorem tile_body1 (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI1 L) (fun _ => rfl)).view).emb x)).toNat < 2048) :
    (iprop(levAts (K (F := F)).L (K (F := F)).lev
        ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc1_body L iV (Memref.isWhole_whole _) wV (Memref.isWhole_whole _) o1V (Memref.isWhole_whole _)
            sA1 (Memref.isWhole_whole _) sB1 (Memref.isWhole_whole _) sI1 (Memref.isWhole_whole _) sW1 (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, o1Loc d ↦[rowsOa1 L]{fullShare} fa) ∗ (∃ fb, o1Loc d ↦[rowsOb1 L]{fullShare} fb)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc1_body_eq_skeleton]; unfold cc1_body_skel
  rw [(K (F := F)).scopedBufs_V hF d (cV1 L) (jV1 L), SparseCore.Cfg.scopedSems0_V (Val := Elt F) d (cV1 L) (jV1 L), ownSems0_V1, ownBufs_V1]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV1 L) (jV1 L)) hO) $$ Hlv
  ihave Hi' := (Entails.of_eq (pts_i1 (F := F) d L _).symm) $$ Hi
  ihave Hw' := (Entails.of_eq (pts_w1 (F := F) d L _).symm) $$ Hw
  ihave Hoa' := (Entails.of_eq (pts_oa1 (F := F) d L _).symm) $$ Hoa
  ihave Hob' := (Entails.of_eq (pts_ob1 (F := F) d L _).symm) $$ Hob
  ihave Hs0' := (Entails.of_eq (pts_sA1 (F := F) d L _).symm) $$ Hs0
  ihave Hs1' := (Entails.of_eq (pts_sB1 (F := F) d L _).symm) $$ Hs1
  ihave Hs2' := (Entails.of_eq (pts_sI1 (F := F) d L _).symm) $$ Hs2
  ihave Hs3' := (Entails.of_eq (pts_sW1 (F := F) d L _).symm) $$ Hs3
  sl_exec_parts
  have hgI : ∀ (R : LoadRect S32x32) (x : R.shape.Idx), ((View.readAt (Elt F) sI1.view R (View.write (Elt F) sI1.view f2
      (tile_body1.sl.dma0 d L fi) Finset.univ)) x).toNat < 2048 := fun R x => idx_lt1 (F := F) d L fi hidx f2 R x
  iterate 16 ((try sl_exec_parts); zero_loopA1)
  iterate 16 ((try sl_exec_parts); zero_loopB1)
  iterate 32 (sl_exec_parts (disch := exact chk_ok1 _ (by decide) _ (fun x => hgI _ _)); store_idxA1)
  iterate 32 (sl_exec_parts (disch := exact chk_ok1 _ (by decide) _ (fun x => hgI _ _)); store_idxB1)
  sl_exec_parts
  sl_step
  isplitl [Hi']; · iapply (Entails.of_eq (pts_i1 (F := F) d L _)); iexact Hi'
  isplitl [Hw']; · iapply (Entails.of_eq (pts_w1 (F := F) d L _)); iexact Hw'
  isplitl [Hoa']; · iexists _; iapply (Entails.of_eq (pts_oa1 (F := F) d L _)); iexact Hoa'
  isplitl [Hob']; · iexists _; iapply (Entails.of_eq (pts_ob1 (F := F) d L _)); iexact Hob'
  isplitl [Hs0' Hs1' Hs2' Hs3' Hbufs]
  · isplitl [Hs0']; · iexists _; iapply (Entails.of_eq (pts_sA1 (F := F) d L _)); iexact Hs0'
    isplitl [Hs1']; · iexists _; iapply (Entails.of_eq (pts_sB1 (F := F) d L _)); iexact Hs1'
    isplitl [Hs2']; · iexists _; iapply (Entails.of_eq (pts_sI1 (F := F) d L _)); iexact Hs2'
    isplitl [Hs3']; · iexists _; iapply (Entails.of_eq (pts_sW1 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile1
end Cert.Proof.KB
end
-- ==== Proof.TcArgsKB.lean ====
/-
  The four argument arrays end the tail of @main as they entered it: x is read by both regions through an input
  window, which a pipeline leaves as it found it; the index and weight arrays are touched by nothing on the
  TensorCore; the bias is only read, by the reshape. Each buffer's contents are walked back through the fold of the
  boundary contents: a region's exit to its entry, a host stretch's end to its start. Generic in the float instance.
-/
import proofs.«210207_g17016660427310_cont_sun_m_176_22_alg».proof.Proof.TcRegionsKB
set_option maxRecDepth 16384

noncomputable section

namespace Cert.Proof.KB

open Cert.Kernel Cert.Kernel.Gen
open Idealize.ShloMosaic Idealize.ShloMosaic.TcCoe
open Idealize.ShloMosaic.SparseCore.Cfg (HIx)
open Idealize.SL.Sem
open Idealize.ShloMosaic.Pipeline (Dat)

variable {F : FTy → Type} [FloatOps F]
variable (W0 : Dev nD → Valuation τ sig (Elt F))

/-- x: window 0 of both regions, an input. -/
theorem WD_main_arg0 (c : Dev nD) : WD W0 c (Proc.devRef .tc main_arg0) = W0 c (Proc.devRef .tc main_arg0) :=
  calc WD W0 c (Proc.devRef .tc main_arg0)
    _ = WC W0 c (Proc.devRef .tc main_arg0) :=
        (W4_arr (WC W0) c 0).trans (((dat3 (V3 (WC W0)) c).arrAt_in 0 rfl _).trans (A_eq3 (V3 (WC W0)) c 0))
    _ = WB W0 c (Proc.devRef .tc main_arg0) := StableHlo.after_of_forall_not_mem (b := Proc.devRef .tc main_arg0) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg0) :=
        (W2_arr (WA W0) c 0).trans (((dat2 (V1 (WA W0)) c).arrAt_in 0 rfl _).trans (A_eq2 (V1 (WA W0)) c 0))
    _ = W0 c (Proc.devRef .tc main_arg0) := StableHlo.after_of_forall_not_mem (b := Proc.devRef .tc main_arg0) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The index array: no window's array, written by no host operation. -/
theorem WD_main_arg1 (c : Dev nD) : WD W0 c (Proc.devRef .tc main_arg1) = W0 c (Proc.devRef .tc main_arg1) :=
  calc WD W0 c (Proc.devRef .tc main_arg1)
    _ = WC W0 c (Proc.devRef .tc main_arg1) := W4_of_ne (WC W0) c main_arg1 (by decide)
    _ = WB W0 c (Proc.devRef .tc main_arg1) := StableHlo.after_of_forall_not_mem (b := Proc.devRef .tc main_arg1) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg1) := W2_of_ne (WA W0) c main_arg1 (by decide)
    _ = W0 c (Proc.devRef .tc main_arg1) := StableHlo.after_of_forall_not_mem (b := Proc.devRef .tc main_arg1) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The weight array: no window's array, written by no host operation. -/
theorem WD_main_arg2 (c : Dev nD) : WD W0 c (Proc.devRef .tc main_arg2) = W0 c (Proc.devRef .tc main_arg2) :=
  calc WD W0 c (Proc.devRef .tc main_arg2)
    _ = WC W0 c (Proc.devRef .tc main_arg2) := W4_of_ne (WC W0) c main_arg2 (by decide)
    _ = WB W0 c (Proc.devRef .tc main_arg2) := StableHlo.after_of_forall_not_mem (b := Proc.devRef .tc main_arg2) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg2) := W2_of_ne (WA W0) c main_arg2 (by decide)
    _ = W0 c (Proc.devRef .tc main_arg2) := StableHlo.after_of_forall_not_mem (b := Proc.devRef .tc main_arg2) _ _ (List.forall_iff_forall_mem.mp (by
          simp only [hostOpsA, List.Forall, StableHlo.unary_writes, StableHlo.reshape_writes, Finset.mem_singleton]
          repeat' apply And.intro
          all_goals exact StableHlo.devRef_ne_of_ne (by decide)))

/-- The bias: no window's array, written by no host operation. -/
theorem WD_main_arg3 (c : Dev nD) : WD W0 c (Proc.devRef .tc main_arg3) = W0 c (Proc.devRef .tc main_arg3) :=
  calc WD W0 c (Proc.devRef .tc main_arg3)
    _ = WC W0 c (Proc.devRef .tc main_arg3) := W4_of_ne (WC W0) c main_arg3 (by decide)
    _ = WB W0 c (Proc.devRef .tc main_arg3) := StableHlo.after_of_forall_not_mem (b := Proc.devRef .tc main_arg3) _ _ (List.forall_iff_forall_mem.mp (by
          simp only [hostOpsB, List.Forall, StableHlo.unary_writes, StableHlo.reshape_writes, Finset.mem_singleton]
          repeat' apply And.intro
          all_goals exact StableHlo.devRef_ne_of_ne (by decide)))
    _ = WA W0 c (Proc.devRef .tc main_arg3) := W2_of_ne (WA W0) c main_arg3 (by decide)
    _ = W0 c (Proc.devRef .tc main_arg3) := StableHlo.after_of_forall_not_mem (b := Proc.devRef .tc main_arg3) _ _ (List.forall_iff_forall_mem.mp (by
          simp only [hostOpsA, List.Forall, StableHlo.unary_writes, StableHlo.reshape_writes, Finset.mem_singleton]
          repeat' apply And.intro
          all_goals exact StableHlo.devRef_ne_of_ne (by decide)))

end Cert.Proof.KB

end
-- ==== Proof.FrameKB.lean ====
/-
  The word-level kernel's program runs: every weakly fair execution of its 35 threads terminates,
  nothing faulting, and the four argument arrays end as they were launched. Assembled from the
  launch of the two SparseCore calls and of @main's tail, the tiles' bodies, the split of the arrays
  among the tiles, and the two matrix-product regions.
-/
import proofs.«210207_g17016660427310_cont_sun_m_176_22_alg».proof.Proof.LaunchKB
import proofs.«210207_g17016660427310_cont_sun_m_176_22_alg».proof.Proof.RowsKB
import proofs.«210207_g17016660427310_cont_sun_m_176_22_alg».proof.Proof.TileBody0KB
import proofs.«210207_g17016660427310_cont_sun_m_176_22_alg».proof.Proof.TileBody1KB
import proofs.«210207_g17016660427310_cont_sun_m_176_22_alg».proof.Proof.TcArgsKB
import proofs.«210207_g17016660427310_cont_sun_m_176_22_alg».proof.Proof.PreFacts
import proofs.«210207_g17016660427310_cont_sun_m_176_22_alg».proof.Proof.Gen.Pre_input_domain

noncomputable section

namespace Cert.Proof.KB

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)
variable [FloatOps F]

abbrev x' : DevRef τ sig := Proc.devRef .tc (main_arg0 : Ref sig .tc)
abbrev b' : DevRef τ sig := Proc.devRef .tc (main_arg3 : Ref sig .tc)

theorem tb0 : TileBody0 (F := F) := fun d L O W hO fi fw hidx => tile_body0 d L facts O W hO fi fw hidx
theorem tb1 : TileBody1 (F := F) := fun d L O W hO fi fw hidx => tile_body1 d L facts O W hO fi fw hidx

theorem Wc_x (d : Dev nD) (f0 f1) : Wc m d f0 f1 x' = m (xLoc d) :=
  (Function.update_of_ne (show x' ≠ o1' by decide) _ _).trans (Function.update_of_ne (show x' ≠ o0' by decide) _ _)
theorem Wc_b (d : Dev nD) (f0 f1) : Wc m d f0 f1 b' = m (bLoc d) :=
  (Function.update_of_ne (show b' ≠ o1' by decide) _ _).trans (Function.update_of_ne (show b' ≠ o0' by decide) _ _)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The reading the frame needs of the last valuation: the four arguments as launched. -/
def goodArgs (d : Dev nD) (Wf : Valuation τ sig (Elt F)) : Prop :=
  Wf x' = m (xLoc d) ∧ Wf i' = m (iLoc d) ∧ Wf w' = m (wLoc d) ∧ Wf b' = m (bLoc d)

theorem goodArgs_WD (d : Dev nD) (g0 : (c : Dev nD) → Buf (Elt F) (o0Loc c)) (g1 : (c : Dev nD) → Buf (Elt F) (o1Loc c)) :
    goodArgs m d (WD (Wt m g0 g1) d) :=
  ⟨(WD_main_arg0 (Wt m g0 g1) d).trans (Wc_x m d _ _), (WD_main_arg1 (Wt m g0 g1) d).trans (Wc_i m d _ _),
    (WD_main_arg2 (Wt m g0 g1) d).trans (Wc_w m d _ _), (WD_main_arg3 (Wt m g0 g1) d).trans (Wc_b m d _ _)⟩

/-- The program's run with the arguments read back. -/
theorem run_frame [∀ e, Nonempty (Elt F e)] (hpre : PreOK m) :
    θ_run (Cert.Kernel.defs (F := F)) (Cert.Kernel.threads (F := F)) ⟨m, fun _ => 0, ρ⟩ (fun r => ∀ c : Dev nD,
      r.2.mem (xLoc c) = m (xLoc c) ∧ r.2.mem (iLoc c) = m (iLoc c) ∧ r.2.mem (wLoc c) = m (wLoc c) ∧ r.2.mem (bLoc c) = m (bLoc c)) :=
  run_main m ρ tb0 tb1 hpre (call0_split m) (call1_split m) (goodArgs m) (goodArgs_WD m) _ fun s' h c => by
    obtain ⟨Wf, hg, hrd⟩ := h c
    exact ⟨(hrd x' (mem_uc main_arg0 (by decide))).trans hg.1, (hrd i' (mem_uc main_arg1 (by decide))).trans hg.2.1,
      (hrd w' (mem_uc main_arg2 (by decide))).trans hg.2.2.1, (hrd b' (mem_uc main_arg3 (by decide))).trans hg.2.2.2⟩

/-- The precondition gives what the proof asks of the launch memory: every index word names a column. -/
theorem preOK_of_pre [Cert.Pre_input_domain.Facts]
    (h : ∀ c : Dev nD, Cert.Pre_input_domain.fn (F := F) (m (xLoc c)) (m (iLoc c)) (m (wLoc c)) (m (bLoc c)) = fun _ => 1#1) : PreOK m :=
  fun d j => Cert.Proof.PreFacts.idx_of_pre (F := F) (m (xLoc d)) (m (iLoc d)) (m (wLoc d)) (m (bLoc d)) (h d) j

end Cert.Proof.KB

end
-- ==== Proof.RefRun.lean ====
/-
  The reference's run, by hand, and its result read at an index.

  The reference computes out[r, o] = (Σ_f w[o, f] · x[r, idx[o, f]]) + b[o] as: a take of x along axis 1 at the index
  table (negative indices wrapped by 2048, out-of-range ones masked to a fill value, the rest gathered), a product with
  the weights copied along the rows, a sum over the fan-in axis from zero, and the bias copied along the rows.

  * § The reference's result as one term: `refTerm`, the operations composed, and each layout operation read at an index.
  * § The take at an index: for an index table below 2048 the wrap and the mask are inert and the gather reads x at the
    named column; so `refTerm` is `Spec.Gr` (`refTerm_eq_Gr`).
  * § The reference's run: @main as a straight line of 31 operations (the two module-local functions unfolded at their
    calls), run by the library's rule for straight lines.
  * § The fold read back: the result buffer after the line holds `refTerm` of the argument buffers (`out_eq`), read in
    four stages; `run` puts the three together.
-/
import proofs.«210207_g17016660427310_cont_sun_m_176_22_alg».proof.ReferenceIdeal
import proofs.«210207_g17016660427310_cont_sun_m_176_22_alg».proof.Proof.Gen.ReferenceIdeal
import proofs.«210207_g17016660427310_cont_sun_m_176_22_alg».proof.Proof.Spec
import Idealize.ShloMosaic.Lib.StableHlo.Run
import Idealize.ShloMosaic.Lib.ValueIdx
import Idealize.ShloMosaic.Lib.ReduceAll
import Idealize.ShloMosaic.PureOps.Ideal.Laws

noncomputable section

open scoped BigOperators

namespace Cert.Proof.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-! ## The reference's result as one term, and that term read at an index -/

section Value
variable {F : FTy → Type} [FloatOps F]

/-- The record of the take's gather: the rows of x (axis 0) kept whole, the column (axis 1) named by the start index. -/
abbrev gatherD : GatherDims S2048x2048 S2048x32x1 S2048x2048x32 :=
  gather_S2048x2048_S2048x32x1_S2048x2048x32_0_1_n_n_1_2_20481

/-- The index table as the gather reads it: negative entries wrapped by 2048, then a unit axis appended. -/
def wrapped (idx : IVec S2048x32 32) : IVec S2048x32x1 32 :=
  broadcastInDim S2048x32x1 ![0, 1] bcast_S2048x32_S2048x32x1_0_1
    (select (cmpi .slt idx (broadcastInDim S2048x32 ![] bcast_S_S2048x32 (constantI S_ 32 0#32)))
      (addi idx (broadcastInDim S2048x32 ![] bcast_S_S2048x32 (constantI S_ 32 2048#32))) idx)

/-- The range mask of the take: 1 where the wrapped index is between 0 and 2047, read signed. -/
def mask (idx : IVec S2048x32 32) : IVec S2048x32 1 :=
  Host.reduce IntOp.andi
    (andi (cmpi .sge (wrapped idx) (broadcastInDim S2048x32x1 ![] bcast_S_S2048x32x1 (constantI S_ 32 0#32)))
      (cmpi .sle (wrapped idx) (broadcastInDim S2048x32x1 ![0, 1, 2] bcast_S1x1x1_S2048x32x1_0_1_2
        (broadcastInDim S1x1x1 ![2] bcast_S1_S1x1x1_2 (constantI S1 32 2047#32)))))
    (constantI S_ 1 1#1) reducesTo_S2048x32x1_S2048x32_d2 h_S_

/-- The take: the gather where the mask is 1, the fill value elsewhere. -/
def taken (x : FVec F S2048x2048 .f32) (idx : IVec S2048x32 32) : FVec F S2048x2048x32 .f32 :=
  select (broadcastInDim S2048x2048x32 ![1, 2] bcast_S2048x32_S2048x2048x32_1_2 (mask idx))
    (Host.gather gatherD x (wrapped idx))
    (broadcastInDim S2048x2048x32 ![] bcast_S_S2048x2048x32 (constant (F := F) S_ .f32 0x7FC00000#32))

/-- The reference's result as one term of its four arguments: the take times the weights, summed over the fan-in
    axis from zero, plus the bias. -/
def refTerm (x : FVec F S2048x2048 .f32) (idx : IVec S2048x32 32) (w : FVec F S2048x32 .f32) (b : FVec F S2048 .f32) :
    FVec F S2048x2048 .f32 :=
  addf
    (Host.reduceAdd (F := F)
      (mulf
        (broadcastInDim S2048x2048x32 ![0, 1, 2] bcast_S1x2048x32_S2048x2048x32_0_1_2
          (broadcastInDim S1x2048x32 ![1, 2] bcast_S2048x32_S1x2048x32_1_2 w))
        (taken x idx))
      (constant (F := F) S_ .f32 0x00000000#32) reducesTo_S2048x2048x32_S2048x2048_d2 h_S_)
    (broadcastInDim S2048x2048 ![0, 1] bcast_S1x2048_S2048x2048_0_1
      (broadcastInDim S1x2048 ![1] bcast_S2048_S1x2048_1 b))

end Value

/-! ### The layout operations at an index -/

section Layout
open ValueIdx
variable {α : Type}

/-- A unit axis appended: [2048, 32] → [2048, 32, 1] reads (o, f, z) at (o, f). -/
theorem bcast_unit_apply (v : S2048x32.Idx → α) (o : Fin 2048) (f : Fin 32) (z : Fin 1) :
    broadcastInDim S2048x32x1 ![0, 1] bcast_S2048x32_S2048x32x1_0_1 v (ix3 o f z) = v (ix2 o f) := by
  unfold broadcastInDim
  refine congrArg v ?_
  funext a
  match a with
  | ⟨0, _⟩ => rfl
  | ⟨1, _⟩ => rfl

/-- The mask copied along the rows of x: [2048, 32] → [2048, 2048, 32] reads (r, o, f) at (o, f). -/
theorem bcast_rows_apply (v : S2048x32.Idx → α) (r o : Fin 2048) (f : Fin 32) :
    broadcastInDim S2048x2048x32 ![1, 2] bcast_S2048x32_S2048x2048x32_1_2 v (ix3 r o f) = v (ix2 o f) := by
  unfold broadcastInDim
  refine congrArg v ?_
  funext a
  match a with
  | ⟨0, _⟩ => rfl
  | ⟨1, _⟩ => rfl

/-- The weights copied along the rows of x, through a leading unit axis: [2048, 32] → [1, 2048, 32] → [2048, 2048, 32]
    reads (r, o, f) at (o, f). -/
theorem bcast_w_apply (v : S2048x32.Idx → α) (r o : Fin 2048) (f : Fin 32) :
    broadcastInDim S2048x2048x32 ![0, 1, 2] bcast_S1x2048x32_S2048x2048x32_0_1_2
      (broadcastInDim S1x2048x32 ![1, 2] bcast_S2048x32_S1x2048x32_1_2 v) (ix3 r o f) = v (ix2 o f) := by
  unfold broadcastInDim
  refine congrArg v ?_
  funext a
  match a with
  | ⟨0, _⟩ => rfl
  | ⟨1, _⟩ => rfl

/-- The bias copied along the rows, through a leading unit axis: [2048] → [1, 2048] → [2048, 2048] reads (r, o) at o. -/
theorem bcast_b_apply (v : S2048.Idx → α) (r o : Fin 2048) :
    broadcastInDim S2048x2048 ![0, 1] bcast_S1x2048_S2048x2048_0_1
      (broadcastInDim S1x2048 ![1] bcast_S2048_S1x2048_1 v) (ix2 r o) = v (ix1 o) := by
  unfold broadcastInDim
  refine congrArg v ?_
  funext a
  match a with
  | ⟨0, _⟩ => rfl

end Layout

/-! ### Words: an index below 2048 -/

section Words

/-- A 32-bit word below 2048 reads the same signed and unsigned. -/
theorem toInt_of_lt (a : BitVec 32) (h : a.toNat < 2048) : a.toInt = (a.toNat : Int) := by
  have e := BitVec.toInt_eq_toNat_cond a
  omega

/-- A left fold by `and` from 1 over words that are all 1 is 1. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- A reduce by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

end Words

/-! ### The take at an index, for an index table below 2048 -/

section Take
open ValueIdx

/-- An entry below 2048 is not negative, so the wrap leaves it: the gather's start index at (o, f) is the entry. -/
theorem wrapped_apply (idx : IVec S2048x32 32) (o : Fin 2048) (f : Fin 32) (z : Fin 1)
    (h : (idx (ix2 o f)).toNat < 2048) : wrapped idx (ix3 o f z) = idx (ix2 o f) := by
  unfold wrapped
  rw [bcast_unit_apply]
  show Scalar.select (IntOp.cmpi .slt (idx (ix2 o f)) 0#32) (IntOp.addi (idx (ix2 o f)) 2048#32) (idx (ix2 o f))
    = idx (ix2 o f)
  have hn : ¬ IntOp.cmpi .slt (idx (ix2 o f)) 0#32 = 1#1 := by
    rw [IntOp.cmpi_slt, toInt_of_lt _ h, show (0#32 : BitVec 32).toInt = 0 from by decide]
    omega
  exact if_neg hn

/-- Every entry below 2048: the take's range mask is 1 everywhere. -/
theorem mask_apply (idx : IVec S2048x32 32) (hidx : ∀ i, (idx i).toNat < 2048) (j : S2048x32.Idx) :
    mask idx j = 1#1 := by
  unfold mask
  refine reduce_andi_ones _ _ _ _ _ (fun i => ?_) rfl
  obtain ⟨o, f, z, rfl⟩ : ∃ (o : Fin 2048) (f : Fin 32) (z : Fin 1), i = ix3 o f z := ⟨i 0, i 1, i 2, eq_ix3 i⟩
  show IntOp.andi (IntOp.cmpi .sge (wrapped idx (ix3 o f z)) 0#32) (IntOp.cmpi .sle (wrapped idx (ix3 o f z)) 2047#32)
    = 1#1
  have hlt := hidx (ix2 o f)
  rw [wrapped_apply idx o f z hlt, IntOp.andi_eq_one, IntOp.cmpi_sge, IntOp.cmpi_sle, toInt_of_lt _ hlt,
    show (0#32 : BitVec 32).toInt = 0 from by decide, show (2047#32 : BitVec 32).toInt = 2047 from by decide]
  constructor <;> omega

/-- THE GATHER READ AT (r, o, f): row r of the operand at the column the start index (o, f, 0) names, read signed and
    clamped into [0, 2047]. Axis 0 of the operand is the one offset axis (start 0, the result's coordinate r); axis 1
    is collapsed and named by the start index map. -/
theorem gather_apply {α : Type} {w : Nat} (x : S2048x2048.Idx → α) (sidx : IVec S2048x32x1 w)
    (r o : Fin 2048) (f : Fin 32) :
    Host.gather gatherD x sidx (ix3 r o f)
      = x (ix2 r ⟨min (sidx (ix3 o f (0 : Fin 1))).toInt.toNat 2047, by omega⟩) := by
  have hb : ∀ a : Fin 2, gatherD.batchCoord (ix3 r o f) a = 0 :=
    fun a => GatherDims.batchCoord_eq_zero _ _ _ List.not_mem_nil
  have m0 : (0 : Fin 2) ∉ gatherD.startIndexMap := by
    show (0 : Fin 2) ∉ ([1] : List (Fin 2)); decide
  have m1 : (1 : Fin 2) ∈ gatherD.startIndexMap := by
    show (1 : Fin 2) ∈ ([1] : List (Fin 2)); decide
  have k0 : (0 : Fin 2) ∈ gatherD.sKept :=
    (GatherDims.mem_sKept _ _).2 ⟨by show (0 : Fin 2) ∉ ([1] : List (Fin 2)); decide, List.not_mem_nil⟩
  have k1 : (1 : Fin 2) ∉ gatherD.sKept :=
    fun h => ((GatherDims.mem_sKept _ _).1 h).1 (by show (1 : Fin 2) ∈ ([1] : List (Fin 2)); decide)
  have e0 : (gatherD.operandIdx (ix3 r o f) sidx (0 : Fin 2)).val = r.val := by
    show gatherD.start (ix3 r o f) sidx 0 + gatherD.batchCoord (ix3 r o f) 0 + gatherD.offCoord (ix3 r o f) 0 = r.val
    rw [hb 0]
    unfold GatherDims.start GatherDims.offCoord
    rw [dif_neg m0, dif_pos k0]
    show 0 + 0 + r.val = r.val
    omega
  have hsi : gatherD.siIdx (ix3 r o f) ⟨List.idxOf (1 : Fin 2) gatherD.startIndexMap,
      List.idxOf_lt_length_iff.2 m1⟩ = ix3 o f (0 : Fin 1) := by
    funext b; refine Fin.ext ?_
    match b with
    | ⟨0, _⟩ => rfl
    | ⟨1, _⟩ => rfl
    | ⟨2, _⟩ => rfl
  have e1 : (gatherD.operandIdx (ix3 r o f) sidx (1 : Fin 2)).val = min (sidx (ix3 o f (0 : Fin 1))).toInt.toNat 2047 := by
    show gatherD.start (ix3 r o f) sidx 1 + gatherD.batchCoord (ix3 r o f) 1 + gatherD.offCoord (ix3 r o f) 1 = _
    rw [hb 1, GatherDims.offCoord_eq_zero _ _ _ k1]
    unfold GatherDims.start
    rw [dif_pos m1, hsi]
    rfl
  unfold Host.gather
  refine congrArg x ?_
  funext a
  match a with
  | ⟨0, _⟩ => exact Fin.ext e0
  | ⟨1, _⟩ => exact Fin.ext e1

/-- The take at (r, o, f), for an index table below 2048: x at row r and the column the entry (o, f) names. -/
theorem taken_apply (x : FVec Ideal S2048x2048 .f32) (idx : IVec S2048x32 32) (hidx : ∀ i, (idx i).toNat < 2048)
    (r o : Fin 2048) (f : Fin 32) :
    taken (F := Ideal) x idx (ix3 r o f)
      = x (ix2 r ⟨(idx (ix2 o f)).toNat % 2048, Nat.mod_lt _ (by norm_num)⟩) := by
  unfold taken
  rw [select_apply, bcast_rows_apply, mask_apply idx hidx, select_one, gather_apply]
  refine congrArg x (congrArg (ix2 r) (Fin.ext ?_))
  have hlt := hidx (ix2 o f)
  have e := toInt_of_lt _ hlt
  show min (wrapped idx (ix3 o f (0 : Fin 1))).toInt.toNat 2047 = (idx (ix2 o f)).toNat % 2048
  rw [wrapped_apply idx o f 0 hlt, e, Int.toNat_natCast, Nat.mod_eq_of_lt hlt]
  omega

end Take

/-! ### The reference's term is the gathered form -/

section Final
open ValueIdx

/-- The fan-in axis of [2048, 2048, 32] summed away leaves [2048, 2048]. -/
theorem reduces_fanin : S2048x2048x32.Reduces [2] S2048x2048 := by decide

/-- The index over (r, o) with f inserted on the summed axis is (r, o, f). -/
theorem lift_fanin (r o : Fin 2048) (f : Fin 32) : reduces_fanin.lift (ix2 r o) f = ix3 r o f := by
  funext a; refine Fin.ext ?_
  match a with
  | ⟨0, _⟩ => rfl
  | ⟨1, _⟩ => rfl
  | ⟨2, _⟩ => rfl

/-- THE REFERENCE'S TERM IS THE GATHERED FORM, for an index table below 2048: the wrap and the mask are inert, the
    gather reads x at the named column, the sum over the fan-in axis starts from zero, the bias is added per column. -/
theorem refTerm_eq_Gr (x : FVec Ideal S2048x2048 .f32) (idx : IVec S2048x32 32) (w : FVec Ideal S2048x32 .f32)
    (b : FVec Ideal S2048 .f32) (hidx : ∀ i, (idx i).toNat < 2048) :
    refTerm (F := Ideal) x idx w b = Spec.Gr x idx w b := by
  funext i
  obtain ⟨r, o, rfl⟩ : ∃ (r o : Fin 2048), i = ix2 r o := ⟨i 0, i 1, eq_ix2 i⟩
  show refTerm (F := Ideal) x idx w b (ix2 r o)
    = (∑ f : Fin 32, w (ix2 o f) * x (ix2 r ⟨(idx (ix2 o f)).toNat % 2048, Nat.mod_lt _ (by norm_num)⟩)) + b (ix1 o)
  unfold refTerm
  rw [addf_apply, bcast_b_apply]
  congr 1
  show Ideal.hostReduceAdd reducesTo_S2048x2048x32_S2048x2048_d2 _ (Ideal.ofBits .f32 0x00000000#32) (ix2 r o) = _
  rw [Ideal.hostReduceAdd_single _ reduces_fanin, Ideal.ofBits_zero_f32, zero_add]
  refine Finset.sum_congr rfl fun (f : Fin 32) _ => ?_
  rw [lift_fanin r o f, mulf_apply, bcast_w_apply, taken_apply x idx hidx]

end Final
/-! ## The reference's run

The reference's @main is a straight line once the two module-local functions it calls are unfolded at their call
sites: thirty-one operations, the first twenty-three the index wrap, the range mask, the gather and the masked
select of the take, the last eight the product with the weights, the sum over the fan-in axis and the bias. -/

section Run
variable {F : FTy → Type} [FloatOps F]

/-- @main's 31 operations, in order, the callees' operations inline over the call's buffers. -/
abbrev ops : List (HloOp τ sig (Elt F)) :=
  [ TRef.nullary main_call0.c (constantI S_ 32 0#32),
    TRef.unary main_call0.c main_call0.v0 (broadcastInDim S2048x32 ![] bcast_S_S2048x32),
    TRef.binary (.of main_arg1) main_call0.v0 main_call0.v1 (cmpi .slt),
    TRef.nullary main_call0.c_0 (constantI S_ 32 2048#32),
    TRef.unary main_call0.c_0 main_call0.v2 (broadcastInDim S2048x32 ![] bcast_S_S2048x32),
    TRef.binary (.of main_arg1) main_call0.v2 main_call0.v3 addi,
    TRef.ternary main_call0.v1 main_call0.v3 (.of main_arg1) main_call0.call0.v0 select,
    TRef.unary main_call0.call0.v0 main_call0.v5 (broadcastInDim S2048x32x1 ![0, 1] bcast_S2048x32_S2048x32x1_0_1),
    TRef.nullary main_call0.c_1 (constantI S1 32 2047#32),
    TRef.nullary main_call0.c_2 (constantI S_ 32 0#32),
    TRef.unary main_call0.c_2 main_call0.v6 (broadcastInDim S2048x32x1 ![] bcast_S_S2048x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x32x1 ![0, 1, 2] bcast_S1x1x1_S2048x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x32x1_S2048x32_d2 h_S_),
    TRef.binary (.of main_arg0) main_call0.v5 main_call0.v13 (fun x i => Host.gather gather_S2048x2048_S2048x32x1_S2048x2048x32_0_1_n_n_1_2_20481 x i),
    TRef.unary main_call0.v12 main_call0.v14 (broadcastInDim S2048x2048x32 ![1, 2] bcast_S2048x32_S2048x2048x32_1_2),
    TRef.nullary main_call0.cst (constant S_ .f32 0x7FC00000#32),
    TRef.unary main_call0.cst main_call0.v15 (broadcastInDim S2048x2048x32 ![] bcast_S_S2048x2048x32),
    TRef.ternary main_call0.v14 main_call0.v13 main_call0.v15 main_call0.v16 select,
    unary main_arg2 main_v1 (broadcastInDim S1x2048x32 ![1, 2] bcast_S2048x32_S1x2048x32_1_2 : (⟨S2048x32, .f32⟩ : BufTy).Contents (Elt F) → (⟨S1x2048x32, .f32⟩ : BufTy).Contents (Elt F)),
    unary main_v1 main_v2 (broadcastInDim S2048x2048x32 ![0, 1, 2] bcast_S1x2048x32_S2048x2048x32_0_1_2 : (⟨S1x2048x32, .f32⟩ : BufTy).Contents (Elt F) → (⟨S2048x2048x32, .f32⟩ : BufTy).Contents (Elt F)),
    binary main_v2 main_v0 main_v3 (mulf : (⟨S2048x2048x32, .f32⟩ : BufTy).Contents (Elt F) → (⟨S2048x2048x32, .f32⟩ : BufTy).Contents (Elt F) → (⟨S2048x2048x32, .f32⟩ : BufTy).Contents (Elt F)),
    nullary main_cst (constant S_ .f32 0x00000000#32),
    binary main_v3 main_cst main_v4 ((fun x v => Host.reduceAdd x v reducesTo_S2048x2048x32_S2048x2048_d2 h_S_) : (⟨S2048x2048x32, .f32⟩ : BufTy).Contents (Elt F) → (⟨S_, .f32⟩ : BufTy).Contents (Elt F) → (⟨S2048x2048, .f32⟩ : BufTy).Contents (Elt F)),
    unary main_arg3 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S2048x2048 ![0, 1] bcast_S1x2048_S2048x2048_0_1 : (⟨S1x2048, .f32⟩ : BufTy).Contents (Elt F) → (⟨S2048x2048, .f32⟩ : BufTy).Contents (Elt F)),
    binary main_v4 main_v6 main_v7 (addf : (⟨S2048x2048, .f32⟩ : BufTy).Contents (Elt F) → (⟨S2048x2048, .f32⟩ : BufTy).Contents (Elt F) → (⟨S2048x2048, .f32⟩ : BufTy).Contents (Elt F)) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    unary_bufs_sub .., binary_bufs_sub ..⟩

/-- Every weakly fair execution of @main terminates, and every final state has each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

/-! ## The fold read back, in four stages

The result buffer's term uses the wrapped index table three times (two comparisons and the gather), so the fold is read
back stage by stage, each stage a function of the buffers the one before it left. -/

section Stages
variable {F : FTy → Type} [FloatOps F]

/-- Operations 1–8: the index table wrapped and a unit axis appended. -/
abbrev opsIdx : List (HloOp τ sig (Elt F)) :=
  [ TRef.nullary main_call0.c (constantI S_ 32 0#32),
    TRef.unary main_call0.c main_call0.v0 (broadcastInDim S2048x32 ![] bcast_S_S2048x32),
    TRef.binary (.of main_arg1) main_call0.v0 main_call0.v1 (cmpi .slt),
    TRef.nullary main_call0.c_0 (constantI S_ 32 2048#32),
    TRef.unary main_call0.c_0 main_call0.v2 (broadcastInDim S2048x32 ![] bcast_S_S2048x32),
    TRef.binary (.of main_arg1) main_call0.v2 main_call0.v3 addi,
    TRef.ternary main_call0.v1 main_call0.v3 (.of main_arg1) main_call0.call0.v0 select,
    TRef.unary main_call0.call0.v0 main_call0.v5 (broadcastInDim S2048x32x1 ![0, 1] bcast_S2048x32_S2048x32x1_0_1) ]

/-- Operations 9–18: the range mask of the wrapped table. -/
abbrev opsMask : List (HloOp τ sig (Elt F)) :=
  [ TRef.nullary main_call0.c_1 (constantI S1 32 2047#32),
    TRef.nullary main_call0.c_2 (constantI S_ 32 0#32),
    TRef.unary main_call0.c_2 main_call0.v6 (broadcastInDim S2048x32x1 ![] bcast_S_S2048x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x32x1 ![0, 1, 2] bcast_S1x1x1_S2048x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x32x1_S2048x32_d2 h_S_) ]

/-- Operations 19–23: the gather, and the select between it and the fill value under the mask. -/
abbrev opsSel : List (HloOp τ sig (Elt F)) :=
  [ TRef.binary (.of main_arg0) main_call0.v5 main_call0.v13 (fun x i => Host.gather gather_S2048x2048_S2048x32x1_S2048x2048x32_0_1_n_n_1_2_20481 x i),
    TRef.unary main_call0.v12 main_call0.v14 (broadcastInDim S2048x2048x32 ![1, 2] bcast_S2048x32_S2048x2048x32_1_2),
    TRef.nullary main_call0.cst (constant S_ .f32 0x7FC00000#32),
    TRef.unary main_call0.cst main_call0.v15 (broadcastInDim S2048x2048x32 ![] bcast_S_S2048x2048x32),
    TRef.ternary main_call0.v14 main_call0.v13 main_call0.v15 main_call0.v16 select ]

/-- Operations 24–31: the product with the weights, the sum over the fan-in axis, the bias. -/
abbrev opsMain : List (HloOp τ sig (Elt F)) :=
  [ unary main_arg2 main_v1 (broadcastInDim S1x2048x32 ![1, 2] bcast_S2048x32_S1x2048x32_1_2 : (⟨S2048x32, .f32⟩ : BufTy).Contents (Elt F) → (⟨S1x2048x32, .f32⟩ : BufTy).Contents (Elt F)),
    unary main_v1 main_v2 (broadcastInDim S2048x2048x32 ![0, 1, 2] bcast_S1x2048x32_S2048x2048x32_0_1_2 : (⟨S1x2048x32, .f32⟩ : BufTy).Contents (Elt F) → (⟨S2048x2048x32, .f32⟩ : BufTy).Contents (Elt F)),
    binary main_v2 main_v0 main_v3 (mulf : (⟨S2048x2048x32, .f32⟩ : BufTy).Contents (Elt F) → (⟨S2048x2048x32, .f32⟩ : BufTy).Contents (Elt F) → (⟨S2048x2048x32, .f32⟩ : BufTy).Contents (Elt F)),
    nullary main_cst (constant S_ .f32 0x00000000#32),
    binary main_v3 main_cst main_v4 ((fun x v => Host.reduceAdd x v reducesTo_S2048x2048x32_S2048x2048_d2 h_S_) : (⟨S2048x2048x32, .f32⟩ : BufTy).Contents (Elt F) → (⟨S_, .f32⟩ : BufTy).Contents (Elt F) → (⟨S2048x2048, .f32⟩ : BufTy).Contents (Elt F)),
    unary main_arg3 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S2048x2048 ![0, 1] bcast_S1x2048_S2048x2048_0_1 : (⟨S1x2048, .f32⟩ : BufTy).Contents (Elt F) → (⟨S2048x2048, .f32⟩ : BufTy).Contents (Elt F)),
    binary main_v4 main_v6 main_v7 (addf : (⟨S2048x2048, .f32⟩ : BufTy).Contents (Elt F) → (⟨S2048x2048, .f32⟩ : BufTy).Contents (Elt F) → (⟨S2048x2048, .f32⟩ : BufTy).Contents (Elt F)) ]

theorem ops_split : (ops : List (HloOp τ sig (Elt F))) = opsIdx ++ (opsMask ++ (opsSel ++ opsMain)) := rfl

/-- The fold over two lines run one after the other is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (V : Valuation τ sig (Elt F))

/-! ### Stage 1 -/
theorem idx_v5 : after opsIdx V (main_call0_v5 : DevRef τ sig) = wrapped (V (main_arg1 : DevRef τ sig)) := by
  unfold wrapped
  after_results
  rfl
theorem idx_arg0 : after opsIdx V (main_arg0 : DevRef τ sig) = V (main_arg0 : DevRef τ sig) := by after_results
theorem idx_arg2 : after opsIdx V (main_arg2 : DevRef τ sig) = V (main_arg2 : DevRef τ sig) := by after_results
theorem idx_arg3 : after opsIdx V (main_arg3 : DevRef τ sig) = V (main_arg3 : DevRef τ sig) := by after_results

/-! ### Stage 2 -/
-- the reduce is kept folded: the equation never looks inside it
attribute [local irreducible] Host.reduce in
theorem mask_v12 : after opsMask V (main_call0_v12 : DevRef τ sig)
    = Host.reduce IntOp.andi
        (andi (cmpi .sge (V (main_call0_v5 : DevRef τ sig)) (broadcastInDim S2048x32x1 ![] bcast_S_S2048x32x1 (constantI S_ 32 0#32)))
          (cmpi .sle (V (main_call0_v5 : DevRef τ sig)) (broadcastInDim S2048x32x1 ![0, 1, 2] bcast_S1x1x1_S2048x32x1_0_1_2
            (broadcastInDim S1x1x1 ![2] bcast_S1_S1x1x1_2 (constantI S1 32 2047#32)))))
        (constantI S_ 1 1#1) reducesTo_S2048x32x1_S2048x32_d2 h_S_ := by
  after_results
  rfl
theorem mask_v5 : after opsMask V (main_call0_v5 : DevRef τ sig) = V (main_call0_v5 : DevRef τ sig) := by after_results
theorem mask_arg0 : after opsMask V (main_arg0 : DevRef τ sig) = V (main_arg0 : DevRef τ sig) := by after_results
theorem mask_arg2 : after opsMask V (main_arg2 : DevRef τ sig) = V (main_arg2 : DevRef τ sig) := by after_results
theorem mask_arg3 : after opsMask V (main_arg3 : DevRef τ sig) = V (main_arg3 : DevRef τ sig) := by after_results

/-! ### Stage 3 -/
theorem sel_v0 : after opsSel V (main_v0 : DevRef τ sig)
    = select (broadcastInDim S2048x2048x32 ![1, 2] bcast_S2048x32_S2048x2048x32_1_2 (V (main_call0_v12 : DevRef τ sig)))
        (Host.gather gatherD (V (main_arg0 : DevRef τ sig)) (V (main_call0_v5 : DevRef τ sig)))
        (broadcastInDim S2048x2048x32 ![] bcast_S_S2048x2048x32 (constant (F := F) S_ .f32 0x7FC00000#32)) := by
  after_results
  rfl
theorem sel_arg2 : after opsSel V (main_arg2 : DevRef τ sig) = V (main_arg2 : DevRef τ sig) := by after_results
theorem sel_arg3 : after opsSel V (main_arg3 : DevRef τ sig) = V (main_arg3 : DevRef τ sig) := by after_results

/-! ### Stage 4 -/
theorem main_v7_eq : after opsMain V (main_v7 : DevRef τ sig)
    = addf
        (Host.reduceAdd (F := F)
          (mulf
            (broadcastInDim S2048x2048x32 ![0, 1, 2] bcast_S1x2048x32_S2048x2048x32_0_1_2
              (broadcastInDim S1x2048x32 ![1, 2] bcast_S2048x32_S1x2048x32_1_2 (V (main_arg2 : DevRef τ sig))))
            (V (main_v0 : DevRef τ sig)))
          (constant (F := F) S_ .f32 0x00000000#32) reducesTo_S2048x2048x32_S2048x2048_d2 h_S_)
        (broadcastInDim S2048x2048 ![0, 1] bcast_S1x2048_S2048x2048_0_1
          (broadcastInDim S1x2048 ![1] bcast_S2048_S1x2048_1 (V (main_arg3 : DevRef τ sig)))) := by
  after_results

/-- The fold at the result buffer is the reference's term of the four argument buffers' contents. -/
theorem out_eq : after ops V (main_v7 : DevRef τ sig)
    = refTerm (V (main_arg0 : DevRef τ sig)) (V (main_arg1 : DevRef τ sig)) (V (main_arg2 : DevRef τ sig))
        (V (main_arg3 : DevRef τ sig)) := by
  rw [ops_split, after_app, after_app, after_app, main_v7_eq, sel_v0, sel_arg2, sel_arg3, mask_v12, mask_v5, mask_arg0,
    mask_arg2, mask_arg3, idx_v5, idx_arg0, idx_arg2, idx_arg3]
  rfl

/-- No operation writes an argument buffer. -/
theorem arg0_eq : after ops V (main_arg0 : DevRef τ sig) = V (main_arg0 : DevRef τ sig) := by after_results
theorem arg1_eq : after ops V (main_arg1 : DevRef τ sig) = V (main_arg1 : DevRef τ sig) := by after_results
theorem arg2_eq : after ops V (main_arg2 : DevRef τ sig) = V (main_arg2 : DevRef τ sig) := by after_results
theorem arg3_eq : after ops V (main_arg3 : DevRef τ sig) = V (main_arg3 : DevRef τ sig) := by after_results

end Stages

/-- THE REFERENCE'S RUN: from any memory whose index table is below 2048 everywhere, every weakly fair execution of
    @main terminates with the result buffer at the gathered form of the four arguments, and the arguments unchanged. -/
theorem run (m : (ℓ : Loc nD τ sig) → Buf (Elt Ideal) ℓ) (g : Dev nD → PrngReg)
    (hidx : ∀ (c : Dev nD) (i : S2048x32.Idx), BitVec.toNat (w := 32) (m ((c.tc : Thread nD τ).loc main_arg1) i) < 2048) :
    θ_run (defs (F := Ideal)) (onTc (τ := τ) (main (F := Ideal))) ⟨m, fun _ => 0, g⟩ (fun r => ∀ c : Dev nD,
      r.2.mem ((c.tc : Thread nD τ).loc main_v7)
          = Spec.Gr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v7).trans ((out_eq _).trans (refTerm_eq_Gr _ _ _ _ (hidx c))),
        (h c main_arg0).trans (arg0_eq _), (h c main_arg1).trans (arg1_eq _),
        (h c main_arg2).trans (arg2_eq _), (h c main_arg3).trans (arg3_eq _)⟩)
    (run_main m g)

end Cert.Proof.RefRun

end
-- ==== Proof.Claims.lean ====
/-
  The three frame claims: each program — the kernel at word level, the kernel idealized, the reference
  idealized — runs to its end from any memory satisfying the precondition, nothing faulting, its four
  argument arrays unchanged. The kernels' runs are the SparseCore launch's; the reference's is its
  host program's, read back operation by operation. The precondition enters only through the range
  of the index words.
-/
import proofs.«210207_g17016660427310_cont_sun_m_176_22_alg».proof.Proof.FrameKI
import proofs.«210207_g17016660427310_cont_sun_m_176_22_alg».proof.Proof.FrameKB
import proofs.«210207_g17016660427310_cont_sun_m_176_22_alg».proof.Proof.RefRun
import proofs.«210207_g17016660427310_cont_sun_m_176_22_alg».proof.Proof.Gen.Kernel
import proofs.«210207_g17016660427310_cont_sun_m_176_22_alg».proof.Proof.Gen.KernelIdeal
import proofs.«210207_g17016660427310_cont_sun_m_176_22_alg».proof.Proof.Gen.ReferenceIdeal
import proofs.«210207_g17016660427310_cont_sun_m_176_22_alg».proof.Proof.Gen.Pre_input_domain

noncomputable section

namespace Cert.Proof.Claims

open Idealize.ShloMosaic Idealize.SL.Sem

theorem frame_p : Cert.frame_Kernel := fun m ρ hpre =>
  (θ_run (Cert.Kernel.defs (F := Bits)) _ _).mono (fun _ h c => h c)
    (Cert.Proof.KB.run_frame (F := Bits) m ρ (Cert.Proof.KB.preOK_of_pre m hpre))

theorem frame_pi : Cert.frame_KernelIdeal := fun m ρ hpre =>
  (θ_run (Cert.KernelIdeal.defs (F := Ideal)) _ _).mono (fun _ h c => h c)
    (Cert.Proof.KI.run_frame (F := Ideal) m ρ (Cert.Proof.KI.preOK_of_pre m hpre))

theorem frame_ri : Cert.frame_ReferenceIdeal := fun m ρ hpre =>
  (θ_run (Cert.ReferenceIdeal.defs (F := Ideal)) _ _).mono (fun _ h c => (h c).2)
    (Cert.Proof.RefRun.run m ρ fun c i => Cert.Proof.PreFacts.idx_of_pre (F := Ideal) _ _ _ _ (hpre c) i)

end Cert.Proof.Claims

end
-- ==== Proof.RowsVal.lean ====
/-
  The value form of the split: the tiles hand their result blocks back as pieces of ONE function dv of the whole result
  array, and the way back yields the result array held whole at dv.

  For that the tiles' 64 result blocks must cover the 1024 × 2048 result: tile (c, s)'s two blocks are rows
  [16 b, 16 b + 16) for b = 4 s + 2 c and b = 4 s + 2 c + 1, and every row r below 1024 lies in block r / 16, of tile
  s = r / 64, c = (r / 32) mod 2.
-/
import proofs.«210207_g17016660427310_cont_sun_m_176_22_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) [FloatOps F]

/-! ## The result's blocks cover it -/

section Cover

/-- Row r of the result lies in a block of tile (c, s) = ((r / 32) mod 2, r / 64): the first when (r / 16) mod 2 = 0. -/
theorem coverO0 : (Finset.univ : Finset Tile0).biUnion
    (fun t => rowsOa0 (coordsV0 t.1 t.2) ∪ rowsOb0 (coordsV0 t.1 t.2)) = Finset.univ := by
  ext i
  simp only [Finset.mem_biUnion, Finset.mem_univ, true_and, iff_true, Finset.mem_union]
  have hr : (i 0).val < 1024 := (i 0).isLt
  have hc : (i 1).val < 2048 := (i 1).isLt
  refine ⟨(⟨(i 0).val / 32 % 2, by show (i 0).val / 32 % 2 < 2; omega⟩,
    ⟨(i 0).val / 64, by show (i 0).val / 64 < 16; omega⟩), ?_⟩
  by_cases ht : (i 0).val / 16 % 2 = 0
  · left
    rw [rowsOa0_eq, Rect.mem_set_unit]
    intro a
    rw [k0_off34_eq]
    match a with
    | ⟨0, _⟩ =>
      show 64 * ((i 0).val / 64) + 32 * ((i 0).val / 32 % 2) ≤ (i 0).val
        ∧ (i 0).val < 64 * ((i 0).val / 64) + 32 * ((i 0).val / 32 % 2) + 16
      omega
    | ⟨1, _⟩ =>
      show 0 ≤ (i 1).val ∧ (i 1).val < 0 + 2048
      omega
  · right
    rw [rowsOb0_eq, Rect.mem_set_unit]
    intro a
    rw [off35_0]
    match a with
    | ⟨0, _⟩ =>
      show 64 * ((i 0).val / 64) + 32 * ((i 0).val / 32 % 2) + 16 * 1 ≤ (i 0).val
        ∧ (i 0).val < 64 * ((i 0).val / 64) + 32 * ((i 0).val / 32 % 2) + 16 * 1 + 16
      omega
    | ⟨1, _⟩ =>
      show 0 ≤ (i 1).val ∧ (i 1).val < 0 + 2048
      omega

theorem coverO1 : (Finset.univ : Finset Tile1).biUnion
    (fun t => rowsOa1 (coordsV1 t.1 t.2) ∪ rowsOb1 (coordsV1 t.1 t.2)) = Finset.univ := by
  ext i
  simp only [Finset.mem_biUnion, Finset.mem_univ, true_and, iff_true, Finset.mem_union]
  have hr : (i 0).val < 1024 := (i 0).isLt
  have hc : (i 1).val < 2048 := (i 1).isLt
  refine ⟨(⟨(i 0).val / 32 % 2, by show (i 0).val / 32 % 2 < 2; omega⟩,
    ⟨(i 0).val / 64, by show (i 0).val / 64 < 16; omega⟩), ?_⟩
  by_cases ht : (i 0).val / 16 % 2 = 0
  · left
    rw [rowsOa1_eq, Rect.mem_set_unit]
    intro a
    rw [k1_off34_eq]
    match a with
    | ⟨0, _⟩ =>
      show 64 * ((i 0).val / 64) + 32 * ((i 0).val / 32 % 2) ≤ (i 0).val
        ∧ (i 0).val < 64 * ((i 0).val / 64) + 32 * ((i 0).val / 32 % 2) + 16
      omega
    | ⟨1, _⟩ =>
      show 0 ≤ (i 1).val ∧ (i 1).val < 0 + 2048
      omega
  · right
    rw [rowsOb1_eq, Rect.mem_set_unit]
    intro a
    rw [off35_1]
    match a with
    | ⟨0, _⟩ =>
      show 64 * ((i 0).val / 64) + 32 * ((i 0).val / 32 % 2) + 16 * 1 ≤ (i 0).val
        ∧ (i 0).val < 64 * ((i 0).val / 64) + 32 * ((i 0).val / 32 % 2) + 16 * 1 + 16
      omega
    | ⟨1, _⟩ =>
      show 0 ≤ (i 1).val ∧ (i 1).val < 0 + 2048
      omega

end Cover

/-! ## What a tile hands back, at a function of the whole result -/

/-- A tile's share of the first call after its run: its rows of the index and weight arrays as they were, and its two
    blocks of the first result at the function dv of the whole array. -/
def tileDone0 (d : Dev nD) (dv : Buf (Elt F) (o0Loc d)) (L : grid0.Coords) : sProp 𝕄 :=
  iprop((iLoc d ↦[rowsI0 L]{fullShare} m (iLoc d)) ∗ (wLoc d ↦[rowsI0 L]{fullShare} m (wLoc d))
    ∗ (o0Loc d ↦[rowsOa0 L]{fullShare} dv) ∗ (o0Loc d ↦[rowsOb0 L]{fullShare} dv))
/-- The same for the second call, over the second result. -/
def tileDone1 (d : Dev nD) (dv : Buf (Elt F) (o1Loc d)) (L : grid1.Coords) : sProp 𝕄 :=
  iprop((iLoc d ↦[rowsI1 L]{fullShare} m (iLoc d)) ∗ (wLoc d ↦[rowsI1 L]{fullShare} m (wLoc d))
    ∗ (o1Loc d ↦[rowsOa1 L]{fullShare} dv) ∗ (o1Loc d ↦[rowsOb1 L]{fullShare} dv))

instance tileDone0_storable (d : Dev nD) (dv : Buf (Elt F) (o0Loc d)) (L : grid0.Coords) :
    BI.Storable (upEmb : UEmb _ 𝕄) (tileDone0 m d dv L) := by
  unfold tileDone0; infer_instance
instance tileDone1_storable (d : Dev nD) (dv : Buf (Elt F) (o1Loc d)) (L : grid1.Coords) :
    BI.Storable (upEmb : UEmb _ 𝕄) (tileDone1 m d dv L) := by
  unfold tileDone1; infer_instance

/-! ## The split with the third array coming back at one function -/

section Generic
variable {T : Type} [Fintype T] [DecidableEq T]

omit [FloatOps F] in
/-- The tiles' pieces of the third array, all at one function dv and covering the array, are the array at dv. -/
theorem third_join_val (ℓo : Loc nD τ sig) (dv : Buf (Elt F) ℓo) (KA KB : T → Finset (Idx ℓo))
    (hO : ∀ t ∈ (Finset.univ : Finset T), ∀ t' ∈ (Finset.univ : Finset T), t ≠ t' → Disjoint (KA t ∪ KB t) (KA t' ∪ KB t'))
    (hAB : ∀ t, Disjoint (KA t) (KB t))
    (hcov : (Finset.univ : Finset T).biUnion (fun t => KA t ∪ KB t) = Finset.univ) :
    iprop((bigSep Finset.univ fun t : T => (ℓo ↦[KA t]{fullShare} dv : sProp 𝕄))
        ∗ (bigSep Finset.univ fun t : T => (ℓo ↦[KB t]{fullShare} dv : sProp 𝕄)))
      ⊢ (ℓo ↦{fullShare} dv : sProp 𝕄) := by
  rw [← bigSep_sep']
  refine (bigSep_mono fun t _ => (pointsTo_union (hAB t)).2).trans ?_
  rw [← pointsTo_biUnion Finset.univ (fun t => KA t ∪ KB t) hO, hcov]
  exact .refl _

omit [FloatOps F] in
/-- THE SPLIT, VALUE FORM, for any finite family of tiles whose pieces of the third array cover it. -/
theorem split_tiles_val (ℓi ℓw ℓo : Loc nD τ sig) (fi : Buf (Elt F) ℓi) (fw : Buf (Elt F) ℓw) (dv : Buf (Elt F) ℓo)
    (KI : T → Finset (Idx ℓi)) (KW : T → Finset (Idx ℓw)) (KA KB : T → Finset (Idx ℓo))
    (hI : ∀ t ∈ (Finset.univ : Finset T), ∀ t' ∈ (Finset.univ : Finset T), t ≠ t' → Disjoint (KI t) (KI t'))
    (hW : ∀ t ∈ (Finset.univ : Finset T), ∀ t' ∈ (Finset.univ : Finset T), t ≠ t' → Disjoint (KW t) (KW t'))
    (hO : ∀ t ∈ (Finset.univ : Finset T), ∀ t' ∈ (Finset.univ : Finset T), t ≠ t' → Disjoint (KA t ∪ KB t) (KA t' ∪ KB t'))
    (hAB : ∀ t, Disjoint (KA t) (KB t))
    (hcov : (Finset.univ : Finset T).biUnion (fun t => KA t ∪ KB t) = Finset.univ) :
    iprop((ℓi ↦{fullShare} fi) ∗ (ℓw ↦{fullShare} fw) ∗ (∃ f, ℓo ↦{fullShare} f)) ⊢
      (iprop((bigSep Finset.univ fun t : T => iprop((ℓi ↦[KI t]{fullShare} fi) ∗ (ℓw ↦[KW t]{fullShare} fw)
              ∗ (∃ fa, ℓo ↦[KA t]{fullShare} fa) ∗ (∃ fb, ℓo ↦[KB t]{fullShare} fb)))
          ∗ ((bigSep Finset.univ fun t : T => iprop((ℓi ↦[KI t]{fullShare} fi) ∗ (ℓw ↦[KW t]{fullShare} fw)
              ∗ (ℓo ↦[KA t]{fullShare} dv) ∗ (ℓo ↦[KB t]{fullShare} dv)))
            -∗ iprop((ℓi ↦{fullShare} fi) ∗ (ℓw ↦{fullShare} fw) ∗ (ℓo ↦{fullShare} dv)))) : sProp 𝕄) := by
  simp only [bigSep_sep']
  rw [← pointsTo_biUnion Finset.univ KI hI, ← pointsTo_biUnion Finset.univ KW hW]
  iintro ⟨Hi, Hw, ⟨%f, Ho⟩⟩
  ihave Hi2 := (pointsTo_split_subset (Finset.subset_univ (Finset.univ.biUnion KI))).1 $$ Hi
  icases Hi2 with ⟨HiU, HiR⟩
  ihave Hw2 := (pointsTo_split_subset (Finset.subset_univ (Finset.univ.biUnion KW))).1 $$ Hw
  icases Hw2 with ⟨HwU, HwR⟩
  ihave HoU := (Entails.of_eq (congrArg (fun S => (ℓo ↦[S]{fullShare} f : sProp 𝕄)) hcov.symm)) $$ Ho
  ihave Ho3 := (third_split ℓo f KA KB hO hAB) $$ HoU
  icases Ho3 with ⟨HoA, HoB⟩
  isplitl [HiU HwU HoA HoB]
  · isplitl [HiU]
    · iexact HiU
    isplitl [HwU]
    · iexact HwU
    isplitl [HoA]
    · iexact HoA
    · iexact HoB
  iintro ⟨HiU, HwU, HoA, HoB⟩
  isplitl [HiU HiR]
  · iapply (pointsTo_split_subset (Finset.subset_univ (Finset.univ.biUnion KI))).2
    isplitl [HiU]
    · iexact HiU
    · iexact HiR
  isplitl [HwU HwR]
  · iapply (pointsTo_split_subset (Finset.subset_univ (Finset.univ.biUnion KW))).2
    isplitl [HwU]
    · iexact HwU
    · iexact HwR
  iapply (third_join_val ℓo dv KA KB hO hAB hcov)
  isplitl [HoA]
  · iexact HoA
  · iexact HoB

end Generic

/-! ## The two calls -/

/-- The first call, value form: the way back takes the tiles' result blocks at one function dv of the whole first
    result and yields that array held whole at dv. -/
theorem call0_split_val (d : Dev nD) (dv : Buf (Elt F) (o0Loc d)) :
    iprop((iLoc d ↦{fullShare} m (iLoc d)) ∗ (wLoc d ↦{fullShare} m (wLoc d)) ∗ (∃ f, o0Loc d ↦{fullShare} f)) ⊢
      (iprop((bigSep Finset.univ fun c : Fin (grid0.bound 0) => bigSep Finset.univ fun s : Fin (grid0.bound 1) =>
            tileRes0 m d (coordsV0 c s))
          ∗ ((bigSep Finset.univ fun c : Fin (grid0.bound 0) => bigSep Finset.univ fun s : Fin (grid0.bound 1) =>
              tileDone0 m d dv (coordsV0 c s))
            -∗ iprop((iLoc d ↦{fullShare} m (iLoc d)) ∗ (wLoc d ↦{fullShare} m (wLoc d))
                ∗ (o0Loc d ↦{fullShare} dv)))) : sProp 𝕄) := by
  have e : (bigSep Finset.univ fun c : Fin (grid0.bound 0) => bigSep Finset.univ fun s : Fin (grid0.bound 1) =>
        tileRes0 m d (coordsV0 c s))
      = bigSep Finset.univ fun t : Tile0 => tileRes0 m d (coordsV0 t.1 t.2) :=
    (bigSep_univ_prod (fun t : Tile0 => tileRes0 m d (coordsV0 t.1 t.2))).symm
  have e' : (bigSep Finset.univ fun c : Fin (grid0.bound 0) => bigSep Finset.univ fun s : Fin (grid0.bound 1) =>
        tileDone0 m d dv (coordsV0 c s))
      = bigSep Finset.univ fun t : Tile0 => tileDone0 m d dv (coordsV0 t.1 t.2) :=
    (bigSep_univ_prod (fun t : Tile0 => tileDone0 m d dv (coordsV0 t.1 t.2))).symm
  rw [e, e']
  exact split_tiles_val (T := Tile0) (iLoc d) (wLoc d) (o0Loc d) (m (iLoc d)) (m (wLoc d)) dv
    (fun t => rowsI0 (coordsV0 t.1 t.2)) (fun t => rowsI0 (coordsV0 t.1 t.2))
    (fun t => rowsOa0 (coordsV0 t.1 t.2)) (fun t => rowsOb0 (coordsV0 t.1 t.2))
    (fun t _ t' _ h => disjI0 t t' h) (fun t _ t' _ h => disjI0 t t' h) (fun t _ t' _ h => disjO0 t t' h)
    (fun t => disjAB0 (coordsV0 t.1 t.2)) coverO0

/-- The second call, value form. -/
theorem call1_split_val (d : Dev nD) (dv : Buf (Elt F) (o1Loc d)) :
    iprop((iLoc d ↦{fullShare} m (iLoc d)) ∗ (wLoc d ↦{fullShare} m (wLoc d)) ∗ (∃ f, o1Loc d ↦{fullShare} f)) ⊢
      (iprop((bigSep Finset.univ fun c : Fin (grid1.bound 0) => bigSep Finset.univ fun s : Fin (grid1.bound 1) =>
            tileRes1 m d (coordsV1 c s))
          ∗ ((bigSep Finset.univ fun c : Fin (grid1.bound 0) => bigSep Finset.univ fun s : Fin (grid1.bound 1) =>
              tileDone1 m d dv (coordsV1 c s))
            -∗ iprop((iLoc d ↦{fullShare} m (iLoc d)) ∗ (wLoc d ↦{fullShare} m (wLoc d))
                ∗ (o1Loc d ↦{fullShare} dv)))) : sProp 𝕄) := by
  have e : (bigSep Finset.univ fun c : Fin (grid1.bound 0) => bigSep Finset.univ fun s : Fin (grid1.bound 1) =>
        tileRes1 m d (coordsV1 c s))
      = bigSep Finset.univ fun t : Tile1 => tileRes1 m d (coordsV1 t.1 t.2) :=
    (bigSep_univ_prod (fun t : Tile1 => tileRes1 m d (coordsV1 t.1 t.2))).symm
  have e' : (bigSep Finset.univ fun c : Fin (grid1.bound 0) => bigSep Finset.univ fun s : Fin (grid1.bound 1) =>
        tileDone1 m d dv (coordsV1 c s))
      = bigSep Finset.univ fun t : Tile1 => tileDone1 m d dv (coordsV1 t.1 t.2) :=
    (bigSep_univ_prod (fun t : Tile1 => tileDone1 m d dv (coordsV1 t.1 t.2))).symm
  rw [e, e']
  exact split_tiles_val (T := Tile1) (iLoc d) (wLoc d) (o1Loc d) (m (iLoc d)) (m (wLoc d)) dv
    (fun t => rowsI1 (coordsV1 t.1 t.2)) (fun t => rowsI1 (coordsV1 t.1 t.2))
    (fun t => rowsOa1 (coordsV1 t.1 t.2)) (fun t => rowsOb1 (coordsV1 t.1 t.2))
    (fun t _ t' _ h => disjI1 t t' h) (fun t _ t' _ h => disjI1 t t' h) (fun t _ t' _ h => disjO1 t t' h)
    (fun t => disjAB1 (coordsV1 t.1 t.2)) coverO1

end Cert.Proof.KI

end
-- ==== Proof.LaunchKV.lean ====
/-
  The launch of the idealized kernel's program, carrying values: each SparseCore call hands its tiles their shares and
  takes their result blocks back as pieces of ONE function of the whole result array, so that after the two calls the
  two result arrays are held whole at those functions and @main's tail runs from them.
-/
import proofs.«210207_g17016660427310_cont_sun_m_176_22_alg».proof.Proof.LaunchKI
import proofs.«210207_g17016660427310_cont_sun_m_176_22_alg».proof.Proof.RowsVal

noncomputable section

namespace Cert.Proof.KV

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KI

variable {F : FTy → Type}

local notation "𝕄" => MT nD τ sig (HIx 2) (Elt F) ℕ UU ℕ

variable (m : (ℓ : Loc nD τ sig) → Buf (Elt F) ℓ) (ρ : Dev nD → PrngReg)
variable [FloatOps F]
/- The functions of the whole result arrays the tiles' result blocks are pieces of. -/
variable (dv0 : (d : Dev nD) → Buf (Elt F) (o0Loc d)) (dv1 : (d : Dev nD) → Buf (Elt F) (o1Loc d))

/-- What tile (c, s) hands a call back: its share with the result blocks at the whole-array function. -/
def tdF (q : Fin 2) (d : Dev nD) (c : Fin ((K (F := F)).nCore q)) (s : Fin ((K (F := F)).nSub q)) : sProp 𝕄 :=
  match q with
  | 0 => tileDone0 m d (dv0 d) (coordsV0 c s)
  | 1 => tileDone1 m d (dv1 d) (coordsV1 c s)

instance tdF_storable (q : Fin 2) (d : Dev nD) (c : Fin ((K (F := F)).nCore q)) (s : Fin ((K (F := F)).nSub q)) :
    BI.Storable (upEmb : UEmb _ 𝕄) (tdF m dv0 dv1 q d c s) :=
  match q with
  | 0 => tileDone0_storable m d _ _
  | 1 => tileDone1_storable m d _ _

/-- Each call hands a SparseCore the shares of its sixteen tiles and takes back what they hand back. -/
def P : (K (F := F)).Pay (nD := nD) (Val := Elt F) (Name := ℕ) (U := UU) where
  st := fun q d c => bigSep Finset.univ fun s => goF m q d c s
  dn := fun q d c => bigSep Finset.univ fun s => tdF m dv0 dv1 q d c s
  go := goF m
  td := tdF m dv0 dv1
  x := fun _ _ => iprop(emp)

instance P_storable : (P (F := F) m dv0 dv1).IsStorable where
  st q d c := (inferInstance : BI.Storable (upEmb : UEmb _ 𝕄) (bigSep Finset.univ fun s => goF m q d c s))
  dn q d c := (inferInstance : BI.Storable (upEmb : UEmb _ 𝕄) (bigSep Finset.univ fun s => tdF m dv0 dv1 q d c s))
  go q d c s := goF_storable m q d c s
  td q d c s := tdF_storable m dv0 dv1 q d c s

/-- A call's operands for one SparseCore ARE its tiles' shares, and what it takes back IS what they hand back. -/
theorem vecSplit (q : Fin 2) : (K (F := F)).VecSplit' (P m dv0 dv1) q := by
  intro d c
  show (bigSep Finset.univ fun s => goF m q d c s) ⊢ |={Set.univ}=> iprop((bigSep Finset.univ fun s => goF m q d c s)
    ∗ ((bigSep Finset.univ fun s => tdF m dv0 dv1 q d c s) -∗ bigSep Finset.univ fun s => tdF m dv0 dv1 q d c s))
  iintro H; imodintro
  isplitl [H]; · iexact H
  iintro H; iexact H

/-! ## The tiles' obligations -/

/-- One tile's task of the first call, at a symbolic place, with its value: from the tile's share at the launch
    contents (the two result blocks at anything) and the tile's scoped storage, the body runs to its end, giving the
    index and weight rows back as they were and the two result blocks at the function dv0 of the whole first result. -/
def TileBody0V : Prop :=
  ∀ (d : Dev nD) (L : grid0.Coords) (O : CellTallies nD τ sig (HIx 2)) (W : Waits sig (HIx 2)), (∀ g, O g none = 0) →
    (iprop(levAts (K (F := F)).L (K (F := F)).lev ∗ (iLoc d ↦[rowsI0 L]{fullShare} m (iLoc d)) ∗ (wLoc d ↦[rowsI0 L]{fullShare} m (wLoc d))
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1)
          fun _ => iprop((iLoc d ↦[rowsI0 L]{fullShare} m (iLoc d)) ∗ (wLoc d ↦[rowsI0 L]{fullShare} m (wLoc d))
            ∗ (o0Loc d ↦[rowsOa0 L]{fullShare} dv0 d) ∗ (o0Loc d ↦[rowsOb0 L]{fullShare} dv0 d)
            ∗ scopedBufs (V d (cV L) (jV L)) ∗ scopedSems0 (V d (cV L) (jV L))
            ∗ ∃ W', ⌜∀ p ∈ W', p ∈ W ∨ p.2 = none⌝ ∗ owes (V d (cV L) (jV L)) O W')

/-- The same for the second call, over the second result. -/
def TileBody1V : Prop :=
  ∀ (d : Dev nD) (L : grid1.Coords) (O : CellTallies nD τ sig (HIx 2)) (W : Waits sig (HIx 2)), (∀ g, O g none = 0) →
    (iprop(levAts (K (F := F)).L (K (F := F)).lev ∗ (iLoc d ↦[rowsI1 L]{fullShare} m (iLoc d)) ∗ (wLoc d ↦[rowsI1 L]{fullShare} m (wLoc d))
        ∗ (∃ fa, o1Loc d ↦[rowsOa1 L]{fullShare} fa) ∗ (∃ fb, o1Loc d ↦[rowsOb1 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L iV (Memref.isWhole_whole _) wV (Memref.isWhole_whole _) o1V (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1)
          fun _ => iprop((iLoc d ↦[rowsI1 L]{fullShare} m (iLoc d)) ∗ (wLoc d ↦[rowsI1 L]{fullShare} m (wLoc d))
            ∗ (o1Loc d ↦[rowsOa1 L]{fullShare} dv1 d) ∗ (o1Loc d ↦[rowsOb1 L]{fullShare} dv1 d)
            ∗ scopedBufs (V d (cV L) (jV L)) ∗ scopedSems0 (V d (cV L) (jV L))
            ∗ ∃ W', ⌜∀ p ∈ W', p ∈ W ∨ p.2 = none⌝ ∗ owes (V d (cV L) (jV L)) O W')

theorem tileObl0 (hb : TileBody0V (F := F) m dv0) : (K (F := F)).TileObl (D (F := F)) 𝒱 (P m dv0 dv1) v₀ 0 := by
  intro d c i O W hO _ _
  simp only [show (P m dv0 dv1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  refine BI.Entails.trans ?_ ((hb d (coordsV0 ⟨_, hc.1⟩ ⟨_, hc.2⟩) O W hO).trans
    (wp_mono frame _ _ fun _ => obl_post))
  show iprop(_ ∗ iprop(emp) ∗ tileRes0 m d _ ∗ _) ⊢ _
  unfold tileRes0
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

theorem tileObl1 (hb : TileBody1V (F := F) m dv1) : (K (F := F)).TileObl (D (F := F)) 𝒱 (P m dv0 dv1) v₀ 1 := by
  intro d c i O W hO _ _
  simp only [show (P m dv0 dv1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  refine BI.Entails.trans ?_ ((hb d (coordsV1 ⟨_, hc.1⟩ ⟨_, hc.2⟩) O W hO).trans
    (wp_mono frame _ _ fun _ => obl_post))
  show iprop(_ ∗ iprop(emp) ∗ tileRes1 m d _ ∗ _) ⊢ _
  unfold tileRes1
  iintro ⟨Hlv, -, ⟨H1, H2, H3, H4⟩, Hsb, Hss, HO⟩
  isplitl [Hlv]; · iexact Hlv
  isplitl [H1]; · iexact H1
  isplitl [H2]; · iexact H2
  isplitl [H3]; · iexact H3
  isplitl [H4]; · iexact H4
  isplitl [Hsb]; · iexact Hsb
  isplitl [Hss]; · iexact Hss
  iexact HO

/-! ## @main on the TensorCore -/

/-- The launch element, for this payload: nothing but what the handshakes and the pipelines take. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m dv0 dv1).x q thr) :=
  Cert.Proof.KI.hu₀ m

/-- The value form of the split of the whole index, weight and result arrays into one call's tiles' shares: the way
    back takes the result blocks at the whole-array function and yields the result array held whole at it. -/
def CallSplit0V : Prop := ∀ d : Dev nD,
  iprop((iLoc d ↦{fullShare} m (iLoc d)) ∗ (wLoc d ↦{fullShare} m (wLoc d)) ∗ (∃ f, o0Loc d ↦{fullShare} f))
    ⊢ (iprop((bigSep Finset.univ fun c : Fin (grid0.bound 0) => bigSep Finset.univ fun s : Fin (grid0.bound 1) => tileRes0 m d (coordsV0 c s))
        ∗ ((bigSep Finset.univ fun c : Fin (grid0.bound 0) => bigSep Finset.univ fun s : Fin (grid0.bound 1) => tileDone0 m d (dv0 d) (coordsV0 c s))
            -∗ iprop((iLoc d ↦{fullShare} m (iLoc d)) ∗ (wLoc d ↦{fullShare} m (wLoc d)) ∗ (o0Loc d ↦{fullShare} dv0 d)))) : sProp 𝕄)
def CallSplit1V : Prop := ∀ d : Dev nD,
  iprop((iLoc d ↦{fullShare} m (iLoc d)) ∗ (wLoc d ↦{fullShare} m (wLoc d)) ∗ (∃ f, o1Loc d ↦{fullShare} f))
    ⊢ (iprop((bigSep Finset.univ fun c : Fin (grid1.bound 0) => bigSep Finset.univ fun s : Fin (grid1.bound 1) => tileRes1 m d (coordsV1 c s))
        ∗ ((bigSep Finset.univ fun c : Fin (grid1.bound 0) => bigSep Finset.univ fun s : Fin (grid1.bound 1) => tileDone1 m d (dv1 d) (coordsV1 c s))
            -∗ iprop((iLoc d ↦{fullShare} m (iLoc d)) ∗ (wLoc d ↦{fullShare} m (wLoc d)) ∗ (o1Loc d ↦{fullShare} dv1 d)))) : sProp 𝕄)

/-- The run of @main's tail on the TensorCore, from every unscoped array at the contents the two calls left — the two
    results at dv0 and dv1: under any continuation it ends holding `FIN d` and owing nothing. -/
def TailRun (FIN : Dev nD → sProp 𝕄) : Prop :=
  ∀ (d : Dev nD) (Q : PUnit → sProp 𝕄),
    iprop((iprop(FIN d ∗ ∃ W, owes (SparseCore.T d) (0 : CellTallies nD τ sig (HIx 2)) W) -∗ Q ⟨⟩)
        ∗ levAts (K (F := F)).L (K (F := F)).lev ∗ boundary (SparseCore.T d) ∗ held (SparseCore.T d) (Pipeline.ucRefs τ sig) (Wc m d (dv0 d) (dv1 d))
        ∗ (∃ r, prngReg d r) ∗ (∃ W, owes (SparseCore.T d) (0 : CellTallies nD τ sig (HIx 2)) W) ∗ G (F := F) d)
      ⊢ wp frame (wpE (D (F := F)) 𝒱 (SparseCore.T d) none) Set.univ (tailP (F := F)) Q

/-- What a call hands back for its SparseCores, in the split lemmas' spelling. -/
theorem dn0_eq (d : Dev nD) : (bigSep Finset.univ fun c : Fin ((K (F := F)).nCore 0) => (P m dv0 dv1).dn 0 d c)
    = (bigSep Finset.univ fun c : Fin (grid0.bound 0) => bigSep Finset.univ fun s : Fin (grid0.bound 1) => tileDone0 m d (dv0 d) (coordsV0 c s) : sProp 𝕄) := rfl
theorem dn1_eq (d : Dev nD) : (bigSep Finset.univ fun c : Fin ((K (F := F)).nCore 1) => (P m dv0 dv1).dn 1 d c)
    = (bigSep Finset.univ fun c : Fin (grid1.bound 0) => bigSep Finset.univ fun s : Fin (grid1.bound 1) => tileDone1 m d (dv1 d) (coordsV1 c s) : sProp 𝕄) := rfl

theorem hmain (hs0 : CallSplit0V m dv0) (hs1 : CallSplit1V m dv1) (FIN : Dev nD → sProp 𝕄) (ht : TailRun m dv0 dv1 FIN) (κ : GSem nD τ sig → ℕ) (d : Dev nD) :
    iprop((K (F := F)).ctx EH (P m dv0 dv1) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN d) := by
  unfold SparseCore.Cfg.tcRes
  rw [unscoped_held,
    StableHlo.held_sub_split (SparseCore.T d) T4_sub, held_T4, main_eq_tail]
  simp only [wp_bind]
  iintro ⟨#Hctx, Hst, ⟨Hb, ⟨⟨Hi, Hw, Ho0, Ho1⟩, Hrest⟩, -, Hp⟩, HG⟩
  ihave Hlev := ((K (F := F)).ctx_levAts κ) $$ Hctx
  -- the first call: the index and weight rows and the first result's blocks to the tiles, and back at dv0
  ihave Hsp := (hs0 d) $$ [Hi Hw Ho0]
  · isplitl [Hi]; · iexact Hi
    isplitl [Hw]; · iexact Hw
    iexists _; iexact Ho0
  icases Hsp with ⟨Hst0, Hback0⟩
  iapply ((K (F := F)).wp_run (D (F := F)) 𝒱 (EH := EH) (P := P m dv0 dv1) κ d 0) $$ [Hst Hst0 Hback0 Ho1 Hrest Hb Hp HG Hlev]
  isplitr; · iexact Hctx
  isplitl [Hst]; · iexact Hst
  isplitl [Hst0]; · iexact Hst0
  iintro ⟨Hst, Hdn⟩
  ihave Hdn' := (Entails.of_eq (dn0_eq m dv0 dv1 d)) $$ Hdn
  ihave Hbk := Hback0 $$ Hdn'
  icases Hbk with ⟨Hi, Hw, Ho0⟩
  -- the second call, back at dv1
  ihave Hsp := (hs1 d) $$ [Hi Hw Ho1]
  · isplitl [Hi]; · iexact Hi
    isplitl [Hw]; · iexact Hw
    iexists _; iexact Ho1
  icases Hsp with ⟨Hst1, Hback1⟩
  iapply ((K (F := F)).wp_run (D (F := F)) 𝒱 (EH := EH) (P := P m dv0 dv1) κ d 1) $$ [Hst Hst1 Hback1 Ho0 Hrest Hb Hp HG Hlev]
  isplitr; · iexact Hctx
  isplitl [Hst]; · iexact Hst
  isplitl [Hst1]; · iexact Hst1
  iintro ⟨Hst, Hdn⟩
  ihave Hdn' := (Entails.of_eq (dn1_eq m dv0 dv1 d)) $$ Hdn
  ihave Hbk := Hback1 $$ Hdn'
  icases Hbk with ⟨Hi, Hw, Ho1⟩
  -- the tail: every unscoped array held at the contents the calls left
  unfold SparseCore.Cfg.tcSt
  icases Hst with ⟨⟨%W, -, HO⟩, Hat, Hrd, Hrs, Htk⟩
  rw [(K (F := F)).Otc_end d (le_refl 2)]
  iapply ((K (F := F)).wp_liftProg (D (F := F)) 𝒱 (SparseCore.T d) Set.univ none (tailP (F := F)) _)
  iapply (ht d _) $$ [Hi Hw Ho0 Ho1 Hrest Hb Hp HG Hlev HO Hat Hrd Hrs Htk]
  isplitl [Hat Hrd Hrs Htk]
  · iintro ⟨Hfin, %W', HO⟩
    isplitr [Hfin]
    · isplitl [HO]
      · iexists W'; isplitr
        · ipureintro; exact wbelow_any _ _
        · iexact HO
      isplitl [Hat]; · iexact Hat
      isplitl [Hrd]; · iexact Hrd
      isplitl [Hrs]; · iexact Hrs
      iexact Htk
    · iexact Hfin
  isplitl [Hlev]; · iexact Hlev
  isplitl [Hb]; · iexact Hb
  isplitl [Hi Hw Ho0 Ho1 Hrest]
  · rw [StableHlo.held_sub_split (SparseCore.T d) T4_sub (Wc m d (dv0 d) (dv1 d)), held_T4, Wc_i, Wc_w, Wc_o0, Wc_o1, ← StableHlo.held_congr (SparseCore.T d) (Wc_rest m d (dv0 d) (dv1 d))]
    isplitl [Hi Hw Ho0 Ho1]
    · isplitl [Hi]; · iexact Hi
      isplitl [Hw]; · iexact Hw
      isplitl [Ho0]; · iexact Ho0
      iexact Ho1
    · iexact Hrest
  isplitl [Hp]; · iexists _; iexact Hp
  isplitl [HO]; · iexists W; iexact HO
  iexact HG

/-! ## The tail's run, from the regions' segments -/

set_option backward.isDefEq.respectTransparency.types false in
/-- The tail is the run of its four segments (two host stretches, two regions), from the arrays as the calls left
    them — the two results at dv0 and dv1 — to the arrays as the second region leaves them. -/
theorem tailRun [∀ e, Nonempty (Elt F e)] (good : Dev nD → Valuation τ sig (Elt F) → Prop)
    (hgood : ∀ d, good d (WD (Wt m dv0 dv1) d)) : TailRun m dv0 dv1 (FINof good) := by
  intro d Q
  rw [tail_run (Wt m dv0 dv1)]
  refine BIBase.Entails.trans ?_ (Pipeline.wp_segs (pcfgs (F := F)) admTc (pdats (WA (Wt m dv0 dv1)) (WC (Wt m dv0 dv1))) (none : HIx 2) cellOf_inj (EP (F := F)) defs₀ 𝒱₀ Lv lv d
    (Q := Q) (segs (Wt m dv0 dv1)) Finset.univ _ _ (by rw [segs_pipes]; decide) (fun p _ => Finset.mem_univ p) (segs_chains (Wt m dv0 dv1)))
  iintro ⟨HQ, Hlev, Hb, Hh, Hp, HO, HG⟩
  isplitl [HQ]
  · iintro ⟨-, Hh, -, HO⟩
    iapply HQ
    isplitl [Hh]
    · unfold FINof
      iexists _; isplitr
      · ipureintro; exact hgood d
      · iexact Hh
    · iexact HO
  isplitl [Hb]; · iexact Hb
  isplitl [Hh Hp HO]
  · isplitl [Hh]; · iexact Hh
    isplitl [Hp]; · iexact Hp
    iexact HO
  isplitl [Hlev]; · iexact Hlev
  iexact HG

/-! ## The program's run -/

theorem run_main [∀ e, Nonempty (Elt F e)] (hb0 : TileBody0V (F := F) m dv0) (hb1 : TileBody1V (F := F) m dv1)
    (hs0 : CallSplit0V m dv0) (hs1 : CallSplit1V m dv1)
    (good : Dev nD → Valuation τ sig (Elt F) → Prop) (hgood : ∀ d, good d (WD (Wt m dv0 dv1) d))
    (Q' : PUnit × MemSt nD τ sig (Elt F) → Prop) (hQ : ∀ s' : Phys nD τ sig (Elt F), (∀ d, fq good d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P m dv0 dv1) facts v₀
    (fun q hq => match q with | 0 => nomatch hq | 1 => nomatch hq)
    (fun q _ => match q with | 0 => tileObl0 m dv0 dv1 hb0 | 1 => tileObl1 m dv0 dv1 hb1)
    (fun q _ => SparseCore.Cfg.VecSplit.of_plain (vecSplit m dv0 dv1 q))
    m ρ main (G (F := F)) (FINof good) (u₀ (F := F)) (sep_elim_left.trans (hu₀ m dv0 dv1)) (hmain m ρ dv0 dv1 hs0 hs1 (FINof good) (tailRun m dv0 dv1 good hgood))
    (fq good) (hfin good) Q' hQ

end Cert.Proof.KV

end
-- ==== Proof.TcValue.lean ====
/-
  The value of the two matrix-product regions at the ideal instance. Entry (r, o) of the result is
  Σₖ x(r, k) · W(o, k) + b(o), where W's rows 0 … 1023 are the first SparseCore call's dense matrix and rows
  1024 … 2047 the second's: region 0 writes the left 1024 columns block of 256 rows by block of 256 rows, the copy
  carries them into the aliased buffer, and region 1 overwrites the right 1024 columns and leaves the left ones.
  In order: the body's stored value at an index (the matrix product accumulated from zero is the plain sum over
  the one contracted axis; the bias row is broadcast down the rows); what a grid point writes back, as a block of
  one whole-array function; which indices the blocks cover (a column range: the row blocks cover every row); the
  result buffers after each region; the host stretches; the assembly.
-/
import proofs.«210207_g17016660427310_cont_sun_m_176_22_alg».proof.Proof.TcRegions
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)
open scoped BigOperators

/-- The product's dimension numbers: x's columns against the matrix's columns (both axis 1), rows free. -/
abbrev DD : DotDims S256x2048 S1024x2048 S256x1024 := dot_S256x2048_S1024x2048_S256x1024_1_1_0_0_n_n

/-- At result index (p, q) and contraction position k the left operand is read at (p, k), -/
theorem DD_lhs (p : Fin 256) (q : Fin 1024) (k : Fin 2048) :
    DD.lhsIdx (ix2 p q) ((contrEquiv1 DD 2048 rfl rfl).symm k) = ix2 p k := by
  funext a; apply Fin.ext
  match a with
  | ⟨0, _⟩ => rfl
  | ⟨1, _⟩ => exact (DD.lhsIdx_val_of_single (cl := (1 : Fin 2)) rfl _ _).trans (contrEquiv1_symm_val DD 2048 rfl rfl k)

/-- and the right operand at (q, k): the matrix is used transposed. -/
theorem DD_rhs (p : Fin 256) (q : Fin 1024) (k : Fin 2048) :
    DD.rhsIdx (ix2 p q) ((contrEquiv1 DD 2048 rfl rfl).symm k) = ix2 q k := by
  funext a; apply Fin.ext
  match a with
  | ⟨0, _⟩ => rfl
  | ⟨1, _⟩ => exact (DD.rhsIdx_val_of_single (cr := (1 : Fin 2)) rfl _ _).trans (contrEquiv1_symm_val DD 2048 rfl rfl k)

/-- THE STORED VALUE at (p, q): row p of the row block against row q of the matrix, plus the bias slice's entry q. -/
theorem pay2_apply (x0 : Vec Ideal S256x2048 .f32) (x1 : Vec Ideal S1024x2048 .f32) (x2 : Vec Ideal S1x1024 .f32) (p : Fin 256) (q : Fin 1024) :
    k2_pay1 x0 x1 x2 (ix2 p q) = (∑ k : Fin 2048, x0 (ix2 p k) * x1 (ix2 q k)) + x2 (ix2 (0 : Fin 1) q) := by
  unfold k2_pay1
  refine (addf_apply _ _ _).trans ?_
  refine congrArg₂ (· + ·) ?_ ?_
  · refine (Ideal.matmul_constant_zero_apply DD none x0 _ (ix2 p q)).trans ?_
    rw [shapeCast_self]
    refine (Equiv.sum_comp (contrEquiv1 DD 2048 rfl rfl).symm _).symm.trans ?_
    refine Finset.sum_congr rfl fun k _ => ?_
    rw [DD_lhs, DD_rhs]
  · rw [shapeCast_self]
    exact broadcastTo_1b_ab_apply x2 _ p q

/-- The second region's body stores the same function of its blocks. -/
theorem pay3_apply (x0 : Vec Ideal S256x2048 .f32) (x1 : Vec Ideal S1024x2048 .f32) (x2 : Vec Ideal S1x1024 .f32) (p : Fin 256) (q : Fin 1024) :
    k3_pay1 x0 x1 x2 (ix2 p q) = (∑ k : Fin 2048, x0 (ix2 p k) * x1 (ix2 q k)) + x2 (ix2 (0 : Fin 1) q) :=
  pay2_apply x0 x1 x2 p q

section Val
variable (V : (c : Dev nD) → (b : Ref sig .tc) → Buf (Elt Ideal) ((c : Thread nD τ).loc b))

/-- The whole-buffer rectangles sit at the origin. -/
theorem hz2 : (![0, 0] : Fin 2 → Nat) = fun _ => 0 := funext fun a => by fin_cases a <;> rfl

/-- Entry (r, o) of a region's result where it writes: row r of x against row (o mod 1024) of the region's matrix,
    plus entry (o mod 1024) of the region's bias slice. -/
def Gmm (X : S2048x2048.Idx → EReal) (Wm : S1024x2048.Idx → EReal) (b : S1x1024.Idx → EReal) : S2048x2048.Idx → EReal :=
  fun i => (∑ k : Fin 2048, X (ix2 (i 0) k) * Wm (ix2 (⟨(i 1).val % 1024, Nat.mod_lt _ (by decide)⟩ : Fin 1024) k))
    + b (ix2 (0 : Fin 1) (⟨(i 1).val % 1024, Nat.mod_lt _ (by decide)⟩ : Fin 1024))

/-- The index maps, checked at each of the 8 points: x's row block and the result's move together (block row t); the matrix and
    the bias slice stay at block (0, 0); the result's block column is 0. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The same for the second region, whose result blocks sit in block column 1. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 1 :=
  (by decide +kernel : ∀ t : Fin grid3.N, _)

/-- `Gmm` at an index given by its coordinates. -/
theorem Gmm_apply (X : S2048x2048.Idx → EReal) (Wm : S1024x2048.Idx → EReal) (b : S1x1024.Idx → EReal) (R Q : Fin 2048) (q : Fin 1024)
    (h : Q.val % 1024 = q.val) :
    Gmm X Wm b (ix2 R Q) = (∑ k : Fin 2048, X (ix2 R k) * Wm (ix2 q k)) + b (ix2 (0 : Fin 1) q) := by
  have hq : (⟨Q.val % 1024, Nat.mod_lt _ (by decide)⟩ : Fin 1024) = q := Fin.ext h
  show (∑ k : Fin 2048, X (ix2 R k) * Wm (ix2 (⟨Q.val % 1024, Nat.mod_lt _ (by decide)⟩ : Fin 1024) k))
      + b (ix2 (0 : Fin 1) (⟨Q.val % 1024, Nat.mod_lt _ (by decide)⟩ : Fin 1024)) = _
  rw [hq]

/-- WHAT POINT t WRITES BACK in region 0 is block (t, 0) of `Gmm` of the arrays as the region finds them: element (p, q) of the
    block sits at row 256 t + p, column q; its row of x is row p of the fetched row block; the matrix and bias blocks are the whole arrays. -/
theorem flushed2_eq (c : Dev nD) (t : Fin cfg2.N) :
    (dat2 V c).flushed 3 t = ((cfg2.win 3).blk t).view.read (Elt Ideal) (Gmm (V c main_arg0) (V c main_v0) (V c main_v3)) := by
  show (cfg2.win 3).cut (grid2.coords t) ((dat2 V c).after 3 t) = _
  rw [after2_3]
  unfold out2_3
  rw [View.canon_unit_zero hz2]
  simp only [View.ld_unit_zero (S := S256x2048) hz2, View.ld_unit_zero (S := S1024x2048) hz2, View.ld_unit_zero (S := S1x1024) hz2]
  obtain ⟨e0, e1, e2, e3, e4, e5, e6, e7⟩ := idx_facts2 t
  have ht : t.val < 8 := lt_of_lt_of_eq t.isLt N_2
  funext j
  obtain ⟨p, q, rfl⟩ : ∃ (p : Fin 256) (q : Fin 1024), j = ix2 p q := ⟨j 0, j 1, eq_ix2 j⟩
  have hp := p.isLt
  have hq := q.isLt
  show k2_pay1 (iblk2 V c 0 t) (iblk2 V c 1 t) (iblk2 V c 2 t) (ix2 p q)
    = Gmm (V c main_arg0) (V c main_v0) (V c main_v3) (((cfg2.win 3).blk t).view.emb (ix2 p q))
  have hE3 : ((cfg2.win 3).blk t).view.emb (ix2 p q)
      = (ix2 (⟨256 * t.val + p.val, by omega⟩ : Fin 2048) (⟨0 + q.val, by omega⟩ : Fin 2048) : S2048x2048.Idx) := by
    funext a; apply Fin.ext
    match a with
    | ⟨0, _⟩ => show win2_3.index t (0 : Fin 2) * 256 + 1 * p.val = 256 * t.val + p.val; omega
    | ⟨1, _⟩ => show win2_3.index t (1 : Fin 2) * 1024 + 1 * q.val = 0 + q.val; omega
  have hE0 : ∀ k : Fin 2048, ((cfg2.win 0).blk t).view.emb (ix2 p k)
      = (ix2 (⟨256 * t.val + p.val, by omega⟩ : Fin 2048) k : S2048x2048.Idx) := fun k => by
    funext a; apply Fin.ext
    match a with
    | ⟨0, _⟩ => show win2_0.index t (0 : Fin 2) * 256 + 1 * p.val = 256 * t.val + p.val; omega
    | ⟨1, _⟩ => show win2_0.index t (1 : Fin 2) * 2048 + 1 * k.val = k.val; omega
  have hE1 : ∀ k : Fin 2048, ((cfg2.win 1).blk t).view.emb (ix2 q k) = (ix2 q k : S1024x2048.Idx) := fun k => by
    funext a; apply Fin.ext
    match a with
    | ⟨0, _⟩ => show win2_1.index t (0 : Fin 2) * 1024 + 1 * q.val = q.val; omega
    | ⟨1, _⟩ => show win2_1.index t (1 : Fin 2) * 2048 + 1 * k.val = k.val; omega
  have hE2 : ((cfg2.win 2).blk t).view.emb (ix2 (0 : Fin 1) q) = (ix2 (0 : Fin 1) q : S1x1024.Idx) := by
    funext a; apply Fin.ext
    match a with
    | ⟨0, _⟩ => show win2_2.index t (0 : Fin 2) * 1 + 1 * 0 = 0; omega
    | ⟨1, _⟩ => show win2_2.index t (1 : Fin 2) * 1024 + 1 * q.val = q.val; omega
  refine (pay2_apply (iblk2 V c 0 t) (iblk2 V c 1 t) (iblk2 V c 2 t) p q).trans ?_
  rw [hE3]
  refine Eq.trans ?_ (Gmm_apply (V c main_arg0) (V c main_v0) (V c main_v3) _ _ q (by show (0 + q.val) % 1024 = q.val; omega)).symm
  refine congrArg₂ (fun a b : EReal => a + b) (Finset.sum_congr rfl fun k _ => congrArg₂ (fun a b : EReal => a * b) ?_ ?_) ?_
  · exact congrArg (V c main_arg0) (hE0 k)
  · exact congrArg (V c main_v0) (hE1 k)
  · exact congrArg (V c main_v3) hE2

/-- In region 1 it is block (t, 1): column 1024 + q, whose matrix row and bias entry are again q. -/
theorem flushed3_eq (c : Dev nD) (t : Fin cfg3.N) :
    (dat3 V c).flushed 3 t = ((cfg3.win 3).blk t).view.read (Elt Ideal) (Gmm (V c main_arg0) (V c main_v1) (V c main_v5)) := by
  show (cfg3.win 3).cut (grid3.coords t) ((dat3 V c).after 3 t) = _
  rw [after3_3]
  unfold out3_3
  rw [View.canon_unit_zero hz2]
  simp only [View.ld_unit_zero (S := S256x2048) hz2, View.ld_unit_zero (S := S1024x2048) hz2, View.ld_unit_zero (S := S1x1024) hz2]
  obtain ⟨e0, e1, e2, e3, e4, e5, e6, e7⟩ := idx_facts3 t
  have ht : t.val < 8 := lt_of_lt_of_eq t.isLt N_3
  funext j
  obtain ⟨p, q, rfl⟩ : ∃ (p : Fin 256) (q : Fin 1024), j = ix2 p q := ⟨j 0, j 1, eq_ix2 j⟩
  have hp := p.isLt
  have hq := q.isLt
  show k3_pay1 (iblk3 V c 0 t) (iblk3 V c 1 t) (iblk3 V c 2 t) (ix2 p q)
    = Gmm (V c main_arg0) (V c main_v1) (V c main_v5) (((cfg3.win 3).blk t).view.emb (ix2 p q))
  have hE3 : ((cfg3.win 3).blk t).view.emb (ix2 p q)
      = (ix2 (⟨256 * t.val + p.val, by omega⟩ : Fin 2048) (⟨1024 + q.val, by omega⟩ : Fin 2048) : S2048x2048.Idx) := by
    funext a; apply Fin.ext
    match a with
    | ⟨0, _⟩ => show win3_3.index t (0 : Fin 2) * 256 + 1 * p.val = 256 * t.val + p.val; omega
    | ⟨1, _⟩ => show win3_3.index t (1 : Fin 2) * 1024 + 1 * q.val = 1024 + q.val; omega
  have hE0 : ∀ k : Fin 2048, ((cfg3.win 0).blk t).view.emb (ix2 p k)
      = (ix2 (⟨256 * t.val + p.val, by omega⟩ : Fin 2048) k : S2048x2048.Idx) := fun k => by
    funext a; apply Fin.ext
    match a with
    | ⟨0, _⟩ => show win3_0.index t (0 : Fin 2) * 256 + 1 * p.val = 256 * t.val + p.val; omega
    | ⟨1, _⟩ => show win3_0.index t (1 : Fin 2) * 2048 + 1 * k.val = k.val; omega
  have hE1 : ∀ k : Fin 2048, ((cfg3.win 1).blk t).view.emb (ix2 q k) = (ix2 q k : S1024x2048.Idx) := fun k => by
    funext a; apply Fin.ext
    match a with
    | ⟨0, _⟩ => show win3_1.index t (0 : Fin 2) * 1024 + 1 * q.val = q.val; omega
    | ⟨1, _⟩ => show win3_1.index t (1 : Fin 2) * 2048 + 1 * k.val = k.val; omega
  have hE2 : ((cfg3.win 2).blk t).view.emb (ix2 (0 : Fin 1) q) = (ix2 (0 : Fin 1) q : S1x1024.Idx) := by
    funext a; apply Fin.ext
    match a with
    | ⟨0, _⟩ => show win3_2.index t (0 : Fin 2) * 1 + 1 * 0 = 0; omega
    | ⟨1, _⟩ => show win3_2.index t (1 : Fin 2) * 1024 + 1 * q.val = q.val; omega
  refine (pay3_apply (iblk3 V c 0 t) (iblk3 V c 1 t) (iblk3 V c 2 t) p q).trans ?_
  rw [hE3]
  refine Eq.trans ?_ (Gmm_apply (V c main_arg0) (V c main_v1) (V c main_v5) _ _ q (by show (1024 + q.val) % 1024 = q.val; omega)).symm
  refine congrArg₂ (fun a b : EReal => a + b) (Finset.sum_congr rfl fun k _ => congrArg₂ (fun a b : EReal => a * b) ?_ ?_) ?_
  · exact congrArg (V c main_arg0) (hE0 k)
  · exact congrArg (V c main_v1) (hE1 k)
  · exact congrArg (V c main_v5) hE2

/-- An index of the result's array is in point t's block iff each coordinate is in the block's range on its axis. -/
theorem mem_blk2 (t : Fin cfg2.N) (i : S2048x2048.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v4).slice (win2_3.rect t)).set ↔ _
  rw [View.set_slice_whole, Rect.mem_set_unit]
  exact Iff.rfl

/-- THE COVERED INDICES: region 0's blocks fill exactly the left 1024 columns (the row blocks cover every row: the point covering row r is r / 256). -/
theorem covered_iff2 (i : S2048x2048.Idx) :
    (∃ t : Fin cfg2.N, (cfg2.win 3).flush t = true ∧ i ∈ ((cfg2.win 3).blk t).view.set) ↔ (i 1).val < 1024 := by
  have hi0 : (i 0).val < 2048 := (i 0).isLt
  have hi1 : (i 1).val < 2048 := (i 1).isLt
  constructor
  · rintro ⟨t, -, hi⟩
    rw [mem_blk2] at hi
    have b1 : win2_3.index t (1 : Fin 2) * 1024 ≤ (i 1).val ∧ (i 1).val < win2_3.index t (1 : Fin 2) * 1024 + 1024 := hi 1
    obtain ⟨-, -, -, -, -, -, -, e7⟩ := idx_facts2 t
    omega
  · intro h
    have hN : (i 0).val / 256 < cfg2.N := by rw [show cfg2.N = 8 from N_2]; omega
    obtain ⟨-, -, -, -, -, -, e6, e7⟩ := idx_facts2 ⟨(i 0).val / 256, hN⟩
    have e6' : win2_3.index ⟨(i 0).val / 256, hN⟩ (0 : Fin 2) = (i 0).val / 256 := e6
    refine ⟨⟨(i 0).val / 256, hN⟩, flush2_3 _, ?_⟩
    rw [mem_blk2]
    intro a
    match a with
    | ⟨0, _⟩ =>
      show win2_3.index ⟨(i 0).val / 256, hN⟩ (0 : Fin 2) * 256 ≤ (i 0).val ∧ (i 0).val < win2_3.index ⟨(i 0).val / 256, hN⟩ (0 : Fin 2) * 256 + 256
      omega
    | ⟨1, _⟩ =>
      show win2_3.index ⟨(i 0).val / 256, hN⟩ (1 : Fin 2) * 1024 ≤ (i 1).val ∧ (i 1).val < win2_3.index ⟨(i 0).val / 256, hN⟩ (1 : Fin 2) * 1024 + 1024
      omega

/-- THE RESULT'S ARRAY after the region: `Gmm` of the arrays as the region finds them on the covered columns, its
    region-entry contents on the others. -/
theorem final2 (c : Dev nD) : (dat2 V c).arrAt 3 cfg2.N
    = fun (i : S2048x2048.Idx) => if (i 1).val < 1024 then Gmm (V c main_arg0) (V c main_v0) (V c main_v3) i else V c main_v4 i := by
  funext i
  rw [(dat2 V c).arrAt_eq_piecewise 3 _ (fun t _ => flushed2_eq V c t) i, A_eq2]
  exact if_congr (covered_iff2 i) rfl rfl

/-- An index of the result's array is in point t's block iff each coordinate is in the block's range on its axis. -/
theorem mem_blk3 (t : Fin cfg3.N) (i : S2048x2048.Idx) :
    i ∈ ((cfg3.win 3).blk t).view.set ↔ ∀ a : Fin 2, win3_3.index t a * S256x1024.size a ≤ (i a).val ∧ (i a).val < win3_3.index t a * S256x1024.size a + S256x1024.size a := by
  show i ∈ ((View.whole main_v6).slice (win3_3.rect t)).set ↔ _
  rw [View.set_slice_whole, Rect.mem_set_unit]
  exact Iff.rfl

/-- THE COVERED INDICES: region 1's blocks fill exactly the right 1024 columns (the row blocks cover every row: the point covering row r is r / 256). -/
theorem covered_iff3 (i : S2048x2048.Idx) :
    (∃ t : Fin cfg3.N, (cfg3.win 3).flush t = true ∧ i ∈ ((cfg3.win 3).blk t).view.set) ↔ 1024 ≤ (i 1).val := by
  have hi0 : (i 0).val < 2048 := (i 0).isLt
  have hi1 : (i 1).val < 2048 := (i 1).isLt
  constructor
  · rintro ⟨t, -, hi⟩
    rw [mem_blk3] at hi
    have b1 : win3_3.index t (1 : Fin 2) * 1024 ≤ (i 1).val ∧ (i 1).val < win3_3.index t (1 : Fin 2) * 1024 + 1024 := hi 1
    obtain ⟨-, -, -, -, -, -, -, e7⟩ := idx_facts3 t
    omega
  · intro h
    have hN : (i 0).val / 256 < cfg3.N := by rw [show cfg3.N = 8 from N_3]; omega
    obtain ⟨-, -, -, -, -, -, e6, e7⟩ := idx_facts3 ⟨(i 0).val / 256, hN⟩
    have e6' : win3_3.index ⟨(i 0).val / 256, hN⟩ (0 : Fin 2) = (i 0).val / 256 := e6
    refine ⟨⟨(i 0).val / 256, hN⟩, flush3_3 _, ?_⟩
    rw [mem_blk3]
    intro a
    match a with
    | ⟨0, _⟩ =>
      show win3_3.index ⟨(i 0).val / 256, hN⟩ (0 : Fin 2) * 256 ≤ (i 0).val ∧ (i 0).val < win3_3.index ⟨(i 0).val / 256, hN⟩ (0 : Fin 2) * 256 + 256
      omega
    | ⟨1, _⟩ =>
      show win3_3.index ⟨(i 0).val / 256, hN⟩ (1 : Fin 2) * 1024 ≤ (i 1).val ∧ (i 1).val < win3_3.index ⟨(i 0).val / 256, hN⟩ (1 : Fin 2) * 1024 + 1024
      omega

/-- THE RESULT'S ARRAY after the region: `Gmm` of the arrays as the region finds them on the covered columns, its
    region-entry contents on the others. -/
theorem final3 (c : Dev nD) : (dat3 V c).arrAt 3 cfg3.N
    = fun (i : S2048x2048.Idx) => if 1024 ≤ (i 1).val then Gmm (V c main_arg0) (V c main_v1) (V c main_v5) i else V c main_v6 i := by
  funext i
  rw [(dat3 V c).arrAt_eq_piecewise 3 _ (fun t _ => flushed3_eq V c t) i, A_eq3]
  exact if_congr (covered_iff3 i) rfl rfl

end Val

/-! ## The tail of @main at the ideal instance -/

section Tail
variable (W0 : Dev nD → Valuation τ sig (Elt Ideal))

/-- One entry of the result: row r of x against row o of a 1024-row matrix, plus the bias at oo. -/
def rowVal (X : S2048x2048.Idx → EReal) (Wm : S1024x2048.Idx → EReal) (b : S2048.Idx → EReal) (r : Fin 2048) (o : Fin 1024) (oo : Fin 2048) : EReal :=
  (∑ k : Fin 2048, X (ix2 r k) * Wm (ix2 o k)) + b (ix1 oo)

/-- The whole result: column o < 1024 uses the first matrix's row o, column o ≥ 1024 the second's row o − 1024. -/
def outVal (X : S2048x2048.Idx → EReal) (Wa Wb : S1024x2048.Idx → EReal) (b : S2048.Idx → EReal) (r o : Fin 2048) : EReal :=
  (∑ k : Fin 2048, X (ix2 r k) * (if h : o.val < 1024 then Wa (ix2 (⟨o.val, h⟩ : Fin 1024) k) else Wb (ix2 (⟨o.val - 1024, by omega⟩ : Fin 1024) k)))
    + b (ix1 o)

/-! ### The host stretches: what they write, read at an index; what they leave alone -/

theorem WA_main_arg0 (c : Dev nD) : WA W0 c (Proc.devRef .tc main_arg0) = W0 c (Proc.devRef .tc main_arg0) :=
  StableHlo.after_of_forall_not_mem (b := Proc.devRef .tc main_arg0) _ _ (List.forall_iff_forall_mem.mp (by
      simp only [hostOpsA, List.Forall, StableHlo.unary_writes, StableHlo.reshape_writes, Finset.mem_singleton]
      repeat' apply And.intro
      all_goals exact StableHlo.devRef_ne_of_ne (by decide)))
theorem WA_main_v0 (c : Dev nD) : WA W0 c (Proc.devRef .tc main_v0) = W0 c (Proc.devRef .tc main_v0) :=
  StableHlo.after_of_forall_not_mem (b := Proc.devRef .tc main_v0) _ _ (List.forall_iff_forall_mem.mp (by
      simp only [hostOpsA, List.Forall, StableHlo.unary_writes, StableHlo.reshape_writes, Finset.mem_singleton]
      repeat' apply And.intro
      all_goals exact StableHlo.devRef_ne_of_ne (by decide)))
theorem WA_main_v1 (c : Dev nD) : WA W0 c (Proc.devRef .tc main_v1) = W0 c (Proc.devRef .tc main_v1) :=
  StableHlo.after_of_forall_not_mem (b := Proc.devRef .tc main_v1) _ _ (List.forall_iff_forall_mem.mp (by
      simp only [hostOpsA, List.Forall, StableHlo.unary_writes, StableHlo.reshape_writes, Finset.mem_singleton]
      repeat' apply And.intro
      all_goals exact StableHlo.devRef_ne_of_ne (by decide)))

/-- The bias as a row. -/
theorem WA_main_v2 (c : Dev nD) : WA W0 c (Proc.devRef .tc main_v2)
    = shapeCast S1x2048 (W0 c (Proc.devRef .tc main_arg3)) shapeCasts_S2048_S1x2048 := by
  show StableHlo.after hostOpsA (W0 c) (Proc.devRef .tc main_v2) = _
  after_results; rfl

/-- Its first half, at an index. -/
theorem WA_main_v3_apply (c : Dev nD) (q : Fin 1024) :
    WA W0 c (Proc.devRef .tc main_v3) (ix2 (0 : Fin 1) q) = W0 c (Proc.devRef .tc main_arg3) (ix1 (⟨q.val, by omega⟩ : Fin 2048)) := by
  have e : WA W0 c (Proc.devRef .tc main_v3)
      = extractStridedSlice S1x1024 ![0, 0] (shapeCast S1x2048 (W0 c (Proc.devRef .tc main_arg3)) shapeCasts_S2048_S1x2048) slices_S1x2048_S1x1024_0_0 := by
    show StableHlo.after hostOpsA (W0 c) (Proc.devRef .tc main_v3) = _
    after_results; rfl
  refine (congrFun e _).trans ?_
  refine (slice2_axis1_eq 0 _ slices_S1x2048_S1x1024_0_0 (0 : Fin 1) q).trans ?_
  refine (shapeCast_a_1a_apply _ shapeCasts_S2048_S1x2048 (0 : Fin 1) _).trans ?_
  exact congrArg _ (congrArg ix1 (Fin.ext (Nat.zero_add _)))

theorem WC_main_arg0 (c : Dev nD) : WC W0 c (Proc.devRef .tc main_arg0) = W0 c (Proc.devRef .tc main_arg0) :=
  calc WC W0 c (Proc.devRef .tc main_arg0)
    _ = WB W0 c (Proc.devRef .tc main_arg0) := StableHlo.after_of_forall_not_mem (b := Proc.devRef .tc main_arg0) _ _ (List.forall_iff_forall_mem.mp (by
      simp only [hostOpsB, List.Forall, StableHlo.unary_writes, StableHlo.reshape_writes, Finset.mem_singleton]
      repeat' apply And.intro
      all_goals exact StableHlo.devRef_ne_of_ne (by decide)))
    _ = WA W0 c (Proc.devRef .tc main_arg0) :=
        (W2_arr (WA W0) c 0).trans (((dat2 (V1 (WA W0)) c).arrAt_in 0 rfl _).trans (A_eq2 (V1 (WA W0)) c 0))
    _ = W0 c (Proc.devRef .tc main_arg0) := WA_main_arg0 W0 c

theorem WC_main_v1 (c : Dev nD) : WC W0 c (Proc.devRef .tc main_v1) = W0 c (Proc.devRef .tc main_v1) :=
  calc WC W0 c (Proc.devRef .tc main_v1)
    _ = WB W0 c (Proc.devRef .tc main_v1) := StableHlo.after_of_forall_not_mem (b := Proc.devRef .tc main_v1) _ _ (List.forall_iff_forall_mem.mp (by
      simp only [hostOpsB, List.Forall, StableHlo.unary_writes, StableHlo.reshape_writes, Finset.mem_singleton]
      repeat' apply And.intro
      all_goals exact StableHlo.devRef_ne_of_ne (by decide)))
    _ = WA W0 c (Proc.devRef .tc main_v1) := W2_of_ne (WA W0) c main_v1 (by decide)
    _ = W0 c (Proc.devRef .tc main_v1) := WA_main_v1 W0 c

/-- The bias row's second half, at an index. -/
theorem WC_main_v5_apply (c : Dev nD) (q : Fin 1024) :
    WC W0 c (Proc.devRef .tc main_v5) (ix2 (0 : Fin 1) q) = W0 c (Proc.devRef .tc main_arg3) (ix1 (⟨1024 + q.val, by omega⟩ : Fin 2048)) := by
  have e : WC W0 c (Proc.devRef .tc main_v5)
      = extractStridedSlice S1x1024 ![0, 1024] (WB W0 c (Proc.devRef .tc main_v2)) slices_S1x2048_S1x1024_0_1024 := by
    show StableHlo.after hostOpsB (WB W0 c) (Proc.devRef .tc main_v5) = _
    after_results
  have e2 : WB W0 c (Proc.devRef .tc main_v2) = WA W0 c (Proc.devRef .tc main_v2) := W2_of_ne (WA W0) c main_v2 (by decide)
  refine (congrFun e _).trans ?_
  refine (slice2_axis1_eq 1024 _ slices_S1x2048_S1x1024_0_1024 (0 : Fin 1) q).trans ?_
  refine (congrFun (e2.trans (WA_main_v2 W0 c)) _).trans ?_
  exact shapeCast_a_1a_apply _ shapeCasts_S2048_S1x2048 (0 : Fin 1) _

/-- The copy: the second region's result buffer starts as the first region's result. -/
theorem WC_main_v6 (c : Dev nD) : WC W0 c (Proc.devRef .tc main_v6) = WB W0 c (Proc.devRef .tc main_v4) := by
  show StableHlo.after hostOpsB (WB W0 c) (Proc.devRef .tc main_v6) = _
  after_results; rfl

/-! ### The result after each region, at an index -/

/-- After region 0, the left columns of its result. -/
theorem WB_main_v4_apply (c : Dev nD) (r : Fin 2048) (o : Fin 1024) :
    WB W0 c (Proc.devRef .tc main_v4) (ix2 r (⟨o.val, by omega⟩ : Fin 2048))
      = rowVal (W0 c (Proc.devRef .tc main_arg0)) (W0 c (Proc.devRef .tc main_v0)) (W0 c (Proc.devRef .tc main_arg3)) r o ⟨o.val, by omega⟩ := by
  refine (congrFun (W2_arr (WA W0) c 3) _).trans ?_
  refine (congrFun (final2 (V1 (WA W0)) c) _).trans ?_
  rw [if_pos (show ((ix2 r (⟨o.val, by omega⟩ : Fin 2048) : S2048x2048.Idx) 1).val < 1024 from o.isLt)]
  refine (Gmm_apply _ _ _ r ⟨o.val, by omega⟩ o (Nat.mod_eq_of_lt o.isLt)).trans ?_
  unfold rowVal
  refine congrArg₂ (fun a b : EReal => a + b) (Finset.sum_congr rfl fun k _ => congrArg₂ (fun a b : EReal => a * b) ?_ ?_) ?_
  · exact congrFun (WA_main_arg0 W0 c) _
  · exact congrFun (WA_main_v0 W0 c) _
  · exact WA_main_v3_apply W0 c o

/-- After region 1, the right columns of the result, -/
theorem WD_out_hi (c : Dev nD) (r : Fin 2048) (o : Fin 1024) :
    WD W0 c (Proc.devRef .tc main_v6) (ix2 r (⟨1024 + o.val, by omega⟩ : Fin 2048))
      = rowVal (W0 c (Proc.devRef .tc main_arg0)) (W0 c (Proc.devRef .tc main_v1)) (W0 c (Proc.devRef .tc main_arg3)) r o ⟨1024 + o.val, by omega⟩ := by
  refine (congrFun (W4_arr (WC W0) c 3) _).trans ?_
  refine (congrFun (final3 (V3 (WC W0)) c) _).trans ?_
  rw [if_pos (show 1024 ≤ ((ix2 r (⟨1024 + o.val, by omega⟩ : Fin 2048) : S2048x2048.Idx) 1).val from Nat.le_add_right _ _)]
  refine (Gmm_apply _ _ _ r ⟨1024 + o.val, by omega⟩ o (by show (1024 + o.val) % 1024 = o.val; omega)).trans ?_
  unfold rowVal
  refine congrArg₂ (fun a b : EReal => a + b) (Finset.sum_congr rfl fun k _ => congrArg₂ (fun a b : EReal => a * b) ?_ ?_) ?_
  · exact congrFun (WC_main_arg0 W0 c) _
  · exact congrFun (WC_main_v1 W0 c) _
  · exact WC_main_v5_apply W0 c o

/-- and the left ones, which region 1 does not cover: the copy of region 0's. -/
theorem WD_out_lo (c : Dev nD) (r : Fin 2048) (o : Fin 1024) :
    WD W0 c (Proc.devRef .tc main_v6) (ix2 r (⟨o.val, by omega⟩ : Fin 2048))
      = rowVal (W0 c (Proc.devRef .tc main_arg0)) (W0 c (Proc.devRef .tc main_v0)) (W0 c (Proc.devRef .tc main_arg3)) r o ⟨o.val, by omega⟩ := by
  refine (congrFun (W4_arr (WC W0) c 3) _).trans ?_
  refine (congrFun (final3 (V3 (WC W0)) c) _).trans ?_
  rw [if_neg (show ¬ 1024 ≤ ((ix2 r (⟨o.val, by omega⟩ : Fin 2048) : S2048x2048.Idx) 1).val from Nat.not_le.mpr o.isLt)]
  refine (congrFun (WC_main_v6 W0 c) _).trans ?_
  exact WB_main_v4_apply W0 c r o

/-- THE RESULT, entry by entry. -/
theorem WD_out_apply (c : Dev nD) (r o : Fin 2048) :
    WD W0 c (Proc.devRef .tc main_v6) (ix2 r o)
      = outVal (W0 c (Proc.devRef .tc main_arg0)) (W0 c (Proc.devRef .tc main_v0)) (W0 c (Proc.devRef .tc main_v1)) (W0 c (Proc.devRef .tc main_arg3)) r o := by
  by_cases h : o.val < 1024
  · have ho : o = (⟨(⟨o.val, h⟩ : Fin 1024).val, by omega⟩ : Fin 2048) := Fin.ext rfl
    refine (congrArg (fun oo : Fin 2048 => WD W0 c (Proc.devRef .tc main_v6) (ix2 r oo)) ho).trans ?_
    refine (WD_out_lo W0 c r ⟨o.val, h⟩).trans ?_
    unfold rowVal outVal
    simp only [dif_pos h]
  · have h' : o.val - 1024 < 1024 := by have := o.isLt; omega
    have ho : o = (⟨1024 + (⟨o.val - 1024, h'⟩ : Fin 1024).val, by omega⟩ : Fin 2048) := Fin.ext (by show o.val = 1024 + (o.val - 1024); omega)
    refine (congrArg (fun oo : Fin 2048 => WD W0 c (Proc.devRef .tc main_v6) (ix2 r oo)) ho).trans ?_
    refine (WD_out_hi W0 c r ⟨o.val - 1024, h'⟩).trans ?_
    unfold rowVal outVal
    simp only [dif_neg h]
    exact congrArg _ (congrArg _ (congrArg ix1 ho.symm))

end Tail

end Cert.Proof.KI
end
-- ==== Proof.OutVal.lean ====
/-
  The result array as the two matrix products leave it is the dense form.

  The result's column o reads the first product's operand for o below 1024 and the second's for the rest; when the two
  operands are the two halves of the dense matrix — rows [0, 1024) and rows [1024, 2048) — the result is the dense form
  Gk at every (r, o).
-/
import proofs.«210207_g17016660427310_cont_sun_m_176_22_alg».proof.Proof.Spec

noncomputable section

open scoped BigOperators

namespace Cert.Proof.Spec

open Idealize.ShloMosaic

/-- THE TWO PRODUCTS ARE THE DENSE FORM: with Wa rows [0, 1024) and Wb rows [1024, 2048) of the dense matrix, the sum
    over k of X[r, k] times the half that holds row o, plus the bias, is Gk at (r, o). -/
theorem outVal_eq_Gk (X : Vec Ideal SX .f32) (Wa Wb : (⟨2, ![1024, 2048]⟩ : Shape).Idx → EReal) (b : Vec Ideal SB .f32)
    (idx : IVec SI 32) (w : Vec Ideal SI .f32)
    (hWa : ∀ (o : Fin 1024) (k : Fin 2048), Wa (ValueIdx.ix2 o k) = dense idx w ⟨o.val, by omega⟩ k)
    (hWb : ∀ (o : Fin 1024) (k : Fin 2048), Wb (ValueIdx.ix2 o k) = dense idx w ⟨o.val + 1024, by omega⟩ k)
    (r o : Fin 2048) :
    (∑ k : Fin 2048, X (ValueIdx.ix2 r k)
        * (if h : o.val < 1024 then Wa (ValueIdx.ix2 ⟨o.val, h⟩ k)
           else Wb (ValueIdx.ix2 ⟨o.val - 1024, by omega⟩ k)))
      + b (ValueIdx.ix1 o)
      = Gk X idx w b (ValueIdx.ix2 r o) := by
  show _ = (∑ d : Fin 2048, X (ValueIdx.ix2 r d) * dense idx w o d) + b (ValueIdx.ix1 o)
  refine congrArg (· + b (ValueIdx.ix1 o)) ?_
  refine Finset.sum_congr rfl fun k _ => ?_
  refine congrArg (X (ValueIdx.ix2 r k) * ·) ?_
  by_cases h : o.val < 1024
  · rw [dif_pos h, hWa]
  · rw [dif_neg h, hWb]
    have e : (⟨o.val - 1024 + 1024, by omega⟩ : Fin 2048) = o := Fin.ext (by show o.val - 1024 + 1024 = o.val; omega)
    rw [e]

end Cert.Proof.Spec

end
-- ==== Proof.AlgGood.lean ====
/-
  The last valuation holds the specification's result. When the two SparseCore calls have left, in their two result
  arrays, rows 0 … 1023 and rows 1024 … 2047 of the dense matrix the sparse rows (idx, w) stand for, the tail of
  @main leaves in the result buffer, at every (r, o), Σ_d x[r, d] · dense[o, d] + b[o]: column o reads the first
  array's row o when o < 1024 and the second's row o − 1024 otherwise, and in both cases that row is row o of the
  dense matrix. The four argument arrays are as launched.
-/
import proofs.«210207_g17016660427310_cont_sun_m_176_22_alg».proof.Proof.FrameKI
import proofs.«210207_g17016660427310_cont_sun_m_176_22_alg».proof.Proof.TcValue
import proofs.«210207_g17016660427310_cont_sun_m_176_22_alg».proof.Proof.OutVal

set_option maxRecDepth 16384

noncomputable section

namespace Cert.Proof.KI

open Cert.KernelIdeal Cert.KernelIdeal.Gen
open Idealize.ShloMosaic Idealize.ShloMosaic.ValueIdx
open scoped BigOperators

variable (m : (ℓ : Loc nD τ sig) → Buf (Elt Ideal) ℓ)

/-- Rows 0 … 1023 of the dense matrix, as the first SparseCore call's whole result array: entry (o, k) is the sum of
    the weights w[o, f] over the f whose column is k. -/
def dv0 (d : Dev nD) : Buf (Elt Ideal) (o0Loc d) := fun (j : S1024x2048.Idx) =>
  Spec.dense (m (iLoc d)) (m (wLoc d)) ⟨(j 0).val, by have := idx2_lt0 j; omega⟩ ⟨(j 1).val, idx2_lt1 j⟩

/-- Rows 1024 … 2047, as the second call's: entry (o, k) is row o + 1024 of the dense matrix at k. -/
def dv1 (d : Dev nD) : Buf (Elt Ideal) (o1Loc d) := fun (j : S1024x2048.Idx) =>
  Spec.dense (m (iLoc d)) (m (wLoc d)) ⟨(j 0).val + 1024, by have := idx2_lt0 j; omega⟩ ⟨(j 1).val, idx2_lt1 j⟩

theorem dv0_apply (d : Dev nD) (o : Fin 1024) (k : Fin 2048) :
    dv0 m d (ix2 o k) = Spec.dense (m (iLoc d)) (m (wLoc d)) ⟨o.val, by omega⟩ k := rfl

theorem dv1_apply (d : Dev nD) (o : Fin 1024) (k : Fin 2048) :
    dv1 m d (ix2 o k) = Spec.dense (m (iLoc d)) (m (wLoc d)) ⟨o.val + 1024, by omega⟩ k := rfl

/-- The result buffer. -/
abbrev o6' : DevRef τ sig := Proc.devRef .tc (main_v6 : Ref sig .tc)

/-- What the claim reads of the last valuation: the result is the dense form of the launched arguments, and the four
    arguments are as launched. -/
def goodAlg (d : Dev nD) (Wf : Valuation τ sig (Elt Ideal)) : Prop :=
  Wf o6' = Spec.Gk (m (xLoc d)) (m (iLoc d)) (m (wLoc d)) (m (bLoc d)) ∧ goodArgs m d Wf

/-- `outVal` respects equal arrays. -/
theorem outVal_congr {X X' : S2048x2048.Idx → EReal} {A A' B B' : S1024x2048.Idx → EReal} {bb bb' : S2048.Idx → EReal}
    (hX : X = X') (hA : A = A') (hB : B = B') (hb : bb = bb') (r o : Fin 2048) :
    outVal X A B bb r o = outVal X' A' B' bb' r o := by subst hX hA hB hb; rfl

/-- THE TAIL LEAVES THE DENSE FORM, from the two halves of the dense matrix in the calls' result arrays. -/
theorem goodAlg_WD (d : Dev nD) : goodAlg m d (WD (Wt m (dv0 m) (dv1 m)) d) := by
  refine ⟨?_, goodArgs_WD m d _ _⟩
  funext j
  obtain ⟨r, o, rfl⟩ : ∃ (r o : Fin 2048), j = ix2 r o := ⟨j 0, j 1, eq_ix2 j⟩
  refine (WD_out_apply (Wt m (dv0 m) (dv1 m)) d r o).trans ?_
  refine (outVal_congr (Wc_x m d _ _) (Wc_o0 m d _ _) (Wc_o1 m d _ _) (Wc_b m d _ _) r o).trans ?_
  exact Spec.outVal_eq_Gk (m (xLoc d)) (dv0 m d) (dv1 m d) (m (bLoc d)) (m (iLoc d)) (m (wLoc d))
    (dv0_apply m d) (dv1_apply m d) r o

end Cert.Proof.KI

end
-- ==== Proof.Algebra.lean ====
/-
  The dense form and the gathered form agree.

  Over the reals, for finite index types D and Fi, a column map c : Fi → D, and real families x on D and w on Fi:
      Σ_d x d · (Σ_f [c f = d] · w f)  =  Σ_f w f · x (c f)
  (distribute, exchange the two sums, and the inner sum over d has one nonzero term, at d = c f). The extended reals
  are not a semiring, so the law is proved over the reals and carried across the coercion, which commutes with
  products and with finite sums.
-/
import proofs.«210207_g17016660427310_cont_sun_m_176_22_alg».proof.Proof.Spec

noncomputable section

open scoped BigOperators

namespace Cert.Proof.Spec

open Idealize.ShloMosaic

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: a product with the dense matrix of a column map is the gathered sum. -/
theorem real_law {D Fi : Type*} [Fintype D] [Fintype Fi] [DecidableEq D] (x : D → ℝ) (w : Fi → ℝ) (c : Fi → D) :
    ∑ d, x d * (∑ f, if c f = d then w f else 0) = ∑ f, w f * x (c f) := by
  simp_rw [Finset.mul_sum]
  rw [Finset.sum_comm]
  refine Finset.sum_congr rfl fun f _ => ?_
  simp_rw [mul_ite, mul_zero]
  rw [Finset.sum_ite_eq Finset.univ (c f) (fun d => x d * w f)]
  simp [mul_comm]

/-- The same law over the extended reals, for families of real numbers. -/
theorem ereal_law {D Fi : Type*} [Fintype D] [Fintype Fi] [DecidableEq D] (x : D → ℝ) (w : Fi → ℝ) (c : Fi → D) :
    ∑ d, (x d : EReal) * (∑ f, if c f = d then (w f : EReal) else 0) = ∑ f, (w f : EReal) * (x (c f) : EReal) := by
  have h1 : ∀ d, (∑ f, if c f = d then (w f : EReal) else 0) = ((∑ f, if c f = d then w f else 0 : ℝ) : EReal) := by
    intro d
    rw [coe_sum]
    refine Finset.sum_congr rfl fun f _ => ?_
    split_ifs <;> simp
  simp_rw [h1, ← EReal.coe_mul, ← coe_sum, real_law]

/-- The dense form is the gathered form, when x and w are families of real numbers and every column is below 2048. -/
theorem Gk_eq_Gr (x : Vec Ideal SX .f32) (idx : IVec SI 32) (w : Vec Ideal SI .f32) (b : Vec Ideal SB .f32)
    (hx : ∀ i, ∃ r : ℝ, x i = (r : EReal)) (hw : ∀ i, ∃ r : ℝ, w i = (r : EReal))
    (hidx : ∀ i, (idx i).toNat < 2048) : Gk x idx w b = Gr x idx w b := by
  choose xr hxr using hx
  choose wr hwr using hw
  funext i
  -- the row r of x and the row o of (idx, w) this entry reads, as coordinates of the literal index types
  obtain ⟨r, o, rfl⟩ : ∃ (r o : Fin 2048), i = ValueIdx.ix2 r o := ⟨i 0, i 1, ValueIdx.eq_ix2 i⟩
  show (∑ d : Fin 2048, x (ValueIdx.ix2 r d)
        * ∑ f : Fin 32, if col idx o f = d.val then w (ValueIdx.ix2 o f) else 0) + b (ValueIdx.ix1 o)
     = (∑ f : Fin 32, w (ValueIdx.ix2 o f)
        * x (ValueIdx.ix2 r ⟨col idx o f % 2048, Nat.mod_lt _ (by norm_num)⟩)) + b (ValueIdx.ix1 o)
  congr 1
  have hc : ∀ f : Fin 32, col idx o f < 2048 := fun f => hidx _
  have key := ereal_law (fun d : Fin 2048 => xr (ValueIdx.ix2 r d)) (fun f : Fin 32 => wr (ValueIdx.ix2 o f))
    (fun f : Fin 32 => (⟨col idx o f, hc f⟩ : Fin 2048))
  simp only [hxr, hwr]
  refine Eq.trans ?_ (key.trans ?_)
  · refine Finset.sum_congr rfl fun d _ => ?_
    congr 1
    refine Finset.sum_congr rfl fun f _ => ?_
    simp only [Fin.ext_iff]
  · refine Finset.sum_congr rfl fun f _ => ?_
    have hm : (⟨col idx o f % 2048, Nat.mod_lt _ (by norm_num)⟩ : Fin 2048) = ⟨col idx o f, hc f⟩ :=
      Fin.ext (Nat.mod_eq_of_lt (hc f))
    rw [hm]

end Cert.Proof.Spec

end
-- ==== Proof.Alg.lean ====
/-
  The algebraic conjunct: at the ideal instance, from memories agreeing on the four arguments, the kernel's program
  and the reference's both run to their ends with the SAME result on every device and their arguments unchanged.
  The common result is the dense form: out[r, o] = Σ_d x[r, d] · dense[o, d] + b[o], where dense[o, d] is the sum of
  the weights w[o, f] over the f whose column is d. The kernel's side: the two SparseCore calls leave the two halves
  of the dense matrix, and the tail's two matrix products then leave the dense form. The reference's side: its host
  program leaves the gathered form Σ_f w[o, f] · x[r, col o f] + b[o], which is the dense form once every x and w
  entry is a real number and every column is below 2048 — what the precondition says. What is taken as hypotheses
  here is that each SparseCore tile's body leaves its rows of the dense matrix.
-/
import proofs.«210207_g17016660427310_cont_sun_m_176_22_alg».proof.Proof.LaunchKV
import proofs.«210207_g17016660427310_cont_sun_m_176_22_alg».proof.Proof.AlgGood
import proofs.«210207_g17016660427310_cont_sun_m_176_22_alg».proof.Proof.RefRun
import proofs.«210207_g17016660427310_cont_sun_m_176_22_alg».proof.Proof.Algebra
import proofs.«210207_g17016660427310_cont_sun_m_176_22_alg».proof.Proof.PreFacts
import proofs.«210207_g17016660427310_cont_sun_m_176_22_alg».proof.Proof.FrameKI
import proofs.«210207_g17016660427310_cont_sun_m_176_22_alg».proof.Proof.Gen.KernelIdeal
import proofs.«210207_g17016660427310_cont_sun_m_176_22_alg».proof.Proof.Gen.ReferenceIdeal
import proofs.«210207_g17016660427310_cont_sun_m_176_22_alg».proof.Proof.Gen.Pre_input_domain

noncomputable section

namespace Cert.Proof.KI

open Cert.KernelIdeal
open Idealize.ShloMosaic Idealize.SL.Sem

/-- THE ALGEBRAIC CONJUNCT, from the two tile bodies' value obligations. -/
theorem algebraic_of
    (hb0 : ∀ m : (ℓ : Loc nD τ sig) → Buf (Elt Ideal) ℓ, PreOK m → Cert.Proof.KV.TileBody0V m (dv0 m))
    (hb1 : ∀ m : (ℓ : Loc nD τ sig) → Buf (Elt Ideal) ℓ, PreOK m → Cert.Proof.KV.TileBody1V m (dv1 m)) :
    Cert.algebraic_KernelIdeal_ReferenceIdeal := by
  intro m g m' g' hpre hagree
  have hOK : PreOK m := preOK_of_pre m hpre
  refine ⟨fun c => Spec.Gk (m (xLoc c)) (m (iLoc c)) (m (wLoc c)) (m (bLoc c)), ?_, ?_⟩
  · -- the kernel's program: the launch, with the last valuation read at the result and at the four arguments
    refine Cert.Proof.KV.run_main m g (dv0 m) (dv1 m) (hb0 m hOK) (hb1 m hOK)
      (fun d => call0_split_val m d (dv0 m d)) (fun d => call1_split_val m d (dv1 m d))
      (goodAlg m) (goodAlg_WD m) _ (fun s' h c => ?_)
    obtain ⟨Wf, ⟨hout, hx, hi, hw, hb⟩, hrd⟩ := h c
    exact ⟨(hrd o6' (mem_uc main_v6 (by decide))).trans hout,
      (hrd x' (mem_uc main_arg0 (by decide))).trans hx, (hrd i' (mem_uc main_arg1 (by decide))).trans hi,
      (hrd w' (mem_uc main_arg2 (by decide))).trans hw, (hrd b' (mem_uc main_arg3 (by decide))).trans hb⟩
  · -- the reference's program: its run leaves the gathered form of ITS arguments, which are the kernel's
    have hidx' : ∀ (c : Dev Cert.ReferenceIdeal.nD) (i : Cert.ReferenceIdeal.S2048x32.Idx),
        BitVec.toNat (w := 32) (m' ((c.tc : Thread Cert.ReferenceIdeal.nD Cert.ReferenceIdeal.τ).loc Cert.ReferenceIdeal.main_arg1) i) < 2048 :=
      fun c i => by rw [(hagree c).2.1]; exact hOK c i
    refine (θ_run (Cert.ReferenceIdeal.defs (F := Ideal)) _ _).mono (fun r h c => ?_) (Cert.Proof.RefRun.run m' g' hidx')
    obtain ⟨hout, h0, h1, h2, h3⟩ := h c
    refine ⟨hout.trans ?_, h0, h1, h2, h3⟩
    rw [(hagree c).1, (hagree c).2.1, (hagree c).2.2.1, (hagree c).2.2.2]
    obtain ⟨hx, hw, -, hi⟩ := Cert.Proof.PreFacts.of_pre _ _ _ _ (hpre c)
    exact (Cert.Proof.Spec.Gk_eq_Gr _ _ _ _ hx hw hi).symm

end Cert.Proof.KI

end
-- ==== Proof.TileVal.lean ====
/-
  What one vector subcore's task of a scatter kernel leaves in its two 16 × 2048 result blocks, as a pure function
  of the index and weight arrays: a block of zeros, into which the task's 32 indexed stores with accumulation of
  that block are folded in program order — for each of the block's 16 rows `ol` (row `16 t + ol` of the task's 32
  copied-in rows) first the lanes 0–15 and then the lanes 16–31 of that row of indices and of weights, stored at row
  `ol` of the block and the columns the index words name. Each store's indices are in range because the row word is
  a constant below 16 and every index word is below 2048: the one fact about the index array the definition takes.
  Also here: how a zero-filling loop's trips extend the part of an accumulator that reads zero.
-/
import proofs.«210207_g17016660427310_cont_sun_m_176_22_alg».proof.Proof.Setup

noncomputable section

namespace Cert.Proof.KI

open Cert.KernelIdeal Cert.KernelIdeal.Gen
open Idealize.ShloMosaic
open Idealize.ShloMosaic.SparseCore (S V T)

variable {F : FTy → Type} [FloatOps F]

/-- The block of zeros the zero-filling loops leave. -/
def zeroBlk : Vec F S16x2048 .f32 := fun _ => Scalar.ofBits .f32 0x00000000#32

/-- Sixteen lanes of one row of a 32 × 32 block: row `off 0`, lanes `[off 1, off 1 + 16)`. -/
def ldRow {e : EltTy} (w : Vec F S32x32 e) (off : Fin 2 → Nat) (pf : ∀ a, off a + S1x16.size a ≤ S32x32.size a) : Vec F S16 e :=
  shapeCast S16 (fun x => w ((Rect.unit (s := S32x32) off S1x16.size pf).toLoadRect.idx x)) shapeCasts_S1x16_S16

/-- An indexed store's range check: the row vector is a constant below 16 and every column word is below 2048. -/
theorem chk_okV (r : BitVec 32) (hr : r.toNat < 16) (v : IVec S16 32) (hv : ∀ x, (v x).toNat < 2048) :
    ∀ a x, ((![broadcast S16 r, v] : Fin 2 → IVec S16 32) a x).toNat < S16x2048.size a := by
  intro a x
  match a with
  | 0 => exact hr
  | 1 => exact hv x

theorem rowWord_lt (ol : Fin 16) : (BitVec.ofNat 32 ol.val).toNat < 16 := by
  have := ol.isLt
  rw [BitVec.toNat_ofNat]
  exact lt_of_le_of_lt (Nat.mod_le _ _) this

theorem ldpf (t : Fin 2) (ol : Fin 16) (h : Fin 2) :
    ∀ a, (![16 * t.val + ol.val, 16 * h.val] : Fin 2 → Nat) a + S1x16.size a ≤ S32x32.size a := by
  intro a
  have := t.isLt; have := ol.isLt; have := h.isLt
  match a with
  | 0 => show 16 * t.val + ol.val + 1 ≤ 32; omega
  | 1 => show 16 * h.val + 16 ≤ 32; omega

/-- The 32 stores of a block in program order: rows ascending, within a row lanes 0–15 then lanes 16–31. -/
def sites : List (Fin 16 × Fin 2) := [(0, 0), (0, 1), (1, 0), (1, 1), (2, 0), (2, 1), (3, 0), (3, 1), (4, 0), (4, 1), (5, 0), (5, 1), (6, 0), (6, 1), (7, 0), (7, 1), (8, 0), (8, 1), (9, 0), (9, 1), (10, 0), (10, 1), (11, 0), (11, 1), (12, 0), (12, 1), (13, 0), (13, 1), (14, 0), (14, 1), (15, 0), (15, 1)]

section Call0
variable {d : Dev nD}

/-- The task's 32 × 32 blocks of indices and of weights, as it copies them in (first call). -/
def cI0 (fi : Buf (Elt F) (iLoc d)) (L : grid0.Coords) : Vec F S32x32 .i32 :=
  View.read (Elt F) (iV.slice (rI0 L) (fun _ => rfl)).view fi
def cW0 (fw : Buf (Elt F) (wLoc d)) (L : grid0.Coords) : Vec F S32x32 .f32 :=
  View.read (Elt F) (wV.slice (rI0 L) (fun _ => rfl)).view fw

/-- Every copied-in index word is below 2048. -/
theorem cI0_lt (fi : Buf (Elt F) (iLoc d)) (L : grid0.Coords)
    (hidx : ∀ x : S32x32.Idx, (fi (((iV.slice (rI0 L) (fun _ => rfl)).view).emb x)).toNat < 2048) (y : S32x32.Idx) :
    (cI0 fi L y).toNat < 2048 := hidx y

/-- One store of block `t`: row `ol` of the block, half `h` of row `16 t + ol` of the copied-in indices and weights. -/
def siteStep0 (fi : Buf (Elt F) (iLoc d)) (fw : Buf (Elt F) (wLoc d)) (L : grid0.Coords)
    (hidx : ∀ x : S32x32.Idx, (fi (((iV.slice (rI0 L) (fun _ => rfl)).view).emb x)).toNat < 2048) (t : Fin 2)
    (g : Vec F S16x2048 .f32) (p : Fin 16 × Fin 2) : Vec F S16x2048 .f32 :=
  storeIdx g ![broadcast S16 (BitVec.ofNat 32 p.1.val), ldRow (cI0 fi L) ![16 * t.val + p.1.val, 16 * p.2.val] (ldpf t p.1 p.2)]
    (ldRow (cW0 fw L) ![16 * t.val + p.1.val, 16 * p.2.val] (ldpf t p.1 p.2)) (fun _ => 1#1) true
    (chk_okV _ (rowWord_lt p.1) _ (fun x => cI0_lt fi L hidx _))

/-- What the task leaves in block `t` of its result (first call). -/
def blkVal0 (fi : Buf (Elt F) (iLoc d)) (fw : Buf (Elt F) (wLoc d)) (L : grid0.Coords)
    (hidx : ∀ x : S32x32.Idx, (fi (((iV.slice (rI0 L) (fun _ => rfl)).view).emb x)).toNat < 2048) (t : Fin 2) :
    Vec F S16x2048 .f32 :=
  sites.foldl (siteStep0 fi fw L hidx t) zeroBlk

end Call0

/-! ## Zero-filling -/

section ZeroFill
variable {sig' : RefSig} {κ : Kind} {sp : Space} (v : View sig' κ sp S16x2048 .f32)

/-- Rows below `r`, and in row `r` the columns below `c`, read zero. -/
def ZeroTo (f : v.ty.Contents (Elt F)) (r c : Nat) : Prop :=
  ∀ y : S16x2048.Idx, ((y 0).val < r ∨ ((y 0).val = r ∧ (y 1).val < c)) → v.read (Elt F) f y = Scalar.ofBits .f32 0x00000000#32

/-- The eight stores of one trip, the last first. -/
def trip8 (off : Fin 8 → Fin 2 → Nat) (pf : ∀ u a, off u a + S1x16.size a ≤ S16x2048.size a)
    (zv : S1x16.Idx → Elt F .f32) : List (View.Piece (Elt F) S16x2048 .f32) :=
  [⟨Rect.unit (s := S16x2048) (off 7) S1x16.size (pf 7), zv⟩, ⟨Rect.unit (s := S16x2048) (off 6) S1x16.size (pf 6), zv⟩,
   ⟨Rect.unit (s := S16x2048) (off 5) S1x16.size (pf 5), zv⟩, ⟨Rect.unit (s := S16x2048) (off 4) S1x16.size (pf 4), zv⟩,
   ⟨Rect.unit (s := S16x2048) (off 3) S1x16.size (pf 3), zv⟩, ⟨Rect.unit (s := S16x2048) (off 2) S1x16.size (pf 2), zv⟩,
   ⟨Rect.unit (s := S16x2048) (off 1) S1x16.size (pf 1), zv⟩, ⟨Rect.unit (s := S16x2048) (off 0) S1x16.size (pf 0), zv⟩]

theorem mem_trip8 (off : Fin 8 → Fin 2 → Nat) (pf : ∀ u a, off u a + S1x16.size a ≤ S16x2048.size a)
    (zv : S1x16.Idx → Elt F .f32) (u : Fin 8) :
    (⟨Rect.unit (s := S16x2048) (off u) S1x16.size (pf u), zv⟩ : View.Piece (Elt F) S16x2048 .f32) ∈ trip8 off pf zv := by
  unfold trip8
  fin_cases u <;> simp

/-- One trip of a zero-filling loop: eight stores of a zero vector at row `r`, columns `128 k + 16 u` on, take the
    zeros from column `128 k` of row `r` to column `128 (k + 1)`. -/
theorem zero_trip (f : v.ty.Contents (Elt F)) (r k : Nat) (off : Fin 8 → Fin 2 → Nat)
    (hoff : ∀ u : Fin 8, off u = ![r, 128 * k + 16 * u.val]) (pf : ∀ u a, off u a + S1x16.size a ≤ S16x2048.size a)
    (zv : S1x16.Idx → Elt F .f32) (hz : ∀ x, zv x = Scalar.ofBits .f32 0x00000000#32)
    (h : ZeroTo (F := F) v f r (128 * k)) :
    ZeroTo (F := F) v (v.writes (Elt F) f (trip8 off pf zv)) r (128 * (k + 1)) := by
  intro y hy
  by_cases hc : ∃ p ∈ trip8 off pf zv, y ∈ p.1.set
  · refine View.read_writes_apply_of_pieces v f (fun _ => Scalar.ofBits .f32 0x00000000#32) (trip8 off pf zv) ?_ y hc
    intro p hp x
    unfold trip8 at hp
    simp only [List.mem_cons, List.not_mem_nil, or_false] at hp
    rcases hp with rfl | rfl | rfl | rfl | rfl | rfl | rfl | rfl <;> exact hz x
  · rw [View.read_writes_apply_of_forall_not_mem v f y (trip8 off pf zv) (fun p hp hy' => hc ⟨p, hp, hy'⟩)]
    apply h y
    rcases hy with hy | ⟨hy0, hy1⟩
    · exact .inl hy
    · by_cases hlt : (y 1).val < 128 * k
      · exact .inr ⟨hy0, hlt⟩
      · exfalso
        have hu : ((y 1).val - 128 * k) / 16 < 8 := by omega
        apply hc
        refine ⟨_, mem_trip8 off pf zv ⟨((y 1).val - 128 * k) / 16, hu⟩, ?_⟩
        rw [Rect.mem_set_unit]
        intro a
        rw [hoff]
        match a with
        | 0 => show r ≤ (y 0).val ∧ (y 0).val < r + 1; omega
        | 1 =>
          show 128 * k + 16 * (((y 1).val - 128 * k) / 16) ≤ (y 1).val ∧ (y 1).val < 128 * k + 16 * (((y 1).val - 128 * k) / 16) + 16
          omega

/-- A filled row: the zeros reach the next row's start. -/
theorem ZeroTo.next_row (f : v.ty.Contents (Elt F)) (r : Nat) (h : ZeroTo (F := F) v f r 2048) : ZeroTo (F := F) v f (r + 1) 0 := by
  intro y hy
  apply h y
  have := (y 1).isLt
  rcases hy with hy | ⟨hy0, hy1⟩
  · by_cases e : (y 0).val = r
    · exact .inr ⟨e, this⟩
    · exact .inl (by omega)
  · omega

theorem ZeroTo.next_row' (f : v.ty.Contents (Elt F)) (r n : Nat) (hn : n = 16) (h : ZeroTo (F := F) v f r (128 * n)) :
    ZeroTo (F := F) v f (r + 1) 0 := by
  subst hn; exact ZeroTo.next_row v f r h

theorem ZeroTo.all (f : v.ty.Contents (Elt F)) (h : ZeroTo (F := F) v f 16 0) :
    v.read (Elt F) f = (zeroBlk : Vec F S16x2048 .f32) := by
  funext y
  exact h y (.inl (y 0).isLt)

theorem ZeroTo.init (f : v.ty.Contents (Elt F)) : ZeroTo (F := F) v f 0 0 := by
  intro y hy
  rcases hy with hy | ⟨_, hy⟩ <;> omega

end ZeroFill

end Cert.Proof.KI

end
-- ==== Proof.TileVal1.lean ====
/-
  What one vector subcore's task of the SECOND scatter kernel leaves in its two 16 × 2048 result blocks: the first
  call's definitions over the second call's rows of the index and weight arrays.
-/
import proofs.«210207_g17016660427310_cont_sun_m_176_22_alg».proof.Proof.TileVal

noncomputable section

namespace Cert.Proof.KI

open Cert.KernelIdeal Cert.KernelIdeal.Gen
open Idealize.ShloMosaic
open Idealize.ShloMosaic.SparseCore (S V T)

variable {F : FTy → Type} [FloatOps F]

section Call1
variable {d : Dev nD}

/-- The task's 32 × 32 blocks of indices and of weights, as it copies them in (second call). -/
def cI1 (fi : Buf (Elt F) (iLoc d)) (L : grid1.Coords) : Vec F S32x32 .i32 :=
  View.read (Elt F) (iV.slice (rI1 L) (fun _ => rfl)).view fi
def cW1 (fw : Buf (Elt F) (wLoc d)) (L : grid1.Coords) : Vec F S32x32 .f32 :=
  View.read (Elt F) (wV.slice (rI1 L) (fun _ => rfl)).view fw

/-- Every copied-in index word is below 2048. -/
theorem cI1_lt (fi : Buf (Elt F) (iLoc d)) (L : grid1.Coords)
    (hidx : ∀ x : S32x32.Idx, (fi (((iV.slice (rI1 L) (fun _ => rfl)).view).emb x)).toNat < 2048) (y : S32x32.Idx) :
    (cI1 fi L y).toNat < 2048 := hidx y

/-- One store of block `t`: row `ol` of the block, half `h` of row `16 t + ol` of the copied-in indices and weights. -/
def siteStep1 (fi : Buf (Elt F) (iLoc d)) (fw : Buf (Elt F) (wLoc d)) (L : grid1.Coords)
    (hidx : ∀ x : S32x32.Idx, (fi (((iV.slice (rI1 L) (fun _ => rfl)).view).emb x)).toNat < 2048) (t : Fin 2)
    (g : Vec F S16x2048 .f32) (p : Fin 16 × Fin 2) : Vec F S16x2048 .f32 :=
  storeIdx g ![broadcast S16 (BitVec.ofNat 32 p.1.val), ldRow (cI1 fi L) ![16 * t.val + p.1.val, 16 * p.2.val] (ldpf t p.1 p.2)]
    (ldRow (cW1 fw L) ![16 * t.val + p.1.val, 16 * p.2.val] (ldpf t p.1 p.2)) (fun _ => 1#1) true
    (chk_okV _ (rowWord_lt p.1) _ (fun x => cI1_lt fi L hidx _))

/-- What the task leaves in block `t` of its result (second call). -/
def blkVal1 (fi : Buf (Elt F) (iLoc d)) (fw : Buf (Elt F) (wLoc d)) (L : grid1.Coords)
    (hidx : ∀ x : S32x32.Idx, (fi (((iV.slice (rI1 L) (fun _ => rfl)).view).emb x)).toNat < 2048) (t : Fin 2) :
    Vec F S16x2048 .f32 :=
  sites.foldl (siteStep1 fi fw L hidx t) zeroBlk

end Call1

end Cert.Proof.KI

end
-- ==== Proof.TileV.lean ====
/-
  From a tile's task with its value — the two result blocks ending at the fold of the tile's indexed stores
  over a block of zeros — to the launch's wording, in which each block is handed back as a piece of ONE
  whole-array function.
-/
import proofs.«210207_g17016660427310_cont_sun_m_176_22_alg».proof.Proof.LaunchKV
import proofs.«210207_g17016660427310_cont_sun_m_176_22_alg».proof.Proof.TileVal
import proofs.«210207_g17016660427310_cont_sun_m_176_22_alg».proof.Proof.TileVal1

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ)
variable [FloatOps F]

/-- One tile's task of call 0 with its value: the two result blocks end at the fold of the tile's indexed stores over a block of zeros. -/
def TileBody0N : Prop :=
  ∀ (d : Dev nD) (L : grid0.Coords) (O : CellTallies nD τ sig (HIx 2)) (W : Waits sig (HIx 2)), (∀ g, O g none = 0) →
    ∀ (fi : Buf (Elt F) (iLoc d)) (fw : Buf (Elt F) (wLoc d))
    (hidx : ∀ x : S32x32.Idx, (fi (((iV.slice (rI0 L) (fun _ => rfl)).view).emb x)).toNat < 2048),
    (iprop(levAts (K (F := F)).L (K (F := F)).lev ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, ⌜∀ y : S16x2048.Idx, fa (((o0V.slice (rOa0 L) (fun _ => rfl)).view).emb y) = blkVal0 fi fw L hidx 0 y⌝ ∗ o0Loc d ↦[rowsOa0 L]{fullShare} fa)
            ∗ (∃ fb, ⌜∀ y : S16x2048.Idx, fb (((o0V.slice (rOb0 L) (fun _ => rfl)).view).emb y) = blkVal0 fi fw L hidx 1 y⌝ ∗ o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

/-- From the named contents to the launch's wording: a block whose contents agree, index by index, with the whole
    array function on the block's index set IS a piece of that function. -/
theorem tileBody0V_of (dv : (d : Dev nD) → Buf (Elt F) (o0Loc d)) (hN : TileBody0N (F := F)) (hpre : PreOK m)
    (hva : ∀ (d : Dev nD) (L : grid0.Coords) hidx (y : S16x2048.Idx),
      blkVal0 (m (iLoc d)) (m (wLoc d)) L hidx 0 y = dv d (((o0V.slice (rOa0 L) (fun _ => rfl)).view).emb y))
    (hvb : ∀ (d : Dev nD) (L : grid0.Coords) hidx (y : S16x2048.Idx),
      blkVal0 (m (iLoc d)) (m (wLoc d)) L hidx 1 y = dv d (((o0V.slice (rOb0 L) (fun _ => rfl)).view).emb y)) :
    Cert.Proof.KV.TileBody0V m dv := by
  intro d L O W hO
  refine BIBase.Entails.trans (hN d L O W hO (m (iLoc d)) (m (wLoc d)) (fun x => hpre d _)) (wp_mono frame _ _ fun _ => ?_)
  iintro ⟨Hi, Hw, ⟨%fa, %hfa, Ha⟩, ⟨%fb, %hfb, Hb⟩, Hsb, Hss, HO⟩
  isplitl [Hi]; · iexact Hi
  isplitl [Hw]; · iexact Hw
  isplitl [Ha]
  · rw [← pointsTo_congr (I := rowsOa0 L) (f := fa) (g := dv d) fun j hj => by
      obtain ⟨y, -, rfl⟩ := Finset.mem_map.mp hj
      exact (hfa y).trans (hva d L _ y)]
    iexact Ha
  isplitl [Hb]
  · rw [← pointsTo_congr (I := rowsOb0 L) (f := fb) (g := dv d) fun j hj => by
      obtain ⟨y, -, rfl⟩ := Finset.mem_map.mp hj
      exact (hfb y).trans (hvb d L _ y)]
    iexact Hb
  isplitl [Hsb]; · iexact Hsb
  isplitl [Hss]; · iexact Hss
  iexact HO

/-- One tile's task of call 1 with its value: the two result blocks end at the fold of the tile's indexed stores over a block of zeros. -/
def TileBody1N : Prop :=
  ∀ (d : Dev nD) (L : grid1.Coords) (O : CellTallies nD τ sig (HIx 2)) (W : Waits sig (HIx 2)), (∀ g, O g none = 0) →
    ∀ (fi : Buf (Elt F) (iLoc d)) (fw : Buf (Elt F) (wLoc d))
    (hidx : ∀ x : S32x32.Idx, (fi (((iV.slice (rI1 L) (fun _ => rfl)).view).emb x)).toNat < 2048),
    (iprop(levAts (K (F := F)).L (K (F := F)).lev ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_body L iV (Memref.isWhole_whole _) wV (Memref.isWhole_whole _) o1V (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, ⌜∀ y : S16x2048.Idx, fa (((o1V.slice (rOa1 L) (fun _ => rfl)).view).emb y) = blkVal1 fi fw L hidx 0 y⌝ ∗ o1Loc d ↦[rowsOa1 L]{fullShare} fa)
            ∗ (∃ fb, ⌜∀ y : S16x2048.Idx, fb (((o1V.slice (rOb1 L) (fun _ => rfl)).view).emb y) = blkVal1 fi fw L hidx 1 y⌝ ∗ o1Loc d ↦[rowsOb1 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W')

/-- From the named contents to the launch's wording: a block whose contents agree, index by index, with the whole
    array function on the block's index set IS a piece of that function. -/
theorem tileBody1V_of (dv : (d : Dev nD) → Buf (Elt F) (o1Loc d)) (hN : TileBody1N (F := F)) (hpre : PreOK m)
    (hva : ∀ (d : Dev nD) (L : grid1.Coords) hidx (y : S16x2048.Idx),
      blkVal1 (m (iLoc d)) (m (wLoc d)) L hidx 0 y = dv d (((o1V.slice (rOa1 L) (fun _ => rfl)).view).emb y))
    (hvb : ∀ (d : Dev nD) (L : grid1.Coords) hidx (y : S16x2048.Idx),
      blkVal1 (m (iLoc d)) (m (wLoc d)) L hidx 1 y = dv d (((o1V.slice (rOb1 L) (fun _ => rfl)).view).emb y)) :
    Cert.Proof.KV.TileBody1V m dv := by
  intro d L O W hO
  refine BIBase.Entails.trans (hN d L O W hO (m (iLoc d)) (m (wLoc d)) (fun x => hpre d _)) (wp_mono frame _ _ fun _ => ?_)
  iintro ⟨Hi, Hw, ⟨%fa, %hfa, Ha⟩, ⟨%fb, %hfb, Hb⟩, Hsb, Hss, HO⟩
  isplitl [Hi]; · iexact Hi
  isplitl [Hw]; · iexact Hw
  isplitl [Ha]
  · rw [← pointsTo_congr (I := rowsOa1 L) (f := fa) (g := dv d) fun j hj => by
      obtain ⟨y, -, rfl⟩ := Finset.mem_map.mp hj
      exact (hfa y).trans (hva d L _ y)]
    iexact Ha
  isplitl [Hb]
  · rw [← pointsTo_congr (I := rowsOb1 L) (f := fb) (g := dv d) fun j hj => by
      obtain ⟨y, -, rfl⟩ := Finset.mem_map.mp hj
      exact (hfb y).trans (hvb d L _ y)]
    iexact Hb
  isplitl [Hsb]; · iexact Hsb
  isplitl [Hss]; · iexact Hss
  iexact HO

end Cert.Proof.KI

end
-- ==== Proof.ScatterSum.lean ====
/-
  An indexed store with add, all lanes enabled, at the ideal instance is a sum.

  The store walks the lanes in ascending order; lane k adds its value v k onto the element of the base block its two
  index words (row k, col k) name. Over the extended reals addition is commutative and associative with no side
  condition, so after the walk the element at (j0, j1) holds what it held plus the sum of v k over the lanes k with
  (row k, col k) = (j0, j1).
-/
import Idealize.ShloMosaic.PureOps.Ideal
import Mathlib.Algebra.BigOperators.Fin

noncomputable section

open scoped BigOperators

namespace Cert.Proof.Spec

open Idealize.ShloMosaic

section Generic
variable {n0 n1 n : Nat}

/-- One lane of the store: lane k's value added at the index its two index words name; every other element kept. -/
def lane (rv iv : IVec ⟨1, ![n]⟩ 32) (v : Vec Ideal ⟨1, ![n]⟩ .f32)
    (h : ∀ a x, ((![rv, iv] : Fin 2 → IVec ⟨1, ![n]⟩ 32) a x).toNat < (⟨2, ![n0, n1]⟩ : Shape).size a)
    (g : Vec Ideal ⟨2, ![n0, n1]⟩ .f32) (k : Fin n) : Vec Ideal ⟨2, ![n0, n1]⟩ .f32 :=
  fun j => if (∀ a, (j a).val = (idxAt ![rv, iv] h (Shape.ofLane k) a).val)
    then g (idxAt ![rv, iv] h (Shape.ofLane k)) + v (Shape.ofLane k) else g j

/-- The store is the lanes' walk. -/
theorem storeIdx_eq_foldl (g : Vec Ideal ⟨2, ![n0, n1]⟩ .f32) (rv iv : IVec ⟨1, ![n]⟩ 32) (v : Vec Ideal ⟨1, ![n]⟩ .f32)
    (h : ∀ a x, ((![rv, iv] : Fin 2 → IVec ⟨1, ![n]⟩ 32) a x).toNat < (⟨2, ![n0, n1]⟩ : Shape).size a) :
    storeIdx g ![rv, iv] v (fun _ => 1#1) true h = (List.finRange n).foldl (lane rv iv v h) g := rfl

/-- One lane at an element: what was there, plus the lane's value when the lane names the element. -/
theorem lane_apply (rv iv : IVec ⟨1, ![n]⟩ 32) (v : Vec Ideal ⟨1, ![n]⟩ .f32)
    (h : ∀ a x, ((![rv, iv] : Fin 2 → IVec ⟨1, ![n]⟩ 32) a x).toNat < (⟨2, ![n0, n1]⟩ : Shape).size a)
    (g : Vec Ideal ⟨2, ![n0, n1]⟩ .f32) (k : Fin n) (j : (⟨2, ![n0, n1]⟩ : Shape).Idx) :
    lane rv iv v h g k j
      = g j + if ((rv (Shape.ofLane k)).toNat = (j 0).val ∧ (iv (Shape.ofLane k)).toNat = (j 1).val)
          then v (Shape.ofLane k) else 0 := by
  unfold lane
  by_cases hc : ((rv (Shape.ofLane k)).toNat = (j 0).val ∧ (iv (Shape.ofLane k)).toNat = (j 1).val)
  · have hit : ∀ a, (j a).val = (idxAt ![rv, iv] h (Shape.ofLane k) a).val := by
      intro a
      match a with
      | ⟨0, _⟩ => exact hc.1.symm
      | ⟨1, _⟩ => exact hc.2.symm
    have hji : idxAt ![rv, iv] h (Shape.ofLane k) = j := funext fun a => Fin.ext (hit a).symm
    rw [if_pos hit, if_pos hc, hji]
  · have nhit : ¬ ∀ a, (j a).val = (idxAt ![rv, iv] h (Shape.ofLane k) a).val :=
      fun hh => hc ⟨(hh 0).symm, (hh 1).symm⟩
    rw [if_neg nhit, if_neg hc, add_zero]

/-- The walk over any list of lanes at an element: what was there plus the listed lanes' contributions. -/
theorem foldl_lane_apply (rv iv : IVec ⟨1, ![n]⟩ 32) (v : Vec Ideal ⟨1, ![n]⟩ .f32)
    (h : ∀ a x, ((![rv, iv] : Fin 2 → IVec ⟨1, ![n]⟩ 32) a x).toNat < (⟨2, ![n0, n1]⟩ : Shape).size a)
    (j : (⟨2, ![n0, n1]⟩ : Shape).Idx) (l : List (Fin n)) (g : Vec Ideal ⟨2, ![n0, n1]⟩ .f32) :
    l.foldl (lane rv iv v h) g j
      = g j + (l.map fun k => if ((rv (Shape.ofLane k)).toNat = (j 0).val ∧ (iv (Shape.ofLane k)).toNat = (j 1).val)
          then v (Shape.ofLane k) else 0).sum := by
  induction l generalizing g with
  | nil => simp
  | cons k l ih =>
    rw [List.foldl_cons, ih, lane_apply]
    exact add_assoc _ _ _

/-- THE STORE WITH ADD AT AN ELEMENT, any extents. -/
theorem storeIdx_add_apply_gen (g : Vec Ideal ⟨2, ![n0, n1]⟩ .f32) (rv iv : IVec ⟨1, ![n]⟩ 32)
    (v : Vec Ideal ⟨1, ![n]⟩ .f32)
    (h : ∀ a x, ((![rv, iv] : Fin 2 → IVec ⟨1, ![n]⟩ 32) a x).toNat < (⟨2, ![n0, n1]⟩ : Shape).size a)
    (j : (⟨2, ![n0, n1]⟩ : Shape).Idx) :
    storeIdx g ![rv, iv] v (fun _ => 1#1) true h j
      = g j + ∑ k : Fin n, if ((rv (Shape.ofLane k)).toNat = (j 0).val ∧ (iv (Shape.ofLane k)).toNat = (j 1).val)
          then v (Shape.ofLane k) else 0 := by
  rw [storeIdx_eq_foldl, foldl_lane_apply, Fin.sum_univ_def]
  rfl

end Generic

/-- THE STORE WITH ADD AT AN ELEMENT of a 16 × 2048 block, sixteen lanes. -/
theorem storeIdx_add_apply (g : Vec Ideal ⟨2, ![16, 2048]⟩ .f32) (rv iv : IVec ⟨1, ![16]⟩ 32)
    (v : Vec Ideal ⟨1, ![16]⟩ .f32)
    (h : ∀ a x, ((![rv, iv] : Fin 2 → IVec ⟨1, ![16]⟩ 32) a x).toNat < (⟨2, ![16, 2048]⟩ : Shape).size a)
    (j : (⟨2, ![16, 2048]⟩ : Shape).Idx) :
    storeIdx g ![rv, iv] v (fun _ => 1#1) true h j
      = g j + ∑ k : Fin 16, if ((rv (Shape.ofLane k)).toNat = (j 0).val ∧ (iv (Shape.ofLane k)).toNat = (j 1).val)
          then v (Shape.ofLane k) else 0 :=
  storeIdx_add_apply_gen g rv iv v h j

end Cert.Proof.Spec

end
-- ==== Proof.DenseRows.lean ====
/-
  One row of the dense matrix, as the stores leave it.

  A row o of the index table and of the weights has 32 entries, handled as two halves of 16 lanes. Both halves are
  stored with add into row ol of a 16 × 2048 block: every lane's row word is ol, lane k of half h names column
  idx[o, 16 h + k] and carries w[o, 16 h + k]. After the two stores the block's element (p, j) holds what it held,
  plus — on row ol only — the sum over the 32 entries f with idx[o, f] = j of w[o, f]: entry (o, j) of the dense
  matrix. Rows other than ol are untouched.
-/
import proofs.«210207_g17016660427310_cont_sun_m_176_22_alg».proof.Proof.Spec
import proofs.«210207_g17016660427310_cont_sun_m_176_22_alg».proof.Proof.ScatterSum

noncomputable section

open scoped BigOperators

namespace Cert.Proof.Spec

open Idealize.ShloMosaic

/-- A ROW'S TWO STORES at an element (p, j) of the block, from any block g: g's element, plus on row ol the two
    halves' contributions to column j. -/
theorem rowStores_apply (g : Vec Ideal ⟨2, ![16, 2048]⟩ .f32) (ol : Fin 16) (rv iv0 iv1 : IVec ⟨1, ![16]⟩ 32)
    (v0 v1 : Vec Ideal ⟨1, ![16]⟩ .f32) (hrv : ∀ k : Fin 16, (rv (Shape.ofLane k)).toNat = ol.val)
    (h0 : ∀ a x, ((![rv, iv0] : Fin 2 → IVec ⟨1, ![16]⟩ 32) a x).toNat < (⟨2, ![16, 2048]⟩ : Shape).size a)
    (h1 : ∀ a x, ((![rv, iv1] : Fin 2 → IVec ⟨1, ![16]⟩ 32) a x).toNat < (⟨2, ![16, 2048]⟩ : Shape).size a)
    (p : Fin 16) (j : Fin 2048) :
    storeIdx (storeIdx g ![rv, iv0] v0 (fun _ => 1#1) true h0) ![rv, iv1] v1 (fun _ => 1#1) true h1 (ValueIdx.ix2 p j)
      = g (ValueIdx.ix2 p j) + if p = ol then
          (∑ k : Fin 16, if (iv0 (Shape.ofLane k)).toNat = j.val then v0 (Shape.ofLane k) else 0)
            + (∑ k : Fin 16, if (iv1 (Shape.ofLane k)).toNat = j.val then v1 (Shape.ofLane k) else 0)
        else 0 := by
  refine (storeIdx_add_apply _ rv iv1 v1 h1 _).trans ?_
  refine (congrArg (· + _) (storeIdx_add_apply g rv iv0 v0 h0 _)).trans ?_
  refine (add_assoc _ _ _).trans (congrArg (g (ValueIdx.ix2 p j) + ·) ?_)
  by_cases hp : p = ol
  · subst hp
    rw [if_pos rfl]
    refine congrArg₂ (· + ·) ?_ ?_
    · refine Finset.sum_congr rfl fun k _ => if_congr ?_ rfl rfl
      show ((rv (Shape.ofLane k)).toNat = p.val ∧ (iv0 (Shape.ofLane k)).toNat = j.val) ↔ _
      rw [hrv k]
      exact and_iff_right rfl
    · refine Finset.sum_congr rfl fun k _ => if_congr ?_ rfl rfl
      show ((rv (Shape.ofLane k)).toNat = p.val ∧ (iv1 (Shape.ofLane k)).toNat = j.val) ↔ _
      rw [hrv k]
      exact and_iff_right rfl
  · rw [if_neg hp]
    have z : ∀ (iv : IVec ⟨1, ![16]⟩ 32) (v : Vec Ideal ⟨1, ![16]⟩ .f32),
        (∑ k : Fin 16, if ((rv (Shape.ofLane k)).toNat = ((ValueIdx.ix2 p j : (⟨2, ![16, 2048]⟩ : Shape).Idx) 0).val
            ∧ (iv (Shape.ofLane k)).toNat = ((ValueIdx.ix2 p j : (⟨2, ![16, 2048]⟩ : Shape).Idx) 1).val)
          then v (Shape.ofLane k) else 0) = 0 := by
      intro iv v
      refine Finset.sum_eq_zero fun k _ => if_neg ?_
      rintro ⟨h, -⟩
      rw [hrv k] at h
      exact hp (Fin.ext h.symm)
    rw [z, z, add_zero]

/-- Rows other than ol are untouched by row ol's two stores. -/
theorem rowStores_other (g : Vec Ideal ⟨2, ![16, 2048]⟩ .f32) (ol : Fin 16) (rv iv0 iv1 : IVec ⟨1, ![16]⟩ 32)
    (v0 v1 : Vec Ideal ⟨1, ![16]⟩ .f32) (hrv : ∀ k : Fin 16, (rv (Shape.ofLane k)).toNat = ol.val)
    (h0 : ∀ a x, ((![rv, iv0] : Fin 2 → IVec ⟨1, ![16]⟩ 32) a x).toNat < (⟨2, ![16, 2048]⟩ : Shape).size a)
    (h1 : ∀ a x, ((![rv, iv1] : Fin 2 → IVec ⟨1, ![16]⟩ 32) a x).toNat < (⟨2, ![16, 2048]⟩ : Shape).size a)
    (p : Fin 16) (j : Fin 2048) (hp : p ≠ ol) :
    storeIdx (storeIdx g ![rv, iv0] v0 (fun _ => 1#1) true h0) ![rv, iv1] v1 (fun _ => 1#1) true h1 (ValueIdx.ix2 p j)
      = g (ValueIdx.ix2 p j) := by
  rw [rowStores_apply g ol rv iv0 iv1 v0 v1 hrv h0 h1 p j, if_neg hp, add_zero]

/-- THE TWO HALVES ARE THE DENSE ENTRY: lane k of half 0 carrying entry k of row o and lane k of half 1 entry 16 + k,
    the two halves' contributions to column j add up to entry (o, j) of the dense matrix. -/
theorem halves_eq_dense (idx : IVec SI 32) (w : Vec Ideal SI .f32) (o j : Fin 2048) (iv0 iv1 : IVec ⟨1, ![16]⟩ 32)
    (v0 v1 : Vec Ideal ⟨1, ![16]⟩ .f32)
    (hi0 : ∀ k : Fin 16, iv0 (Shape.ofLane k) = idx (ValueIdx.ix2 o ⟨k.val, by omega⟩))
    (hi1 : ∀ k : Fin 16, iv1 (Shape.ofLane k) = idx (ValueIdx.ix2 o ⟨16 + k.val, by omega⟩))
    (hv0 : ∀ k : Fin 16, v0 (Shape.ofLane k) = w (ValueIdx.ix2 o ⟨k.val, by omega⟩))
    (hv1 : ∀ k : Fin 16, v1 (Shape.ofLane k) = w (ValueIdx.ix2 o ⟨16 + k.val, by omega⟩)) :
    (∑ k : Fin 16, if (iv0 (Shape.ofLane k)).toNat = j.val then v0 (Shape.ofLane k) else 0)
      + (∑ k : Fin 16, if (iv1 (Shape.ofLane k)).toNat = j.val then v1 (Shape.ofLane k) else 0)
      = dense idx w o j := by
  unfold dense col
  have e := Fin.sum_univ_add (a := 16) (b := 16)
    (fun f : Fin (16 + 16) => if (idx (ValueIdx.ix2 o f)).toNat = j.val then w (ValueIdx.ix2 o f) else 0)
  refine Eq.trans ?_ e.symm
  refine congrArg₂ (· + ·) ?_ ?_
  · refine Finset.sum_congr rfl fun k _ => ?_
    rw [hi0 k, hv0 k]
    rfl
  · refine Finset.sum_congr rfl fun k _ => ?_
    rw [hi1 k, hv1 k]
    rfl

/-- ROW ol OF A ZERO BLOCK after row o's two stores is row o of the dense matrix. -/
theorem rowStores_zero (z : Vec Ideal ⟨2, ![16, 2048]⟩ .f32) (hz : ∀ i, z i = 0) (idx : IVec SI 32)
    (w : Vec Ideal SI .f32) (o : Fin 2048) (ol : Fin 16) (rv iv0 iv1 : IVec ⟨1, ![16]⟩ 32)
    (v0 v1 : Vec Ideal ⟨1, ![16]⟩ .f32) (hrv : ∀ k : Fin 16, (rv (Shape.ofLane k)).toNat = ol.val)
    (h0 : ∀ a x, ((![rv, iv0] : Fin 2 → IVec ⟨1, ![16]⟩ 32) a x).toNat < (⟨2, ![16, 2048]⟩ : Shape).size a)
    (h1 : ∀ a x, ((![rv, iv1] : Fin 2 → IVec ⟨1, ![16]⟩ 32) a x).toNat < (⟨2, ![16, 2048]⟩ : Shape).size a)
    (hi0 : ∀ k : Fin 16, iv0 (Shape.ofLane k) = idx (ValueIdx.ix2 o ⟨k.val, by omega⟩))
    (hi1 : ∀ k : Fin 16, iv1 (Shape.ofLane k) = idx (ValueIdx.ix2 o ⟨16 + k.val, by omega⟩))
    (hv0 : ∀ k : Fin 16, v0 (Shape.ofLane k) = w (ValueIdx.ix2 o ⟨k.val, by omega⟩))
    (hv1 : ∀ k : Fin 16, v1 (Shape.ofLane k) = w (ValueIdx.ix2 o ⟨16 + k.val, by omega⟩)) (j : Fin 2048) :
    storeIdx (storeIdx z ![rv, iv0] v0 (fun _ => 1#1) true h0) ![rv, iv1] v1 (fun _ => 1#1) true h1 (ValueIdx.ix2 ol j)
      = dense idx w o j := by
  rw [rowStores_apply z ol rv iv0 iv1 v0 v1 hrv h0 h1 ol j, if_pos rfl, hz, zero_add]
  exact halves_eq_dense idx w o j iv0 iv1 v0 v1 hi0 hi1 hv0 hv1

end Cert.Proof.Spec

end
-- ==== Proof.BlkDense.lean ====
/-
  What one tile's task leaves in a result block is a block of the dense matrix.

  Block t of tile L's result is a block of zeros into which, for each of its 16 rows p, the two halves of row
  16 t + p of the tile's 32 copied-in rows of indices and weights are stored with add at row p. The tile's copied-in
  row n is row 64 s + 32 c + n of the whole arrays (L = (c, s)), so element (p, j) of the block ends as the sum of the
  weights of row 64 s + 32 c + 16 t + p whose index is j: entry (that row, j) of the dense matrix.
-/
import proofs.«210207_g17016660427310_cont_sun_m_176_22_alg».proof.Proof.TileVal
import proofs.«210207_g17016660427310_cont_sun_m_176_22_alg».proof.Proof.DenseRows
import Idealize.ShloMosaic.PureOps.Ideal.Laws
import Idealize.ShloMosaic.Lib.Pipeline.Value

noncomputable section

open scoped BigOperators

namespace Cert.Proof.KI

open Cert.KernelIdeal Cert.KernelIdeal.Gen
open Idealize.ShloMosaic
open Idealize.ShloMosaic.SparseCore (S V T)
open Cert.Proof.Spec (dense rowStores_apply halves_eq_dense)

/-! ## Lanes and rows read at an index -/

/-- Every index of a sixteen-lane vector is a lane. -/
theorem eq_ofLane (x : S16.Idx) : x = Shape.ofLane (d := ![16]) (x 0) := by
  funext a
  obtain rfl : a = 0 := Fin.eq_zero a
  exact Fin.ext rfl

/-- Sixteen lanes of a row of a 32 × 32 block, at lane k: the block at (row, first lane + k). -/
theorem ldRow_apply {e : EltTy} (w : Vec Ideal S32x32 e) (off : Fin 2 → Nat)
    (pf : ∀ a, off a + S1x16.size a ≤ S32x32.size a) (k : Fin 16) :
    ldRow w off pf (Shape.ofLane (d := ![16]) k)
      = w (ValueIdx.ix2 ⟨off 0, by have := pf 0; show off 0 < 32; change off 0 + 1 ≤ 32 at this; omega⟩
          ⟨off 1 + k.val, by have := pf 1; show off 1 + k.val < 32; change off 1 + 16 ≤ 32 at this; omega⟩) := by
  unfold ldRow
  refine (shapeCast_apply _ _ (Shape.ofLane (d := ![16]) k) (ValueIdx.ix2 (0 : Fin 1) k) ?_).trans ?_
  · rw [Shape.rowMajor_val_two, Shape.rowMajor_val_one]
    show 0 * 16 + k.val = k.val
    omega
  · refine congrArg w (funext fun a => Fin.ext ?_)
    match a with
    | ⟨0, _⟩ =>
      show off 0 + 1 * 0 = off 0
      omega
    | ⟨1, _⟩ =>
      show off 1 + 1 * k.val = off 1 + k.val
      omega

section Call0
variable {d : Dev nD}

/-- A tile's row n is below 2048 in the whole arrays. -/
theorem row_lt0 (L : grid0.Coords) (n : Nat) (hn : n < 32) : 64 * (L 1).val + 32 * (L 0).val + n < 2048 := by
  have h0 : (L 0).val < 2 := (L 0).isLt
  have h1 : (L 1).val < 16 := (L 1).isLt
  omega

/-- The copied-in index block at (n, k) is the whole index array at (64 s + 32 c + n, k). -/
theorem cI0_apply (fi : Buf (Elt Ideal) (iLoc d)) (L : grid0.Coords) (n k : Fin 32) :
    cI0 fi L (ValueIdx.ix2 n k) = fi (ValueIdx.ix2 ⟨64 * (L 1).val + 32 * (L 0).val + n.val, row_lt0 L n.val n.isLt⟩ k) := by
  unfold cI0
  rw [View.read_apply]
  show fi ((iV.slice (rI0 L) (fun _ => rfl)).view.emb (ValueIdx.ix2 n k)) = _
  refine congrArg fi (funext fun a => Fin.ext ?_)
  match a with
  | ⟨0, _⟩ =>
    show k0_off1 L 0 + 1 * n.val = 64 * (L 1).val + 32 * (L 0).val + n.val
    rw [k0_off1_eq]
    show 64 * (L 1).val + 32 * (L 0).val + 1 * n.val = _
    omega
  | ⟨1, _⟩ =>
    show k0_off1 L 1 + 1 * k.val = k.val
    rw [k0_off1_eq]
    show 0 + 1 * k.val = k.val
    omega

/-- The copied-in weight block at (n, k) is the whole weight array at (64 s + 32 c + n, k). -/
theorem cW0_apply (fw : Buf (Elt Ideal) (wLoc d)) (L : grid0.Coords) (n k : Fin 32) :
    cW0 fw L (ValueIdx.ix2 n k) = fw (ValueIdx.ix2 ⟨64 * (L 1).val + 32 * (L 0).val + n.val, row_lt0 L n.val n.isLt⟩ k) := by
  unfold cW0
  rw [View.read_apply]
  show fw ((wV.slice (rI0 L) (fun _ => rfl)).view.emb (ValueIdx.ix2 n k)) = _
  refine congrArg fw (funext fun a => Fin.ext ?_)
  match a with
  | ⟨0, _⟩ =>
    show k0_off1 L 0 + 1 * n.val = 64 * (L 1).val + 32 * (L 0).val + n.val
    rw [k0_off1_eq]
    show 64 * (L 1).val + 32 * (L 0).val + 1 * n.val = _
    omega
  | ⟨1, _⟩ =>
    show k0_off1 L 1 + 1 * k.val = k.val
    rw [k0_off1_eq]
    show 0 + 1 * k.val = k.val
    omega

/-- Row ol's two stores of block t, from any block g. -/
def rowStep0 (fi : Buf (Elt Ideal) (iLoc d)) (fw : Buf (Elt Ideal) (wLoc d)) (L : grid0.Coords)
    (hidx : ∀ x : S32x32.Idx, (fi (((iV.slice (rI0 L) (fun _ => rfl)).view).emb x)).toNat < 2048) (t : Fin 2)
    (g : Vec Ideal S16x2048 .f32) (ol : Fin 16) : Vec Ideal S16x2048 .f32 :=
  siteStep0 fi fw L hidx t (siteStep0 fi fw L hidx t g (ol, 0)) (ol, 1)

/-- The block is the rows' stores folded over a block of zeros. -/
theorem sites_eq : sites = (List.finRange 16).flatMap fun ol => [(ol, (0 : Fin 2)), (ol, (1 : Fin 2))] := by decide

theorem blkVal0_eq_rows (fi : Buf (Elt Ideal) (iLoc d)) (fw : Buf (Elt Ideal) (wLoc d)) (L : grid0.Coords)
    (hidx : ∀ x : S32x32.Idx, (fi (((iV.slice (rI0 L) (fun _ => rfl)).view).emb x)).toNat < 2048) (t : Fin 2) :
    blkVal0 fi fw L hidx t = (List.finRange 16).foldl (rowStep0 fi fw L hidx t) zeroBlk := by
  unfold blkVal0
  rw [sites_eq, List.foldl_flatMap]
  rfl

/-- The row of the whole arrays that row p of block t of tile L holds. -/
theorem brow_lt0 (L : grid0.Coords) (t : Fin 2) (p : Fin 16) : 64 * (L 1).val + 32 * (L 0).val + 16 * t.val + p.val < 2048 := by
  have h0 : (L 0).val < 2 := (L 0).isLt
  have h1 : (L 1).val < 16 := (L 1).isLt
  have := t.isLt; have := p.isLt
  omega

/-- ONE ROW'S TWO STORES at (p, j): what was there, plus on row ol the dense entry of row 64 s + 32 c + 16 t + ol. -/
theorem rowStep0_apply (fi : Buf (Elt Ideal) (iLoc d)) (fw : Buf (Elt Ideal) (wLoc d)) (L : grid0.Coords)
    (hidx : ∀ x : S32x32.Idx, (fi (((iV.slice (rI0 L) (fun _ => rfl)).view).emb x)).toNat < 2048) (t : Fin 2)
    (g : Vec Ideal S16x2048 .f32) (ol p : Fin 16) (j : Fin 2048) :
    rowStep0 fi fw L hidx t g ol (ValueIdx.ix2 p j)
      = g (ValueIdx.ix2 p j) + if p = ol then
          dense fi fw ⟨64 * (L 1).val + 32 * (L 0).val + 16 * t.val + ol.val, brow_lt0 L t ol⟩ j else 0 := by
  unfold rowStep0 siteStep0
  refine (rowStores_apply g ol _ _ _ _ _ (fun k => ?_) _ _ p j).trans ?_
  · show (BitVec.ofNat 32 ol.val).toNat = ol.val
    rw [BitVec.toNat_ofNat]
    have := ol.isLt
    omega
  · refine congrArg (g (ValueIdx.ix2 p j) + ·) ?_
    by_cases hp : p = ol
    · rw [if_pos hp, if_pos hp]
      have hn : 16 * t.val + ol.val < 32 := by have := t.isLt; have := ol.isLt; omega
      refine halves_eq_dense fi fw ⟨64 * (L 1).val + 32 * (L 0).val + 16 * t.val + ol.val, brow_lt0 L t ol⟩ j _ _ _ _
        (fun k => ?_) (fun k => ?_) (fun k => ?_) (fun k => ?_)
      · refine (ldRow_apply (cI0 fi L) _ _ k).trans ((cI0_apply fi L ⟨16 * t.val + ol.val, hn⟩ ⟨16 * (0 : Fin 2).val + k.val, by have := k.isLt; show 16 * 0 + k.val < 32; omega⟩).trans ?_)
        refine congrArg fi (congrArg₂ ValueIdx.ix2 (Fin.ext ?_) (Fin.ext ?_))
        · show 64 * (L 1).val + 32 * (L 0).val + (16 * t.val + ol.val) = 64 * (L 1).val + 32 * (L 0).val + 16 * t.val + ol.val
          omega
        · show 16 * 0 + k.val = k.val
          omega
      · refine (ldRow_apply (cI0 fi L) _ _ k).trans ((cI0_apply fi L ⟨16 * t.val + ol.val, hn⟩ ⟨16 * (1 : Fin 2).val + k.val, by have := k.isLt; show 16 * 1 + k.val < 32; omega⟩).trans ?_)
        refine congrArg fi (congrArg₂ ValueIdx.ix2 (Fin.ext ?_) (Fin.ext ?_))
        · show 64 * (L 1).val + 32 * (L 0).val + (16 * t.val + ol.val) = 64 * (L 1).val + 32 * (L 0).val + 16 * t.val + ol.val
          omega
        · show 16 * 1 + k.val = 16 + k.val
          omega
      · refine (ldRow_apply (cW0 fw L) _ _ k).trans ((cW0_apply fw L ⟨16 * t.val + ol.val, hn⟩ ⟨16 * (0 : Fin 2).val + k.val, by have := k.isLt; show 16 * 0 + k.val < 32; omega⟩).trans ?_)
        refine congrArg fw (congrArg₂ ValueIdx.ix2 (Fin.ext ?_) (Fin.ext ?_))
        · show 64 * (L 1).val + 32 * (L 0).val + (16 * t.val + ol.val) = 64 * (L 1).val + 32 * (L 0).val + 16 * t.val + ol.val
          omega
        · show 16 * 0 + k.val = k.val
          omega
      · refine (ldRow_apply (cW0 fw L) _ _ k).trans ((cW0_apply fw L ⟨16 * t.val + ol.val, hn⟩ ⟨16 * (1 : Fin 2).val + k.val, by have := k.isLt; show 16 * 1 + k.val < 32; omega⟩).trans ?_)
        refine congrArg fw (congrArg₂ ValueIdx.ix2 (Fin.ext ?_) (Fin.ext ?_))
        · show 64 * (L 1).val + 32 * (L 0).val + (16 * t.val + ol.val) = 64 * (L 1).val + 32 * (L 0).val + 16 * t.val + ol.val
          omega
        · show 16 * 1 + k.val = 16 + k.val
          omega
    · rw [if_neg hp, if_neg hp]

/-- The rows' stores over any list of rows at (p, j): what was there plus the listed rows' contributions. -/
theorem foldl_rows0 (fi : Buf (Elt Ideal) (iLoc d)) (fw : Buf (Elt Ideal) (wLoc d)) (L : grid0.Coords)
    (hidx : ∀ x : S32x32.Idx, (fi (((iV.slice (rI0 L) (fun _ => rfl)).view).emb x)).toNat < 2048) (t : Fin 2)
    (p : Fin 16) (j : Fin 2048) (l : List (Fin 16)) (g : Vec Ideal S16x2048 .f32) :
    l.foldl (rowStep0 fi fw L hidx t) g (ValueIdx.ix2 p j)
      = g (ValueIdx.ix2 p j) + (l.map fun ol => if p = ol then
          dense fi fw ⟨64 * (L 1).val + 32 * (L 0).val + 16 * t.val + ol.val, brow_lt0 L t ol⟩ j else 0).sum := by
  induction l generalizing g with
  | nil => simp
  | cons ol l ih =>
    rw [List.foldl_cons, ih, rowStep0_apply fi fw L hidx t]
    exact add_assoc _ _ _

/-- THE BLOCK IS A BLOCK OF THE DENSE MATRIX (first call): element (p, j) of block t of tile L is entry
    (64 s + 32 c + 16 t + p, j). -/
theorem blkVal0_apply (fi : Buf (Elt Ideal) (iLoc d)) (fw : Buf (Elt Ideal) (wLoc d)) (L : grid0.Coords)
    (hidx : ∀ x : S32x32.Idx, (fi (((iV.slice (rI0 L) (fun _ => rfl)).view).emb x)).toNat < 2048) (t : Fin 2)
    (p : Fin 16) (j : Fin 2048) :
    blkVal0 fi fw L hidx t (ValueIdx.ix2 p j)
      = dense fi fw ⟨64 * (L 1).val + 32 * (L 0).val + 16 * t.val + p.val, brow_lt0 L t p⟩ j := by
  rw [blkVal0_eq_rows, foldl_rows0 fi fw L hidx t, ← Fin.sum_univ_def, Finset.sum_ite_eq Finset.univ p]
  rw [if_pos (Finset.mem_univ p)]
  show Ideal.ofBits .f32 0x00000000#32 + _ = _
  rw [Ideal.ofBits_zero_f32, zero_add]

/-! ### The same, at the element of the whole result a block's index names

Block 0 of tile L is the rows from 64 s + 32 c of the result, block 1 the rows from 64 s + 32 c + 16; the block's index
(p, j) names the whole result's element (that offset + p, j). -/

/-- Block 0 at a block index y is the dense entry at the row and column of the whole result that y names. -/
theorem blkVal0_emb_a (fi : Buf (Elt Ideal) (iLoc d)) (fw : Buf (Elt Ideal) (wLoc d)) (L : grid0.Coords)
    (hidx : ∀ x : S32x32.Idx, (fi (((iV.slice (rI0 L) (fun _ => rfl)).view).emb x)).toNat < 2048)
    (y : S16x2048.Idx) :
    blkVal0 fi fw L hidx 0 y
      = dense fi fw
          ⟨(((o0V.slice (rOa0 L) (fun _ => rfl)).view).emb y 0).val,
            Nat.lt_of_lt_of_le (((o0V.slice (rOa0 L) (fun _ => rfl)).view).emb y 0).isLt (by decide : (1024 : ℕ) ≤ 2048)⟩
          ⟨(((o0V.slice (rOa0 L) (fun _ => rfl)).view).emb y 1).val,
            (((o0V.slice (rOa0 L) (fun _ => rfl)).view).emb y 1).isLt⟩ := by
  obtain ⟨p, j, rfl⟩ : ∃ (p : Fin 16) (j : Fin 2048), y = ValueIdx.ix2 p j := ⟨y 0, y 1, ValueIdx.eq_ix2 y⟩
  rw [blkVal0_apply]
  refine congrArg₂ (dense fi fw) (Fin.ext ?_) (Fin.ext ?_)
  · show 64 * (L 1).val + 32 * (L 0).val + 16 * (0 : Fin 2).val + p.val = k0_off34 L 0 + 1 * p.val
    rw [k0_off34_eq]
    show 64 * (L 1).val + 32 * (L 0).val + 16 * 0 + p.val = 64 * (L 1).val + 32 * (L 0).val + 1 * p.val
    omega
  · show j.val = k0_off34 L 1 + 1 * j.val
    rw [k0_off34_eq]
    show j.val = 0 + 1 * j.val
    omega

/-- Block 1 likewise, over the second block's rectangle. -/
theorem blkVal0_emb_b (fi : Buf (Elt Ideal) (iLoc d)) (fw : Buf (Elt Ideal) (wLoc d)) (L : grid0.Coords)
    (hidx : ∀ x : S32x32.Idx, (fi (((iV.slice (rI0 L) (fun _ => rfl)).view).emb x)).toNat < 2048)
    (y : S16x2048.Idx) :
    blkVal0 fi fw L hidx 1 y
      = dense fi fw
          ⟨(((o0V.slice (rOb0 L) (fun _ => rfl)).view).emb y 0).val,
            Nat.lt_of_lt_of_le (((o0V.slice (rOb0 L) (fun _ => rfl)).view).emb y 0).isLt (by decide : (1024 : ℕ) ≤ 2048)⟩
          ⟨(((o0V.slice (rOb0 L) (fun _ => rfl)).view).emb y 1).val,
            (((o0V.slice (rOb0 L) (fun _ => rfl)).view).emb y 1).isLt⟩ := by
  obtain ⟨p, j, rfl⟩ : ∃ (p : Fin 16) (j : Fin 2048), y = ValueIdx.ix2 p j := ⟨y 0, y 1, ValueIdx.eq_ix2 y⟩
  have e35 : k0_off35 L 16#32 = ![64 * (L 1).val + 32 * (L 0).val + 16 * (1 : Fin 2).val, 0] := k0_off35_eq L 1
  rw [blkVal0_apply]
  refine congrArg₂ (dense fi fw) (Fin.ext ?_) (Fin.ext ?_)
  · show 64 * (L 1).val + 32 * (L 0).val + 16 * (1 : Fin 2).val + p.val = k0_off35 L 16#32 0 + 1 * p.val
    rw [e35]
    show 64 * (L 1).val + 32 * (L 0).val + 16 * 1 + p.val = 64 * (L 1).val + 32 * (L 0).val + 16 * 1 + 1 * p.val
    omega
  · show j.val = k0_off35 L 16#32 1 + 1 * j.val
    rw [e35]
    show j.val = 0 + 1 * j.val
    omega

end Call0

end Cert.Proof.KI

end
-- ==== Proof.BlkDense1.lean ====
/-
  The second call's result blocks are blocks of the dense matrix, 1024 rows further down.

  As for the first call, with the tile's copied-in row n being row 64 s + 32 c + 1024 + n of the whole index and weight
  arrays: element (p, j) of block t of tile L's piece of the second result is entry (64 s + 32 c + 1024 + 16 t + p, j)
  of the dense matrix.
-/
import proofs.«210207_g17016660427310_cont_sun_m_176_22_alg».proof.Proof.TileVal1
import proofs.«210207_g17016660427310_cont_sun_m_176_22_alg».proof.Proof.BlkDense

noncomputable section

open scoped BigOperators

namespace Cert.Proof.KI

open Cert.KernelIdeal Cert.KernelIdeal.Gen
open Idealize.ShloMosaic
open Idealize.ShloMosaic.SparseCore (S V T)
open Cert.Proof.Spec (dense rowStores_apply halves_eq_dense)

section Call1
variable {d : Dev nD}

/-- A tile's row n is below 2048 in the whole arrays. -/
theorem row_lt1 (L : grid1.Coords) (n : Nat) (hn : n < 32) : 64 * (L 1).val + 32 * (L 0).val + 1024 + n < 2048 := by
  have h0 : (L 0).val < 2 := (L 0).isLt
  have h1 : (L 1).val < 16 := (L 1).isLt
  omega

/-- The copied-in index block at (n, k) is the whole index array at (64 s + 32 c + 1024 + n, k). -/
theorem cI1_apply (fi : Buf (Elt Ideal) (iLoc d)) (L : grid1.Coords) (n k : Fin 32) :
    cI1 fi L (ValueIdx.ix2 n k) = fi (ValueIdx.ix2 ⟨64 * (L 1).val + 32 * (L 0).val + 1024 + n.val, row_lt1 L n.val n.isLt⟩ k) := by
  unfold cI1
  rw [View.read_apply]
  show fi ((iV.slice (rI1 L) (fun _ => rfl)).view.emb (ValueIdx.ix2 n k)) = _
  refine congrArg fi (funext fun a => Fin.ext ?_)
  match a with
  | ⟨0, _⟩ =>
    show k1_off1 L 0 + 1 * n.val = 64 * (L 1).val + 32 * (L 0).val + 1024 + n.val
    rw [k1_off1_eq]
    show 64 * (L 1).val + 32 * (L 0).val + 1024 + 1 * n.val = _
    omega
  | ⟨1, _⟩ =>
    show k1_off1 L 1 + 1 * k.val = k.val
    rw [k1_off1_eq]
    show 0 + 1 * k.val = k.val
    omega

/-- The copied-in weight block at (n, k) is the whole weight array at (64 s + 32 c + 1024 + n, k). -/
theorem cW1_apply (fw : Buf (Elt Ideal) (wLoc d)) (L : grid1.Coords) (n k : Fin 32) :
    cW1 fw L (ValueIdx.ix2 n k) = fw (ValueIdx.ix2 ⟨64 * (L 1).val + 32 * (L 0).val + 1024 + n.val, row_lt1 L n.val n.isLt⟩ k) := by
  unfold cW1
  rw [View.read_apply]
  show fw ((wV.slice (rI1 L) (fun _ => rfl)).view.emb (ValueIdx.ix2 n k)) = _
  refine congrArg fw (funext fun a => Fin.ext ?_)
  match a with
  | ⟨0, _⟩ =>
    show k1_off1 L 0 + 1 * n.val = 64 * (L 1).val + 32 * (L 0).val + 1024 + n.val
    rw [k1_off1_eq]
    show 64 * (L 1).val + 32 * (L 0).val + 1024 + 1 * n.val = _
    omega
  | ⟨1, _⟩ =>
    show k1_off1 L 1 + 1 * k.val = k.val
    rw [k1_off1_eq]
    show 0 + 1 * k.val = k.val
    omega

/-- Row ol's two stores of block t, from any block g. -/
def rowStep1 (fi : Buf (Elt Ideal) (iLoc d)) (fw : Buf (Elt Ideal) (wLoc d)) (L : grid1.Coords)
    (hidx : ∀ x : S32x32.Idx, (fi (((iV.slice (rI1 L) (fun _ => rfl)).view).emb x)).toNat < 2048) (t : Fin 2)
    (g : Vec Ideal S16x2048 .f32) (ol : Fin 16) : Vec Ideal S16x2048 .f32 :=
  siteStep1 fi fw L hidx t (siteStep1 fi fw L hidx t g (ol, 0)) (ol, 1)

/-- The block is the rows' stores folded over a block of zeros. -/
theorem blkVal1_eq_rows (fi : Buf (Elt Ideal) (iLoc d)) (fw : Buf (Elt Ideal) (wLoc d)) (L : grid1.Coords)
    (hidx : ∀ x : S32x32.Idx, (fi (((iV.slice (rI1 L) (fun _ => rfl)).view).emb x)).toNat < 2048) (t : Fin 2) :
    blkVal1 fi fw L hidx t = (List.finRange 16).foldl (rowStep1 fi fw L hidx t) zeroBlk := by
  unfold blkVal1
  rw [sites_eq, List.foldl_flatMap]
  rfl

/-- The row of the whole arrays that row p of block t of tile L holds. -/
theorem brow_lt1 (L : grid1.Coords) (t : Fin 2) (p : Fin 16) : 64 * (L 1).val + 32 * (L 0).val + 1024 + 16 * t.val + p.val < 2048 := by
  have h0 : (L 0).val < 2 := (L 0).isLt
  have h1 : (L 1).val < 16 := (L 1).isLt
  have := t.isLt; have := p.isLt
  omega

/-- ONE ROW'S TWO STORES at (p, j): what was there, plus on row ol the dense entry of row 64 s + 32 c + 1024 + 16 t + ol. -/
theorem rowStep1_apply (fi : Buf (Elt Ideal) (iLoc d)) (fw : Buf (Elt Ideal) (wLoc d)) (L : grid1.Coords)
    (hidx : ∀ x : S32x32.Idx, (fi (((iV.slice (rI1 L) (fun _ => rfl)).view).emb x)).toNat < 2048) (t : Fin 2)
    (g : Vec Ideal S16x2048 .f32) (ol p : Fin 16) (j : Fin 2048) :
    rowStep1 fi fw L hidx t g ol (ValueIdx.ix2 p j)
      = g (ValueIdx.ix2 p j) + if p = ol then
          dense fi fw ⟨64 * (L 1).val + 32 * (L 0).val + 1024 + 16 * t.val + ol.val, brow_lt1 L t ol⟩ j else 0 := by
  unfold rowStep1 siteStep1
  refine (rowStores_apply g ol _ _ _ _ _ (fun k => ?_) _ _ p j).trans ?_
  · show (BitVec.ofNat 32 ol.val).toNat = ol.val
    rw [BitVec.toNat_ofNat]
    have := ol.isLt
    omega
  · refine congrArg (g (ValueIdx.ix2 p j) + ·) ?_
    by_cases hp : p = ol
    · rw [if_pos hp, if_pos hp]
      have hn : 16 * t.val + ol.val < 32 := by have := t.isLt; have := ol.isLt; omega
      refine halves_eq_dense fi fw ⟨64 * (L 1).val + 32 * (L 0).val + 1024 + 16 * t.val + ol.val, brow_lt1 L t ol⟩ j _ _ _ _
        (fun k => ?_) (fun k => ?_) (fun k => ?_) (fun k => ?_)
      · refine (ldRow_apply (cI1 fi L) _ _ k).trans ((cI1_apply fi L ⟨16 * t.val + ol.val, hn⟩ ⟨16 * (0 : Fin 2).val + k.val, by have := k.isLt; show 16 * 0 + k.val < 32; omega⟩).trans ?_)
        refine congrArg fi (congrArg₂ ValueIdx.ix2 (Fin.ext ?_) (Fin.ext ?_))
        · show 64 * (L 1).val + 32 * (L 0).val + 1024 + (16 * t.val + ol.val) = 64 * (L 1).val + 32 * (L 0).val + 1024 + 16 * t.val + ol.val
          omega
        · show 16 * 0 + k.val = k.val
          omega
      · refine (ldRow_apply (cI1 fi L) _ _ k).trans ((cI1_apply fi L ⟨16 * t.val + ol.val, hn⟩ ⟨16 * (1 : Fin 2).val + k.val, by have := k.isLt; show 16 * 1 + k.val < 32; omega⟩).trans ?_)
        refine congrArg fi (congrArg₂ ValueIdx.ix2 (Fin.ext ?_) (Fin.ext ?_))
        · show 64 * (L 1).val + 32 * (L 0).val + 1024 + (16 * t.val + ol.val) = 64 * (L 1).val + 32 * (L 0).val + 1024 + 16 * t.val + ol.val
          omega
        · show 16 * 1 + k.val = 16 + k.val
          omega
      · refine (ldRow_apply (cW1 fw L) _ _ k).trans ((cW1_apply fw L ⟨16 * t.val + ol.val, hn⟩ ⟨16 * (0 : Fin 2).val + k.val, by have := k.isLt; show 16 * 0 + k.val < 32; omega⟩).trans ?_)
        refine congrArg fw (congrArg₂ ValueIdx.ix2 (Fin.ext ?_) (Fin.ext ?_))
        · show 64 * (L 1).val + 32 * (L 0).val + 1024 + (16 * t.val + ol.val) = 64 * (L 1).val + 32 * (L 0).val + 1024 + 16 * t.val + ol.val
          omega
        · show 16 * 0 + k.val = k.val
          omega
      · refine (ldRow_apply (cW1 fw L) _ _ k).trans ((cW1_apply fw L ⟨16 * t.val + ol.val, hn⟩ ⟨16 * (1 : Fin 2).val + k.val, by have := k.isLt; show 16 * 1 + k.val < 32; omega⟩).trans ?_)
        refine congrArg fw (congrArg₂ ValueIdx.ix2 (Fin.ext ?_) (Fin.ext ?_))
        · show 64 * (L 1).val + 32 * (L 0).val + 1024 + (16 * t.val + ol.val) = 64 * (L 1).val + 32 * (L 0).val + 1024 + 16 * t.val + ol.val
          omega
        · show 16 * 1 + k.val = 16 + k.val
          omega
    · rw [if_neg hp, if_neg hp]

/-- The rows' stores over any list of rows at (p, j): what was there plus the listed rows' contributions. -/
theorem foldl_rows1 (fi : Buf (Elt Ideal) (iLoc d)) (fw : Buf (Elt Ideal) (wLoc d)) (L : grid1.Coords)
    (hidx : ∀ x : S32x32.Idx, (fi (((iV.slice (rI1 L) (fun _ => rfl)).view).emb x)).toNat < 2048) (t : Fin 2)
    (p : Fin 16) (j : Fin 2048) (l : List (Fin 16)) (g : Vec Ideal S16x2048 .f32) :
    l.foldl (rowStep1 fi fw L hidx t) g (ValueIdx.ix2 p j)
      = g (ValueIdx.ix2 p j) + (l.map fun ol => if p = ol then
          dense fi fw ⟨64 * (L 1).val + 32 * (L 0).val + 1024 + 16 * t.val + ol.val, brow_lt1 L t ol⟩ j else 0).sum := by
  induction l generalizing g with
  | nil => simp
  | cons ol l ih =>
    rw [List.foldl_cons, ih, rowStep1_apply fi fw L hidx t]
    exact add_assoc _ _ _

/-- THE BLOCK IS A BLOCK OF THE DENSE MATRIX (second call): element (p, j) of block t of tile L is entry
    (64 s + 32 c + 1024 + 16 t + p, j). -/
theorem blkVal1_apply (fi : Buf (Elt Ideal) (iLoc d)) (fw : Buf (Elt Ideal) (wLoc d)) (L : grid1.Coords)
    (hidx : ∀ x : S32x32.Idx, (fi (((iV.slice (rI1 L) (fun _ => rfl)).view).emb x)).toNat < 2048) (t : Fin 2)
    (p : Fin 16) (j : Fin 2048) :
    blkVal1 fi fw L hidx t (ValueIdx.ix2 p j)
      = dense fi fw ⟨64 * (L 1).val + 32 * (L 0).val + 1024 + 16 * t.val + p.val, brow_lt1 L t p⟩ j := by
  rw [blkVal1_eq_rows, foldl_rows1 fi fw L hidx t, ← Fin.sum_univ_def, Finset.sum_ite_eq Finset.univ p]
  rw [if_pos (Finset.mem_univ p)]
  show Ideal.ofBits .f32 0x00000000#32 + _ = _
  rw [Ideal.ofBits_zero_f32, zero_add]

/-! ### The same, at the element of the whole result a block's index names

Block 0 of tile L is the rows from 64 s + 32 c of the second result, block 1 the rows from 64 s + 32 c + 16; the block's
index (p, j) names the second result's element (that offset + p, j), which holds the dense matrix's row 1024 further
down: the second result is rows [1024, 2048) of the dense matrix. -/

/-- Block 0 at a block index y is the dense entry at the row and column of the whole result that y names. -/
theorem blkVal1_emb_a (fi : Buf (Elt Ideal) (iLoc d)) (fw : Buf (Elt Ideal) (wLoc d)) (L : grid1.Coords)
    (hidx : ∀ x : S32x32.Idx, (fi (((iV.slice (rI1 L) (fun _ => rfl)).view).emb x)).toNat < 2048)
    (y : S16x2048.Idx) :
    blkVal1 fi fw L hidx 0 y
      = dense fi fw
          ⟨(((o1V.slice (rOa1 L) (fun _ => rfl)).view).emb y 0).val + 1024,
            Nat.add_lt_add_right (((o1V.slice (rOa1 L) (fun _ => rfl)).view).emb y 0).isLt 1024⟩
          ⟨(((o1V.slice (rOa1 L) (fun _ => rfl)).view).emb y 1).val,
            (((o1V.slice (rOa1 L) (fun _ => rfl)).view).emb y 1).isLt⟩ := by
  obtain ⟨p, j, rfl⟩ : ∃ (p : Fin 16) (j : Fin 2048), y = ValueIdx.ix2 p j := ⟨y 0, y 1, ValueIdx.eq_ix2 y⟩
  rw [blkVal1_apply]
  refine congrArg₂ (dense fi fw) (Fin.ext ?_) (Fin.ext ?_)
  · show 64 * (L 1).val + 32 * (L 0).val + 1024 + 16 * (0 : Fin 2).val + p.val = k1_off34 L 0 + 1 * p.val + 1024
    rw [k1_off34_eq]
    show 64 * (L 1).val + 32 * (L 0).val + 1024 + 16 * 0 + p.val = 64 * (L 1).val + 32 * (L 0).val + 1 * p.val + 1024
    omega
  · show j.val = k1_off34 L 1 + 1 * j.val
    rw [k1_off34_eq]
    show j.val = 0 + 1 * j.val
    omega

/-- Block 1 likewise, over the second block's rectangle. -/
theorem blkVal1_emb_b (fi : Buf (Elt Ideal) (iLoc d)) (fw : Buf (Elt Ideal) (wLoc d)) (L : grid1.Coords)
    (hidx : ∀ x : S32x32.Idx, (fi (((iV.slice (rI1 L) (fun _ => rfl)).view).emb x)).toNat < 2048)
    (y : S16x2048.Idx) :
    blkVal1 fi fw L hidx 1 y
      = dense fi fw
          ⟨(((o1V.slice (rOb1 L) (fun _ => rfl)).view).emb y 0).val + 1024,
            Nat.add_lt_add_right (((o1V.slice (rOb1 L) (fun _ => rfl)).view).emb y 0).isLt 1024⟩
          ⟨(((o1V.slice (rOb1 L) (fun _ => rfl)).view).emb y 1).val,
            (((o1V.slice (rOb1 L) (fun _ => rfl)).view).emb y 1).isLt⟩ := by
  obtain ⟨p, j, rfl⟩ : ∃ (p : Fin 16) (j : Fin 2048), y = ValueIdx.ix2 p j := ⟨y 0, y 1, ValueIdx.eq_ix2 y⟩
  have e35 : k1_off35 L 16#32 = ![64 * (L 1).val + 32 * (L 0).val + 16 * (1 : Fin 2).val, 0] := k1_off35_eq L 1
  rw [blkVal1_apply]
  refine congrArg₂ (dense fi fw) (Fin.ext ?_) (Fin.ext ?_)
  · show 64 * (L 1).val + 32 * (L 0).val + 1024 + 16 * (1 : Fin 2).val + p.val = k1_off35 L 16#32 0 + 1 * p.val + 1024
    rw [e35]
    show 64 * (L 1).val + 32 * (L 0).val + 1024 + 16 * 1 + p.val = 64 * (L 1).val + 32 * (L 0).val + 16 * 1 + 1 * p.val + 1024
    omega
  · show j.val = k1_off35 L 16#32 1 + 1 * j.val
    rw [e35]
    show j.val = 0 + 1 * j.val
    omega

end Call1

end Cert.Proof.KI

end
-- ==== Proof.TileBody0V.lean ====
/-
  One vector subcore's task of the first scatter kernel, run once at a symbolic place of the call's grid, with the
  contents of its two result blocks NAMED: the run of the frame form, carrying what each buffer holds. The two
  copied-in scratches hold the task's 32 × 32 blocks of indices and weights; each zero-filling loop extends the part
  of its accumulator that reads zero by one row (each trip by 128 columns), so that after its 16 loops an accumulator
  is the zero block; each indexed store with accumulation is one step of the block's fold over its 32 stores in
  program order; and the copy of an accumulator to its block of the result leaves that fold under the block's own
  indices.
-/
import proofs.«210207_g17016660427310_cont_sun_m_176_22_alg».proof.Proof.TileBody0
import proofs.«210207_g17016660427310_cont_sun_m_176_22_alg».proof.Proof.TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile0V

variable (d : Dev nD) (L : grid0.Coords)
variable [FloatOps F]

/-- A scratch written whole by a copy holds the copy's payload. -/
theorem pts_copyI (f2 : Buf (Elt F) ((V d (cV L) (jV L)).loc cc0_scratch2)) (w : Vec F S32x32 .i32) :
    ((sI0).view.loc (V d (cV L) (jV L)) ↦{fullShare} View.write (Elt F) (sI0).view f2 w Finset.univ : sProp 𝕄)
      = ((sI0).view.loc (V d (cV L) (jV L)) ↦{fullShare} w) := by
  rw [show View.write (Elt F) (sI0).view f2 w Finset.univ = w from View.write_whole_univ cc0_scratch2 f2 w]
theorem pts_copyW (f3 : Buf (Elt F) ((V d (cV L) (jV L)).loc cc0_scratch3)) (w : Vec F S32x32 .f32) :
    ((sW0).view.loc (V d (cV L) (jV L)) ↦{fullShare} View.write (Elt F) (sW0).view f3 w Finset.univ : sProp 𝕄)
      = ((sW0).view.loc (V d (cV L) (jV L)) ↦{fullShare} w) := by
  rw [show View.write (Elt F) (sW0).view f3 w Finset.univ = w from View.write_whole_univ cc0_scratch3 f3 w]

/-- An indexed store into the first accumulator, read as one step of the block's fold. -/
theorem pts_site_A (fi : Buf (Elt F) (iLoc d)) (fw : Buf (Elt F) (wLoc d))
    (hidx : ∀ x : S32x32.Idx, (fi (((iV.slice (rI0 L) (fun _ => rfl)).view).emb x)).toNat < 2048)
    (t : Fin 2) (p : Fin 16 × Fin 2) (fz : Buf (Elt F) ((V d (cV L) (jV L)).loc cc0_scratch0))
    (idxs : Fin 2 → IVec S16 32) (v : Vec F S16 .f32) (h : ∀ a x, (idxs a x).toNat < S16x2048.size a)
    (hi : idxs = ![broadcast S16 (BitVec.ofNat 32 p.1.val), ldRow (cI0 fi L) ![16 * t.val + p.1.val, 16 * p.2.val] (ldpf t p.1 p.2)])
    (hv : v = ldRow (cW0 fw L) ![16 * t.val + p.1.val, 16 * p.2.val] (ldpf t p.1 p.2)) :
    (((sA0).access (.whole S16x2048)).loc (V d (cV L) (jV L)) ↦[((sA0).access (.whole S16x2048)).set]{fullShare}
        (((sA0).access (.whole S16x2048)).write (Elt F) fz
          (storeIdx (((sA0).access (.whole S16x2048)).read (Elt F) fz) idxs v (fun _ => 1#1) true h) Finset.univ) : sProp 𝕄)
      = ((sA0).view.loc (V d (cV L) (jV L)) ↦{fullShare} siteStep0 fi fw L hidx t fz p) := by
  subst hi hv
  rw [show ((sA0 : Memref sig .scVector .vmem S16x2048 .f32).access (.whole S16x2048)).set = Finset.univ from Memref.set_access_whole (cc0_scratch0 : Ref sig .scVector)]
  have e1 : ∀ W, ((sA0).access (.whole S16x2048)).write (Elt F) fz W Finset.univ = W :=
    fun W => Memref.write_access_whole_univ (Elt F) (cc0_scratch0 : Ref sig .scVector) fz W
  have e2 : ((sA0).access (.whole S16x2048)).read (Elt F) fz = fz :=
    Memref.read_access_whole (Elt F) (cc0_scratch0 : Ref sig .scVector) fz
  rw [e1, e2]
  rfl

/-- What a copy of a whole block leaves, read through the destination's view. -/
theorem out_valG {κ : Kind} {sp : Space} {s : Shape} (v : View sig κ sp s .f32) (fa : v.ty.Contents (Elt F))
    (P : s.Idx → Elt F .f32) (y : s.Idx) :
    v.read (Elt F) (v.writes (Elt F) fa [⟨Rect.whole s, P⟩]) y = P y := by
  have := View.read_writes_cons_emb v fa (Rect.whole s) P [] y
  rwa [Rect.emb_whole_apply] at this

/-- The same under the first result block's own indices. -/
theorem out_val_a (fa : Buf (Elt F) (o0Loc d)) (P : (rOa0 L).shape.Idx → Elt F .f32) (y : (rOa0 L).shape.Idx) :
    (o0V.slice (rOa0 L) (fun _ => rfl)).view.writes (Elt F) fa [⟨Rect.whole (rOa0 L).shape, P⟩]
        ((o0V.slice (rOa0 L) (fun _ => rfl)).view.emb y) = P y := by
  have h := out_valG (F := F) (o0V.slice (rOa0 L) (fun _ => rfl)).view fa P y
  rw [View.read_apply] at h
  generalize (o0V.slice (rOa0 L) (fun _ => rfl)).view.writes (Elt F) fa [⟨Rect.whole (rOa0 L).shape, P⟩]
    ((o0V.slice (rOa0 L) (fun _ => rfl)).view.emb y) = X at h ⊢
  exact (cast_eq _ X).symm.trans h

/-- The same under the second result block's own indices. -/
theorem out_val_b (fb : Buf (Elt F) (o0Loc d)) (P : (rOb0 L).shape.Idx → Elt F .f32) (y : (rOb0 L).shape.Idx) :
    (o0V.slice (rOb0 L) (fun _ => rfl)).view.writes (Elt F) fb [⟨Rect.whole (rOb0 L).shape, P⟩]
        ((o0V.slice (rOb0 L) (fun _ => rfl)).view.emb y) = P y := by
  have h := out_valG (F := F) (o0V.slice (rOb0 L) (fun _ => rfl)).view fb P y
  rw [View.read_apply] at h
  generalize (o0V.slice (rOb0 L) (fun _ => rfl)).view.writes (Elt F) fb [⟨Rect.whole (rOb0 L).shape, P⟩]
    ((o0V.slice (rOb0 L) (fun _ => rfl)).view.emb y) = X at h ⊢
  exact (cast_eq _ X).symm.trans h

/-- An indexed store into the second accumulator, read as one step of the block's fold. -/
theorem pts_site_B (fi : Buf (Elt F) (iLoc d)) (fw : Buf (Elt F) (wLoc d))
    (hidx : ∀ x : S32x32.Idx, (fi (((iV.slice (rI0 L) (fun _ => rfl)).view).emb x)).toNat < 2048)
    (t : Fin 2) (p : Fin 16 × Fin 2) (fz : Buf (Elt F) ((V d (cV L) (jV L)).loc cc0_scratch1))
    (idxs : Fin 2 → IVec S16 32) (v : Vec F S16 .f32) (h : ∀ a x, (idxs a x).toNat < S16x2048.size a)
    (hi : idxs = ![broadcast S16 (BitVec.ofNat 32 p.1.val), ldRow (cI0 fi L) ![16 * t.val + p.1.val, 16 * p.2.val] (ldpf t p.1 p.2)])
    (hv : v = ldRow (cW0 fw L) ![16 * t.val + p.1.val, 16 * p.2.val] (ldpf t p.1 p.2)) :
    (((sB0).access (.whole S16x2048)).loc (V d (cV L) (jV L)) ↦[((sB0).access (.whole S16x2048)).set]{fullShare}
        (((sB0).access (.whole S16x2048)).write (Elt F) fz
          (storeIdx (((sB0).access (.whole S16x2048)).read (Elt F) fz) idxs v (fun _ => 1#1) true h) Finset.univ) : sProp 𝕄)
      = ((sB0).view.loc (V d (cV L) (jV L)) ↦{fullShare} siteStep0 fi fw L hidx t fz p) := by
  subst hi hv
  rw [show ((sB0 : Memref sig .scVector .vmem S16x2048 .f32).access (.whole S16x2048)).set = Finset.univ from Memref.set_access_whole (cc0_scratch1 : Ref sig .scVector)]
  have e1 : ∀ W, ((sB0).access (.whole S16x2048)).write (Elt F) fz W Finset.univ = W :=
    fun W => Memref.write_access_whole_univ (Elt F) (cc0_scratch1 : Ref sig .scVector) fz W
  have e2 : ((sB0).access (.whole S16x2048)).read (Elt F) fz = fz :=
    Memref.read_access_whole (Elt F) (cc0_scratch1 : Ref sig .scVector) fz
  rw [e1, e2]
  rfl

/-- The same as an entailment whose two equations are supplied after the store's own terms are known. -/
theorem site_A_wand (fi : Buf (Elt F) (iLoc d)) (fw : Buf (Elt F) (wLoc d))
    (hidx : ∀ x : S32x32.Idx, (fi (((iV.slice (rI0 L) (fun _ => rfl)).view).emb x)).toNat < 2048)
    (t : Fin 2) (p : Fin 16 × Fin 2) (fz : Buf (Elt F) ((V d (cV L) (jV L)).loc cc0_scratch0))
    (idxs : Fin 2 → IVec S16 32) (v : Vec F S16 .f32) (h : ∀ a x, (idxs a x).toNat < S16x2048.size a) :
    (((sA0).access (.whole S16x2048)).loc (V d (cV L) (jV L)) ↦[((sA0).access (.whole S16x2048)).set]{fullShare}
        (((sA0).access (.whole S16x2048)).write (Elt F) fz
          (storeIdx (((sA0).access (.whole S16x2048)).read (Elt F) fz) idxs v (fun _ => 1#1) true h) Finset.univ) : sProp 𝕄)
      ⊢ iprop(⌜idxs = ![broadcast S16 (BitVec.ofNat 32 p.1.val), ldRow (cI0 fi L) ![16 * t.val + p.1.val, 16 * p.2.val] (ldpf t p.1 p.2)]
            ∧ v = ldRow (cW0 fw L) ![16 * t.val + p.1.val, 16 * p.2.val] (ldpf t p.1 p.2)⌝
          -∗ (sA0).view.loc (V d (cV L) (jV L)) ↦{fullShare} siteStep0 fi fw L hidx t fz p) := by
  iintro H %e
  obtain ⟨hi, hv⟩ := e
  iapply (Entails.of_eq (pts_site_A (F := F) d L fi fw hidx t p fz idxs v h hi hv))
  iexact H

/-- The same as an entailment whose two equations are supplied after the store's own terms are known. -/
theorem site_B_wand (fi : Buf (Elt F) (iLoc d)) (fw : Buf (Elt F) (wLoc d))
    (hidx : ∀ x : S32x32.Idx, (fi (((iV.slice (rI0 L) (fun _ => rfl)).view).emb x)).toNat < 2048)
    (t : Fin 2) (p : Fin 16 × Fin 2) (fz : Buf (Elt F) ((V d (cV L) (jV L)).loc cc0_scratch1))
    (idxs : Fin 2 → IVec S16 32) (v : Vec F S16 .f32) (h : ∀ a x, (idxs a x).toNat < S16x2048.size a) :
    (((sB0).access (.whole S16x2048)).loc (V d (cV L) (jV L)) ↦[((sB0).access (.whole S16x2048)).set]{fullShare}
        (((sB0).access (.whole S16x2048)).write (Elt F) fz
          (storeIdx (((sB0).access (.whole S16x2048)).read (Elt F) fz) idxs v (fun _ => 1#1) true h) Finset.univ) : sProp 𝕄)
      ⊢ iprop(⌜idxs = ![broadcast S16 (BitVec.ofNat 32 p.1.val), ldRow (cI0 fi L) ![16 * t.val + p.1.val, 16 * p.2.val] (ldpf t p.1 p.2)]
            ∧ v = ldRow (cW0 fw L) ![16 * t.val + p.1.val, 16 * p.2.val] (ldpf t p.1 p.2)⌝
          -∗ (sB0).view.loc (V d (cV L) (jV L)) ↦{fullShare} siteStep0 fi fw L hidx t fz p) := by
  iintro H %e
  obtain ⟨hi, hv⟩ := e
  iapply (Entails.of_eq (pts_site_B (F := F) d L fi fw hidx t p fz idxs v h hi hv))
  iexact H

/-- A zero-filling loop's invariant with contents: the accumulator whole, its rows below `r` and the columns below
    `128 k` of row `r` reading zero. -/
def invZv (m : Memref sig .scVector .vmem S16x2048 .f32) (r : Nat) (k : Nat) (_ : PUnit) : sProp 𝕄 :=
  iprop(∃ f, ⌜ZeroTo (F := F) m.view f r (128 * k)⌝ ∗ m.view.loc (V d (cV L) (jV L)) ↦{fullShare} f)

set_option hygiene false in
macro "zero_loopAv " r:num off:ident oeq:ident oinb:ident : tactic => `(tactic| (
  sl_for (invZv (F := F) d L sA0 $r) $$ [Hs0']
  case region =>
    intro k _
    unfold invZv
    iintro ⟨%f, %hf, H⟩
    sl_exec
    sl_step
    iexists _; isplitr
    rotate_left
    · iexact H
    · ipureintro
      exact zero_trip (sA0).view f $r k.val (fun u => $off k (BitVec.ofNat 32 (16 * u.val))) (fun u => $oeq k u) (fun u => $oinb k u) _ (fun _ => rfl) hf
  · unfold invZv; iexists _; isplitr
    rotate_left
    · iexact Hs0'
    · ipureintro; exact hZA
  iintro %_ HI
  unfold invZv
  icases HI with ⟨%fz, %hZA', Hs0'⟩
  have hZA := ZeroTo.next_row' (F := F) (sA0).view fz $r _ (by rfl) hZA'
  clear hZA'))

set_option hygiene false in
macro "zero_loopBv " r:num off:ident oeq:ident oinb:ident : tactic => `(tactic| (
  sl_for (invZv (F := F) d L sB0 $r) $$ [Hs1']
  case region =>
    intro k _
    unfold invZv
    iintro ⟨%f, %hf, H⟩
    sl_exec
    sl_step
    iexists _; isplitr
    rotate_left
    · iexact H
    · ipureintro
      exact zero_trip (sB0).view f $r k.val (fun u => $off k (BitVec.ofNat 32 (16 * u.val))) (fun u => $oeq k u) (fun u => $oinb k u) _ (fun _ => rfl) hf
  · unfold invZv; iexists _; isplitr
    rotate_left
    · iexact Hs1'
    · ipureintro; exact hZB
  iintro %_ HI
  unfold invZv
  icases HI with ⟨%fz, %hZB', Hs1'⟩
  have hZB := ZeroTo.next_row' (F := F) (sB0).view fz $r _ (by rfl) hZB'
  clear hZB'))

set_option hygiene false in
macro "site_Av " t:num ol:num hh:num : tactic => `(tactic| (
  sl_exec_parts (disch := exact chk_ok _ (by decide) _ (fun x => hgI _ _))
  ihave Hc := (Entails.of_eq (pts_sA0_whole (F := F) d L _).symm) $$ Hs0'
  iapply (SparseCore.wp_vectorStoreIdx 𝒱₀ (V d (cV L) (jV L)) none Set.univ (base := sA0)) $$ Hc
  iintro Hc
  ihave Hw := (site_A_wand (F := F) d L fi fw hidx $t ($ol, $hh) _ _ _ _) $$ Hc
  ihave Hs0' := Hw $$ %(And.intro rfl rfl)))

set_option hygiene false in
macro "site_Bv " t:num ol:num hh:num : tactic => `(tactic| (
  sl_exec_parts (disch := exact chk_ok _ (by decide) _ (fun x => hgI _ _))
  ihave Hc := (Entails.of_eq (pts_sB0_whole (F := F) d L _).symm) $$ Hs1'
  iapply (SparseCore.wp_vectorStoreIdx 𝒱₀ (V d (cV L) (jV L)) none Set.univ (base := sB0)) $$ Hc
  iintro Hc
  ihave Hw := (site_B_wand (F := F) d L fi fw hidx $t ($ol, $hh) _ _ _ _) $$ Hc
  ihave Hs1' := Hw $$ %(And.intro rfl rfl)))

set_option maxHeartbeats 1000000000 in
/-- The task's run with the result blocks' contents named: every resource comes back, the argument rows unchanged,
    and each 16-row block of the result holds, under its own indices, the fold of its 32 stores over the zero block. -/
theorem tile_body0v (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI0 L) (fun _ => rfl)).view).emb x)).toNat < 2048) :
    (iprop(levAts (K (F := F)).L (K (F := F)).lev
        ∗ (iLoc d ↦[rowsI0 L]{fullShare} fi) ∗ (wLoc d ↦[rowsI0 L]{fullShare} fw)
        ∗ (∃ fa, o0Loc d ↦[rowsOa0 L]{fullShare} fa) ∗ (∃ fb, o0Loc d ↦[rowsOb0 L]{fullShare} fb)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_body L iV (Memref.isWhole_whole _) wV (Memref.isWhole_whole _) o0V (Memref.isWhole_whole _)
            sA0 (Memref.isWhole_whole _) sB0 (Memref.isWhole_whole _) sI0 (Memref.isWhole_whole _) sW0 (Memref.isWhole_whole _)
            cc0_scratch4 cc0_scratch5 cc0_scoped0 cc0_scoped1)
          fun _ => iprop((iLoc d ↦[rowsI0 L]{fullShare} fi) ∗ (wLoc d ↦[rowsI0 L]{fullShare} fw)
            ∗ (∃ fa, ⌜∀ y : S16x2048.Idx, fa (((o0V.slice (rOa0 L) (fun _ => rfl)).view).emb y) = blkVal0 fi fw L hidx 0 y⌝
                ∗ o0Loc d ↦[rowsOa0 L]{fullShare} fa)
            ∗ (∃ fb, ⌜∀ y : S16x2048.Idx, fb (((o0V.slice (rOb0 L) (fun _ => rfl)).view).emb y) = blkVal0 fi fw L hidx 1 y⌝
                ∗ o0Loc d ↦[rowsOb0 L]{fullShare} fb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_body_eq_skeleton]; unfold cc0_body_skel
  rw [(K (F := F)).scopedBufs_V hF d (cV L) (jV L), SparseCore.Cfg.scopedSems0_V (Val := Elt F) d (cV L) (jV L), ownSems0_V0, ownBufs_V0]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV L) (jV L)) hO) $$ Hlv
  ihave Hi' := (Entails.of_eq (pts_i0 (F := F) d L _).symm) $$ Hi
  ihave Hw' := (Entails.of_eq (pts_w0 (F := F) d L _).symm) $$ Hw
  ihave Hoa' := (Entails.of_eq (pts_oa0 (F := F) d L _).symm) $$ Hoa
  ihave Hob' := (Entails.of_eq (pts_ob0 (F := F) d L _).symm) $$ Hob
  ihave Hs0' := (Entails.of_eq (pts_sA0 (F := F) d L _).symm) $$ Hs0
  ihave Hs1' := (Entails.of_eq (pts_sB0 (F := F) d L _).symm) $$ Hs1
  ihave Hs2' := (Entails.of_eq (pts_sI0 (F := F) d L _).symm) $$ Hs2
  ihave Hs3' := (Entails.of_eq (pts_sW0 (F := F) d L _).symm) $$ Hs3
  sl_exec_parts
  ihave Hs2' := (Entails.of_eq (pts_copyI (F := F) d L f2 _)) $$ Hs2'
  ihave Hs2' := (Entails.of_eq (show ((sI0).view.loc (V d (cV L) (jV L)) ↦{fullShare} tile_body0v.sl.dma0 d L fi : sProp 𝕄)
      = ((sI0).view.loc (V d (cV L) (jV L)) ↦{fullShare} cI0 fi L) from rfl)) $$ Hs2'
  ihave Hs3' := (Entails.of_eq (pts_copyW (F := F) d L f3 _)) $$ Hs3'
  ihave Hs3' := (Entails.of_eq (show ((sW0).view.loc (V d (cV L) (jV L)) ↦{fullShare} tile_body0v.sl.dma0_1 d L fw : sProp 𝕄)
      = ((sW0).view.loc (V d (cV L) (jV L)) ↦{fullShare} cW0 fw L) from rfl)) $$ Hs3'
  have hgI : ∀ (R : LoadRect S32x32) (x : R.shape.Idx), ((View.readAt (Elt F) sI0.view R (cI0 fi L)) x).toNat < 2048 :=
    fun R x => hidx _
  have hZA := ZeroTo.init (F := F) (sA0).view f0
  have hZB := ZeroTo.init (F := F) (sB0).view f1
  (try sl_exec_parts); zero_loopAv 0 k0_off2 k0_off2_eq k0_off2_inb
  (try sl_exec_parts); zero_loopAv 1 k0_off3 k0_off3_eq k0_off3_inb
  (try sl_exec_parts); zero_loopAv 2 k0_off4 k0_off4_eq k0_off4_inb
  (try sl_exec_parts); zero_loopAv 3 k0_off5 k0_off5_eq k0_off5_inb
  (try sl_exec_parts); zero_loopAv 4 k0_off6 k0_off6_eq k0_off6_inb
  (try sl_exec_parts); zero_loopAv 5 k0_off7 k0_off7_eq k0_off7_inb
  (try sl_exec_parts); zero_loopAv 6 k0_off8 k0_off8_eq k0_off8_inb
  (try sl_exec_parts); zero_loopAv 7 k0_off9 k0_off9_eq k0_off9_inb
  (try sl_exec_parts); zero_loopAv 8 k0_off10 k0_off10_eq k0_off10_inb
  (try sl_exec_parts); zero_loopAv 9 k0_off11 k0_off11_eq k0_off11_inb
  (try sl_exec_parts); zero_loopAv 10 k0_off12 k0_off12_eq k0_off12_inb
  (try sl_exec_parts); zero_loopAv 11 k0_off13 k0_off13_eq k0_off13_inb
  (try sl_exec_parts); zero_loopAv 12 k0_off14 k0_off14_eq k0_off14_inb
  (try sl_exec_parts); zero_loopAv 13 k0_off15 k0_off15_eq k0_off15_inb
  (try sl_exec_parts); zero_loopAv 14 k0_off16 k0_off16_eq k0_off16_inb
  (try sl_exec_parts); zero_loopAv 15 k0_off17 k0_off17_eq k0_off17_inb
  have hA0 : fz = (zeroBlk : Vec F S16x2048 .f32) := ZeroTo.all (F := F) (sA0).view fz hZA
  subst hA0
  (try sl_exec_parts); zero_loopBv 0 k0_off18 k0_off18_eq k0_off18_inb
  (try sl_exec_parts); zero_loopBv 1 k0_off19 k0_off19_eq k0_off19_inb
  (try sl_exec_parts); zero_loopBv 2 k0_off20 k0_off20_eq k0_off20_inb
  (try sl_exec_parts); zero_loopBv 3 k0_off21 k0_off21_eq k0_off21_inb
  (try sl_exec_parts); zero_loopBv 4 k0_off22 k0_off22_eq k0_off22_inb
  (try sl_exec_parts); zero_loopBv 5 k0_off23 k0_off23_eq k0_off23_inb
  (try sl_exec_parts); zero_loopBv 6 k0_off24 k0_off24_eq k0_off24_inb
  (try sl_exec_parts); zero_loopBv 7 k0_off25 k0_off25_eq k0_off25_inb
  (try sl_exec_parts); zero_loopBv 8 k0_off26 k0_off26_eq k0_off26_inb
  (try sl_exec_parts); zero_loopBv 9 k0_off27 k0_off27_eq k0_off27_inb
  (try sl_exec_parts); zero_loopBv 10 k0_off28 k0_off28_eq k0_off28_inb
  (try sl_exec_parts); zero_loopBv 11 k0_off29 k0_off29_eq k0_off29_inb
  (try sl_exec_parts); zero_loopBv 12 k0_off30 k0_off30_eq k0_off30_inb
  (try sl_exec_parts); zero_loopBv 13 k0_off31 k0_off31_eq k0_off31_inb
  (try sl_exec_parts); zero_loopBv 14 k0_off32 k0_off32_eq k0_off32_inb
  (try sl_exec_parts); zero_loopBv 15 k0_off33 k0_off33_eq k0_off33_inb
  have hB0 : fz = (zeroBlk : Vec F S16x2048 .f32) := ZeroTo.all (F := F) (sB0).view fz hZB
  subst hB0
  site_Av 0 0 0
  site_Av 0 0 1
  site_Av 0 1 0
  site_Av 0 1 1
  site_Av 0 2 0
  site_Av 0 2 1
  site_Av 0 3 0
  site_Av 0 3 1
  site_Av 0 4 0
  site_Av 0 4 1
  site_Av 0 5 0
  site_Av 0 5 1
  site_Av 0 6 0
  site_Av 0 6 1
  site_Av 0 7 0
  site_Av 0 7 1
  site_Av 0 8 0
  site_Av 0 8 1
  site_Av 0 9 0
  site_Av 0 9 1
  site_Av 0 10 0
  site_Av 0 10 1
  site_Av 0 11 0
  site_Av 0 11 1
  site_Av 0 12 0
  site_Av 0 12 1
  site_Av 0 13 0
  site_Av 0 13 1
  site_Av 0 14 0
  site_Av 0 14 1
  site_Av 0 15 0
  site_Av 0 15 1
  site_Bv 1 0 0
  site_Bv 1 0 1
  site_Bv 1 1 0
  site_Bv 1 1 1
  site_Bv 1 2 0
  site_Bv 1 2 1
  site_Bv 1 3 0
  site_Bv 1 3 1
  site_Bv 1 4 0
  site_Bv 1 4 1
  site_Bv 1 5 0
  site_Bv 1 5 1
  site_Bv 1 6 0
  site_Bv 1 6 1
  site_Bv 1 7 0
  site_Bv 1 7 1
  site_Bv 1 8 0
  site_Bv 1 8 1
  site_Bv 1 9 0
  site_Bv 1 9 1
  site_Bv 1 10 0
  site_Bv 1 10 1
  site_Bv 1 11 0
  site_Bv 1 11 1
  site_Bv 1 12 0
  site_Bv 1 12 1
  site_Bv 1 13 0
  site_Bv 1 13 1
  site_Bv 1 14 0
  site_Bv 1 14 1
  site_Bv 1 15 0
  site_Bv 1 15 1
  sl_exec_parts
  sl_step
  isplitl [Hi']; · iapply (Entails.of_eq (pts_i0 (F := F) d L _)); iexact Hi'
  isplitl [Hw']; · iapply (Entails.of_eq (pts_w0 (F := F) d L _)); iexact Hw'
  isplitl [Hoa']
  · iexists _; isplitr
    rotate_left
    · iapply (Entails.of_eq (pts_oa0 (F := F) d L _)); iexact Hoa'
    · ipureintro
      intro y
      have e1 : tile_body0v.sl.dma0_2 d L fi fw hidx = (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      have e2 : blkVal0 fi fw L hidx 0 = (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 (siteStep0 fi fw L hidx 0 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      rw [e2, ← e1]
      exact out_val_a (F := F) d L fa _ y
  isplitl [Hob']
  · iexists _; isplitr
    rotate_left
    · iapply (Entails.of_eq (pts_ob0 (F := F) d L _)); iexact Hob'
    · ipureintro
      intro y
      have e1 : tile_body0v.sl.dma0_3 d L fi fw hidx = (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      have e2 : blkVal0 fi fw L hidx 1 = (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 (siteStep0 fi fw L hidx 1 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      rw [e2, ← e1]
      exact out_val_b (F := F) d L fb _ y
  isplitl [Hs0' Hs1' Hs2' Hs3' Hbufs]
  · isplitl [Hs0']; · iexists _; iapply (Entails.of_eq (pts_sA0 (F := F) d L _)); iexact Hs0'
    isplitl [Hs1']; · iexists _; iapply (Entails.of_eq (pts_sB0 (F := F) d L _)); iexact Hs1'
    isplitl [Hs2']; · iexists _; iapply (Entails.of_eq (pts_sI0 (F := F) d L _)); iexact Hs2'
    isplitl [Hs3']; · iexists _; iapply (Entails.of_eq (pts_sW0 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile0V
end Cert.Proof.KI
end
-- ==== Proof.TileBody1V.lean ====
/-
  One vector subcore's task of the second scatter kernel (the rows of the index and weight arrays 1024 further down, the second call's result), run once at a symbolic place of the call's grid, with the
  contents of its two result blocks NAMED: the run of the frame form, carrying what each buffer holds. The two
  copied-in scratches hold the task's 32 × 32 blocks of indices and weights; each zero-filling loop extends the part
  of its accumulator that reads zero by one row (each trip by 128 columns), so that after its 16 loops an accumulator
  is the zero block; each indexed store with accumulation is one step of the block's fold over its 32 stores in
  program order; and the copy of an accumulator to its block of the result leaves that fold under the block's own
  indices.
-/
import proofs.«210207_g17016660427310_cont_sun_m_176_22_alg».proof.Proof.TileBody1
import proofs.«210207_g17016660427310_cont_sun_m_176_22_alg».proof.Proof.TileVal1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

section Tile1V

variable (d : Dev nD) (L : grid1.Coords)
variable [FloatOps F]

/-- A scratch written whole by a copy holds the copy's payload. -/
theorem pts_copyI1 (f2 : Buf (Elt F) ((V d (cV1 L) (jV1 L)).loc cc1_scratch2)) (w : Vec F S32x32 .i32) :
    ((sI1).view.loc (V d (cV1 L) (jV1 L)) ↦{fullShare} View.write (Elt F) (sI1).view f2 w Finset.univ : sProp 𝕄)
      = ((sI1).view.loc (V d (cV1 L) (jV1 L)) ↦{fullShare} w) := by
  rw [show View.write (Elt F) (sI1).view f2 w Finset.univ = w from View.write_whole_univ cc1_scratch2 f2 w]
theorem pts_copyW1 (f3 : Buf (Elt F) ((V d (cV1 L) (jV1 L)).loc cc1_scratch3)) (w : Vec F S32x32 .f32) :
    ((sW1).view.loc (V d (cV1 L) (jV1 L)) ↦{fullShare} View.write (Elt F) (sW1).view f3 w Finset.univ : sProp 𝕄)
      = ((sW1).view.loc (V d (cV1 L) (jV1 L)) ↦{fullShare} w) := by
  rw [show View.write (Elt F) (sW1).view f3 w Finset.univ = w from View.write_whole_univ cc1_scratch3 f3 w]

/-- An indexed store into the first accumulator, read as one step of the block's fold. -/
theorem pts_site_A1 (fi : Buf (Elt F) (iLoc d)) (fw : Buf (Elt F) (wLoc d))
    (hidx : ∀ x : S32x32.Idx, (fi (((iV.slice (rI1 L) (fun _ => rfl)).view).emb x)).toNat < 2048)
    (t : Fin 2) (p : Fin 16 × Fin 2) (fz : Buf (Elt F) ((V d (cV1 L) (jV1 L)).loc cc1_scratch0))
    (idxs : Fin 2 → IVec S16 32) (v : Vec F S16 .f32) (h : ∀ a x, (idxs a x).toNat < S16x2048.size a)
    (hi : idxs = ![broadcast S16 (BitVec.ofNat 32 p.1.val), ldRow (cI1 fi L) ![16 * t.val + p.1.val, 16 * p.2.val] (ldpf t p.1 p.2)])
    (hv : v = ldRow (cW1 fw L) ![16 * t.val + p.1.val, 16 * p.2.val] (ldpf t p.1 p.2)) :
    (((sA1).access (.whole S16x2048)).loc (V d (cV1 L) (jV1 L)) ↦[((sA1).access (.whole S16x2048)).set]{fullShare}
        (((sA1).access (.whole S16x2048)).write (Elt F) fz
          (storeIdx (((sA1).access (.whole S16x2048)).read (Elt F) fz) idxs v (fun _ => 1#1) true h) Finset.univ) : sProp 𝕄)
      = ((sA1).view.loc (V d (cV1 L) (jV1 L)) ↦{fullShare} siteStep1 fi fw L hidx t fz p) := by
  subst hi hv
  rw [show ((sA1 : Memref sig .scVector .vmem S16x2048 .f32).access (.whole S16x2048)).set = Finset.univ from Memref.set_access_whole (cc1_scratch0 : Ref sig .scVector)]
  have e1 : ∀ W, ((sA1).access (.whole S16x2048)).write (Elt F) fz W Finset.univ = W :=
    fun W => Memref.write_access_whole_univ (Elt F) (cc1_scratch0 : Ref sig .scVector) fz W
  have e2 : ((sA1).access (.whole S16x2048)).read (Elt F) fz = fz :=
    Memref.read_access_whole (Elt F) (cc1_scratch0 : Ref sig .scVector) fz
  rw [e1, e2]
  rfl

/-- What a copy of a whole block leaves, read through the destination's view. -/
theorem out_val1G {κ : Kind} {sp : Space} {s : Shape} (v : View sig κ sp s .f32) (fa : v.ty.Contents (Elt F))
    (P : s.Idx → Elt F .f32) (y : s.Idx) :
    v.read (Elt F) (v.writes (Elt F) fa [⟨Rect.whole s, P⟩]) y = P y := by
  have := View.read_writes_cons_emb v fa (Rect.whole s) P [] y
  rwa [Rect.emb_whole_apply] at this

/-- The same under the first result block's own indices. -/
theorem out_val1_a (fa : Buf (Elt F) (o1Loc d)) (P : (rOa1 L).shape.Idx → Elt F .f32) (y : (rOa1 L).shape.Idx) :
    (o1V.slice (rOa1 L) (fun _ => rfl)).view.writes (Elt F) fa [⟨Rect.whole (rOa1 L).shape, P⟩]
        ((o1V.slice (rOa1 L) (fun _ => rfl)).view.emb y) = P y := by
  have h := out_val1G (F := F) (o1V.slice (rOa1 L) (fun _ => rfl)).view fa P y
  rw [View.read_apply] at h
  generalize (o1V.slice (rOa1 L) (fun _ => rfl)).view.writes (Elt F) fa [⟨Rect.whole (rOa1 L).shape, P⟩]
    ((o1V.slice (rOa1 L) (fun _ => rfl)).view.emb y) = X at h ⊢
  exact (cast_eq _ X).symm.trans h

/-- The same under the second result block's own indices. -/
theorem out_val1_b (fb : Buf (Elt F) (o1Loc d)) (P : (rOb1 L).shape.Idx → Elt F .f32) (y : (rOb1 L).shape.Idx) :
    (o1V.slice (rOb1 L) (fun _ => rfl)).view.writes (Elt F) fb [⟨Rect.whole (rOb1 L).shape, P⟩]
        ((o1V.slice (rOb1 L) (fun _ => rfl)).view.emb y) = P y := by
  have h := out_val1G (F := F) (o1V.slice (rOb1 L) (fun _ => rfl)).view fb P y
  rw [View.read_apply] at h
  generalize (o1V.slice (rOb1 L) (fun _ => rfl)).view.writes (Elt F) fb [⟨Rect.whole (rOb1 L).shape, P⟩]
    ((o1V.slice (rOb1 L) (fun _ => rfl)).view.emb y) = X at h ⊢
  exact (cast_eq _ X).symm.trans h

/-- An indexed store into the second accumulator, read as one step of the block's fold. -/
theorem pts_site_B1 (fi : Buf (Elt F) (iLoc d)) (fw : Buf (Elt F) (wLoc d))
    (hidx : ∀ x : S32x32.Idx, (fi (((iV.slice (rI1 L) (fun _ => rfl)).view).emb x)).toNat < 2048)
    (t : Fin 2) (p : Fin 16 × Fin 2) (fz : Buf (Elt F) ((V d (cV1 L) (jV1 L)).loc cc1_scratch1))
    (idxs : Fin 2 → IVec S16 32) (v : Vec F S16 .f32) (h : ∀ a x, (idxs a x).toNat < S16x2048.size a)
    (hi : idxs = ![broadcast S16 (BitVec.ofNat 32 p.1.val), ldRow (cI1 fi L) ![16 * t.val + p.1.val, 16 * p.2.val] (ldpf t p.1 p.2)])
    (hv : v = ldRow (cW1 fw L) ![16 * t.val + p.1.val, 16 * p.2.val] (ldpf t p.1 p.2)) :
    (((sB1).access (.whole S16x2048)).loc (V d (cV1 L) (jV1 L)) ↦[((sB1).access (.whole S16x2048)).set]{fullShare}
        (((sB1).access (.whole S16x2048)).write (Elt F) fz
          (storeIdx (((sB1).access (.whole S16x2048)).read (Elt F) fz) idxs v (fun _ => 1#1) true h) Finset.univ) : sProp 𝕄)
      = ((sB1).view.loc (V d (cV1 L) (jV1 L)) ↦{fullShare} siteStep1 fi fw L hidx t fz p) := by
  subst hi hv
  rw [show ((sB1 : Memref sig .scVector .vmem S16x2048 .f32).access (.whole S16x2048)).set = Finset.univ from Memref.set_access_whole (cc1_scratch1 : Ref sig .scVector)]
  have e1 : ∀ W, ((sB1).access (.whole S16x2048)).write (Elt F) fz W Finset.univ = W :=
    fun W => Memref.write_access_whole_univ (Elt F) (cc1_scratch1 : Ref sig .scVector) fz W
  have e2 : ((sB1).access (.whole S16x2048)).read (Elt F) fz = fz :=
    Memref.read_access_whole (Elt F) (cc1_scratch1 : Ref sig .scVector) fz
  rw [e1, e2]
  rfl

/-- The same as an entailment whose two equations are supplied after the store's own terms are known. -/
theorem site_A_wand1 (fi : Buf (Elt F) (iLoc d)) (fw : Buf (Elt F) (wLoc d))
    (hidx : ∀ x : S32x32.Idx, (fi (((iV.slice (rI1 L) (fun _ => rfl)).view).emb x)).toNat < 2048)
    (t : Fin 2) (p : Fin 16 × Fin 2) (fz : Buf (Elt F) ((V d (cV1 L) (jV1 L)).loc cc1_scratch0))
    (idxs : Fin 2 → IVec S16 32) (v : Vec F S16 .f32) (h : ∀ a x, (idxs a x).toNat < S16x2048.size a) :
    (((sA1).access (.whole S16x2048)).loc (V d (cV1 L) (jV1 L)) ↦[((sA1).access (.whole S16x2048)).set]{fullShare}
        (((sA1).access (.whole S16x2048)).write (Elt F) fz
          (storeIdx (((sA1).access (.whole S16x2048)).read (Elt F) fz) idxs v (fun _ => 1#1) true h) Finset.univ) : sProp 𝕄)
      ⊢ iprop(⌜idxs = ![broadcast S16 (BitVec.ofNat 32 p.1.val), ldRow (cI1 fi L) ![16 * t.val + p.1.val, 16 * p.2.val] (ldpf t p.1 p.2)]
            ∧ v = ldRow (cW1 fw L) ![16 * t.val + p.1.val, 16 * p.2.val] (ldpf t p.1 p.2)⌝
          -∗ (sA1).view.loc (V d (cV1 L) (jV1 L)) ↦{fullShare} siteStep1 fi fw L hidx t fz p) := by
  iintro H %e
  obtain ⟨hi, hv⟩ := e
  iapply (Entails.of_eq (pts_site_A1 (F := F) d L fi fw hidx t p fz idxs v h hi hv))
  iexact H

/-- The same as an entailment whose two equations are supplied after the store's own terms are known. -/
theorem site_B_wand1 (fi : Buf (Elt F) (iLoc d)) (fw : Buf (Elt F) (wLoc d))
    (hidx : ∀ x : S32x32.Idx, (fi (((iV.slice (rI1 L) (fun _ => rfl)).view).emb x)).toNat < 2048)
    (t : Fin 2) (p : Fin 16 × Fin 2) (fz : Buf (Elt F) ((V d (cV1 L) (jV1 L)).loc cc1_scratch1))
    (idxs : Fin 2 → IVec S16 32) (v : Vec F S16 .f32) (h : ∀ a x, (idxs a x).toNat < S16x2048.size a) :
    (((sB1).access (.whole S16x2048)).loc (V d (cV1 L) (jV1 L)) ↦[((sB1).access (.whole S16x2048)).set]{fullShare}
        (((sB1).access (.whole S16x2048)).write (Elt F) fz
          (storeIdx (((sB1).access (.whole S16x2048)).read (Elt F) fz) idxs v (fun _ => 1#1) true h) Finset.univ) : sProp 𝕄)
      ⊢ iprop(⌜idxs = ![broadcast S16 (BitVec.ofNat 32 p.1.val), ldRow (cI1 fi L) ![16 * t.val + p.1.val, 16 * p.2.val] (ldpf t p.1 p.2)]
            ∧ v = ldRow (cW1 fw L) ![16 * t.val + p.1.val, 16 * p.2.val] (ldpf t p.1 p.2)⌝
          -∗ (sB1).view.loc (V d (cV1 L) (jV1 L)) ↦{fullShare} siteStep1 fi fw L hidx t fz p) := by
  iintro H %e
  obtain ⟨hi, hv⟩ := e
  iapply (Entails.of_eq (pts_site_B1 (F := F) d L fi fw hidx t p fz idxs v h hi hv))
  iexact H

/-- A zero-filling loop's invariant with contents: the accumulator whole, its rows below `r` and the columns below
    `128 k` of row `r` reading zero. -/
def invZ1v (m : Memref sig .scVector .vmem S16x2048 .f32) (r : Nat) (k : Nat) (_ : PUnit) : sProp 𝕄 :=
  iprop(∃ f, ⌜ZeroTo (F := F) m.view f r (128 * k)⌝ ∗ m.view.loc (V d (cV1 L) (jV1 L)) ↦{fullShare} f)

set_option hygiene false in
macro "zero_loopA1v " r:num off:ident oeq:ident oinb:ident : tactic => `(tactic| (
  sl_for (invZ1v (F := F) d L sA1 $r) $$ [Hs0']
  case region =>
    intro k _
    unfold invZ1v
    iintro ⟨%f, %hf, H⟩
    sl_exec
    sl_step
    iexists _; isplitr
    rotate_left
    · iexact H
    · ipureintro
      exact zero_trip (sA1).view f $r k.val (fun u => $off k (BitVec.ofNat 32 (16 * u.val))) (fun u => $oeq k u) (fun u => $oinb k u) _ (fun _ => rfl) hf
  · unfold invZ1v; iexists _; isplitr
    rotate_left
    · iexact Hs0'
    · ipureintro; exact hZA
  iintro %_ HI
  unfold invZ1v
  icases HI with ⟨%fz, %hZA', Hs0'⟩
  have hZA := ZeroTo.next_row' (F := F) (sA1).view fz $r _ (by rfl) hZA'
  clear hZA'))

set_option hygiene false in
macro "zero_loopB1v " r:num off:ident oeq:ident oinb:ident : tactic => `(tactic| (
  sl_for (invZ1v (F := F) d L sB1 $r) $$ [Hs1']
  case region =>
    intro k _
    unfold invZ1v
    iintro ⟨%f, %hf, H⟩
    sl_exec
    sl_step
    iexists _; isplitr
    rotate_left
    · iexact H
    · ipureintro
      exact zero_trip (sB1).view f $r k.val (fun u => $off k (BitVec.ofNat 32 (16 * u.val))) (fun u => $oeq k u) (fun u => $oinb k u) _ (fun _ => rfl) hf
  · unfold invZ1v; iexists _; isplitr
    rotate_left
    · iexact Hs1'
    · ipureintro; exact hZB
  iintro %_ HI
  unfold invZ1v
  icases HI with ⟨%fz, %hZB', Hs1'⟩
  have hZB := ZeroTo.next_row' (F := F) (sB1).view fz $r _ (by rfl) hZB'
  clear hZB'))

set_option hygiene false in
macro "site_Av1 " t:num ol:num hh:num : tactic => `(tactic| (
  sl_exec_parts (disch := exact chk_ok1 _ (by decide) _ (fun x => hgI _ _))
  ihave Hc := (Entails.of_eq (pts_sA1_whole (F := F) d L _).symm) $$ Hs0'
  iapply (SparseCore.wp_vectorStoreIdx 𝒱₀ (V d (cV1 L) (jV1 L)) none Set.univ (base := sA1)) $$ Hc
  iintro Hc
  ihave Hw := (site_A_wand1 (F := F) d L fi fw hidx $t ($ol, $hh) _ _ _ _) $$ Hc
  ihave Hs0' := Hw $$ %(And.intro rfl rfl)))

set_option hygiene false in
macro "site_Bv1 " t:num ol:num hh:num : tactic => `(tactic| (
  sl_exec_parts (disch := exact chk_ok1 _ (by decide) _ (fun x => hgI _ _))
  ihave Hc := (Entails.of_eq (pts_sB1_whole (F := F) d L _).symm) $$ Hs1'
  iapply (SparseCore.wp_vectorStoreIdx 𝒱₀ (V d (cV1 L) (jV1 L)) none Set.univ (base := sB1)) $$ Hc
  iintro Hc
  ihave Hw := (site_B_wand1 (F := F) d L fi fw hidx $t ($ol, $hh) _ _ _ _) $$ Hc
  ihave Hs1' := Hw $$ %(And.intro rfl rfl)))

set_option maxHeartbeats 1000000000 in
/-- The task's run with the result blocks' contents named: every resource comes back, the argument rows unchanged,
    and each 16-row block of the result holds, under its own indices, the fold of its 32 stores over the zero block. -/
theorem tile_body1v (hF : (K (F := F)).Facts) (O : CellTallies nD τ sig (HIx 2)) (W : Waits sig (HIx 2)) (hO : ∀ g, O g none = 0)
    (fi : Buf (Elt F) (iLoc d)) (fw : Buf (Elt F) (wLoc d))
    (hidx : ∀ x : S32x32.Idx, (fi (((iV.slice (rI1 L) (fun _ => rfl)).view).emb x)).toNat < 2048) :
    (iprop(levAts (K (F := F)).L (K (F := F)).lev
        ∗ (iLoc d ↦[rowsI1 L]{fullShare} fi) ∗ (wLoc d ↦[rowsI1 L]{fullShare} fw)
        ∗ (∃ fa, o1Loc d ↦[rowsOa1 L]{fullShare} fa) ∗ (∃ fb, o1Loc d ↦[rowsOb1 L]{fullShare} fb)
        ∗ scopedBufs (V d (cV1 L) (jV1 L)) ∗ scopedSems0 (V d (cV1 L) (jV1 L)) ∗ owes (V d (cV1 L) (jV1 L)) O W) : sProp 𝕄)
      ⊢ wp frame (wpE (defs₀ (F := F)) 𝒱₀ (V d (cV1 L) (jV1 L)) none) Set.univ
          (cc1_body L iV (Memref.isWhole_whole _) wV (Memref.isWhole_whole _) o1V (Memref.isWhole_whole _)
            sA1 (Memref.isWhole_whole _) sB1 (Memref.isWhole_whole _) sI1 (Memref.isWhole_whole _) sW1 (Memref.isWhole_whole _)
            cc1_scratch4 cc1_scratch5 cc1_scoped0 cc1_scoped1)
          fun _ => iprop((iLoc d ↦[rowsI1 L]{fullShare} fi) ∗ (wLoc d ↦[rowsI1 L]{fullShare} fw)
            ∗ (∃ fa, ⌜∀ y : S16x2048.Idx, fa (((o1V.slice (rOa1 L) (fun _ => rfl)).view).emb y) = blkVal1 fi fw L hidx 0 y⌝
                ∗ o1Loc d ↦[rowsOa1 L]{fullShare} fa)
            ∗ (∃ fb, ⌜∀ y : S16x2048.Idx, fb (((o1V.slice (rOb1 L) (fun _ => rfl)).view).emb y) = blkVal1 fi fw L hidx 1 y⌝
                ∗ o1Loc d ↦[rowsOb1 L]{fullShare} fb)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [cc1_body_eq_skeleton]; unfold cc1_body_skel
  rw [(K (F := F)).scopedBufs_V hF d (cV1 L) (jV1 L), SparseCore.Cfg.scopedSems0_V (Val := Elt F) d (cV1 L) (jV1 L), ownSems0_V1, ownBufs_V1]
  iintro ⟨#Hlv, Hi, Hw, ⟨%fa, Hoa⟩, ⟨%fb, Hob⟩, ⟨⟨%f0, Hs0⟩, ⟨%f1, Hs1⟩, ⟨%f2, Hs2⟩, ⟨%f3, Hs3⟩, Hbufs⟩, ⟨Hm4, Hm5, Hm2, Hm3, Hsems⟩, HO⟩
  ihave Hmw := ((K (F := F)).mayWaits_none (thr := V d (cV1 L) (jV1 L)) hO) $$ Hlv
  ihave Hi' := (Entails.of_eq (pts_i1 (F := F) d L _).symm) $$ Hi
  ihave Hw' := (Entails.of_eq (pts_w1 (F := F) d L _).symm) $$ Hw
  ihave Hoa' := (Entails.of_eq (pts_oa1 (F := F) d L _).symm) $$ Hoa
  ihave Hob' := (Entails.of_eq (pts_ob1 (F := F) d L _).symm) $$ Hob
  ihave Hs0' := (Entails.of_eq (pts_sA1 (F := F) d L _).symm) $$ Hs0
  ihave Hs1' := (Entails.of_eq (pts_sB1 (F := F) d L _).symm) $$ Hs1
  ihave Hs2' := (Entails.of_eq (pts_sI1 (F := F) d L _).symm) $$ Hs2
  ihave Hs3' := (Entails.of_eq (pts_sW1 (F := F) d L _).symm) $$ Hs3
  sl_exec_parts
  ihave Hs2' := (Entails.of_eq (pts_copyI1 (F := F) d L f2 _)) $$ Hs2'
  ihave Hs2' := (Entails.of_eq (show ((sI1).view.loc (V d (cV1 L) (jV1 L)) ↦{fullShare} tile_body1v.sl.dma0 d L fi : sProp 𝕄)
      = ((sI1).view.loc (V d (cV1 L) (jV1 L)) ↦{fullShare} cI1 fi L) from rfl)) $$ Hs2'
  ihave Hs3' := (Entails.of_eq (pts_copyW1 (F := F) d L f3 _)) $$ Hs3'
  ihave Hs3' := (Entails.of_eq (show ((sW1).view.loc (V d (cV1 L) (jV1 L)) ↦{fullShare} tile_body1v.sl.dma0_1 d L fw : sProp 𝕄)
      = ((sW1).view.loc (V d (cV1 L) (jV1 L)) ↦{fullShare} cW1 fw L) from rfl)) $$ Hs3'
  have hgI : ∀ (R : LoadRect S32x32) (x : R.shape.Idx), ((View.readAt (Elt F) sI1.view R (cI1 fi L)) x).toNat < 2048 :=
    fun R x => hidx _
  have hZA := ZeroTo.init (F := F) (sA1).view f0
  have hZB := ZeroTo.init (F := F) (sB1).view f1
  (try sl_exec_parts); zero_loopA1v 0 k1_off2 k1_off2_eq k1_off2_inb
  (try sl_exec_parts); zero_loopA1v 1 k1_off3 k1_off3_eq k1_off3_inb
  (try sl_exec_parts); zero_loopA1v 2 k1_off4 k1_off4_eq k1_off4_inb
  (try sl_exec_parts); zero_loopA1v 3 k1_off5 k1_off5_eq k1_off5_inb
  (try sl_exec_parts); zero_loopA1v 4 k1_off6 k1_off6_eq k1_off6_inb
  (try sl_exec_parts); zero_loopA1v 5 k1_off7 k1_off7_eq k1_off7_inb
  (try sl_exec_parts); zero_loopA1v 6 k1_off8 k1_off8_eq k1_off8_inb
  (try sl_exec_parts); zero_loopA1v 7 k1_off9 k1_off9_eq k1_off9_inb
  (try sl_exec_parts); zero_loopA1v 8 k1_off10 k1_off10_eq k1_off10_inb
  (try sl_exec_parts); zero_loopA1v 9 k1_off11 k1_off11_eq k1_off11_inb
  (try sl_exec_parts); zero_loopA1v 10 k1_off12 k1_off12_eq k1_off12_inb
  (try sl_exec_parts); zero_loopA1v 11 k1_off13 k1_off13_eq k1_off13_inb
  (try sl_exec_parts); zero_loopA1v 12 k1_off14 k1_off14_eq k1_off14_inb
  (try sl_exec_parts); zero_loopA1v 13 k1_off15 k1_off15_eq k1_off15_inb
  (try sl_exec_parts); zero_loopA1v 14 k1_off16 k1_off16_eq k1_off16_inb
  (try sl_exec_parts); zero_loopA1v 15 k1_off17 k1_off17_eq k1_off17_inb
  have hA0 : fz = (zeroBlk : Vec F S16x2048 .f32) := ZeroTo.all (F := F) (sA1).view fz hZA
  subst hA0
  (try sl_exec_parts); zero_loopB1v 0 k1_off18 k1_off18_eq k1_off18_inb
  (try sl_exec_parts); zero_loopB1v 1 k1_off19 k1_off19_eq k1_off19_inb
  (try sl_exec_parts); zero_loopB1v 2 k1_off20 k1_off20_eq k1_off20_inb
  (try sl_exec_parts); zero_loopB1v 3 k1_off21 k1_off21_eq k1_off21_inb
  (try sl_exec_parts); zero_loopB1v 4 k1_off22 k1_off22_eq k1_off22_inb
  (try sl_exec_parts); zero_loopB1v 5 k1_off23 k1_off23_eq k1_off23_inb
  (try sl_exec_parts); zero_loopB1v 6 k1_off24 k1_off24_eq k1_off24_inb
  (try sl_exec_parts); zero_loopB1v 7 k1_off25 k1_off25_eq k1_off25_inb
  (try sl_exec_parts); zero_loopB1v 8 k1_off26 k1_off26_eq k1_off26_inb
  (try sl_exec_parts); zero_loopB1v 9 k1_off27 k1_off27_eq k1_off27_inb
  (try sl_exec_parts); zero_loopB1v 10 k1_off28 k1_off28_eq k1_off28_inb
  (try sl_exec_parts); zero_loopB1v 11 k1_off29 k1_off29_eq k1_off29_inb
  (try sl_exec_parts); zero_loopB1v 12 k1_off30 k1_off30_eq k1_off30_inb
  (try sl_exec_parts); zero_loopB1v 13 k1_off31 k1_off31_eq k1_off31_inb
  (try sl_exec_parts); zero_loopB1v 14 k1_off32 k1_off32_eq k1_off32_inb
  (try sl_exec_parts); zero_loopB1v 15 k1_off33 k1_off33_eq k1_off33_inb
  have hB0 : fz = (zeroBlk : Vec F S16x2048 .f32) := ZeroTo.all (F := F) (sB1).view fz hZB
  subst hB0
  site_Av1 0 0 0
  site_Av1 0 0 1
  site_Av1 0 1 0
  site_Av1 0 1 1
  site_Av1 0 2 0
  site_Av1 0 2 1
  site_Av1 0 3 0
  site_Av1 0 3 1
  site_Av1 0 4 0
  site_Av1 0 4 1
  site_Av1 0 5 0
  site_Av1 0 5 1
  site_Av1 0 6 0
  site_Av1 0 6 1
  site_Av1 0 7 0
  site_Av1 0 7 1
  site_Av1 0 8 0
  site_Av1 0 8 1
  site_Av1 0 9 0
  site_Av1 0 9 1
  site_Av1 0 10 0
  site_Av1 0 10 1
  site_Av1 0 11 0
  site_Av1 0 11 1
  site_Av1 0 12 0
  site_Av1 0 12 1
  site_Av1 0 13 0
  site_Av1 0 13 1
  site_Av1 0 14 0
  site_Av1 0 14 1
  site_Av1 0 15 0
  site_Av1 0 15 1
  site_Bv1 1 0 0
  site_Bv1 1 0 1
  site_Bv1 1 1 0
  site_Bv1 1 1 1
  site_Bv1 1 2 0
  site_Bv1 1 2 1
  site_Bv1 1 3 0
  site_Bv1 1 3 1
  site_Bv1 1 4 0
  site_Bv1 1 4 1
  site_Bv1 1 5 0
  site_Bv1 1 5 1
  site_Bv1 1 6 0
  site_Bv1 1 6 1
  site_Bv1 1 7 0
  site_Bv1 1 7 1
  site_Bv1 1 8 0
  site_Bv1 1 8 1
  site_Bv1 1 9 0
  site_Bv1 1 9 1
  site_Bv1 1 10 0
  site_Bv1 1 10 1
  site_Bv1 1 11 0
  site_Bv1 1 11 1
  site_Bv1 1 12 0
  site_Bv1 1 12 1
  site_Bv1 1 13 0
  site_Bv1 1 13 1
  site_Bv1 1 14 0
  site_Bv1 1 14 1
  site_Bv1 1 15 0
  site_Bv1 1 15 1
  sl_exec_parts
  sl_step
  isplitl [Hi']; · iapply (Entails.of_eq (pts_i1 (F := F) d L _)); iexact Hi'
  isplitl [Hw']; · iapply (Entails.of_eq (pts_w1 (F := F) d L _)); iexact Hw'
  isplitl [Hoa']
  · iexists _; isplitr
    rotate_left
    · iapply (Entails.of_eq (pts_oa1 (F := F) d L _)); iexact Hoa'
    · ipureintro
      intro y
      have e1 : tile_body1v.sl.dma0_2 d L fi fw hidx = (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      have e2 : blkVal1 fi fw L hidx 0 = (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 (siteStep1 fi fw L hidx 0 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      rw [e2, ← e1]
      exact out_val1_a (F := F) d L fa _ y
  isplitl [Hob']
  · iexists _; isplitr
    rotate_left
    · iapply (Entails.of_eq (pts_ob1 (F := F) d L _)); iexact Hob'
    · ipureintro
      intro y
      have e1 : tile_body1v.sl.dma0_3 d L fi fw hidx = (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      have e2 : blkVal1 fi fw L hidx 1 = (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 (siteStep1 fi fw L hidx 1 zeroBlk (0, 0)) (0, 1)) (1, 0)) (1, 1)) (2, 0)) (2, 1)) (3, 0)) (3, 1)) (4, 0)) (4, 1)) (5, 0)) (5, 1)) (6, 0)) (6, 1)) (7, 0)) (7, 1)) (8, 0)) (8, 1)) (9, 0)) (9, 1)) (10, 0)) (10, 1)) (11, 0)) (11, 1)) (12, 0)) (12, 1)) (13, 0)) (13, 1)) (14, 0)) (14, 1)) (15, 0)) (15, 1)) := rfl
      rw [e2, ← e1]
      exact out_val1_b (F := F) d L fb _ y
  isplitl [Hs0' Hs1' Hs2' Hs3' Hbufs]
  · isplitl [Hs0']; · iexists _; iapply (Entails.of_eq (pts_sA1 (F := F) d L _)); iexact Hs0'
    isplitl [Hs1']; · iexists _; iapply (Entails.of_eq (pts_sB1 (F := F) d L _)); iexact Hs1'
    isplitl [Hs2']; · iexists _; iapply (Entails.of_eq (pts_sI1 (F := F) d L _)); iexact Hs2'
    isplitl [Hs3']; · iexists _; iapply (Entails.of_eq (pts_sW1 (F := F) d L _)); iexact Hs3'
    iexact Hbufs
  isplitl [Hm4 Hm5 Hm2 Hm3 Hsems]
  · isplitl [Hm4]; · iexact Hm4
    isplitl [Hm5]; · iexact Hm5
    isplitl [Hm2]; · iexact Hm2
    isplitl [Hm3]; · iexact Hm3
    iexact Hsems
  iexists _; isplitr
  rotate_left
  · iexact HO
  · ipureintro; intro p hp
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    rcases Finset.mem_insert.mp hp with hp | hp
    · subst hp; exact .inr rfl
    exact .inl hp

end Tile1V
end Cert.Proof.KI
end
-- ==== Proof.lean ====
/-
  The kernel computes out[r, o] = (Σ_d x[r, d] · W[o, d]) + b[o], where the dense matrix W is built on the
  SparseCore: W[o, d] = Σ_{f : idx[o, f] = d} w[o, f] — a block of zeros, then one indexed store with
  accumulation per half-row of 16 (index, weight) pairs, equal columns accumulated lane by lane. Its lower and
  upper 1024 rows are built by two calls of 32 tiles each (tile (c, s) owning rows 64 s + 32 c … + 31, in two
  blocks of 16 rows), and the products by two pipelined matrix-product regions on the TensorCore, the second
  writing columns 1024 … 2047 into a copy of the first's result. The reference computes
  (Σ_f w[o, f] · x[r, idx[o, f]]) + b[o] (a gather, a product, a sum over the 32 pairs, the bias).

  Over the extended reals the two agree by distributivity and an exchange of two finite sums,
  Σ_d x[r, d] · Σ_{f : idx[o, f] = d} w[o, f] = Σ_f w[o, f] · x[r, idx[o, f]], which hold because the
  precondition makes every entry of x and w a real number; the range 0 … 2047 of the index words makes every
  indexed access of the kernel name a column (and the reference's wrap and mask of out-of-range indices inert).

  The three frames: each kernel program (at word level and idealized) is a family of 35 threads — the
  TensorCore's @main, two sequencers, 32 tiles — whose run is the SparseCore launch of the two calls (each tile
  proved once at a symbolic place: two copies in, 32 zero-filling loops, 64 indexed stores, two copies out on
  two semaphores, both awaited before anything touches their buffers again) followed, on the TensorCore, by the
  host operations and the two regions run as four segments; the reference's run is read back operation by
  operation. The idealization rewrote nothing, so the preservation conjunct is trivial. The algebraic conjunct:
  the same launch with every tile's two result blocks handed back as pieces of the dense matrix (the fold of a
  block's 32 stores over zeros IS that block of W), the regions' result read at an index as a matrix product
  plus bias, and the law above.
-/
import proofs.«210207_g17016660427310_cont_sun_m_176_22_alg».proof.Defs
import proofs.«210207_g17016660427310_cont_sun_m_176_22_alg».proof.Proof.Gen.Kernel
import proofs.«210207_g17016660427310_cont_sun_m_176_22_alg».proof.Proof.Gen.KernelIdeal
import proofs.«210207_g17016660427310_cont_sun_m_176_22_alg».proof.Proof.Gen.ReferenceIdeal
import proofs.«210207_g17016660427310_cont_sun_m_176_22_alg».proof.Proof.Gen.Pre_input_domain
import proofs.«210207_g17016660427310_cont_sun_m_176_22_alg».proof.Proof.Claims
import proofs.«210207_g17016660427310_cont_sun_m_176_22_alg».proof.Proof.Alg
import proofs.«210207_g17016660427310_cont_sun_m_176_22_alg».proof.Proof.TileV
import proofs.«210207_g17016660427310_cont_sun_m_176_22_alg».proof.Proof.BlkDense
import proofs.«210207_g17016660427310_cont_sun_m_176_22_alg».proof.Proof.BlkDense1
import proofs.«210207_g17016660427310_cont_sun_m_176_22_alg».proof.Proof.TileBody0V
import proofs.«210207_g17016660427310_cont_sun_m_176_22_alg».proof.Proof.TileBody1V
import Idealize.ShloMosaic.Adequacy
import Idealize.ShloMosaic.Init

noncomputable section

namespace Cert.Proof

open Idealize.ShloMosaic Idealize.SL.Sem
open Cert.Proof.KI

/-- A tile's task of the first call hands its two result blocks back as pieces of the dense matrix's lower half. -/
theorem tiles0 (m : (ℓ : Loc Cert.KernelIdeal.nD Cert.KernelIdeal.τ Cert.KernelIdeal.sig) → Buf (Elt Ideal) ℓ) (h : PreOK m) :
    Cert.Proof.KV.TileBody0V m (dv0 m) :=
  tileBody0V_of m (dv0 m) (fun d L O W hO fi fw hidx => tile_body0v d L facts O W hO fi fw hidx) h
    (fun d L hidx y => (blkVal0_emb_a (m (iLoc d)) (m (wLoc d)) L hidx y).trans rfl)
    (fun d L hidx y => (blkVal0_emb_b (m (iLoc d)) (m (wLoc d)) L hidx y).trans rfl)

/-- and of the second call, of its upper half. -/
theorem tiles1 (m : (ℓ : Loc Cert.KernelIdeal.nD Cert.KernelIdeal.τ Cert.KernelIdeal.sig) → Buf (Elt Ideal) ℓ) (h : PreOK m) :
    Cert.Proof.KV.TileBody1V m (dv1 m) :=
  tileBody1V_of m (dv1 m) (fun d L O W hO fi fw hidx => tile_body1v d L facts O W hO fi fw hidx) h
    (fun d L hidx y => (blkVal1_emb_a (m (iLoc d)) (m (wLoc d)) L hidx y).trans rfl)
    (fun d L hidx y => (blkVal1_emb_b (m (iLoc d)) (m (wLoc d)) L hidx y).trans rfl)

theorem claim : Cert.Claim :=
  ⟨Cert.Kernel.Gen.facts, Cert.KernelIdeal.Gen.facts, Cert.ReferenceIdeal.Gen.facts, Cert.Pre_input_domain.Gen.facts,
    Cert.Proof.Claims.frame_p, Cert.Proof.Claims.frame_pi, Cert.Proof.Claims.frame_ri, trivial,
    algebraic_of tiles0 tiles1⟩

end Cert.Proof

end
